-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v181)) (v1 : (c : Dev Cert.KernelIdeal.nD) → Buf (Elt Ideal) ((c.tc : Thread Cert.KernelIdeal.nD Cert.KernelIdeal.τ).loc Cert.KernelIdeal.main_v183)) (v2 : (c : Dev Cert.KernelIdeal.nD) → Buf (Elt Ideal) ((c.tc : Thread Cert.KernelIdeal.nD Cert.KernelIdeal.τ).loc Cert.KernelIdeal.main_v185)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v181) = v0 c
          ∧ r.2.mem ((c.tc : Thread Cert.KernelIdeal.nD Cert.KernelIdeal.τ).loc Cert.KernelIdeal.main_v183) = v1 c
          ∧ r.2.mem ((c.tc : Thread Cert.KernelIdeal.nD Cert.KernelIdeal.τ).loc Cert.KernelIdeal.main_v185) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v324) = v0 c
          ∧ r.2.mem ((c.tc : Thread Cert.ReferenceIdeal.nD Cert.ReferenceIdeal.τ).loc Cert.ReferenceIdeal.main_v367) = v1 c
          ∧ r.2.mem ((c.tc : Thread Cert.ReferenceIdeal.nD Cert.ReferenceIdeal.τ).loc Cert.ReferenceIdeal.main_v410) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S3x64x64 : Shape := ⟨3, ![3, 64, 64]⟩
abbrev S3x64 : Shape := ⟨2, ![3, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part1 {F : FTy → Type} [FloatOps F] (main_arg7 : FVec F S3x64 .f32) (main_arg8 : FVec F S3x64x64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg7
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg8
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  main_v28

def fn {F : FTy → Type} [FloatOps F] (main_arg0 : FVec F S100000x64 .f32) (main_arg1 : FVec F S100000x64 .f32) (main_arg2 : FVec F S100000x64 .f32) (main_arg3 : IVec S2x800000 32) (main_arg4 : IVec S2x800000 32) (main_arg5 : IVec S2x800000 32) (main_arg6 : FVec F S3x64x64 .f32) (main_arg7 : FVec F S3x64 .f32) (main_arg8 : FVec F S3x64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S3x64x64 .f32 := Host.absf main_arg6
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg7 main_arg8 main_v13 main_v16
-- ==== Kernel.lean ====
abbrev S100000x64 : Shape := ⟨2, ![100000, 64]⟩
abbrev S2x800000 : Shape := ⟨2, ![2, 800000]⟩
abbrev S3x64x64 : Shape := ⟨3, ![3, 64, 64]⟩
abbrev S3x64 : Shape := ⟨2, ![3, 64]⟩
abbrev S1x100000x64 : Shape := ⟨3, ![1, 100000, 64]⟩
abbrev S3x100000x64 : Shape := ⟨3, ![3, 100000, 64]⟩
abbrev S1x10000x64 : Shape := ⟨3, ![1, 10000, 64]⟩
abbrev S10000x64 : Shape := ⟨2, ![10000, 64]⟩
abbrev S10000 : Shape := ⟨1, ![10000]⟩
abbrev S10000x1 : Shape := ⟨2, ![10000, 1]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S800000x64 : Shape := ⟨2, ![800000, 64]⟩
abbrev S3x1x64 : Shape := ⟨3, ![3, 1, 64]⟩
abbrev S1x64x64 : Shape := ⟨3, ![1, 64, 64]⟩
abbrev S1x1x64 : Shape := ⟨3, ![1, 1, 64]⟩
abbrev S64x64 : Shape := ⟨2, ![64, 64]⟩
abbrev S1x64 : Shape := ⟨2, ![1, 64]⟩

abbrev nBuf : Space → Nat
  | .hbm => 229
  | .vmem => 40
  | .smem => 0
  | _ => 0

abbrev hbmTy0_0 (i : Nat) : BufTy := match i % 128 with
  | 0 => ⟨S100000x64, .f32⟩
  | 1 => ⟨S100000x64, .f32⟩
  | 2 => ⟨S100000x64, .f32⟩
  | 3 => ⟨S2x800000, .i32⟩
  | 4 => ⟨S2x800000, .i32⟩
  | 5 => ⟨S2x800000, .i32⟩
  | 6 => ⟨S3x64x64, .f32⟩
  | 7 => ⟨S3x64, .f32⟩
  | 8 => ⟨S3x64x64, .f32⟩
  | 9 => ⟨S1x100000x64, .f32⟩
  | 10 => ⟨S1x100000x64, .f32⟩
  | 11 => ⟨S1x100000x64, .f32⟩
  | 12 => ⟨S3x100000x64, .f32⟩
  | 13 => ⟨S3x100000x64, .f32⟩
  | 14 => ⟨S1x800000, .i32⟩
  | 15 => ⟨S800000, .i32⟩
  | 16 => ⟨S1x800000, .i32⟩
  | 17 => ⟨S800000, .i32⟩
  | 18 => ⟨S1x800000, .i32⟩
  | 19 => ⟨S800000, .i32⟩
  | 20 => ⟨S1x800000, .i32⟩
  | 21 => ⟨S800000, .i32⟩
  | 22 => ⟨S1x800000, .i32⟩
  | 23 => ⟨S800000, .i32⟩
  | 24 => ⟨S1x800000, .i32⟩
  | 25 => ⟨S800000, .i32⟩
  | 26 => ⟨S_, .f32⟩
  | 27 => ⟨S800000, .f32⟩
  | 28 => ⟨S_, .f32⟩
  | 29 => ⟨S100000, .f32⟩
  | 30 => ⟨S800000x1, .i32⟩
  | 31 => ⟨S100000, .f32⟩
  | 32 => ⟨S_, .f32⟩
  | 33 => ⟨S100000, .f32⟩
  | 34 => ⟨S100000, .f32⟩
  | 35 => ⟨S100000x1, .f32⟩
  | 36 => ⟨S_, .f32⟩
  | 37 => ⟨S100000, .f32⟩
  | 38 => ⟨S800000x1, .i32⟩
  | 39 => ⟨S100000, .f32⟩
  | 40 => ⟨S_, .f32⟩
  | 41 => ⟨S100000, .f32⟩
  | 42 => ⟨S100000, .f32⟩
  | 43 => ⟨S100000x1, .f32⟩
  | 44 => ⟨S_, .f32⟩
  | 45 => ⟨S100000, .f32⟩
  | 46 => ⟨S800000x1, .i32⟩
  | 47 => ⟨S100000, .f32⟩
  | 48 => ⟨S_, .f32⟩
  | 49 => ⟨S100000, .f32⟩
  | 50 => ⟨S100000, .f32⟩
  | 51 => ⟨S100000x1, .f32⟩
  | 52 => ⟨S1x100000x64, .f32⟩
  | 53 => ⟨S100000x64, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x64, .f32⟩
  | 63 => ⟨S_, .f32⟩
  | 64 => ⟨S100000x64, .f32⟩
  | 65 => ⟨S800000x1, .i32⟩
  | 66 => ⟨S100000x64, .f32⟩
  | 67 => ⟨S100000x64, .f32⟩
  | 68 => ⟨S100000x64, .f32⟩
  | 69 => ⟨S1x100000x64, .f32⟩
  | 70 => ⟨S100000x64, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x64, .f32⟩
  | 80 => ⟨S_, .f32⟩
  | 81 => ⟨S100000x64, .f32⟩
  | 82 => ⟨S800000x1, .i32⟩
  | 83 => ⟨S100000x64, .f32⟩
  | 84 => ⟨S100000x64, .f32⟩
  | 85 => ⟨S100000x64, .f32⟩
  | 86 => ⟨S1x100000x64, .f32⟩
  | 87 => ⟨S100000x64, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x64, .f32⟩
  | 97 => ⟨S_, .f32⟩
  | 98 => ⟨S100000x64, .f32⟩
  | 99 => ⟨S800000x1, .i32⟩
  | 100 => ⟨S100000x64, .f32⟩
  | 101 => ⟨S100000x64, .f32⟩
  | 102 => ⟨S100000x64, .f32⟩
  | 103 => ⟨S1x100000x64, .f32⟩
  | 104 => ⟨S1x100000x64, .f32⟩
  | 105 => ⟨S1x100000x64, .f32⟩
  | 106 => ⟨S3x100000x64, .f32⟩
  | 107 => ⟨S3x1x64, .f32⟩
  | 108 => ⟨S3x100000x64, .f32⟩
  | 109 => ⟨S1x100000x64, .f32⟩
  | 110 => ⟨S100000x64, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x64, .f32⟩
  | 120 => ⟨S_, .f32⟩
  | 121 => ⟨S100000x64, .f32⟩
  | 122 => ⟨S800000x1, .i32⟩
  | 123 => ⟨S100000x64, .f32⟩
  | 124 => ⟨S100000x64, .f32⟩
  | 125 => ⟨S100000x64, .f32⟩
  | 126 => ⟨S1x100000x64, .f32⟩
  | 127 => ⟨S100000x64, .f32⟩
  | _ => ⟨S100000x64, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x64, .f32⟩
  | 9 => ⟨S_, .f32⟩
  | 10 => ⟨S100000x64, .f32⟩
  | 11 => ⟨S800000x1, .i32⟩
  | 12 => ⟨S100000x64, .f32⟩
  | 13 => ⟨S100000x64, .f32⟩
  | 14 => ⟨S100000x64, .f32⟩
  | 15 => ⟨S1x100000x64, .f32⟩
  | 16 => ⟨S100000x64, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x64, .f32⟩
  | 26 => ⟨S_, .f32⟩
  | 27 => ⟨S100000x64, .f32⟩
  | 28 => ⟨S800000x1, .i32⟩
  | 29 => ⟨S100000x64, .f32⟩
  | 30 => ⟨S100000x64, .f32⟩
  | 31 => ⟨S100000x64, .f32⟩
  | 32 => ⟨S1x100000x64, .f32⟩
  | 33 => ⟨S1x100000x64, .f32⟩
  | 34 => ⟨S1x100000x64, .f32⟩
  | 35 => ⟨S3x100000x64, .f32⟩
  | 36 => ⟨S3x1x64, .f32⟩
  | 37 => ⟨S3x100000x64, .f32⟩
  | 38 => ⟨S1x100000x64, .f32⟩
  | 39 => ⟨S100000x64, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x64, .f32⟩
  | 49 => ⟨S_, .f32⟩
  | 50 => ⟨S100000x64, .f32⟩
  | 51 => ⟨S800000x1, .i32⟩
  | 52 => ⟨S100000x64, .f32⟩
  | 53 => ⟨S100000x64, .f32⟩
  | 54 => ⟨S100000x64, .f32⟩
  | 55 => ⟨S1x100000x64, .f32⟩
  | 56 => ⟨S100000x64, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x64, .f32⟩
  | 66 => ⟨S_, .f32⟩
  | 67 => ⟨S100000x64, .f32⟩
  | 68 => ⟨S800000x1, .i32⟩
  | 69 => ⟨S100000x64, .f32⟩
  | 70 => ⟨S100000x64, .f32⟩
  | 71 => ⟨S100000x64, .f32⟩
  | 72 => ⟨S1x100000x64, .f32⟩
  | 73 => ⟨S100000x64, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x64, .f32⟩
  | 83 => ⟨S_, .f32⟩
  | 84 => ⟨S100000x64, .f32⟩
  | 85 => ⟨S800000x1, .i32⟩
  | 86 => ⟨S100000x64, .f32⟩
  | 87 => ⟨S100000x64, .f32⟩
  | 88 => ⟨S100000x64, .f32⟩
  | 89 => ⟨S1x100000x64, .f32⟩
  | 90 => ⟨S1x100000x64, .f32⟩
  | 91 => ⟨S1x100000x64, .f32⟩
  | 92 => ⟨S3x100000x64, .f32⟩
  | 93 => ⟨S3x1x64, .f32⟩
  | 94 => ⟨S3x100000x64, .f32⟩
  | 95 => ⟨S1x100000x64, .f32⟩
  | 96 => ⟨S100000x64, .f32⟩
  | 97 => ⟨S1x100000x64, .f32⟩
  | 98 => ⟨S100000x64, .f32⟩
  | 99 => ⟨S1x100000x64, .f32⟩
  | 100 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S1x10000x64, .f32⟩
  | .local _ .vmem, ⟨1, _⟩ => ⟨S1x10000x64, .f32⟩
  | .local _ .vmem, ⟨2, _⟩ => ⟨S1x10000x64, .f32⟩
  | .local _ .vmem, ⟨3, _⟩ => ⟨S1x10000x64, .f32⟩
  | .local _ .vmem, ⟨4, _⟩ => ⟨S1x10000x64, .f32⟩
  | .local _ .vmem, ⟨5, _⟩ => ⟨S1x10000x64, .f32⟩
  | .local _ .vmem, ⟨6, _⟩ => ⟨S1x10000x64, .f32⟩
  | .local _ .vmem, ⟨7, _⟩ => ⟨S1x10000x64, .f32⟩
  | .local _ .vmem, ⟨8, _⟩ => ⟨S1x64x64, .f32⟩
  | .local _ .vmem, ⟨9, _⟩ => ⟨S1x64x64, .f32⟩
  | .local _ .vmem, ⟨10, _⟩ => ⟨S1x1x64, .f32⟩
  | .local _ .vmem, ⟨11, _⟩ => ⟨S1x1x64, .f32⟩
  | .local _ .vmem, ⟨12, _⟩ => ⟨S1x64x64, .f32⟩
  | .local _ .vmem, ⟨13, _⟩ => ⟨S1x64x64, .f32⟩
  | .local _ .vmem, ⟨14, _⟩ => ⟨S1x10000x64, .f32⟩
  | .local _ .vmem, ⟨15, _⟩ => ⟨S1x10000x64, .f32⟩
  | .local _ .vmem, ⟨16, _⟩ => ⟨S1x10000x64, .f32⟩
  | .local _ .vmem, ⟨17, _⟩ => ⟨S1x10000x64, .f32⟩
  | .local _ .vmem, ⟨18, _⟩ => ⟨S1x10000x64, .f32⟩
  | .local _ .vmem, ⟨19, _⟩ => ⟨S1x10000x64, .f32⟩
  | .local _ .vmem, ⟨20, _⟩ => ⟨S1x64x64, .f32⟩
  | .local _ .vmem, ⟨21, _⟩ => ⟨S1x64x64, .f32⟩
  | .local _ .vmem, ⟨22, _⟩ => ⟨S1x1x64, .f32⟩
  | .local _ .vmem, ⟨23, _⟩ => ⟨S1x1x64, .f32⟩
  | .local _ .vmem, ⟨24, _⟩ => ⟨S1x64x64, .f32⟩
  | .local _ .vmem, ⟨25, _⟩ => ⟨S1x64x64, .f32⟩
  | .local _ .vmem, ⟨26, _⟩ => ⟨S1x10000x64, .f32⟩
  | .local _ .vmem, ⟨27, _⟩ => ⟨S1x10000x64, .f32⟩
  | .local _ .vmem, ⟨28, _⟩ => ⟨S1x10000x64, .f32⟩
  | .local _ .vmem, ⟨29, _⟩ => ⟨S1x10000x64, .f32⟩
  | .local _ .vmem, ⟨30, _⟩ => ⟨S1x10000x64, .f32⟩
  | .local _ .vmem, ⟨31, _⟩ => ⟨S1x10000x64, .f32⟩
  | .local _ .vmem, ⟨32, _⟩ => ⟨S1x64x64, .f32⟩
  | .local _ .vmem, ⟨33, _⟩ => ⟨S1x64x64, .f32⟩
  | .local _ .vmem, ⟨34, _⟩ => ⟨S1x1x64, .f32⟩
  | .local _ .vmem, ⟨35, _⟩ => ⟨S1x1x64, .f32⟩
  | .local _ .vmem, ⟨36, _⟩ => ⟨S1x64x64, .f32⟩
  | .local _ .vmem, ⟨37, _⟩ => ⟨S1x64x64, .f32⟩
  | .local _ .vmem, ⟨38, _⟩ => ⟨S1x10000x64, .f32⟩
  | .local _ .vmem, ⟨39, _⟩ => ⟨S1x10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_8 : Ref sig .tc := ⟨.hbm, 71, rfl⟩
abbrev main_v52 : Ref sig .tc := ⟨.hbm, 72, rfl⟩
abbrev main_v53 : Ref sig .tc := ⟨.hbm, 73, rfl⟩
abbrev main_c_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_11 : Ref sig .tc := ⟨.hbm, 88, rfl⟩
abbrev main_v66 : Ref sig .tc := ⟨.hbm, 89, rfl⟩
abbrev main_v67 : Ref sig .tc := ⟨.hbm, 90, rfl⟩
abbrev main_c_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_c_14 : Ref sig .tc := ⟨.hbm, 111, rfl⟩
abbrev main_v86 : Ref sig .tc := ⟨.hbm, 112, rfl⟩
abbrev main_v87 : Ref sig .tc := ⟨.hbm, 113, rfl⟩
abbrev main_c_15 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_16 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_c_17 : Ref sig .tc := ⟨.hbm, 128, rfl⟩
abbrev main_v100 : Ref sig .tc := ⟨.hbm, 129, rfl⟩
abbrev main_v101 : Ref sig .tc := ⟨.hbm, 130, rfl⟩
abbrev main_c_18 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_19 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_c_20 : Ref sig .tc := ⟨.hbm, 145, rfl⟩
abbrev main_v114 : Ref sig .tc := ⟨.hbm, 146, rfl⟩
abbrev main_v115 : Ref sig .tc := ⟨.hbm, 147, rfl⟩
abbrev main_c_21 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_22 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_c_23 : Ref sig .tc := ⟨.hbm, 168, rfl⟩
abbrev main_v134 : Ref sig .tc := ⟨.hbm, 169, rfl⟩
abbrev main_v135 : Ref sig .tc := ⟨.hbm, 170, rfl⟩
abbrev main_c_24 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_25 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_c_26 : Ref sig .tc := ⟨.hbm, 185, rfl⟩
abbrev main_v148 : Ref sig .tc := ⟨.hbm, 186, rfl⟩
abbrev main_v149 : Ref sig .tc := ⟨.hbm, 187, rfl⟩
abbrev main_c_27 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_cst_28 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_c_29 : Ref sig .tc := ⟨.hbm, 202, rfl⟩
abbrev main_v162 : Ref sig .tc := ⟨.hbm, 203, rfl⟩
abbrev main_v163 : Ref sig .tc := ⟨.hbm, 204, rfl⟩
abbrev main_c_30 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_cst_31 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg5_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem4_1 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := ⟨2, ![3, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![3, 10], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x64x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![3, 10], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x64x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x64x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![3, 10], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x64x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x1x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x64x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1x10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

class Facts₀ : Prop where
  bcast_S100000x64_S1x100000x64_1_2 : S100000x64.BroadcastsInDim S1x100000x64 (![1, 2] : Fin 2 → Fin S1x100000x64.rank)
  concatenates_S1x100000x64_S1x100000x64_S1x100000x64_S3x100000x64_d0 : Shape.Concatenates [S1x100000x64, S1x100000x64, S1x100000x64] S3x100000x64 0
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  reduces_S10000x64_S10000 : S10000x64.Reduces [1] S10000
  shapeCasts_S10000_S10000x1 : S10000.ShapeCasts S10000x1
  broadcasts_S10000x1_S10000x64 : S10000x1.Broadcasts S10000x64
  shapeCasts_S10000x64_S1x10000x64 : S10000x64.ShapeCasts S1x10000x64
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S100000_S100000x1_0 : S100000.BroadcastsInDim S100000x1 (![0] : Fin 1 → Fin S100000x1.rank)
  slices_S3x100000x64_S1x100000x64_0_0_0 : S3x100000x64.Slices ![0, 0, 0] S1x100000x64
  shapeCasts_S1x100000x64_S100000x64 : S1x100000x64.ShapeCasts S100000x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  slices_S3x100000x64_S1x100000x64_1_0_0 : S3x100000x64.Slices ![1, 0, 0] S1x100000x64
  slices_S3x100000x64_S1x100000x64_2_0_0 : S3x100000x64.Slices ![2, 0, 0] S1x100000x64
  shapeCasts_S3x64_S3x1x64 : S3x64.ShapeCasts S3x1x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S10000x64 : S1x64.Broadcasts S10000x64
  scatter_S100000_S800000x1_S800000_n_0_0_1_wf : ScatterDims.WF S100000 S800000x1 S800000 [] [0] [0] 1
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x64.size a ≤ S3x100000x64.size a
  hwx0_0 : ∀ i : grid0.Coords, EltTy.bits .f32 = 32 ∨ (Rect.block (s := S3x100000x64) S1x10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x10000x64.size a ≤ S3x100000x64.size a
  hwx0_1 : ∀ i : grid0.Coords, EltTy.bits .f32 = 32 ∨ (Rect.block (s := S3x100000x64) S1x10000x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x10000x64.size a ≤ S3x100000x64.size a
  hwx1_0 : ∀ i : grid1.Coords, EltTy.bits .f32 = 32 ∨ (Rect.block (s := S3x100000x64) S1x10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x10000x64.size a ≤ S3x100000x64.size a
  hwx1_1 : ∀ i : grid1.Coords, EltTy.bits .f32 = 32 ∨ (Rect.block (s := S3x100000x64) S1x10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x64.size a ≤ S3x64x64.size a
  hwx1_2 : ∀ i : grid1.Coords, EltTy.bits .f32 = 32 ∨ (Rect.block (s := S3x64x64) S1x64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x64.size a ≤ S3x1x64.size a
  hwx1_3 : ∀ i : grid1.Coords, EltTy.bits .f32 = 32 ∨ (Rect.block (s := S3x1x64) S1x1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x64x64.size a ≤ S3x64x64.size a
  hwx1_4 : ∀ i : grid1.Coords, EltTy.bits .f32 = 32 ∨ (Rect.block (s := S3x64x64) S1x64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x10000x64.size a ≤ S3x100000x64.size a
  hwx1_5 : ∀ i : grid1.Coords, EltTy.bits .f32 = 32 ∨ (Rect.block (s := S3x100000x64) S1x10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x10000x64.size a ≤ S3x100000x64.size a
  hwx2_0 : ∀ i : grid2.Coords, EltTy.bits .f32 = 32 ∨ (Rect.block (s := S3x100000x64) S1x10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x10000x64.size a ≤ S3x100000x64.size a
  hwx2_1 : ∀ i : grid2.Coords, EltTy.bits .f32 = 32 ∨ (Rect.block (s := S3x100000x64) S1x10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x64x64.size a ≤ S3x64x64.size a
  hwx2_2 : ∀ i : grid2.Coords, EltTy.bits .f32 = 32 ∨ (Rect.block (s := S3x64x64) S1x64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x64.size a ≤ S3x1x64.size a
  hwx2_3 : ∀ i : grid2.Coords, EltTy.bits .f32 = 32 ∨ (Rect.block (s := S3x1x64) S1x1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x64x64.size a ≤ S3x64x64.size a
  hwx2_4 : ∀ i : grid2.Coords, EltTy.bits .f32 = 32 ∨ (Rect.block (s := S3x64x64) S1x64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x10000x64.size a ≤ S3x100000x64.size a
  hwx2_5 : ∀ i : grid2.Coords, EltTy.bits .f32 = 32 ∨ (Rect.block (s := S3x100000x64) S1x10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x10000x64.size a ≤ S3x100000x64.size a
  hwx3_0 : ∀ i : grid3.Coords, EltTy.bits .f32 = 32 ∨ (Rect.block (s := S3x100000x64) S1x10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x10000x64.size a ≤ S3x100000x64.size a
  hwx3_1 : ∀ i : grid3.Coords, EltTy.bits .f32 = 32 ∨ (Rect.block (s := S3x100000x64) S1x10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x64x64.size a ≤ S3x64x64.size a
  hwx3_2 : ∀ i : grid3.Coords, EltTy.bits .f32 = 32 ∨ (Rect.block (s := S3x64x64) S1x64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x64.size a ≤ S3x1x64.size a
  hwx3_3 : ∀ i : grid3.Coords, EltTy.bits .f32 = 32 ∨ (Rect.block (s := S3x1x64) S1x1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x64x64.size a ≤ S3x64x64.size a
  hwx3_4 : ∀ i : grid3.Coords, EltTy.bits .f32 = 32 ∨ (Rect.block (s := S3x64x64) S1x64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x10000x64.size a ≤ S3x100000x64.size a
  hwx3_5 : ∀ i : grid3.Coords, EltTy.bits .f32 = 32 ∨ (Rect.block (s := S3x100000x64) S1x10000x64.size (cc3_transform_5 i) (hinb3_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v3) S1x10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x10000x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v81) S1x10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1x64x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v82) S1x1x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S1x64x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v83) S1x10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v129) S1x10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S1x10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S1x64x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v130) S1x1x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S1x64x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v131) S1x10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v177) S1x10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v131) S1x10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S1x64x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v178) S1x1x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg8) S1x64x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v179) S1x10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S3x64x64 : Shape := ⟨3, ![3, 64, 64]⟩
abbrev S3x64 : Shape := ⟨2, ![3, 64]⟩
abbrev S_ : Shape := ⟨0, ![]⟩
abbrev S100000 : Shape := ⟨1, ![100000]⟩
abbrev S100000x1 : Shape := ⟨2, ![100000, 1]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩

abbrev nBuf : Space → Nat
  | .hbm => 516
  | .vmem => 0
  | .smem => 0
  | _ => 0

abbrev hbmTy0_0 (i : Nat) : BufTy := match i % 128 with
  | 0 => ⟨S100000x64, .f32⟩
  | 1 => ⟨S100000x64, .f32⟩
  | 2 => ⟨S100000x64, .f32⟩
  | 3 => ⟨S2x800000, .i32⟩
  | 4 => ⟨S2x800000, .i32⟩
  | 5 => ⟨S2x800000, .i32⟩
  | 6 => ⟨S3x64x64, .f32⟩
  | 7 => ⟨S3x64, .f32⟩
  | 8 => ⟨S3x64x64, .f32⟩
  | 9 => ⟨S100000x64, .f32⟩
  | 10 => ⟨S_, .f32⟩
  | 11 => ⟨S100000, .f32⟩
  | 12 => ⟨S100000x1, .f32⟩
  | 13 => ⟨S100000x1, .f32⟩
  | 14 => ⟨S_, .f32⟩
  | 15 => ⟨S100000x1, .f32⟩
  | 16 => ⟨S100000x1, .f32⟩
  | 17 => ⟨S100000x64, .f32⟩
  | 18 => ⟨S100000x64, .f32⟩
  | 19 => ⟨S100000x64, .f32⟩
  | 20 => ⟨S_, .f32⟩
  | 21 => ⟨S100000, .f32⟩
  | 22 => ⟨S100000x1, .f32⟩
  | 23 => ⟨S100000x1, .f32⟩
  | 24 => ⟨S_, .f32⟩
  | 25 => ⟨S100000x1, .f32⟩
  | 26 => ⟨S100000x1, .f32⟩
  | 27 => ⟨S100000x64, .f32⟩
  | 28 => ⟨S100000x64, .f32⟩
  | 29 => ⟨S100000x64, .f32⟩
  | 30 => ⟨S_, .f32⟩
  | 31 => ⟨S100000, .f32⟩
  | 32 => ⟨S100000x1, .f32⟩
  | 33 => ⟨S100000x1, .f32⟩
  | 34 => ⟨S_, .f32⟩
  | 35 => ⟨S100000x1, .f32⟩
  | 36 => ⟨S100000x1, .f32⟩
  | 37 => ⟨S100000x64, .f32⟩
  | 38 => ⟨S100000x64, .f32⟩
  | 39 => ⟨S1x64x64, .f32⟩
  | 40 => ⟨S64x64, .f32⟩
  | 41 => ⟨S1x64, .f32⟩
  | 42 => ⟨S64, .f32⟩
  | 43 => ⟨S1x64x64, .f32⟩
  | 44 => ⟨S64x64, .f32⟩
  | 45 => ⟨S1x800000, .i32⟩
  | 46 => ⟨S800000, .i32⟩
  | 47 => ⟨S1x800000, .i32⟩
  | 48 => ⟨S800000, .i32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x64, .f32⟩
  | 58 => ⟨S_, .f32⟩
  | 59 => ⟨S100000x64, .f32⟩
  | 60 => ⟨S800000x1, .i32⟩
  | 61 => ⟨S100000x64, .f32⟩
  | 62 => ⟨S_, .f32⟩
  | 63 => ⟨S800000x1, .f32⟩
  | 64 => ⟨S_, .f32⟩
  | 65 => ⟨S100000x1, .f32⟩
  | 66 => ⟨S800000x1, .i32⟩
  | 67 => ⟨S100000x1, .f32⟩
  | 68 => ⟨S_, .f32⟩
  | 69 => ⟨S100000x1, .f32⟩
  | 70 => ⟨S100000x1, .f32⟩
  | 71 => ⟨S100000x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S_, .f32⟩
  | 84 => ⟨S100000, .f32⟩
  | 85 => ⟨S100000x1, .f32⟩
  | 86 => ⟨S100000x1, .f32⟩
  | 87 => ⟨S_, .f32⟩
  | 88 => ⟨S100000x1, .f32⟩
  | 89 => ⟨S100000x1, .f32⟩
  | 90 => ⟨S100000x64, .f32⟩
  | 91 => ⟨S100000x64, .f32⟩
  | 92 => ⟨S1x64x64, .f32⟩
  | 93 => ⟨S64x64, .f32⟩
  | 94 => ⟨S1x64, .f32⟩
  | 95 => ⟨S64, .f32⟩
  | 96 => ⟨S1x64x64, .f32⟩
  | 97 => ⟨S64x64, .f32⟩
  | 98 => ⟨S1x800000, .i32⟩
  | 99 => ⟨S800000, .i32⟩
  | 100 => ⟨S1x800000, .i32⟩
  | 101 => ⟨S800000, .i32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x64, .f32⟩
  | 111 => ⟨S_, .f32⟩
  | 112 => ⟨S100000x64, .f32⟩
  | 113 => ⟨S800000x1, .i32⟩
  | 114 => ⟨S100000x64, .f32⟩
  | 115 => ⟨S_, .f32⟩
  | 116 => ⟨S800000x1, .f32⟩
  | 117 => ⟨S_, .f32⟩
  | 118 => ⟨S100000x1, .f32⟩
  | 119 => ⟨S800000x1, .i32⟩
  | 120 => ⟨S100000x1, .f32⟩
  | 121 => ⟨S_, .f32⟩
  | 122 => ⟨S100000x1, .f32⟩
  | 123 => ⟨S100000x1, .f32⟩
  | 124 => ⟨S100000x64, .f32⟩
  | 125 => ⟨S100000x64, .f32⟩
  | 126 => ⟨S100000x64, .f32⟩
  | 127 => ⟨S1x64, .f32⟩
  | _ => ⟨S100000x64, .f32⟩

abbrev hbmTy0_1 (i : Nat) : BufTy := match i % 128 with
  | 0 => ⟨S100000x64, .f32⟩
  | 1 => ⟨S100000x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S100000x64, .f32⟩
  | 8 => ⟨S_, .f32⟩
  | 9 => ⟨S100000, .f32⟩
  | 10 => ⟨S100000x1, .f32⟩
  | 11 => ⟨S100000x1, .f32⟩
  | 12 => ⟨S_, .f32⟩
  | 13 => ⟨S100000x1, .f32⟩
  | 14 => ⟨S100000x1, .f32⟩
  | 15 => ⟨S100000x64, .f32⟩
  | 16 => ⟨S100000x64, .f32⟩
  | 17 => ⟨S1x64x64, .f32⟩
  | 18 => ⟨S64x64, .f32⟩
  | 19 => ⟨S1x64, .f32⟩
  | 20 => ⟨S64, .f32⟩
  | 21 => ⟨S1x64x64, .f32⟩
  | 22 => ⟨S64x64, .f32⟩
  | 23 => ⟨S1x800000, .i32⟩
  | 24 => ⟨S800000, .i32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x64, .f32⟩
  | 36 => ⟨S_, .f32⟩
  | 37 => ⟨S100000x64, .f32⟩
  | 38 => ⟨S800000x1, .i32⟩
  | 39 => ⟨S100000x64, .f32⟩
  | 40 => ⟨S_, .f32⟩
  | 41 => ⟨S800000x1, .f32⟩
  | 42 => ⟨S_, .f32⟩
  | 43 => ⟨S100000x1, .f32⟩
  | 44 => ⟨S800000x1, .i32⟩
  | 45 => ⟨S100000x1, .f32⟩
  | 46 => ⟨S_, .f32⟩
  | 47 => ⟨S100000x1, .f32⟩
  | 48 => ⟨S100000x1, .f32⟩
  | 49 => ⟨S100000x64, .f32⟩
  | 50 => ⟨S100000x64, .f32⟩
  | 51 => ⟨S100000x64, .f32⟩
  | 52 => ⟨S1x64, .f32⟩
  | 53 => ⟨S100000x64, .f32⟩
  | 54 => ⟨S100000x64, .f32⟩
  | 55 => ⟨S100000x64, .f32⟩
  | 56 => ⟨S100000x64, .f32⟩
  | 57 => ⟨S_, .f32⟩
  | 58 => ⟨S100000x64, .f32⟩
  | 59 => ⟨S100000x64, .f32⟩
  | 60 => ⟨S100000x64, .f32⟩
  | 61 => ⟨S_, .f32⟩
  | 62 => ⟨S100000, .f32⟩
  | 63 => ⟨S100000x1, .f32⟩
  | 64 => ⟨S100000x1, .f32⟩
  | 65 => ⟨S_, .f32⟩
  | 66 => ⟨S100000x1, .f32⟩
  | 67 => ⟨S100000x1, .f32⟩
  | 68 => ⟨S100000x64, .f32⟩
  | 69 => ⟨S100000x64, .f32⟩
  | 70 => ⟨S1x64x64, .f32⟩
  | 71 => ⟨S64x64, .f32⟩
  | 72 => ⟨S1x64, .f32⟩
  | 73 => ⟨S64, .f32⟩
  | 74 => ⟨S1x64x64, .f32⟩
  | 75 => ⟨S64x64, .f32⟩
  | 76 => ⟨S1x800000, .i32⟩
  | 77 => ⟨S800000, .i32⟩
  | 78 => ⟨S1x800000, .i32⟩
  | 79 => ⟨S800000, .i32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x64, .f32⟩
  | 89 => ⟨S_, .f32⟩
  | 90 => ⟨S100000x64, .f32⟩
  | 91 => ⟨S800000x1, .i32⟩
  | 92 => ⟨S100000x64, .f32⟩
  | 93 => ⟨S_, .f32⟩
  | 94 => ⟨S800000x1, .f32⟩
  | 95 => ⟨S_, .f32⟩
  | 96 => ⟨S100000x1, .f32⟩
  | 97 => ⟨S800000x1, .i32⟩
  | 98 => ⟨S100000x1, .f32⟩
  | 99 => ⟨S_, .f32⟩
  | 100 => ⟨S100000x1, .f32⟩
  | 101 => ⟨S100000x1, .f32⟩
  | 102 => ⟨S100000x64, .f32⟩
  | 103 => ⟨S100000x64, .f32⟩
  | 104 => ⟨S100000x64, .f32⟩
  | 105 => ⟨S1x64, .f32⟩
  | 106 => ⟨S100000x64, .f32⟩
  | 107 => ⟨S100000x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S100000x64, .f32⟩
  | 114 => ⟨S_, .f32⟩
  | 115 => ⟨S100000, .f32⟩
  | 116 => ⟨S100000x1, .f32⟩
  | 117 => ⟨S100000x1, .f32⟩
  | 118 => ⟨S_, .f32⟩
  | 119 => ⟨S100000x1, .f32⟩
  | 120 => ⟨S100000x1, .f32⟩
  | 121 => ⟨S100000x64, .f32⟩
  | 122 => ⟨S100000x64, .f32⟩
  | 123 => ⟨S1x64x64, .f32⟩
  | 124 => ⟨S64x64, .f32⟩
  | 125 => ⟨S1x64, .f32⟩
  | 126 => ⟨S64, .f32⟩
  | 127 => ⟨S1x64x64, .f32⟩
  | _ => ⟨S100000x64, .f32⟩

abbrev hbmTy0_2 (i : Nat) : BufTy := match i % 128 with
  | 0 => ⟨S64x64, .f32⟩
  | 1 => ⟨S1x800000, .i32⟩
  | 2 => ⟨S800000, .i32⟩
  | 3 => ⟨S1x800000, .i32⟩
  | 4 => ⟨S800000, .i32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x64, .f32⟩
  | 14 => ⟨S_, .f32⟩
  | 15 => ⟨S100000x64, .f32⟩
  | 16 => ⟨S800000x1, .i32⟩
  | 17 => ⟨S100000x64, .f32⟩
  | 18 => ⟨S_, .f32⟩
  | 19 => ⟨S800000x1, .f32⟩
  | 20 => ⟨S_, .f32⟩
  | 21 => ⟨S100000x1, .f32⟩
  | 22 => ⟨S800000x1, .i32⟩
  | 23 => ⟨S100000x1, .f32⟩
  | 24 => ⟨S_, .f32⟩
  | 25 => ⟨S100000x1, .f32⟩
  | 26 => ⟨S100000x1, .f32⟩
  | 27 => ⟨S100000x64, .f32⟩
  | 28 => ⟨S100000x64, .f32⟩
  | 29 => ⟨S100000x64, .f32⟩
  | 30 => ⟨S1x64, .f32⟩
  | 31 => ⟨S100000x64, .f32⟩
  | 32 => ⟨S100000x64, .f32⟩
  | 33 => ⟨S100000x64, .f32⟩
  | 34 => ⟨S100000x64, .f32⟩
  | 35 => ⟨S_, .f32⟩
  | 36 => ⟨S100000x64, .f32⟩
  | 37 => ⟨S100000x64, .f32⟩
  | 38 => ⟨S100000x64, .f32⟩
  | 39 => ⟨S_, .f32⟩
  | 40 => ⟨S100000, .f32⟩
  | 41 => ⟨S100000x1, .f32⟩
  | 42 => ⟨S100000x1, .f32⟩
  | 43 => ⟨S_, .f32⟩
  | 44 => ⟨S100000x1, .f32⟩
  | 45 => ⟨S100000x1, .f32⟩
  | 46 => ⟨S100000x64, .f32⟩
  | 47 => ⟨S100000x64, .f32⟩
  | 48 => ⟨S1x64x64, .f32⟩
  | 49 => ⟨S64x64, .f32⟩
  | 50 => ⟨S1x64, .f32⟩
  | 51 => ⟨S64, .f32⟩
  | 52 => ⟨S1x64x64, .f32⟩
  | 53 => ⟨S64x64, .f32⟩
  | 54 => ⟨S1x800000, .i32⟩
  | 55 => ⟨S800000, .i32⟩
  | 56 => ⟨S1x800000, .i32⟩
  | 57 => ⟨S800000, .i32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x64, .f32⟩
  | 67 => ⟨S_, .f32⟩
  | 68 => ⟨S100000x64, .f32⟩
  | 69 => ⟨S800000x1, .i32⟩
  | 70 => ⟨S100000x64, .f32⟩
  | 71 => ⟨S_, .f32⟩
  | 72 => ⟨S800000x1, .f32⟩
  | 73 => ⟨S_, .f32⟩
  | 74 => ⟨S100000x1, .f32⟩
  | 75 => ⟨S800000x1, .i32⟩
  | 76 => ⟨S100000x1, .f32⟩
  | 77 => ⟨S_, .f32⟩
  | 78 => ⟨S100000x1, .f32⟩
  | 79 => ⟨S100000x1, .f32⟩
  | 80 => ⟨S100000x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S100000x64, .f32⟩
  | 92 => ⟨S_, .f32⟩
  | 93 => ⟨S100000, .f32⟩
  | 94 => ⟨S100000x1, .f32⟩
  | 95 => ⟨S100000x1, .f32⟩
  | 96 => ⟨S_, .f32⟩
  | 97 => ⟨S100000x1, .f32⟩
  | 98 => ⟨S100000x1, .f32⟩
  | 99 => ⟨S100000x64, .f32⟩
  | 100 => ⟨S100000x64, .f32⟩
  | 101 => ⟨S1x64x64, .f32⟩
  | 102 => ⟨S64x64, .f32⟩
  | 103 => ⟨S1x64, .f32⟩
  | 104 => ⟨S64, .f32⟩
  | 105 => ⟨S1x64x64, .f32⟩
  | 106 => ⟨S64x64, .f32⟩
  | 107 => ⟨S1x800000, .i32⟩
  | 108 => ⟨S800000, .i32⟩
  | 109 => ⟨S1x800000, .i32⟩
  | 110 => ⟨S800000, .i32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x64, .f32⟩
  | 120 => ⟨S_, .f32⟩
  | 121 => ⟨S100000x64, .f32⟩
  | 122 => ⟨S800000x1, .i32⟩
  | 123 => ⟨S100000x64, .f32⟩
  | 124 => ⟨S_, .f32⟩
  | 125 => ⟨S800000x1, .f32⟩
  | 126 => ⟨S_, .f32⟩
  | 127 => ⟨S100000x1, .f32⟩
  | _ => ⟨S100000x64, .f32⟩

abbrev hbmTy0_3 (i : Nat) : BufTy := match i % 128 with
  | 0 => ⟨S800000x1, .i32⟩
  | 1 => ⟨S100000x1, .f32⟩
  | 2 => ⟨S_, .f32⟩
  | 3 => ⟨S100000x1, .f32⟩
  | 4 => ⟨S100000x1, .f32⟩
  | 5 => ⟨S100000x64, .f32⟩
  | 6 => ⟨S100000x64, .f32⟩
  | 7 => ⟨S100000x64, .f32⟩
  | 8 => ⟨S1x64, .f32⟩
  | 9 => ⟨S100000x64, .f32⟩
  | 10 => ⟨S100000x64, .f32⟩
  | 11 => ⟨S100000x64, .f32⟩
  | 12 => ⟨S100000x64, .f32⟩
  | 13 => ⟨S_, .f32⟩
  | 14 => ⟨S100000x64, .f32⟩
  | 15 => ⟨S100000x64, .f32⟩
  | 16 => ⟨S100000x64, .f32⟩
  | 17 => ⟨S_, .f32⟩
  | 18 => ⟨S100000, .f32⟩
  | 19 => ⟨S100000x1, .f32⟩
  | 20 => ⟨S100000x1, .f32⟩
  | 21 => ⟨S_, .f32⟩
  | 22 => ⟨S100000x1, .f32⟩
  | 23 => ⟨S100000x1, .f32⟩
  | 24 => ⟨S100000x64, .f32⟩
  | 25 => ⟨S100000x64, .f32⟩
  | 26 => ⟨S1x64x64, .f32⟩
  | 27 => ⟨S64x64, .f32⟩
  | 28 => ⟨S1x64, .f32⟩
  | 29 => ⟨S64, .f32⟩
  | 30 => ⟨S1x64x64, .f32⟩
  | 31 => ⟨S64x64, .f32⟩
  | 32 => ⟨S1x800000, .i32⟩
  | 33 => ⟨S800000, .i32⟩
  | 34 => ⟨S1x800000, .i32⟩
  | 35 => ⟨S800000, .i32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x64, .f32⟩
  | 45 => ⟨S_, .f32⟩
  | 46 => ⟨S100000x64, .f32⟩
  | 47 => ⟨S800000x1, .i32⟩
  | 48 => ⟨S100000x64, .f32⟩
  | 49 => ⟨S_, .f32⟩
  | 50 => ⟨S800000x1, .f32⟩
  | 51 => ⟨S_, .f32⟩
  | 52 => ⟨S100000x1, .f32⟩
  | 53 => ⟨S800000x1, .i32⟩
  | 54 => ⟨S100000x1, .f32⟩
  | 55 => ⟨S_, .f32⟩
  | 56 => ⟨S100000x1, .f32⟩
  | 57 => ⟨S100000x1, .f32⟩
  | 58 => ⟨S100000x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x64, .f32⟩
  | 70 => ⟨S_, .f32⟩
  | 71 => ⟨S100000, .f32⟩
  | 72 => ⟨S100000x1, .f32⟩
  | 73 => ⟨S100000x1, .f32⟩
  | 74 => ⟨S_, .f32⟩
  | 75 => ⟨S100000x1, .f32⟩
  | 76 => ⟨S100000x1, .f32⟩
  | 77 => ⟨S100000x64, .f32⟩
  | 78 => ⟨S100000x64, .f32⟩
  | 79 => ⟨S1x64x64, .f32⟩
  | 80 => ⟨S64x64, .f32⟩
  | 81 => ⟨S1x64, .f32⟩
  | 82 => ⟨S64, .f32⟩
  | 83 => ⟨S1x64x64, .f32⟩
  | 84 => ⟨S64x64, .f32⟩
  | 85 => ⟨S1x800000, .i32⟩
  | 86 => ⟨S800000, .i32⟩
  | 87 => ⟨S1x800000, .i32⟩
  | 88 => ⟨S800000, .i32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x64, .f32⟩
  | 98 => ⟨S_, .f32⟩
  | 99 => ⟨S100000x64, .f32⟩
  | 100 => ⟨S800000x1, .i32⟩
  | 101 => ⟨S100000x64, .f32⟩
  | 102 => ⟨S_, .f32⟩
  | 103 => ⟨S800000x1, .f32⟩
  | 104 => ⟨S_, .f32⟩
  | 105 => ⟨S100000x1, .f32⟩
  | 106 => ⟨S800000x1, .i32⟩
  | 107 => ⟨S100000x1, .f32⟩
  | 108 => ⟨S_, .f32⟩
  | 109 => ⟨S100000x1, .f32⟩
  | 110 => ⟨S100000x1, .f32⟩
  | 111 => ⟨S100000x64, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S100000x64, .f32⟩
  | 123 => ⟨S_, .f32⟩
  | 124 => ⟨S100000, .f32⟩
  | 125 => ⟨S100000x1, .f32⟩
  | 126 => ⟨S100000x1, .f32⟩
  | 127 => ⟨S_, .f32⟩
  | _ => ⟨S100000x64, .f32⟩

abbrev hbmTy0_4 (i : Nat) : BufTy := match i % 128 with
  | 0 => ⟨S100000x1, .f32⟩
  | 1 => ⟨S100000x1, .f32⟩
  | 2 => ⟨S100000x64, .f32⟩
  | 3 => ⟨S100000x64, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c : Ref sig .tc := ⟨.hbm, 49, rfl⟩
abbrev main_v34 : Ref sig .tc := ⟨.hbm, 50, rfl⟩
abbrev main_v35 : Ref sig .tc := ⟨.hbm, 51, rfl⟩
abbrev main_c_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_call0_cst : Ref sig .tc := ⟨.hbm, 79, rfl⟩
abbrev main_call0_v0 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_12 : Ref sig .tc := ⟨.hbm, 102, rfl⟩
abbrev main_v77 : Ref sig .tc := ⟨.hbm, 103, rfl⟩
abbrev main_v78 : Ref sig .tc := ⟨.hbm, 104, rfl⟩
abbrev main_c_13 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_14 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_15 : Ref sig .tc := ⟨.hbm, 115, rfl⟩
abbrev main_v87 : Ref sig .tc := ⟨.hbm, 116, rfl⟩
abbrev main_cst_16 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_17 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_call1_cst : Ref sig .tc := ⟨.hbm, 132, rfl⟩
abbrev main_call1_v0 : Ref sig .tc := ⟨.hbm, 133, rfl⟩
abbrev main_v101 : Ref sig .tc := ⟨.hbm, 134, rfl⟩
abbrev main_v102 : Ref sig .tc := ⟨.hbm, 135, rfl⟩
abbrev main_cst_18 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_19 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_c_20 : Ref sig .tc := ⟨.hbm, 155, rfl⟩
abbrev main_v120 : Ref sig .tc := ⟨.hbm, 156, rfl⟩
abbrev main_v121 : Ref sig .tc := ⟨.hbm, 157, rfl⟩
abbrev main_c_21 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_22 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_cst_23 : Ref sig .tc := ⟨.hbm, 168, rfl⟩
abbrev main_v130 : Ref sig .tc := ⟨.hbm, 169, rfl⟩
abbrev main_cst_24 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_cst_25 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_call2_cst : Ref sig .tc := ⟨.hbm, 185, rfl⟩
abbrev main_call2_v0 : Ref sig .tc := ⟨.hbm, 186, rfl⟩
abbrev main_v144 : Ref sig .tc := ⟨.hbm, 187, rfl⟩
abbrev main_v145 : Ref sig .tc := ⟨.hbm, 188, rfl⟩
abbrev main_cst_26 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_27 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_c_28 : Ref sig .tc := ⟨.hbm, 208, rfl⟩
abbrev main_v163 : Ref sig .tc := ⟨.hbm, 209, rfl⟩
abbrev main_v164 : Ref sig .tc := ⟨.hbm, 210, rfl⟩
abbrev main_c_29 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_cst_30 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_cst_31 : Ref sig .tc := ⟨.hbm, 221, rfl⟩
abbrev main_v173 : Ref sig .tc := ⟨.hbm, 222, rfl⟩
abbrev main_cst_32 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_cst_33 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_call3_cst : Ref sig .tc := ⟨.hbm, 238, rfl⟩
abbrev main_call3_v0 : Ref sig .tc := ⟨.hbm, 239, rfl⟩
abbrev main_v187 : Ref sig .tc := ⟨.hbm, 240, rfl⟩
abbrev main_v188 : Ref sig .tc := ⟨.hbm, 241, rfl⟩
abbrev main_cst_34 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_cst_35 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_c_36 : Ref sig .tc := ⟨.hbm, 261, rfl⟩
abbrev main_v206 : Ref sig .tc := ⟨.hbm, 262, rfl⟩
abbrev main_v207 : Ref sig .tc := ⟨.hbm, 263, rfl⟩
abbrev main_c_37 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_cst_38 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_cst_39 : Ref sig .tc := ⟨.hbm, 274, rfl⟩
abbrev main_v216 : Ref sig .tc := ⟨.hbm, 275, rfl⟩
abbrev main_cst_40 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_cst_41 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_call4_cst : Ref sig .tc := ⟨.hbm, 291, rfl⟩
abbrev main_call4_v0 : Ref sig .tc := ⟨.hbm, 292, rfl⟩
abbrev main_v230 : Ref sig .tc := ⟨.hbm, 293, rfl⟩
abbrev main_v231 : Ref sig .tc := ⟨.hbm, 294, rfl⟩
abbrev main_cst_42 : Ref sig .tc := ⟨.hbm, 295, rfl⟩
abbrev main_v232 : Ref sig .tc := ⟨.hbm, 296, rfl⟩
abbrev main_v233 : Ref sig .tc := ⟨.hbm, 297, rfl⟩
abbrev main_v234 : Ref sig .tc := ⟨.hbm, 298, rfl⟩
abbrev main_cst_43 : Ref sig .tc := ⟨.hbm, 299, rfl⟩
abbrev main_v235 : Ref sig .tc := ⟨.hbm, 300, rfl⟩
abbrev main_v236 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_c_44 : Ref sig .tc := ⟨.hbm, 314, rfl⟩
abbrev main_v249 : Ref sig .tc := ⟨.hbm, 315, rfl⟩
abbrev main_v250 : Ref sig .tc := ⟨.hbm, 316, rfl⟩
abbrev main_c_45 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_v255 : Ref sig .tc := ⟨.hbm, 322, rfl⟩
abbrev main_cst_46 : Ref sig .tc := ⟨.hbm, 323, rfl⟩
abbrev main_v256 : Ref sig .tc := ⟨.hbm, 324, rfl⟩
abbrev main_v257 : Ref sig .tc := ⟨.hbm, 325, rfl⟩
abbrev main_v258 : Ref sig .tc := ⟨.hbm, 326, rfl⟩
abbrev main_cst_47 : Ref sig .tc := ⟨.hbm, 327, rfl⟩
abbrev main_v259 : Ref sig .tc := ⟨.hbm, 328, rfl⟩
abbrev main_cst_48 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_cst_49 : Ref sig .tc := ⟨.hbm, 333, rfl⟩
abbrev main_v263 : Ref sig .tc := ⟨.hbm, 334, rfl⟩
abbrev main_v264 : Ref sig .tc := ⟨.hbm, 335, rfl⟩
abbrev main_v265 : Ref sig .tc := ⟨.hbm, 336, rfl⟩
abbrev main_v266 : Ref sig .tc := ⟨.hbm, 337, rfl⟩
abbrev main_v267 : Ref sig .tc := ⟨.hbm, 338, rfl⟩
abbrev main_v268 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_call5_cst : Ref sig .tc := ⟨.hbm, 344, rfl⟩
abbrev main_call5_v0 : Ref sig .tc := ⟨.hbm, 345, rfl⟩
abbrev main_v273 : Ref sig .tc := ⟨.hbm, 346, rfl⟩
abbrev main_v274 : Ref sig .tc := ⟨.hbm, 347, rfl⟩
abbrev main_cst_50 : Ref sig .tc := ⟨.hbm, 348, rfl⟩
abbrev main_v275 : Ref sig .tc := ⟨.hbm, 349, rfl⟩
abbrev main_v276 : Ref sig .tc := ⟨.hbm, 350, rfl⟩
abbrev main_v277 : Ref sig .tc := ⟨.hbm, 351, rfl⟩
abbrev main_cst_51 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_c_52 : Ref sig .tc := ⟨.hbm, 367, rfl⟩
abbrev main_v292 : Ref sig .tc := ⟨.hbm, 368, rfl⟩
abbrev main_v293 : Ref sig .tc := ⟨.hbm, 369, rfl⟩
abbrev main_c_53 : Ref sig .tc := ⟨.hbm, 370, rfl⟩
abbrev main_v294 : Ref sig .tc := ⟨.hbm, 371, rfl⟩
abbrev main_v295 : Ref sig .tc := ⟨.hbm, 372, rfl⟩
abbrev main_v296 : Ref sig .tc := ⟨.hbm, 373, rfl⟩
abbrev main_v297 : Ref sig .tc := ⟨.hbm, 374, rfl⟩
abbrev main_v298 : Ref sig .tc := ⟨.hbm, 375, rfl⟩
abbrev main_cst_54 : Ref sig .tc := ⟨.hbm, 376, rfl⟩
abbrev main_v299 : Ref sig .tc := ⟨.hbm, 377, rfl⟩
abbrev main_v300 : Ref sig .tc := ⟨.hbm, 378, rfl⟩
abbrev main_v301 : Ref sig .tc := ⟨.hbm, 379, rfl⟩
abbrev main_cst_55 : Ref sig .tc := ⟨.hbm, 380, rfl⟩
abbrev main_v302 : Ref sig .tc := ⟨.hbm, 381, rfl⟩
abbrev main_cst_56 : Ref sig .tc := ⟨.hbm, 382, rfl⟩
abbrev main_v303 : Ref sig .tc := ⟨.hbm, 383, rfl⟩
abbrev main_v304 : Ref sig .tc := ⟨.hbm, 384, rfl⟩
abbrev main_v305 : Ref sig .tc := ⟨.hbm, 385, rfl⟩
abbrev main_cst_57 : Ref sig .tc := ⟨.hbm, 386, rfl⟩
abbrev main_v306 : Ref sig .tc := ⟨.hbm, 387, rfl⟩
abbrev main_v307 : Ref sig .tc := ⟨.hbm, 388, rfl⟩
abbrev main_v308 : Ref sig .tc := ⟨.hbm, 389, rfl⟩
abbrev main_v309 : Ref sig .tc := ⟨.hbm, 390, rfl⟩
abbrev main_v310 : Ref sig .tc := ⟨.hbm, 391, rfl⟩
abbrev main_v311 : Ref sig .tc := ⟨.hbm, 392, rfl⟩
abbrev main_v312 : Ref sig .tc := ⟨.hbm, 393, rfl⟩
abbrev main_v313 : Ref sig .tc := ⟨.hbm, 394, rfl⟩
abbrev main_v314 : Ref sig .tc := ⟨.hbm, 395, rfl⟩
abbrev main_v315 : Ref sig .tc := ⟨.hbm, 396, rfl⟩
abbrev main_call6_cst : Ref sig .tc := ⟨.hbm, 397, rfl⟩
abbrev main_call6_v0 : Ref sig .tc := ⟨.hbm, 398, rfl⟩
abbrev main_v316 : Ref sig .tc := ⟨.hbm, 399, rfl⟩
abbrev main_v317 : Ref sig .tc := ⟨.hbm, 400, rfl⟩
abbrev main_cst_58 : Ref sig .tc := ⟨.hbm, 401, rfl⟩
abbrev main_v318 : Ref sig .tc := ⟨.hbm, 402, rfl⟩
abbrev main_v319 : Ref sig .tc := ⟨.hbm, 403, rfl⟩
abbrev main_v320 : Ref sig .tc := ⟨.hbm, 404, rfl⟩
abbrev main_cst_59 : Ref sig .tc := ⟨.hbm, 405, rfl⟩
abbrev main_v321 : Ref sig .tc := ⟨.hbm, 406, rfl⟩
abbrev main_v322 : Ref sig .tc := ⟨.hbm, 407, rfl⟩
abbrev main_v323 : Ref sig .tc := ⟨.hbm, 408, rfl⟩
abbrev main_v324 : Ref sig .tc := ⟨.hbm, 409, rfl⟩
abbrev main_v325 : Ref sig .tc := ⟨.hbm, 410, rfl⟩
abbrev main_v326 : Ref sig .tc := ⟨.hbm, 411, rfl⟩
abbrev main_v327 : Ref sig .tc := ⟨.hbm, 412, rfl⟩
abbrev main_v328 : Ref sig .tc := ⟨.hbm, 413, rfl⟩
abbrev main_v329 : Ref sig .tc := ⟨.hbm, 414, rfl⟩
abbrev main_v330 : Ref sig .tc := ⟨.hbm, 415, rfl⟩
abbrev main_v331 : Ref sig .tc := ⟨.hbm, 416, rfl⟩
abbrev main_v332 : Ref sig .tc := ⟨.hbm, 417, rfl⟩
abbrev main_v333 : Ref sig .tc := ⟨.hbm, 418, rfl⟩
abbrev main_v334 : Ref sig .tc := ⟨.hbm, 419, rfl⟩
abbrev main_c_60 : Ref sig .tc := ⟨.hbm, 420, rfl⟩
abbrev main_v335 : Ref sig .tc := ⟨.hbm, 421, rfl⟩
abbrev main_v336 : Ref sig .tc := ⟨.hbm, 422, rfl⟩
abbrev main_c_61 : Ref sig .tc := ⟨.hbm, 423, rfl⟩
abbrev main_v337 : Ref sig .tc := ⟨.hbm, 424, rfl⟩
abbrev main_v338 : Ref sig .tc := ⟨.hbm, 425, rfl⟩
abbrev main_v339 : Ref sig .tc := ⟨.hbm, 426, rfl⟩
abbrev main_v340 : Ref sig .tc := ⟨.hbm, 427, rfl⟩
abbrev main_v341 : Ref sig .tc := ⟨.hbm, 428, rfl⟩
abbrev main_cst_62 : Ref sig .tc := ⟨.hbm, 429, rfl⟩
abbrev main_v342 : Ref sig .tc := ⟨.hbm, 430, rfl⟩
abbrev main_v343 : Ref sig .tc := ⟨.hbm, 431, rfl⟩
abbrev main_v344 : Ref sig .tc := ⟨.hbm, 432, rfl⟩
abbrev main_cst_63 : Ref sig .tc := ⟨.hbm, 433, rfl⟩
abbrev main_v345 : Ref sig .tc := ⟨.hbm, 434, rfl⟩
abbrev main_cst_64 : Ref sig .tc := ⟨.hbm, 435, rfl⟩
abbrev main_v346 : Ref sig .tc := ⟨.hbm, 436, rfl⟩
abbrev main_v347 : Ref sig .tc := ⟨.hbm, 437, rfl⟩
abbrev main_v348 : Ref sig .tc := ⟨.hbm, 438, rfl⟩
abbrev main_cst_65 : Ref sig .tc := ⟨.hbm, 439, rfl⟩
abbrev main_v349 : Ref sig .tc := ⟨.hbm, 440, rfl⟩
abbrev main_v350 : Ref sig .tc := ⟨.hbm, 441, rfl⟩
abbrev main_v351 : Ref sig .tc := ⟨.hbm, 442, rfl⟩
abbrev main_v352 : Ref sig .tc := ⟨.hbm, 443, rfl⟩
abbrev main_v353 : Ref sig .tc := ⟨.hbm, 444, rfl⟩
abbrev main_v354 : Ref sig .tc := ⟨.hbm, 445, rfl⟩
abbrev main_v355 : Ref sig .tc := ⟨.hbm, 446, rfl⟩
abbrev main_v356 : Ref sig .tc := ⟨.hbm, 447, rfl⟩
abbrev main_v357 : Ref sig .tc := ⟨.hbm, 448, rfl⟩
abbrev main_v358 : Ref sig .tc := ⟨.hbm, 449, rfl⟩
abbrev main_call7_cst : Ref sig .tc := ⟨.hbm, 450, rfl⟩
abbrev main_call7_v0 : Ref sig .tc := ⟨.hbm, 451, rfl⟩
abbrev main_v359 : Ref sig .tc := ⟨.hbm, 452, rfl⟩
abbrev main_v360 : Ref sig .tc := ⟨.hbm, 453, rfl⟩
abbrev main_cst_66 : Ref sig .tc := ⟨.hbm, 454, rfl⟩
abbrev main_v361 : Ref sig .tc := ⟨.hbm, 455, rfl⟩
abbrev main_v362 : Ref sig .tc := ⟨.hbm, 456, rfl⟩
abbrev main_v363 : Ref sig .tc := ⟨.hbm, 457, rfl⟩
abbrev main_cst_67 : Ref sig .tc := ⟨.hbm, 458, rfl⟩
abbrev main_v364 : Ref sig .tc := ⟨.hbm, 459, rfl⟩
abbrev main_v365 : Ref sig .tc := ⟨.hbm, 460, rfl⟩
abbrev main_v366 : Ref sig .tc := ⟨.hbm, 461, rfl⟩
abbrev main_v367 : Ref sig .tc := ⟨.hbm, 462, rfl⟩
abbrev main_v368 : Ref sig .tc := ⟨.hbm, 463, rfl⟩
abbrev main_v369 : Ref sig .tc := ⟨.hbm, 464, rfl⟩
abbrev main_v370 : Ref sig .tc := ⟨.hbm, 465, rfl⟩
abbrev main_v371 : Ref sig .tc := ⟨.hbm, 466, rfl⟩
abbrev main_v372 : Ref sig .tc := ⟨.hbm, 467, rfl⟩
abbrev main_v373 : Ref sig .tc := ⟨.hbm, 468, rfl⟩
abbrev main_v374 : Ref sig .tc := ⟨.hbm, 469, rfl⟩
abbrev main_v375 : Ref sig .tc := ⟨.hbm, 470, rfl⟩
abbrev main_v376 : Ref sig .tc := ⟨.hbm, 471, rfl⟩
abbrev main_v377 : Ref sig .tc := ⟨.hbm, 472, rfl⟩
abbrev main_c_68 : Ref sig .tc := ⟨.hbm, 473, rfl⟩
abbrev main_v378 : Ref sig .tc := ⟨.hbm, 474, rfl⟩
abbrev main_v379 : Ref sig .tc := ⟨.hbm, 475, rfl⟩
abbrev main_c_69 : Ref sig .tc := ⟨.hbm, 476, rfl⟩
abbrev main_v380 : Ref sig .tc := ⟨.hbm, 477, rfl⟩
abbrev main_v381 : Ref sig .tc := ⟨.hbm, 478, rfl⟩
abbrev main_v382 : Ref sig .tc := ⟨.hbm, 479, rfl⟩
abbrev main_v383 : Ref sig .tc := ⟨.hbm, 480, rfl⟩
abbrev main_v384 : Ref sig .tc := ⟨.hbm, 481, rfl⟩
abbrev main_cst_70 : Ref sig .tc := ⟨.hbm, 482, rfl⟩
abbrev main_v385 : Ref sig .tc := ⟨.hbm, 483, rfl⟩
abbrev main_v386 : Ref sig .tc := ⟨.hbm, 484, rfl⟩
abbrev main_v387 : Ref sig .tc := ⟨.hbm, 485, rfl⟩
abbrev main_cst_71 : Ref sig .tc := ⟨.hbm, 486, rfl⟩
abbrev main_v388 : Ref sig .tc := ⟨.hbm, 487, rfl⟩
abbrev main_cst_72 : Ref sig .tc := ⟨.hbm, 488, rfl⟩
abbrev main_v389 : Ref sig .tc := ⟨.hbm, 489, rfl⟩
abbrev main_v390 : Ref sig .tc := ⟨.hbm, 490, rfl⟩
abbrev main_v391 : Ref sig .tc := ⟨.hbm, 491, rfl⟩
abbrev main_cst_73 : Ref sig .tc := ⟨.hbm, 492, rfl⟩
abbrev main_v392 : Ref sig .tc := ⟨.hbm, 493, rfl⟩
abbrev main_v393 : Ref sig .tc := ⟨.hbm, 494, rfl⟩
abbrev main_v394 : Ref sig .tc := ⟨.hbm, 495, rfl⟩
abbrev main_v395 : Ref sig .tc := ⟨.hbm, 496, rfl⟩
abbrev main_v396 : Ref sig .tc := ⟨.hbm, 497, rfl⟩
abbrev main_v397 : Ref sig .tc := ⟨.hbm, 498, rfl⟩
abbrev main_v398 : Ref sig .tc := ⟨.hbm, 499, rfl⟩
abbrev main_v399 : Ref sig .tc := ⟨.hbm, 500, rfl⟩
abbrev main_v400 : Ref sig .tc := ⟨.hbm, 501, rfl⟩
abbrev main_v401 : Ref sig .tc := ⟨.hbm, 502, rfl⟩
abbrev main_call8_cst : Ref sig .tc := ⟨.hbm, 503, rfl⟩
abbrev main_call8_v0 : Ref sig .tc := ⟨.hbm, 504, rfl⟩
abbrev main_v402 : Ref sig .tc := ⟨.hbm, 505, rfl⟩
abbrev main_v403 : Ref sig .tc := ⟨.hbm, 506, rfl⟩
abbrev main_cst_74 : Ref sig .tc := ⟨.hbm, 507, rfl⟩
abbrev main_v404 : Ref sig .tc := ⟨.hbm, 508, rfl⟩
abbrev main_v405 : Ref sig .tc := ⟨.hbm, 509, rfl⟩
abbrev main_v406 : Ref sig .tc := ⟨.hbm, 510, rfl⟩
abbrev main_cst_75 : Ref sig .tc := ⟨.hbm, 511, rfl⟩
abbrev main_v407 : Ref sig .tc := ⟨.hbm, 512, rfl⟩
abbrev main_v408 : Ref sig .tc := ⟨.hbm, 513, rfl⟩
abbrev main_v409 : Ref sig .tc := ⟨.hbm, 514, rfl⟩
abbrev main_v410 : Ref sig .tc := ⟨.hbm, 515, rfl⟩

abbrev nD : Nat := 1
abbrev τ : Topo := Topo.v7x

variable {F : FTy → Type} [FloatOps F]

class Facts₀ : Prop where
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S_S800000x1 : S_.BroadcastsInDim S800000x1 (![] : Fin 0 → Fin S800000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  scatter_S100000x1_S800000x1_S800000x1_1_0_0_1_wf : ScatterDims.WF S100000x1 S800000x1 S800000x1 [1] [0] [0] 1
  dot_S100000x64_S64x64_S100000x64_1_0_0_1_n_n_wf : DotDims.WF S100000x64 S64x64 S100000x64 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.BRegions.lean ====
/-
  The run of the program's @main as a chain of segments: five stretches of host operations and, between them, four
  kernel regions (the normalisation, then the layer three times), each region a grid of 30 points (3 node types by
  10 row tiles) whose body loads its input blocks whole, computes, and stores its one output block whole.

  Per region, at the buffer contents `V` it is entered from: a window's block at a point, read off its array; what
  the body leaves in the output window's staging buffer (the body's arithmetic of the input blocks); the body's
  triple; the pipeline's proof data and the body obligation at a generic point. Then the buffer contents at every
  segment boundary as a fold from the launch memory: a host stretch applies its operations, a region leaves its
  output array at what its write-backs fold to and every other buffer as entered. The launch over the segments
  gives: every weakly fair execution terminates, without a fault, with every unscoped buffer at the last
  boundary's contents. The statement holds at any float instance.
-/
import proofs.«144736_j57801669869916_1_alg».proof.Proof.Gen.Kernel.Launch
import proofs.«144736_j57801669869916_1_alg».proof.Proof.Gen.Kernel.Skeleton
import proofs.«144736_j57801669869916_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the bodies load and store through: each is its whole buffer -/

abbrev rA : Rect S1x10000x64 := Rect.unit (s := S1x10000x64) ![0, 0, 0] S1x10000x64.size inb_S1x10000x64_S1x10000x64_0_0_0
abbrev rW : Rect S1x64x64 := Rect.unit (s := S1x64x64) ![0, 0, 0] S1x64x64.size inb_S1x64x64_S1x64x64_0_0_0
abbrev rB : Rect S1x1x64 := Rect.unit (s := S1x1x64) ![0, 0, 0] S1x1x64.size inb_S1x1x64_S1x1x64_0_0_0

/-- One store through the whole-buffer rectangle covers the buffer. -/
theorem coverA (p0 : Vec F S1x10000x64 .f32) (y : S1x10000x64.Idx) :
    ∃ pc ∈ ([⟨rA, p0⟩] : List (View.Piece (Elt F) S1x10000x64 .f32)), y ∈ pc.1.set :=
  View.cover_of_tiled [⟨rA, p0⟩] S1x10000x64.size (by rfl) y

section Regions
variable (V : (c : Dev nD) → (b : Ref sig .tc) → Buf (Elt F) ((c : Thread nD τ).loc b))

/-! # Region 0: `cc0__l2norm_kernel`, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The output window's staging buffer after the body: its one store, of the body's arithmetic of the input blocks. -/
def out0 (x0 : Vec F S1x10000x64 .f32) : Vec F S1x10000x64 .f32 :=
  View.canon [⟨rA, k0_pay1 (View.ld x0 rA)⟩]

set_option maxHeartbeats 1000000 in
/-- The body on whole staging memrefs, the inputs' at contents `xW` and the output's at anything, runs to the
    continuation holding the inputs' as they were and the output's at `out0` of them. -/
theorem sound_kernel0 (c : Dev nD) (E : Set ℕ) (i : grid0.Coords) (a0 : Memref sig .tc .vmem S1x10000x64 .f32) (ha0 : a0.IsWhole) (a1 : Memref sig .tc .vmem S1x10000x64 .f32) (ha1 : a1.IsWhole)
    (x0 : Vec F S1x10000x64 .f32) (K : PUnit → sProp 𝕄) :
    iprop(owns (c : Thread nD τ) a0 fullShare x0 ∗ (∃ d, owns (c : Thread nD τ) a1 fullShare d)
        ∗ (iprop(owns (c : Thread nD τ) a0 fullShare x0 ∗ owns (c : Thread nD τ) a1 fullShare (out0 x0)) -∗ K ⟨⟩))
      ⊢ wp frame (wpE (defs₀ (F := F)) Variants.none c none) E (cc0__l2norm_kernel i a0 ha0 a1 ha1) K := by
  simp only [cc0__l2norm_kernel_eq_skeleton]; unfold cc0__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (coverA _)

/-- The proof data of pipeline 0 on core `c`: the arrays as the region finds them; after the body at point `t`
    each input's buffer at its block and the output's at `out0` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: `cc1__sage_kernel`, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body: its one store, of the body's arithmetic of the input blocks. -/
def out1 (x0 : Vec F S1x10000x64 .f32) (x1 : Vec F S1x10000x64 .f32) (x2 : Vec F S1x64x64 .f32) (x3 : Vec F S1x1x64 .f32) (x4 : Vec F S1x64x64 .f32) : Vec F S1x10000x64 .f32 :=
  View.canon [⟨rA, k1_pay1 (View.ld x0 rA) (View.ld x1 rA) (View.ld x2 rW) (View.ld x4 rW) (View.ld x3 rB)⟩]

set_option maxHeartbeats 1000000 in
/-- The body on whole staging memrefs, the inputs' at contents `xW` and the output's at anything, runs to the
    continuation holding the inputs' as they were and the output's at `out1` of them. -/
theorem sound_kernel1 (c : Dev nD) (E : Set ℕ) (i : grid1.Coords) (a0 : Memref sig .tc .vmem S1x10000x64 .f32) (ha0 : a0.IsWhole) (a1 : Memref sig .tc .vmem S1x10000x64 .f32) (ha1 : a1.IsWhole) (a2 : Memref sig .tc .vmem S1x64x64 .f32) (ha2 : a2.IsWhole) (a3 : Memref sig .tc .vmem S1x1x64 .f32) (ha3 : a3.IsWhole) (a4 : Memref sig .tc .vmem S1x64x64 .f32) (ha4 : a4.IsWhole) (a5 : Memref sig .tc .vmem S1x10000x64 .f32) (ha5 : a5.IsWhole)
    (x0 : Vec F S1x10000x64 .f32) (x1 : Vec F S1x10000x64 .f32) (x2 : Vec F S1x64x64 .f32) (x3 : Vec F S1x1x64 .f32) (x4 : Vec F S1x64x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out1 x0 x1 x2 x3 x4)) -∗ K ⟨⟩))
      ⊢ wp frame (wpE (defs₀ (F := F)) Variants.none c none) E (cc1__sage_kernel i a0 ha0 a1 ha1 a2 ha2 a3 ha3 a4 ha4 a5 ha5) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverA _)

/-- The proof data of pipeline 1 on core `c`: the arrays as the region finds them; after the body at point `t`
    each input's buffer at its block and the output's at `out1` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2: `cc2__sage_kernel`, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The output window's staging buffer after the body: its one store, of the body's arithmetic of the input blocks. -/
def out2 (x0 : Vec F S1x10000x64 .f32) (x1 : Vec F S1x10000x64 .f32) (x2 : Vec F S1x64x64 .f32) (x3 : Vec F S1x1x64 .f32) (x4 : Vec F S1x64x64 .f32) : Vec F S1x10000x64 .f32 :=
  View.canon [⟨rA, k2_pay1 (View.ld x0 rA) (View.ld x1 rA) (View.ld x2 rW) (View.ld x4 rW) (View.ld x3 rB)⟩]

set_option maxHeartbeats 1000000 in
/-- The body on whole staging memrefs, the inputs' at contents `xW` and the output's at anything, runs to the
    continuation holding the inputs' as they were and the output's at `out2` of them. -/
theorem sound_kernel2 (c : Dev nD) (E : Set ℕ) (i : grid2.Coords) (a0 : Memref sig .tc .vmem S1x10000x64 .f32) (ha0 : a0.IsWhole) (a1 : Memref sig .tc .vmem S1x10000x64 .f32) (ha1 : a1.IsWhole) (a2 : Memref sig .tc .vmem S1x64x64 .f32) (ha2 : a2.IsWhole) (a3 : Memref sig .tc .vmem S1x1x64 .f32) (ha3 : a3.IsWhole) (a4 : Memref sig .tc .vmem S1x64x64 .f32) (ha4 : a4.IsWhole) (a5 : Memref sig .tc .vmem S1x10000x64 .f32) (ha5 : a5.IsWhole)
    (x0 : Vec F S1x10000x64 .f32) (x1 : Vec F S1x10000x64 .f32) (x2 : Vec F S1x64x64 .f32) (x3 : Vec F S1x1x64 .f32) (x4 : Vec F S1x64x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out2 x0 x1 x2 x3 x4)) -∗ K ⟨⟩))
      ⊢ wp frame (wpE (defs₀ (F := F)) Variants.none c none) E (cc2__sage_kernel i a0 ha0 a1 ha1 a2 ha2 a3 ha3 a4 ha4 a5 ha5) K := by
  simp only [cc2__sage_kernel_eq_skeleton]; unfold cc2__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverA _)

/-- The proof data of pipeline 2 on core `c`: the arrays as the region finds them; after the body at point `t`
    each input's buffer at its block and the output's at `out2` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! # Region 3: `cc3__sage_kernel`, at the entry contents `V` -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The output window's staging buffer after the body: its one store, of the body's arithmetic of the input blocks. -/
def out3 (x0 : Vec F S1x10000x64 .f32) (x1 : Vec F S1x10000x64 .f32) (x2 : Vec F S1x64x64 .f32) (x3 : Vec F S1x1x64 .f32) (x4 : Vec F S1x64x64 .f32) : Vec F S1x10000x64 .f32 :=
  View.canon [⟨rA, k3_pay1 (View.ld x0 rA) (View.ld x1 rA) (View.ld x2 rW) (View.ld x4 rW) (View.ld x3 rB)⟩]

set_option maxHeartbeats 1000000 in
/-- The body on whole staging memrefs, the inputs' at contents `xW` and the output's at anything, runs to the
    continuation holding the inputs' as they were and the output's at `out3` of them. -/
theorem sound_kernel3 (c : Dev nD) (E : Set ℕ) (i : grid3.Coords) (a0 : Memref sig .tc .vmem S1x10000x64 .f32) (ha0 : a0.IsWhole) (a1 : Memref sig .tc .vmem S1x10000x64 .f32) (ha1 : a1.IsWhole) (a2 : Memref sig .tc .vmem S1x64x64 .f32) (ha2 : a2.IsWhole) (a3 : Memref sig .tc .vmem S1x1x64 .f32) (ha3 : a3.IsWhole) (a4 : Memref sig .tc .vmem S1x64x64 .f32) (ha4 : a4.IsWhole) (a5 : Memref sig .tc .vmem S1x10000x64 .f32) (ha5 : a5.IsWhole)
    (x0 : Vec F S1x10000x64 .f32) (x1 : Vec F S1x10000x64 .f32) (x2 : Vec F S1x64x64 .f32) (x3 : Vec F S1x1x64 .f32) (x4 : Vec F S1x64x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out3 x0 x1 x2 x3 x4)) -∗ K ⟨⟩))
      ⊢ wp frame (wpE (defs₀ (F := F)) Variants.none c none) E (cc3__sage_kernel i a0 ha0 a1 ha1 a2 ha2 a3 ha3 a4 ha4 a5 ha5) K := by
  simp only [cc3__sage_kernel_eq_skeleton]; unfold cc3__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverA _)

/-- The proof data of pipeline 3 on core `c`: the arrays as the region finds them; after the body at point `t`
    each input's buffer at its block and the output's at `out3` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.Kernel.Run

end
-- ==== Proof.BRun.lean ====
/-
  The program's run: the buffer contents at each of the nine segment boundaries as a fold from the launch memory,
  the four regions and five host stretches as segments over the thread state "every unscoped buffer at the
  boundary's contents, the generator register at some state, nothing owed", and the launch: every weakly fair
  execution of @main terminates, nothing faulting, with every unscoped buffer at the last boundary's contents.
-/
import proofs.«144736_j57801669869916_1_alg».proof.Proof.BRegions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After host stretch 0: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array is left as entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- After host stretch 1: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An input window's array is left as entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- After host stretch 2: region 2's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- An input window's array is left as entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-- After host stretch 3: region 3's entry. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- An input window's array is left as entered. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))

/-- After host stretch 4: the return. -/
abbrev W9 : Dev nD → Valuation τ sig (Elt F) := fun c => StableHlo.after hostOps4 (W8 m ρ c)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
set_option maxHeartbeats 4000000 in
theorem hostOps2_fresh : (hostOps2 : List (HloOp τ sig (Elt F))).Forall fun op => op.fresh = ∅ := by
  simp only [List.Forall]; repeat' constructor
set_option maxHeartbeats 4000000 in
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

set_option maxHeartbeats 4000000 in
/-- @main is the run of the segments. -/
theorem main_run (c : Dev nD) : main (F := F) c = Pipeline.Seg.run (segs m ρ) := (main_chain c).trans (by chain_rfl)

set_option backward.isDefEq.respectTransparency.types false in
set_option maxHeartbeats 4000000 in
/-- THE RUN: from any memory with zero counters, every weakly fair execution of @main on the TensorCores terminates,
    nothing faulting, and in every final state each unscoped buffer holds the last boundary's contents `W9`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (StableHlo.after hostOps4 (W8 m ρ c)) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.Kernel.Run

end
-- ==== Proof.BArgs.lean ====
/-
  The argument arrays end as launched: no host operation and no region writes one (a region reads the two weight
  arrays through input windows and bypasses the others), so the fold of buffer contents, read at an argument's
  buffer, walks back boundary by boundary to the launch memory.
-/
import proofs.«144736_j57801669869916_1_alg».proof.Proof.BRun

set_option maxRecDepth 16384

noncomputable section

namespace Cert.Kernel.Run

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer no operation of a host stretch writes is left as the stretch found it. -/
macro "host_keep" : tactic => `(tactic| (
  refine StableHlo.after_of_forall_not_mem _ _ (List.forall_iff_forall_mem.mp ?_)
  simp only [hostOps0, hostOps1, hostOps2, hostOps3, hostOps4, List.Forall, StableHlo.nullary_writes, StableHlo.unary_writes,
    StableHlo.binary_writes, StableHlo.ternary_writes, StableHlo.quaternary_writes, StableHlo.reshape_writes,
    StableHlo.binaryIndexed_writes, StableHlo.nary_writes, Finset.mem_singleton]
  repeat' apply And.intro
  all_goals exact StableHlo.devRef_ne_of_ne (by decide)))

/-! ### `main_arg0` -/
theorem W0_arg0 (c : Dev nD) : W0 m ρ c (Proc.devRef .tc main_arg0) = m ((c : Thread nD τ).loc main_arg0) := rfl
theorem W1_arg0 (c : Dev nD) : W1 m ρ c (Proc.devRef .tc main_arg0) = m ((c : Thread nD τ).loc main_arg0) :=
  (show W1 m ρ c (Proc.devRef .tc main_arg0) = W0 m ρ c (Proc.devRef .tc main_arg0) by host_keep).trans (W0_arg0 m ρ c)
theorem W2_arg0 (c : Dev nD) : W2 m ρ c (Proc.devRef .tc main_arg0) = m ((c : Thread nD τ).loc main_arg0) :=
  (W2_of_ne m ρ c main_arg0 (by decide)).trans (W1_arg0 m ρ c)
set_option maxHeartbeats 2000000 in
theorem W3_arg0 (c : Dev nD) : W3 m ρ c (Proc.devRef .tc main_arg0) = m ((c : Thread nD τ).loc main_arg0) :=
  (show W3 m ρ c (Proc.devRef .tc main_arg0) = W2 m ρ c (Proc.devRef .tc main_arg0) by host_keep).trans (W2_arg0 m ρ c)
theorem W4_arg0 (c : Dev nD) : W4 m ρ c (Proc.devRef .tc main_arg0) = m ((c : Thread nD τ).loc main_arg0) :=
  (W4_of_ne m ρ c main_arg0 (by decide)).trans (W3_arg0 m ρ c)
set_option maxHeartbeats 2000000 in
theorem W5_arg0 (c : Dev nD) : W5 m ρ c (Proc.devRef .tc main_arg0) = m ((c : Thread nD τ).loc main_arg0) :=
  (show W5 m ρ c (Proc.devRef .tc main_arg0) = W4 m ρ c (Proc.devRef .tc main_arg0) by host_keep).trans (W4_arg0 m ρ c)
theorem W6_arg0 (c : Dev nD) : W6 m ρ c (Proc.devRef .tc main_arg0) = m ((c : Thread nD τ).loc main_arg0) :=
  (W6_of_ne m ρ c main_arg0 (by decide)).trans (W5_arg0 m ρ c)
set_option maxHeartbeats 2000000 in
theorem W7_arg0 (c : Dev nD) : W7 m ρ c (Proc.devRef .tc main_arg0) = m ((c : Thread nD τ).loc main_arg0) :=
  (show W7 m ρ c (Proc.devRef .tc main_arg0) = W6 m ρ c (Proc.devRef .tc main_arg0) by host_keep).trans (W6_arg0 m ρ c)
theorem W8_arg0 (c : Dev nD) : W8 m ρ c (Proc.devRef .tc main_arg0) = m ((c : Thread nD τ).loc main_arg0) :=
  (W8_of_ne m ρ c main_arg0 (by decide)).trans (W7_arg0 m ρ c)
theorem W9_arg0 (c : Dev nD) : W9 m ρ c (Proc.devRef .tc main_arg0) = m ((c : Thread nD τ).loc main_arg0) :=
  (show W9 m ρ c (Proc.devRef .tc main_arg0) = W8 m ρ c (Proc.devRef .tc main_arg0) by host_keep).trans (W8_arg0 m ρ c)

/-! ### `main_arg1` -/
theorem W0_arg1 (c : Dev nD) : W0 m ρ c (Proc.devRef .tc main_arg1) = m ((c : Thread nD τ).loc main_arg1) := rfl
theorem W1_arg1 (c : Dev nD) : W1 m ρ c (Proc.devRef .tc main_arg1) = m ((c : Thread nD τ).loc main_arg1) :=
  (show W1 m ρ c (Proc.devRef .tc main_arg1) = W0 m ρ c (Proc.devRef .tc main_arg1) by host_keep).trans (W0_arg1 m ρ c)
theorem W2_arg1 (c : Dev nD) : W2 m ρ c (Proc.devRef .tc main_arg1) = m ((c : Thread nD τ).loc main_arg1) :=
  (W2_of_ne m ρ c main_arg1 (by decide)).trans (W1_arg1 m ρ c)
set_option maxHeartbeats 2000000 in
theorem W3_arg1 (c : Dev nD) : W3 m ρ c (Proc.devRef .tc main_arg1) = m ((c : Thread nD τ).loc main_arg1) :=
  (show W3 m ρ c (Proc.devRef .tc main_arg1) = W2 m ρ c (Proc.devRef .tc main_arg1) by host_keep).trans (W2_arg1 m ρ c)
theorem W4_arg1 (c : Dev nD) : W4 m ρ c (Proc.devRef .tc main_arg1) = m ((c : Thread nD τ).loc main_arg1) :=
  (W4_of_ne m ρ c main_arg1 (by decide)).trans (W3_arg1 m ρ c)
set_option maxHeartbeats 2000000 in
theorem W5_arg1 (c : Dev nD) : W5 m ρ c (Proc.devRef .tc main_arg1) = m ((c : Thread nD τ).loc main_arg1) :=
  (show W5 m ρ c (Proc.devRef .tc main_arg1) = W4 m ρ c (Proc.devRef .tc main_arg1) by host_keep).trans (W4_arg1 m ρ c)
theorem W6_arg1 (c : Dev nD) : W6 m ρ c (Proc.devRef .tc main_arg1) = m ((c : Thread nD τ).loc main_arg1) :=
  (W6_of_ne m ρ c main_arg1 (by decide)).trans (W5_arg1 m ρ c)
set_option maxHeartbeats 2000000 in
theorem W7_arg1 (c : Dev nD) : W7 m ρ c (Proc.devRef .tc main_arg1) = m ((c : Thread nD τ).loc main_arg1) :=
  (show W7 m ρ c (Proc.devRef .tc main_arg1) = W6 m ρ c (Proc.devRef .tc main_arg1) by host_keep).trans (W6_arg1 m ρ c)
theorem W8_arg1 (c : Dev nD) : W8 m ρ c (Proc.devRef .tc main_arg1) = m ((c : Thread nD τ).loc main_arg1) :=
  (W8_of_ne m ρ c main_arg1 (by decide)).trans (W7_arg1 m ρ c)
theorem W9_arg1 (c : Dev nD) : W9 m ρ c (Proc.devRef .tc main_arg1) = m ((c : Thread nD τ).loc main_arg1) :=
  (show W9 m ρ c (Proc.devRef .tc main_arg1) = W8 m ρ c (Proc.devRef .tc main_arg1) by host_keep).trans (W8_arg1 m ρ c)

/-! ### `main_arg2` -/
theorem W0_arg2 (c : Dev nD) : W0 m ρ c (Proc.devRef .tc main_arg2) = m ((c : Thread nD τ).loc main_arg2) := rfl
theorem W1_arg2 (c : Dev nD) : W1 m ρ c (Proc.devRef .tc main_arg2) = m ((c : Thread nD τ).loc main_arg2) :=
  (show W1 m ρ c (Proc.devRef .tc main_arg2) = W0 m ρ c (Proc.devRef .tc main_arg2) by host_keep).trans (W0_arg2 m ρ c)
theorem W2_arg2 (c : Dev nD) : W2 m ρ c (Proc.devRef .tc main_arg2) = m ((c : Thread nD τ).loc main_arg2) :=
  (W2_of_ne m ρ c main_arg2 (by decide)).trans (W1_arg2 m ρ c)
set_option maxHeartbeats 2000000 in
theorem W3_arg2 (c : Dev nD) : W3 m ρ c (Proc.devRef .tc main_arg2) = m ((c : Thread nD τ).loc main_arg2) :=
  (show W3 m ρ c (Proc.devRef .tc main_arg2) = W2 m ρ c (Proc.devRef .tc main_arg2) by host_keep).trans (W2_arg2 m ρ c)
theorem W4_arg2 (c : Dev nD) : W4 m ρ c (Proc.devRef .tc main_arg2) = m ((c : Thread nD τ).loc main_arg2) :=
  (W4_of_ne m ρ c main_arg2 (by decide)).trans (W3_arg2 m ρ c)
set_option maxHeartbeats 2000000 in
theorem W5_arg2 (c : Dev nD) : W5 m ρ c (Proc.devRef .tc main_arg2) = m ((c : Thread nD τ).loc main_arg2) :=
  (show W5 m ρ c (Proc.devRef .tc main_arg2) = W4 m ρ c (Proc.devRef .tc main_arg2) by host_keep).trans (W4_arg2 m ρ c)
theorem W6_arg2 (c : Dev nD) : W6 m ρ c (Proc.devRef .tc main_arg2) = m ((c : Thread nD τ).loc main_arg2) :=
  (W6_of_ne m ρ c main_arg2 (by decide)).trans (W5_arg2 m ρ c)
set_option maxHeartbeats 2000000 in
theorem W7_arg2 (c : Dev nD) : W7 m ρ c (Proc.devRef .tc main_arg2) = m ((c : Thread nD τ).loc main_arg2) :=
  (show W7 m ρ c (Proc.devRef .tc main_arg2) = W6 m ρ c (Proc.devRef .tc main_arg2) by host_keep).trans (W6_arg2 m ρ c)
theorem W8_arg2 (c : Dev nD) : W8 m ρ c (Proc.devRef .tc main_arg2) = m ((c : Thread nD τ).loc main_arg2) :=
  (W8_of_ne m ρ c main_arg2 (by decide)).trans (W7_arg2 m ρ c)
theorem W9_arg2 (c : Dev nD) : W9 m ρ c (Proc.devRef .tc main_arg2) = m ((c : Thread nD τ).loc main_arg2) :=
  (show W9 m ρ c (Proc.devRef .tc main_arg2) = W8 m ρ c (Proc.devRef .tc main_arg2) by host_keep).trans (W8_arg2 m ρ c)

/-! ### `main_arg3` -/
theorem W0_arg3 (c : Dev nD) : W0 m ρ c (Proc.devRef .tc main_arg3) = m ((c : Thread nD τ).loc main_arg3) := rfl
theorem W1_arg3 (c : Dev nD) : W1 m ρ c (Proc.devRef .tc main_arg3) = m ((c : Thread nD τ).loc main_arg3) :=
  (show W1 m ρ c (Proc.devRef .tc main_arg3) = W0 m ρ c (Proc.devRef .tc main_arg3) by host_keep).trans (W0_arg3 m ρ c)
theorem W2_arg3 (c : Dev nD) : W2 m ρ c (Proc.devRef .tc main_arg3) = m ((c : Thread nD τ).loc main_arg3) :=
  (W2_of_ne m ρ c main_arg3 (by decide)).trans (W1_arg3 m ρ c)
set_option maxHeartbeats 2000000 in
theorem W3_arg3 (c : Dev nD) : W3 m ρ c (Proc.devRef .tc main_arg3) = m ((c : Thread nD τ).loc main_arg3) :=
  (show W3 m ρ c (Proc.devRef .tc main_arg3) = W2 m ρ c (Proc.devRef .tc main_arg3) by host_keep).trans (W2_arg3 m ρ c)
theorem W4_arg3 (c : Dev nD) : W4 m ρ c (Proc.devRef .tc main_arg3) = m ((c : Thread nD τ).loc main_arg3) :=
  (W4_of_ne m ρ c main_arg3 (by decide)).trans (W3_arg3 m ρ c)
set_option maxHeartbeats 2000000 in
theorem W5_arg3 (c : Dev nD) : W5 m ρ c (Proc.devRef .tc main_arg3) = m ((c : Thread nD τ).loc main_arg3) :=
  (show W5 m ρ c (Proc.devRef .tc main_arg3) = W4 m ρ c (Proc.devRef .tc main_arg3) by host_keep).trans (W4_arg3 m ρ c)
theorem W6_arg3 (c : Dev nD) : W6 m ρ c (Proc.devRef .tc main_arg3) = m ((c : Thread nD τ).loc main_arg3) :=
  (W6_of_ne m ρ c main_arg3 (by decide)).trans (W5_arg3 m ρ c)
set_option maxHeartbeats 2000000 in
theorem W7_arg3 (c : Dev nD) : W7 m ρ c (Proc.devRef .tc main_arg3) = m ((c : Thread nD τ).loc main_arg3) :=
  (show W7 m ρ c (Proc.devRef .tc main_arg3) = W6 m ρ c (Proc.devRef .tc main_arg3) by host_keep).trans (W6_arg3 m ρ c)
theorem W8_arg3 (c : Dev nD) : W8 m ρ c (Proc.devRef .tc main_arg3) = m ((c : Thread nD τ).loc main_arg3) :=
  (W8_of_ne m ρ c main_arg3 (by decide)).trans (W7_arg3 m ρ c)
theorem W9_arg3 (c : Dev nD) : W9 m ρ c (Proc.devRef .tc main_arg3) = m ((c : Thread nD τ).loc main_arg3) :=
  (show W9 m ρ c (Proc.devRef .tc main_arg3) = W8 m ρ c (Proc.devRef .tc main_arg3) by host_keep).trans (W8_arg3 m ρ c)

/-! ### `main_arg4` -/
theorem W0_arg4 (c : Dev nD) : W0 m ρ c (Proc.devRef .tc main_arg4) = m ((c : Thread nD τ).loc main_arg4) := rfl
theorem W1_arg4 (c : Dev nD) : W1 m ρ c (Proc.devRef .tc main_arg4) = m ((c : Thread nD τ).loc main_arg4) :=
  (show W1 m ρ c (Proc.devRef .tc main_arg4) = W0 m ρ c (Proc.devRef .tc main_arg4) by host_keep).trans (W0_arg4 m ρ c)
theorem W2_arg4 (c : Dev nD) : W2 m ρ c (Proc.devRef .tc main_arg4) = m ((c : Thread nD τ).loc main_arg4) :=
  (W2_of_ne m ρ c main_arg4 (by decide)).trans (W1_arg4 m ρ c)
set_option maxHeartbeats 2000000 in
theorem W3_arg4 (c : Dev nD) : W3 m ρ c (Proc.devRef .tc main_arg4) = m ((c : Thread nD τ).loc main_arg4) :=
  (show W3 m ρ c (Proc.devRef .tc main_arg4) = W2 m ρ c (Proc.devRef .tc main_arg4) by host_keep).trans (W2_arg4 m ρ c)
theorem W4_arg4 (c : Dev nD) : W4 m ρ c (Proc.devRef .tc main_arg4) = m ((c : Thread nD τ).loc main_arg4) :=
  (W4_of_ne m ρ c main_arg4 (by decide)).trans (W3_arg4 m ρ c)
set_option maxHeartbeats 2000000 in
theorem W5_arg4 (c : Dev nD) : W5 m ρ c (Proc.devRef .tc main_arg4) = m ((c : Thread nD τ).loc main_arg4) :=
  (show W5 m ρ c (Proc.devRef .tc main_arg4) = W4 m ρ c (Proc.devRef .tc main_arg4) by host_keep).trans (W4_arg4 m ρ c)
theorem W6_arg4 (c : Dev nD) : W6 m ρ c (Proc.devRef .tc main_arg4) = m ((c : Thread nD τ).loc main_arg4) :=
  (W6_of_ne m ρ c main_arg4 (by decide)).trans (W5_arg4 m ρ c)
set_option maxHeartbeats 2000000 in
theorem W7_arg4 (c : Dev nD) : W7 m ρ c (Proc.devRef .tc main_arg4) = m ((c : Thread nD τ).loc main_arg4) :=
  (show W7 m ρ c (Proc.devRef .tc main_arg4) = W6 m ρ c (Proc.devRef .tc main_arg4) by host_keep).trans (W6_arg4 m ρ c)
theorem W8_arg4 (c : Dev nD) : W8 m ρ c (Proc.devRef .tc main_arg4) = m ((c : Thread nD τ).loc main_arg4) :=
  (W8_of_ne m ρ c main_arg4 (by decide)).trans (W7_arg4 m ρ c)
theorem W9_arg4 (c : Dev nD) : W9 m ρ c (Proc.devRef .tc main_arg4) = m ((c : Thread nD τ).loc main_arg4) :=
  (show W9 m ρ c (Proc.devRef .tc main_arg4) = W8 m ρ c (Proc.devRef .tc main_arg4) by host_keep).trans (W8_arg4 m ρ c)

/-! ### `main_arg5` -/
theorem W0_arg5 (c : Dev nD) : W0 m ρ c (Proc.devRef .tc main_arg5) = m ((c : Thread nD τ).loc main_arg5) := rfl
theorem W1_arg5 (c : Dev nD) : W1 m ρ c (Proc.devRef .tc main_arg5) = m ((c : Thread nD τ).loc main_arg5) :=
  (show W1 m ρ c (Proc.devRef .tc main_arg5) = W0 m ρ c (Proc.devRef .tc main_arg5) by host_keep).trans (W0_arg5 m ρ c)
theorem W2_arg5 (c : Dev nD) : W2 m ρ c (Proc.devRef .tc main_arg5) = m ((c : Thread nD τ).loc main_arg5) :=
  (W2_of_ne m ρ c main_arg5 (by decide)).trans (W1_arg5 m ρ c)
set_option maxHeartbeats 2000000 in
theorem W3_arg5 (c : Dev nD) : W3 m ρ c (Proc.devRef .tc main_arg5) = m ((c : Thread nD τ).loc main_arg5) :=
  (show W3 m ρ c (Proc.devRef .tc main_arg5) = W2 m ρ c (Proc.devRef .tc main_arg5) by host_keep).trans (W2_arg5 m ρ c)
theorem W4_arg5 (c : Dev nD) : W4 m ρ c (Proc.devRef .tc main_arg5) = m ((c : Thread nD τ).loc main_arg5) :=
  (W4_of_ne m ρ c main_arg5 (by decide)).trans (W3_arg5 m ρ c)
set_option maxHeartbeats 2000000 in
theorem W5_arg5 (c : Dev nD) : W5 m ρ c (Proc.devRef .tc main_arg5) = m ((c : Thread nD τ).loc main_arg5) :=
  (show W5 m ρ c (Proc.devRef .tc main_arg5) = W4 m ρ c (Proc.devRef .tc main_arg5) by host_keep).trans (W4_arg5 m ρ c)
theorem W6_arg5 (c : Dev nD) : W6 m ρ c (Proc.devRef .tc main_arg5) = m ((c : Thread nD τ).loc main_arg5) :=
  (W6_of_ne m ρ c main_arg5 (by decide)).trans (W5_arg5 m ρ c)
set_option maxHeartbeats 2000000 in
theorem W7_arg5 (c : Dev nD) : W7 m ρ c (Proc.devRef .tc main_arg5) = m ((c : Thread nD τ).loc main_arg5) :=
  (show W7 m ρ c (Proc.devRef .tc main_arg5) = W6 m ρ c (Proc.devRef .tc main_arg5) by host_keep).trans (W6_arg5 m ρ c)
theorem W8_arg5 (c : Dev nD) : W8 m ρ c (Proc.devRef .tc main_arg5) = m ((c : Thread nD τ).loc main_arg5) :=
  (W8_of_ne m ρ c main_arg5 (by decide)).trans (W7_arg5 m ρ c)
theorem W9_arg5 (c : Dev nD) : W9 m ρ c (Proc.devRef .tc main_arg5) = m ((c : Thread nD τ).loc main_arg5) :=
  (show W9 m ρ c (Proc.devRef .tc main_arg5) = W8 m ρ c (Proc.devRef .tc main_arg5) by host_keep).trans (W8_arg5 m ρ c)

/-! ### `main_arg6` -/
theorem W0_arg6 (c : Dev nD) : W0 m ρ c (Proc.devRef .tc main_arg6) = m ((c : Thread nD τ).loc main_arg6) := rfl
theorem W1_arg6 (c : Dev nD) : W1 m ρ c (Proc.devRef .tc main_arg6) = m ((c : Thread nD τ).loc main_arg6) :=
  (show W1 m ρ c (Proc.devRef .tc main_arg6) = W0 m ρ c (Proc.devRef .tc main_arg6) by host_keep).trans (W0_arg6 m ρ c)
theorem W2_arg6 (c : Dev nD) : W2 m ρ c (Proc.devRef .tc main_arg6) = m ((c : Thread nD τ).loc main_arg6) :=
  (W2_of_ne m ρ c main_arg6 (by decide)).trans (W1_arg6 m ρ c)
set_option maxHeartbeats 2000000 in
theorem W3_arg6 (c : Dev nD) : W3 m ρ c (Proc.devRef .tc main_arg6) = m ((c : Thread nD τ).loc main_arg6) :=
  (show W3 m ρ c (Proc.devRef .tc main_arg6) = W2 m ρ c (Proc.devRef .tc main_arg6) by host_keep).trans (W2_arg6 m ρ c)
theorem W4_arg6 (c : Dev nD) : W4 m ρ c (Proc.devRef .tc main_arg6) = m ((c : Thread nD τ).loc main_arg6) :=
  (show W4 m ρ c (Proc.devRef .tc main_arg6) = W3 m ρ c (Proc.devRef .tc main_arg6) from W4_in m ρ c 2 rfl).trans (W3_arg6 m ρ c)
set_option maxHeartbeats 2000000 in
theorem W5_arg6 (c : Dev nD) : W5 m ρ c (Proc.devRef .tc main_arg6) = m ((c : Thread nD τ).loc main_arg6) :=
  (show W5 m ρ c (Proc.devRef .tc main_arg6) = W4 m ρ c (Proc.devRef .tc main_arg6) by host_keep).trans (W4_arg6 m ρ c)
theorem W6_arg6 (c : Dev nD) : W6 m ρ c (Proc.devRef .tc main_arg6) = m ((c : Thread nD τ).loc main_arg6) :=
  (show W6 m ρ c (Proc.devRef .tc main_arg6) = W5 m ρ c (Proc.devRef .tc main_arg6) from W6_in m ρ c 2 rfl).trans (W5_arg6 m ρ c)
set_option maxHeartbeats 2000000 in
theorem W7_arg6 (c : Dev nD) : W7 m ρ c (Proc.devRef .tc main_arg6) = m ((c : Thread nD τ).loc main_arg6) :=
  (show W7 m ρ c (Proc.devRef .tc main_arg6) = W6 m ρ c (Proc.devRef .tc main_arg6) by host_keep).trans (W6_arg6 m ρ c)
theorem W8_arg6 (c : Dev nD) : W8 m ρ c (Proc.devRef .tc main_arg6) = m ((c : Thread nD τ).loc main_arg6) :=
  (show W8 m ρ c (Proc.devRef .tc main_arg6) = W7 m ρ c (Proc.devRef .tc main_arg6) from W8_in m ρ c 2 rfl).trans (W7_arg6 m ρ c)
theorem W9_arg6 (c : Dev nD) : W9 m ρ c (Proc.devRef .tc main_arg6) = m ((c : Thread nD τ).loc main_arg6) :=
  (show W9 m ρ c (Proc.devRef .tc main_arg6) = W8 m ρ c (Proc.devRef .tc main_arg6) by host_keep).trans (W8_arg6 m ρ c)

/-! ### `main_arg7` -/
theorem W0_arg7 (c : Dev nD) : W0 m ρ c (Proc.devRef .tc main_arg7) = m ((c : Thread nD τ).loc main_arg7) := rfl
theorem W1_arg7 (c : Dev nD) : W1 m ρ c (Proc.devRef .tc main_arg7) = m ((c : Thread nD τ).loc main_arg7) :=
  (show W1 m ρ c (Proc.devRef .tc main_arg7) = W0 m ρ c (Proc.devRef .tc main_arg7) by host_keep).trans (W0_arg7 m ρ c)
theorem W2_arg7 (c : Dev nD) : W2 m ρ c (Proc.devRef .tc main_arg7) = m ((c : Thread nD τ).loc main_arg7) :=
  (W2_of_ne m ρ c main_arg7 (by decide)).trans (W1_arg7 m ρ c)
set_option maxHeartbeats 2000000 in
theorem W3_arg7 (c : Dev nD) : W3 m ρ c (Proc.devRef .tc main_arg7) = m ((c : Thread nD τ).loc main_arg7) :=
  (show W3 m ρ c (Proc.devRef .tc main_arg7) = W2 m ρ c (Proc.devRef .tc main_arg7) by host_keep).trans (W2_arg7 m ρ c)
theorem W4_arg7 (c : Dev nD) : W4 m ρ c (Proc.devRef .tc main_arg7) = m ((c : Thread nD τ).loc main_arg7) :=
  (W4_of_ne m ρ c main_arg7 (by decide)).trans (W3_arg7 m ρ c)
set_option maxHeartbeats 2000000 in
theorem W5_arg7 (c : Dev nD) : W5 m ρ c (Proc.devRef .tc main_arg7) = m ((c : Thread nD τ).loc main_arg7) :=
  (show W5 m ρ c (Proc.devRef .tc main_arg7) = W4 m ρ c (Proc.devRef .tc main_arg7) by host_keep).trans (W4_arg7 m ρ c)
theorem W6_arg7 (c : Dev nD) : W6 m ρ c (Proc.devRef .tc main_arg7) = m ((c : Thread nD τ).loc main_arg7) :=
  (W6_of_ne m ρ c main_arg7 (by decide)).trans (W5_arg7 m ρ c)
set_option maxHeartbeats 2000000 in
theorem W7_arg7 (c : Dev nD) : W7 m ρ c (Proc.devRef .tc main_arg7) = m ((c : Thread nD τ).loc main_arg7) :=
  (show W7 m ρ c (Proc.devRef .tc main_arg7) = W6 m ρ c (Proc.devRef .tc main_arg7) by host_keep).trans (W6_arg7 m ρ c)
theorem W8_arg7 (c : Dev nD) : W8 m ρ c (Proc.devRef .tc main_arg7) = m ((c : Thread nD τ).loc main_arg7) :=
  (W8_of_ne m ρ c main_arg7 (by decide)).trans (W7_arg7 m ρ c)
theorem W9_arg7 (c : Dev nD) : W9 m ρ c (Proc.devRef .tc main_arg7) = m ((c : Thread nD τ).loc main_arg7) :=
  (show W9 m ρ c (Proc.devRef .tc main_arg7) = W8 m ρ c (Proc.devRef .tc main_arg7) by host_keep).trans (W8_arg7 m ρ c)

/-! ### `main_arg8` -/
theorem W0_arg8 (c : Dev nD) : W0 m ρ c (Proc.devRef .tc main_arg8) = m ((c : Thread nD τ).loc main_arg8) := rfl
theorem W1_arg8 (c : Dev nD) : W1 m ρ c (Proc.devRef .tc main_arg8) = m ((c : Thread nD τ).loc main_arg8) :=
  (show W1 m ρ c (Proc.devRef .tc main_arg8) = W0 m ρ c (Proc.devRef .tc main_arg8) by host_keep).trans (W0_arg8 m ρ c)
theorem W2_arg8 (c : Dev nD) : W2 m ρ c (Proc.devRef .tc main_arg8) = m ((c : Thread nD τ).loc main_arg8) :=
  (W2_of_ne m ρ c main_arg8 (by decide)).trans (W1_arg8 m ρ c)
set_option maxHeartbeats 2000000 in
theorem W3_arg8 (c : Dev nD) : W3 m ρ c (Proc.devRef .tc main_arg8) = m ((c : Thread nD τ).loc main_arg8) :=
  (show W3 m ρ c (Proc.devRef .tc main_arg8) = W2 m ρ c (Proc.devRef .tc main_arg8) by host_keep).trans (W2_arg8 m ρ c)
theorem W4_arg8 (c : Dev nD) : W4 m ρ c (Proc.devRef .tc main_arg8) = m ((c : Thread nD τ).loc main_arg8) :=
  (show W4 m ρ c (Proc.devRef .tc main_arg8) = W3 m ρ c (Proc.devRef .tc main_arg8) from W4_in m ρ c 4 rfl).trans (W3_arg8 m ρ c)
set_option maxHeartbeats 2000000 in
theorem W5_arg8 (c : Dev nD) : W5 m ρ c (Proc.devRef .tc main_arg8) = m ((c : Thread nD τ).loc main_arg8) :=
  (show W5 m ρ c (Proc.devRef .tc main_arg8) = W4 m ρ c (Proc.devRef .tc main_arg8) by host_keep).trans (W4_arg8 m ρ c)
theorem W6_arg8 (c : Dev nD) : W6 m ρ c (Proc.devRef .tc main_arg8) = m ((c : Thread nD τ).loc main_arg8) :=
  (show W6 m ρ c (Proc.devRef .tc main_arg8) = W5 m ρ c (Proc.devRef .tc main_arg8) from W6_in m ρ c 4 rfl).trans (W5_arg8 m ρ c)
set_option maxHeartbeats 2000000 in
theorem W7_arg8 (c : Dev nD) : W7 m ρ c (Proc.devRef .tc main_arg8) = m ((c : Thread nD τ).loc main_arg8) :=
  (show W7 m ρ c (Proc.devRef .tc main_arg8) = W6 m ρ c (Proc.devRef .tc main_arg8) by host_keep).trans (W6_arg8 m ρ c)
theorem W8_arg8 (c : Dev nD) : W8 m ρ c (Proc.devRef .tc main_arg8) = m ((c : Thread nD τ).loc main_arg8) :=
  (show W8 m ρ c (Proc.devRef .tc main_arg8) = W7 m ρ c (Proc.devRef .tc main_arg8) from W8_in m ρ c 4 rfl).trans (W7_arg8 m ρ c)
theorem W9_arg8 (c : Dev nD) : W9 m ρ c (Proc.devRef .tc main_arg8) = m ((c : Thread nD τ).loc main_arg8) :=
  (show W9 m ρ c (Proc.devRef .tc main_arg8) = W8 m ρ c (Proc.devRef .tc main_arg8) by host_keep).trans (W8_arg8 m ρ c)

/-- THE FRAME, at any float instance: @main runs to the end, nothing faulting, and its nine argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W9_arg0 m ρ c),
      (h c _ (mem_uc main_arg1 (by decide))).trans (W9_arg1 m ρ c),
      (h c _ (mem_uc main_arg2 (by decide))).trans (W9_arg2 m ρ c),
      (h c _ (mem_uc main_arg3 (by decide))).trans (W9_arg3 m ρ c),
      (h c _ (mem_uc main_arg4 (by decide))).trans (W9_arg4 m ρ c),
      (h c _ (mem_uc main_arg5 (by decide))).trans (W9_arg5 m ρ c),
      (h c _ (mem_uc main_arg6 (by decide))).trans (W9_arg6 m ρ c),
      (h c _ (mem_uc main_arg7 (by decide))).trans (W9_arg7 m ρ c),
      (h c _ (mem_uc main_arg8 (by decide))).trans (W9_arg8 m ρ c)⟩)
    (run_main m ρ)

end Cert.Kernel.Run

end
-- ==== Proof.KRegions.lean ====
/-
  The run of the program's @main as a chain of segments: five stretches of host operations and, between them, four
  kernel regions (the normalisation, then the layer three times), each region a grid of 30 points (3 node types by
  10 row tiles) whose body loads its input blocks whole, computes, and stores its one output block whole.

  Per region, at the buffer contents `V` it is entered from: a window's block at a point, read off its array; what
  the body leaves in the output window's staging buffer (the body's arithmetic of the input blocks); the body's
  triple; the pipeline's proof data and the body obligation at a generic point. Then the buffer contents at every
  segment boundary as a fold from the launch memory: a host stretch applies its operations, a region leaves its
  output array at what its write-backs fold to and every other buffer as entered. The launch over the segments
  gives: every weakly fair execution terminates, without a fault, with every unscoped buffer at the last
  boundary's contents. The statement holds at any float instance.
-/
import proofs.«144736_j57801669869916_1_alg».proof.Proof.Gen.KernelIdeal.Launch
import proofs.«144736_j57801669869916_1_alg».proof.Proof.Gen.KernelIdeal.Skeleton
import proofs.«144736_j57801669869916_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rectangles the bodies load and store through: each is its whole buffer -/

abbrev rA : Rect S1x10000x64 := Rect.unit (s := S1x10000x64) ![0, 0, 0] S1x10000x64.size inb_S1x10000x64_S1x10000x64_0_0_0
abbrev rW : Rect S1x64x64 := Rect.unit (s := S1x64x64) ![0, 0, 0] S1x64x64.size inb_S1x64x64_S1x64x64_0_0_0
abbrev rB : Rect S1x1x64 := Rect.unit (s := S1x1x64) ![0, 0, 0] S1x1x64.size inb_S1x1x64_S1x1x64_0_0_0

/-- One store through the whole-buffer rectangle covers the buffer. -/
theorem coverA (p0 : Vec F S1x10000x64 .f32) (y : S1x10000x64.Idx) :
    ∃ pc ∈ ([⟨rA, p0⟩] : List (View.Piece (Elt F) S1x10000x64 .f32)), y ∈ pc.1.set :=
  View.cover_of_tiled [⟨rA, p0⟩] S1x10000x64.size (by rfl) y

section Regions
variable (V : (c : Dev nD) → (b : Ref sig .tc) → Buf (Elt F) ((c : Thread nD τ).loc b))

/-! # Region 0: `cc0__l2norm_kernel`, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The output window's staging buffer after the body: its one store, of the body's arithmetic of the input blocks. -/
def out0 (x0 : Vec F S1x10000x64 .f32) : Vec F S1x10000x64 .f32 :=
  View.canon [⟨rA, k0_pay1 (View.ld x0 rA)⟩]

set_option maxHeartbeats 1000000 in
/-- The body on whole staging memrefs, the inputs' at contents `xW` and the output's at anything, runs to the
    continuation holding the inputs' as they were and the output's at `out0` of them. -/
theorem sound_kernel0 (c : Dev nD) (E : Set ℕ) (i : grid0.Coords) (a0 : Memref sig .tc .vmem S1x10000x64 .f32) (ha0 : a0.IsWhole) (a1 : Memref sig .tc .vmem S1x10000x64 .f32) (ha1 : a1.IsWhole)
    (x0 : Vec F S1x10000x64 .f32) (K : PUnit → sProp 𝕄) :
    iprop(owns (c : Thread nD τ) a0 fullShare x0 ∗ (∃ d, owns (c : Thread nD τ) a1 fullShare d)
        ∗ (iprop(owns (c : Thread nD τ) a0 fullShare x0 ∗ owns (c : Thread nD τ) a1 fullShare (out0 x0)) -∗ K ⟨⟩))
      ⊢ wp frame (wpE (defs₀ (F := F)) Variants.none c none) E (cc0__l2norm_kernel i a0 ha0 a1 ha1) K := by
  simp only [cc0__l2norm_kernel_eq_skeleton]; unfold cc0__l2norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (coverA _)

/-- The proof data of pipeline 0 on core `c`: the arrays as the region finds them; after the body at point `t`
    each input's buffer at its block and the output's at `out0` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the inputs' memrefs hold their blocks, so the body's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: `cc1__sage_kernel`, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body: its one store, of the body's arithmetic of the input blocks. -/
def out1 (x0 : Vec F S1x10000x64 .f32) (x1 : Vec F S1x10000x64 .f32) (x2 : Vec F S1x64x64 .f32) (x3 : Vec F S1x1x64 .f32) (x4 : Vec F S1x64x64 .f32) : Vec F S1x10000x64 .f32 :=
  View.canon [⟨rA, k1_pay1 (View.ld x0 rA) (View.ld x1 rA) (View.ld x2 rW) (View.ld x4 rW) (View.ld x3 rB)⟩]

set_option maxHeartbeats 1000000 in
/-- The body on whole staging memrefs, the inputs' at contents `xW` and the output's at anything, runs to the
    continuation holding the inputs' as they were and the output's at `out1` of them. -/
theorem sound_kernel1 (c : Dev nD) (E : Set ℕ) (i : grid1.Coords) (a0 : Memref sig .tc .vmem S1x10000x64 .f32) (ha0 : a0.IsWhole) (a1 : Memref sig .tc .vmem S1x10000x64 .f32) (ha1 : a1.IsWhole) (a2 : Memref sig .tc .vmem S1x64x64 .f32) (ha2 : a2.IsWhole) (a3 : Memref sig .tc .vmem S1x1x64 .f32) (ha3 : a3.IsWhole) (a4 : Memref sig .tc .vmem S1x64x64 .f32) (ha4 : a4.IsWhole) (a5 : Memref sig .tc .vmem S1x10000x64 .f32) (ha5 : a5.IsWhole)
    (x0 : Vec F S1x10000x64 .f32) (x1 : Vec F S1x10000x64 .f32) (x2 : Vec F S1x64x64 .f32) (x3 : Vec F S1x1x64 .f32) (x4 : Vec F S1x64x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out1 x0 x1 x2 x3 x4)) -∗ K ⟨⟩))
      ⊢ wp frame (wpE (defs₀ (F := F)) Variants.none c none) E (cc1__sage_kernel i a0 ha0 a1 ha1 a2 ha2 a3 ha3 a4 ha4 a5 ha5) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverA _)

/-- The proof data of pipeline 1 on core `c`: the arrays as the region finds them; after the body at point `t`
    each input's buffer at its block and the output's at `out1` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # Region 2: `cc2__sage_kernel`, at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- The output window's staging buffer after the body: its one store, of the body's arithmetic of the input blocks. -/
def out2 (x0 : Vec F S1x10000x64 .f32) (x1 : Vec F S1x10000x64 .f32) (x2 : Vec F S1x64x64 .f32) (x3 : Vec F S1x1x64 .f32) (x4 : Vec F S1x64x64 .f32) : Vec F S1x10000x64 .f32 :=
  View.canon [⟨rA, k2_pay1 (View.ld x0 rA) (View.ld x1 rA) (View.ld x2 rW) (View.ld x4 rW) (View.ld x3 rB)⟩]

set_option maxHeartbeats 1000000 in
/-- The body on whole staging memrefs, the inputs' at contents `xW` and the output's at anything, runs to the
    continuation holding the inputs' as they were and the output's at `out2` of them. -/
theorem sound_kernel2 (c : Dev nD) (E : Set ℕ) (i : grid2.Coords) (a0 : Memref sig .tc .vmem S1x10000x64 .f32) (ha0 : a0.IsWhole) (a1 : Memref sig .tc .vmem S1x10000x64 .f32) (ha1 : a1.IsWhole) (a2 : Memref sig .tc .vmem S1x64x64 .f32) (ha2 : a2.IsWhole) (a3 : Memref sig .tc .vmem S1x1x64 .f32) (ha3 : a3.IsWhole) (a4 : Memref sig .tc .vmem S1x64x64 .f32) (ha4 : a4.IsWhole) (a5 : Memref sig .tc .vmem S1x10000x64 .f32) (ha5 : a5.IsWhole)
    (x0 : Vec F S1x10000x64 .f32) (x1 : Vec F S1x10000x64 .f32) (x2 : Vec F S1x64x64 .f32) (x3 : Vec F S1x1x64 .f32) (x4 : Vec F S1x64x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out2 x0 x1 x2 x3 x4)) -∗ K ⟨⟩))
      ⊢ wp frame (wpE (defs₀ (F := F)) Variants.none c none) E (cc2__sage_kernel i a0 ha0 a1 ha1 a2 ha2 a3 ha3 a4 ha4 a5 ha5) K := by
  simp only [cc2__sage_kernel_eq_skeleton]; unfold cc2__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverA _)

/-- The proof data of pipeline 2 on core `c`: the arrays as the region finds them; after the body at point `t`
    each input's buffer at its block and the output's at `out2` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! # Region 3: `cc3__sage_kernel`, at the entry contents `V` -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The output window's staging buffer after the body: its one store, of the body's arithmetic of the input blocks. -/
def out3 (x0 : Vec F S1x10000x64 .f32) (x1 : Vec F S1x10000x64 .f32) (x2 : Vec F S1x64x64 .f32) (x3 : Vec F S1x1x64 .f32) (x4 : Vec F S1x64x64 .f32) : Vec F S1x10000x64 .f32 :=
  View.canon [⟨rA, k3_pay1 (View.ld x0 rA) (View.ld x1 rA) (View.ld x2 rW) (View.ld x4 rW) (View.ld x3 rB)⟩]

set_option maxHeartbeats 1000000 in
/-- The body on whole staging memrefs, the inputs' at contents `xW` and the output's at anything, runs to the
    continuation holding the inputs' as they were and the output's at `out3` of them. -/
theorem sound_kernel3 (c : Dev nD) (E : Set ℕ) (i : grid3.Coords) (a0 : Memref sig .tc .vmem S1x10000x64 .f32) (ha0 : a0.IsWhole) (a1 : Memref sig .tc .vmem S1x10000x64 .f32) (ha1 : a1.IsWhole) (a2 : Memref sig .tc .vmem S1x64x64 .f32) (ha2 : a2.IsWhole) (a3 : Memref sig .tc .vmem S1x1x64 .f32) (ha3 : a3.IsWhole) (a4 : Memref sig .tc .vmem S1x64x64 .f32) (ha4 : a4.IsWhole) (a5 : Memref sig .tc .vmem S1x10000x64 .f32) (ha5 : a5.IsWhole)
    (x0 : Vec F S1x10000x64 .f32) (x1 : Vec F S1x10000x64 .f32) (x2 : Vec F S1x64x64 .f32) (x3 : Vec F S1x1x64 .f32) (x4 : Vec F S1x64x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out3 x0 x1 x2 x3 x4)) -∗ K ⟨⟩))
      ⊢ wp frame (wpE (defs₀ (F := F)) Variants.none c none) E (cc3__sage_kernel i a0 ha0 a1 ha1 a2 ha2 a3 ha3 a4 ha4 a5 ha5) K := by
  simp only [cc3__sage_kernel_eq_skeleton]; unfold cc3__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverA _)

/-- The proof data of pipeline 3 on core `c`: the arrays as the region finds them; after the body at point `t`
    each input's buffer at its block and the output's at `out3` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.KernelIdeal.Run

end
-- ==== Proof.KRun.lean ====
/-
  The program's run: the buffer contents at each of the nine segment boundaries as a fold from the launch memory,
  the four regions and five host stretches as segments over the thread state "every unscoped buffer at the
  boundary's contents, the generator register at some state, nothing owed", and the launch: every weakly fair
  execution of @main terminates, nothing faulting, with every unscoped buffer at the last boundary's contents.
-/
import proofs.«144736_j57801669869916_1_alg».proof.Proof.KRegions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After host stretch 0: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array is left as entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- After host stretch 1: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An input window's array is left as entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- After host stretch 2: region 2's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- An input window's array is left as entered. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-- After host stretch 3: region 3's entry. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- An input window's array is left as entered. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))

/-- After host stretch 4: the return. -/
abbrev W9 : Dev nD → Valuation τ sig (Elt F) := fun c => StableHlo.after hostOps4 (W8 m ρ c)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
set_option maxHeartbeats 4000000 in
theorem hostOps2_fresh : (hostOps2 : List (HloOp τ sig (Elt F))).Forall fun op => op.fresh = ∅ := by
  simp only [List.Forall]; repeat' constructor
set_option maxHeartbeats 4000000 in
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

set_option maxHeartbeats 4000000 in
/-- @main is the run of the segments. -/
theorem main_run (c : Dev nD) : main (F := F) c = Pipeline.Seg.run (segs m ρ) := (main_chain c).trans (by chain_rfl)

set_option backward.isDefEq.respectTransparency.types false in
set_option maxHeartbeats 4000000 in
/-- THE RUN: from any memory with zero counters, every weakly fair execution of @main on the TensorCores terminates,
    nothing faulting, and in every final state each unscoped buffer holds the last boundary's contents `W9`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (StableHlo.after hostOps4 (W8 m ρ c)) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.KernelIdeal.Run

end
-- ==== Proof.KArgs.lean ====
/-
  The argument arrays end as launched: no host operation and no region writes one (a region reads the two weight
  arrays through input windows and bypasses the others), so the fold of buffer contents, read at an argument's
  buffer, walks back boundary by boundary to the launch memory.
-/
import proofs.«144736_j57801669869916_1_alg».proof.Proof.KRun

set_option maxRecDepth 16384

noncomputable section

namespace Cert.KernelIdeal.Run

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer no operation of a host stretch writes is left as the stretch found it. -/
macro "host_keep" : tactic => `(tactic| (
  refine StableHlo.after_of_forall_not_mem _ _ (List.forall_iff_forall_mem.mp ?_)
  simp only [hostOps0, hostOps1, hostOps2, hostOps3, hostOps4, List.Forall, StableHlo.nullary_writes, StableHlo.unary_writes,
    StableHlo.binary_writes, StableHlo.ternary_writes, StableHlo.quaternary_writes, StableHlo.reshape_writes,
    StableHlo.binaryIndexed_writes, StableHlo.nary_writes, Finset.mem_singleton]
  repeat' apply And.intro
  all_goals exact StableHlo.devRef_ne_of_ne (by decide)))

/-! ### `main_arg0` -/
theorem W0_arg0 (c : Dev nD) : W0 m ρ c (Proc.devRef .tc main_arg0) = m ((c : Thread nD τ).loc main_arg0) := rfl
theorem W1_arg0 (c : Dev nD) : W1 m ρ c (Proc.devRef .tc main_arg0) = m ((c : Thread nD τ).loc main_arg0) :=
  (show W1 m ρ c (Proc.devRef .tc main_arg0) = W0 m ρ c (Proc.devRef .tc main_arg0) by host_keep).trans (W0_arg0 m ρ c)
theorem W2_arg0 (c : Dev nD) : W2 m ρ c (Proc.devRef .tc main_arg0) = m ((c : Thread nD τ).loc main_arg0) :=
  (W2_of_ne m ρ c main_arg0 (by decide)).trans (W1_arg0 m ρ c)
set_option maxHeartbeats 2000000 in
theorem W3_arg0 (c : Dev nD) : W3 m ρ c (Proc.devRef .tc main_arg0) = m ((c : Thread nD τ).loc main_arg0) :=
  (show W3 m ρ c (Proc.devRef .tc main_arg0) = W2 m ρ c (Proc.devRef .tc main_arg0) by host_keep).trans (W2_arg0 m ρ c)
theorem W4_arg0 (c : Dev nD) : W4 m ρ c (Proc.devRef .tc main_arg0) = m ((c : Thread nD τ).loc main_arg0) :=
  (W4_of_ne m ρ c main_arg0 (by decide)).trans (W3_arg0 m ρ c)
set_option maxHeartbeats 2000000 in
theorem W5_arg0 (c : Dev nD) : W5 m ρ c (Proc.devRef .tc main_arg0) = m ((c : Thread nD τ).loc main_arg0) :=
  (show W5 m ρ c (Proc.devRef .tc main_arg0) = W4 m ρ c (Proc.devRef .tc main_arg0) by host_keep).trans (W4_arg0 m ρ c)
theorem W6_arg0 (c : Dev nD) : W6 m ρ c (Proc.devRef .tc main_arg0) = m ((c : Thread nD τ).loc main_arg0) :=
  (W6_of_ne m ρ c main_arg0 (by decide)).trans (W5_arg0 m ρ c)
set_option maxHeartbeats 2000000 in
theorem W7_arg0 (c : Dev nD) : W7 m ρ c (Proc.devRef .tc main_arg0) = m ((c : Thread nD τ).loc main_arg0) :=
  (show W7 m ρ c (Proc.devRef .tc main_arg0) = W6 m ρ c (Proc.devRef .tc main_arg0) by host_keep).trans (W6_arg0 m ρ c)
theorem W8_arg0 (c : Dev nD) : W8 m ρ c (Proc.devRef .tc main_arg0) = m ((c : Thread nD τ).loc main_arg0) :=
  (W8_of_ne m ρ c main_arg0 (by decide)).trans (W7_arg0 m ρ c)
theorem W9_arg0 (c : Dev nD) : W9 m ρ c (Proc.devRef .tc main_arg0) = m ((c : Thread nD τ).loc main_arg0) :=
  (show W9 m ρ c (Proc.devRef .tc main_arg0) = W8 m ρ c (Proc.devRef .tc main_arg0) by host_keep).trans (W8_arg0 m ρ c)

/-! ### `main_arg1` -/
theorem W0_arg1 (c : Dev nD) : W0 m ρ c (Proc.devRef .tc main_arg1) = m ((c : Thread nD τ).loc main_arg1) := rfl
theorem W1_arg1 (c : Dev nD) : W1 m ρ c (Proc.devRef .tc main_arg1) = m ((c : Thread nD τ).loc main_arg1) :=
  (show W1 m ρ c (Proc.devRef .tc main_arg1) = W0 m ρ c (Proc.devRef .tc main_arg1) by host_keep).trans (W0_arg1 m ρ c)
theorem W2_arg1 (c : Dev nD) : W2 m ρ c (Proc.devRef .tc main_arg1) = m ((c : Thread nD τ).loc main_arg1) :=
  (W2_of_ne m ρ c main_arg1 (by decide)).trans (W1_arg1 m ρ c)
set_option maxHeartbeats 2000000 in
theorem W3_arg1 (c : Dev nD) : W3 m ρ c (Proc.devRef .tc main_arg1) = m ((c : Thread nD τ).loc main_arg1) :=
  (show W3 m ρ c (Proc.devRef .tc main_arg1) = W2 m ρ c (Proc.devRef .tc main_arg1) by host_keep).trans (W2_arg1 m ρ c)
theorem W4_arg1 (c : Dev nD) : W4 m ρ c (Proc.devRef .tc main_arg1) = m ((c : Thread nD τ).loc main_arg1) :=
  (W4_of_ne m ρ c main_arg1 (by decide)).trans (W3_arg1 m ρ c)
set_option maxHeartbeats 2000000 in
theorem W5_arg1 (c : Dev nD) : W5 m ρ c (Proc.devRef .tc main_arg1) = m ((c : Thread nD τ).loc main_arg1) :=
  (show W5 m ρ c (Proc.devRef .tc main_arg1) = W4 m ρ c (Proc.devRef .tc main_arg1) by host_keep).trans (W4_arg1 m ρ c)
theorem W6_arg1 (c : Dev nD) : W6 m ρ c (Proc.devRef .tc main_arg1) = m ((c : Thread nD τ).loc main_arg1) :=
  (W6_of_ne m ρ c main_arg1 (by decide)).trans (W5_arg1 m ρ c)
set_option maxHeartbeats 2000000 in
theorem W7_arg1 (c : Dev nD) : W7 m ρ c (Proc.devRef .tc main_arg1) = m ((c : Thread nD τ).loc main_arg1) :=
  (show W7 m ρ c (Proc.devRef .tc main_arg1) = W6 m ρ c (Proc.devRef .tc main_arg1) by host_keep).trans (W6_arg1 m ρ c)
theorem W8_arg1 (c : Dev nD) : W8 m ρ c (Proc.devRef .tc main_arg1) = m ((c : Thread nD τ).loc main_arg1) :=
  (W8_of_ne m ρ c main_arg1 (by decide)).trans (W7_arg1 m ρ c)
theorem W9_arg1 (c : Dev nD) : W9 m ρ c (Proc.devRef .tc main_arg1) = m ((c : Thread nD τ).loc main_arg1) :=
  (show W9 m ρ c (Proc.devRef .tc main_arg1) = W8 m ρ c (Proc.devRef .tc main_arg1) by host_keep).trans (W8_arg1 m ρ c)

/-! ### `main_arg2` -/
theorem W0_arg2 (c : Dev nD) : W0 m ρ c (Proc.devRef .tc main_arg2) = m ((c : Thread nD τ).loc main_arg2) := rfl
theorem W1_arg2 (c : Dev nD) : W1 m ρ c (Proc.devRef .tc main_arg2) = m ((c : Thread nD τ).loc main_arg2) :=
  (show W1 m ρ c (Proc.devRef .tc main_arg2) = W0 m ρ c (Proc.devRef .tc main_arg2) by host_keep).trans (W0_arg2 m ρ c)
theorem W2_arg2 (c : Dev nD) : W2 m ρ c (Proc.devRef .tc main_arg2) = m ((c : Thread nD τ).loc main_arg2) :=
  (W2_of_ne m ρ c main_arg2 (by decide)).trans (W1_arg2 m ρ c)
set_option maxHeartbeats 2000000 in
theorem W3_arg2 (c : Dev nD) : W3 m ρ c (Proc.devRef .tc main_arg2) = m ((c : Thread nD τ).loc main_arg2) :=
  (show W3 m ρ c (Proc.devRef .tc main_arg2) = W2 m ρ c (Proc.devRef .tc main_arg2) by host_keep).trans (W2_arg2 m ρ c)
theorem W4_arg2 (c : Dev nD) : W4 m ρ c (Proc.devRef .tc main_arg2) = m ((c : Thread nD τ).loc main_arg2) :=
  (W4_of_ne m ρ c main_arg2 (by decide)).trans (W3_arg2 m ρ c)
set_option maxHeartbeats 2000000 in
theorem W5_arg2 (c : Dev nD) : W5 m ρ c (Proc.devRef .tc main_arg2) = m ((c : Thread nD τ).loc main_arg2) :=
  (show W5 m ρ c (Proc.devRef .tc main_arg2) = W4 m ρ c (Proc.devRef .tc main_arg2) by host_keep).trans (W4_arg2 m ρ c)
theorem W6_arg2 (c : Dev nD) : W6 m ρ c (Proc.devRef .tc main_arg2) = m ((c : Thread nD τ).loc main_arg2) :=
  (W6_of_ne m ρ c main_arg2 (by decide)).trans (W5_arg2 m ρ c)
set_option maxHeartbeats 2000000 in
theorem W7_arg2 (c : Dev nD) : W7 m ρ c (Proc.devRef .tc main_arg2) = m ((c : Thread nD τ).loc main_arg2) :=
  (show W7 m ρ c (Proc.devRef .tc main_arg2) = W6 m ρ c (Proc.devRef .tc main_arg2) by host_keep).trans (W6_arg2 m ρ c)
theorem W8_arg2 (c : Dev nD) : W8 m ρ c (Proc.devRef .tc main_arg2) = m ((c : Thread nD τ).loc main_arg2) :=
  (W8_of_ne m ρ c main_arg2 (by decide)).trans (W7_arg2 m ρ c)
theorem W9_arg2 (c : Dev nD) : W9 m ρ c (Proc.devRef .tc main_arg2) = m ((c : Thread nD τ).loc main_arg2) :=
  (show W9 m ρ c (Proc.devRef .tc main_arg2) = W8 m ρ c (Proc.devRef .tc main_arg2) by host_keep).trans (W8_arg2 m ρ c)

/-! ### `main_arg3` -/
theorem W0_arg3 (c : Dev nD) : W0 m ρ c (Proc.devRef .tc main_arg3) = m ((c : Thread nD τ).loc main_arg3) := rfl
theorem W1_arg3 (c : Dev nD) : W1 m ρ c (Proc.devRef .tc main_arg3) = m ((c : Thread nD τ).loc main_arg3) :=
  (show W1 m ρ c (Proc.devRef .tc main_arg3) = W0 m ρ c (Proc.devRef .tc main_arg3) by host_keep).trans (W0_arg3 m ρ c)
theorem W2_arg3 (c : Dev nD) : W2 m ρ c (Proc.devRef .tc main_arg3) = m ((c : Thread nD τ).loc main_arg3) :=
  (W2_of_ne m ρ c main_arg3 (by decide)).trans (W1_arg3 m ρ c)
set_option maxHeartbeats 2000000 in
theorem W3_arg3 (c : Dev nD) : W3 m ρ c (Proc.devRef .tc main_arg3) = m ((c : Thread nD τ).loc main_arg3) :=
  (show W3 m ρ c (Proc.devRef .tc main_arg3) = W2 m ρ c (Proc.devRef .tc main_arg3) by host_keep).trans (W2_arg3 m ρ c)
theorem W4_arg3 (c : Dev nD) : W4 m ρ c (Proc.devRef .tc main_arg3) = m ((c : Thread nD τ).loc main_arg3) :=
  (W4_of_ne m ρ c main_arg3 (by decide)).trans (W3_arg3 m ρ c)
set_option maxHeartbeats 2000000 in
theorem W5_arg3 (c : Dev nD) : W5 m ρ c (Proc.devRef .tc main_arg3) = m ((c : Thread nD τ).loc main_arg3) :=
  (show W5 m ρ c (Proc.devRef .tc main_arg3) = W4 m ρ c (Proc.devRef .tc main_arg3) by host_keep).trans (W4_arg3 m ρ c)
theorem W6_arg3 (c : Dev nD) : W6 m ρ c (Proc.devRef .tc main_arg3) = m ((c : Thread nD τ).loc main_arg3) :=
  (W6_of_ne m ρ c main_arg3 (by decide)).trans (W5_arg3 m ρ c)
set_option maxHeartbeats 2000000 in
theorem W7_arg3 (c : Dev nD) : W7 m ρ c (Proc.devRef .tc main_arg3) = m ((c : Thread nD τ).loc main_arg3) :=
  (show W7 m ρ c (Proc.devRef .tc main_arg3) = W6 m ρ c (Proc.devRef .tc main_arg3) by host_keep).trans (W6_arg3 m ρ c)
theorem W8_arg3 (c : Dev nD) : W8 m ρ c (Proc.devRef .tc main_arg3) = m ((c : Thread nD τ).loc main_arg3) :=
  (W8_of_ne m ρ c main_arg3 (by decide)).trans (W7_arg3 m ρ c)
theorem W9_arg3 (c : Dev nD) : W9 m ρ c (Proc.devRef .tc main_arg3) = m ((c : Thread nD τ).loc main_arg3) :=
  (show W9 m ρ c (Proc.devRef .tc main_arg3) = W8 m ρ c (Proc.devRef .tc main_arg3) by host_keep).trans (W8_arg3 m ρ c)

/-! ### `main_arg4` -/
theorem W0_arg4 (c : Dev nD) : W0 m ρ c (Proc.devRef .tc main_arg4) = m ((c : Thread nD τ).loc main_arg4) := rfl
theorem W1_arg4 (c : Dev nD) : W1 m ρ c (Proc.devRef .tc main_arg4) = m ((c : Thread nD τ).loc main_arg4) :=
  (show W1 m ρ c (Proc.devRef .tc main_arg4) = W0 m ρ c (Proc.devRef .tc main_arg4) by host_keep).trans (W0_arg4 m ρ c)
theorem W2_arg4 (c : Dev nD) : W2 m ρ c (Proc.devRef .tc main_arg4) = m ((c : Thread nD τ).loc main_arg4) :=
  (W2_of_ne m ρ c main_arg4 (by decide)).trans (W1_arg4 m ρ c)
set_option maxHeartbeats 2000000 in
theorem W3_arg4 (c : Dev nD) : W3 m ρ c (Proc.devRef .tc main_arg4) = m ((c : Thread nD τ).loc main_arg4) :=
  (show W3 m ρ c (Proc.devRef .tc main_arg4) = W2 m ρ c (Proc.devRef .tc main_arg4) by host_keep).trans (W2_arg4 m ρ c)
theorem W4_arg4 (c : Dev nD) : W4 m ρ c (Proc.devRef .tc main_arg4) = m ((c : Thread nD τ).loc main_arg4) :=
  (W4_of_ne m ρ c main_arg4 (by decide)).trans (W3_arg4 m ρ c)
set_option maxHeartbeats 2000000 in
theorem W5_arg4 (c : Dev nD) : W5 m ρ c (Proc.devRef .tc main_arg4) = m ((c : Thread nD τ).loc main_arg4) :=
  (show W5 m ρ c (Proc.devRef .tc main_arg4) = W4 m ρ c (Proc.devRef .tc main_arg4) by host_keep).trans (W4_arg4 m ρ c)
theorem W6_arg4 (c : Dev nD) : W6 m ρ c (Proc.devRef .tc main_arg4) = m ((c : Thread nD τ).loc main_arg4) :=
  (W6_of_ne m ρ c main_arg4 (by decide)).trans (W5_arg4 m ρ c)
set_option maxHeartbeats 2000000 in
theorem W7_arg4 (c : Dev nD) : W7 m ρ c (Proc.devRef .tc main_arg4) = m ((c : Thread nD τ).loc main_arg4) :=
  (show W7 m ρ c (Proc.devRef .tc main_arg4) = W6 m ρ c (Proc.devRef .tc main_arg4) by host_keep).trans (W6_arg4 m ρ c)
theorem W8_arg4 (c : Dev nD) : W8 m ρ c (Proc.devRef .tc main_arg4) = m ((c : Thread nD τ).loc main_arg4) :=
  (W8_of_ne m ρ c main_arg4 (by decide)).trans (W7_arg4 m ρ c)
theorem W9_arg4 (c : Dev nD) : W9 m ρ c (Proc.devRef .tc main_arg4) = m ((c : Thread nD τ).loc main_arg4) :=
  (show W9 m ρ c (Proc.devRef .tc main_arg4) = W8 m ρ c (Proc.devRef .tc main_arg4) by host_keep).trans (W8_arg4 m ρ c)

/-! ### `main_arg5` -/
theorem W0_arg5 (c : Dev nD) : W0 m ρ c (Proc.devRef .tc main_arg5) = m ((c : Thread nD τ).loc main_arg5) := rfl
theorem W1_arg5 (c : Dev nD) : W1 m ρ c (Proc.devRef .tc main_arg5) = m ((c : Thread nD τ).loc main_arg5) :=
  (show W1 m ρ c (Proc.devRef .tc main_arg5) = W0 m ρ c (Proc.devRef .tc main_arg5) by host_keep).trans (W0_arg5 m ρ c)
theorem W2_arg5 (c : Dev nD) : W2 m ρ c (Proc.devRef .tc main_arg5) = m ((c : Thread nD τ).loc main_arg5) :=
  (W2_of_ne m ρ c main_arg5 (by decide)).trans (W1_arg5 m ρ c)
set_option maxHeartbeats 2000000 in
theorem W3_arg5 (c : Dev nD) : W3 m ρ c (Proc.devRef .tc main_arg5) = m ((c : Thread nD τ).loc main_arg5) :=
  (show W3 m ρ c (Proc.devRef .tc main_arg5) = W2 m ρ c (Proc.devRef .tc main_arg5) by host_keep).trans (W2_arg5 m ρ c)
theorem W4_arg5 (c : Dev nD) : W4 m ρ c (Proc.devRef .tc main_arg5) = m ((c : Thread nD τ).loc main_arg5) :=
  (W4_of_ne m ρ c main_arg5 (by decide)).trans (W3_arg5 m ρ c)
set_option maxHeartbeats 2000000 in
theorem W5_arg5 (c : Dev nD) : W5 m ρ c (Proc.devRef .tc main_arg5) = m ((c : Thread nD τ).loc main_arg5) :=
  (show W5 m ρ c (Proc.devRef .tc main_arg5) = W4 m ρ c (Proc.devRef .tc main_arg5) by host_keep).trans (W4_arg5 m ρ c)
theorem W6_arg5 (c : Dev nD) : W6 m ρ c (Proc.devRef .tc main_arg5) = m ((c : Thread nD τ).loc main_arg5) :=
  (W6_of_ne m ρ c main_arg5 (by decide)).trans (W5_arg5 m ρ c)
set_option maxHeartbeats 2000000 in
theorem W7_arg5 (c : Dev nD) : W7 m ρ c (Proc.devRef .tc main_arg5) = m ((c : Thread nD τ).loc main_arg5) :=
  (show W7 m ρ c (Proc.devRef .tc main_arg5) = W6 m ρ c (Proc.devRef .tc main_arg5) by host_keep).trans (W6_arg5 m ρ c)
theorem W8_arg5 (c : Dev nD) : W8 m ρ c (Proc.devRef .tc main_arg5) = m ((c : Thread nD τ).loc main_arg5) :=
  (W8_of_ne m ρ c main_arg5 (by decide)).trans (W7_arg5 m ρ c)
theorem W9_arg5 (c : Dev nD) : W9 m ρ c (Proc.devRef .tc main_arg5) = m ((c : Thread nD τ).loc main_arg5) :=
  (show W9 m ρ c (Proc.devRef .tc main_arg5) = W8 m ρ c (Proc.devRef .tc main_arg5) by host_keep).trans (W8_arg5 m ρ c)

/-! ### `main_arg6` -/
theorem W0_arg6 (c : Dev nD) : W0 m ρ c (Proc.devRef .tc main_arg6) = m ((c : Thread nD τ).loc main_arg6) := rfl
theorem W1_arg6 (c : Dev nD) : W1 m ρ c (Proc.devRef .tc main_arg6) = m ((c : Thread nD τ).loc main_arg6) :=
  (show W1 m ρ c (Proc.devRef .tc main_arg6) = W0 m ρ c (Proc.devRef .tc main_arg6) by host_keep).trans (W0_arg6 m ρ c)
theorem W2_arg6 (c : Dev nD) : W2 m ρ c (Proc.devRef .tc main_arg6) = m ((c : Thread nD τ).loc main_arg6) :=
  (W2_of_ne m ρ c main_arg6 (by decide)).trans (W1_arg6 m ρ c)
set_option maxHeartbeats 2000000 in
theorem W3_arg6 (c : Dev nD) : W3 m ρ c (Proc.devRef .tc main_arg6) = m ((c : Thread nD τ).loc main_arg6) :=
  (show W3 m ρ c (Proc.devRef .tc main_arg6) = W2 m ρ c (Proc.devRef .tc main_arg6) by host_keep).trans (W2_arg6 m ρ c)
theorem W4_arg6 (c : Dev nD) : W4 m ρ c (Proc.devRef .tc main_arg6) = m ((c : Thread nD τ).loc main_arg6) :=
  (show W4 m ρ c (Proc.devRef .tc main_arg6) = W3 m ρ c (Proc.devRef .tc main_arg6) from W4_in m ρ c 2 rfl).trans (W3_arg6 m ρ c)
set_option maxHeartbeats 2000000 in
theorem W5_arg6 (c : Dev nD) : W5 m ρ c (Proc.devRef .tc main_arg6) = m ((c : Thread nD τ).loc main_arg6) :=
  (show W5 m ρ c (Proc.devRef .tc main_arg6) = W4 m ρ c (Proc.devRef .tc main_arg6) by host_keep).trans (W4_arg6 m ρ c)
theorem W6_arg6 (c : Dev nD) : W6 m ρ c (Proc.devRef .tc main_arg6) = m ((c : Thread nD τ).loc main_arg6) :=
  (show W6 m ρ c (Proc.devRef .tc main_arg6) = W5 m ρ c (Proc.devRef .tc main_arg6) from W6_in m ρ c 2 rfl).trans (W5_arg6 m ρ c)
set_option maxHeartbeats 2000000 in
theorem W7_arg6 (c : Dev nD) : W7 m ρ c (Proc.devRef .tc main_arg6) = m ((c : Thread nD τ).loc main_arg6) :=
  (show W7 m ρ c (Proc.devRef .tc main_arg6) = W6 m ρ c (Proc.devRef .tc main_arg6) by host_keep).trans (W6_arg6 m ρ c)
theorem W8_arg6 (c : Dev nD) : W8 m ρ c (Proc.devRef .tc main_arg6) = m ((c : Thread nD τ).loc main_arg6) :=
  (show W8 m ρ c (Proc.devRef .tc main_arg6) = W7 m ρ c (Proc.devRef .tc main_arg6) from W8_in m ρ c 2 rfl).trans (W7_arg6 m ρ c)
theorem W9_arg6 (c : Dev nD) : W9 m ρ c (Proc.devRef .tc main_arg6) = m ((c : Thread nD τ).loc main_arg6) :=
  (show W9 m ρ c (Proc.devRef .tc main_arg6) = W8 m ρ c (Proc.devRef .tc main_arg6) by host_keep).trans (W8_arg6 m ρ c)

/-! ### `main_arg7` -/
theorem W0_arg7 (c : Dev nD) : W0 m ρ c (Proc.devRef .tc main_arg7) = m ((c : Thread nD τ).loc main_arg7) := rfl
theorem W1_arg7 (c : Dev nD) : W1 m ρ c (Proc.devRef .tc main_arg7) = m ((c : Thread nD τ).loc main_arg7) :=
  (show W1 m ρ c (Proc.devRef .tc main_arg7) = W0 m ρ c (Proc.devRef .tc main_arg7) by host_keep).trans (W0_arg7 m ρ c)
theorem W2_arg7 (c : Dev nD) : W2 m ρ c (Proc.devRef .tc main_arg7) = m ((c : Thread nD τ).loc main_arg7) :=
  (W2_of_ne m ρ c main_arg7 (by decide)).trans (W1_arg7 m ρ c)
set_option maxHeartbeats 2000000 in
theorem W3_arg7 (c : Dev nD) : W3 m ρ c (Proc.devRef .tc main_arg7) = m ((c : Thread nD τ).loc main_arg7) :=
  (show W3 m ρ c (Proc.devRef .tc main_arg7) = W2 m ρ c (Proc.devRef .tc main_arg7) by host_keep).trans (W2_arg7 m ρ c)
theorem W4_arg7 (c : Dev nD) : W4 m ρ c (Proc.devRef .tc main_arg7) = m ((c : Thread nD τ).loc main_arg7) :=
  (W4_of_ne m ρ c main_arg7 (by decide)).trans (W3_arg7 m ρ c)
set_option maxHeartbeats 2000000 in
theorem W5_arg7 (c : Dev nD) : W5 m ρ c (Proc.devRef .tc main_arg7) = m ((c : Thread nD τ).loc main_arg7) :=
  (show W5 m ρ c (Proc.devRef .tc main_arg7) = W4 m ρ c (Proc.devRef .tc main_arg7) by host_keep).trans (W4_arg7 m ρ c)
theorem W6_arg7 (c : Dev nD) : W6 m ρ c (Proc.devRef .tc main_arg7) = m ((c : Thread nD τ).loc main_arg7) :=
  (W6_of_ne m ρ c main_arg7 (by decide)).trans (W5_arg7 m ρ c)
set_option maxHeartbeats 2000000 in
theorem W7_arg7 (c : Dev nD) : W7 m ρ c (Proc.devRef .tc main_arg7) = m ((c : Thread nD τ).loc main_arg7) :=
  (show W7 m ρ c (Proc.devRef .tc main_arg7) = W6 m ρ c (Proc.devRef .tc main_arg7) by host_keep).trans (W6_arg7 m ρ c)
theorem W8_arg7 (c : Dev nD) : W8 m ρ c (Proc.devRef .tc main_arg7) = m ((c : Thread nD τ).loc main_arg7) :=
  (W8_of_ne m ρ c main_arg7 (by decide)).trans (W7_arg7 m ρ c)
theorem W9_arg7 (c : Dev nD) : W9 m ρ c (Proc.devRef .tc main_arg7) = m ((c : Thread nD τ).loc main_arg7) :=
  (show W9 m ρ c (Proc.devRef .tc main_arg7) = W8 m ρ c (Proc.devRef .tc main_arg7) by host_keep).trans (W8_arg7 m ρ c)

/-! ### `main_arg8` -/
theorem W0_arg8 (c : Dev nD) : W0 m ρ c (Proc.devRef .tc main_arg8) = m ((c : Thread nD τ).loc main_arg8) := rfl
theorem W1_arg8 (c : Dev nD) : W1 m ρ c (Proc.devRef .tc main_arg8) = m ((c : Thread nD τ).loc main_arg8) :=
  (show W1 m ρ c (Proc.devRef .tc main_arg8) = W0 m ρ c (Proc.devRef .tc main_arg8) by host_keep).trans (W0_arg8 m ρ c)
theorem W2_arg8 (c : Dev nD) : W2 m ρ c (Proc.devRef .tc main_arg8) = m ((c : Thread nD τ).loc main_arg8) :=
  (W2_of_ne m ρ c main_arg8 (by decide)).trans (W1_arg8 m ρ c)
set_option maxHeartbeats 2000000 in
theorem W3_arg8 (c : Dev nD) : W3 m ρ c (Proc.devRef .tc main_arg8) = m ((c : Thread nD τ).loc main_arg8) :=
  (show W3 m ρ c (Proc.devRef .tc main_arg8) = W2 m ρ c (Proc.devRef .tc main_arg8) by host_keep).trans (W2_arg8 m ρ c)
theorem W4_arg8 (c : Dev nD) : W4 m ρ c (Proc.devRef .tc main_arg8) = m ((c : Thread nD τ).loc main_arg8) :=
  (show W4 m ρ c (Proc.devRef .tc main_arg8) = W3 m ρ c (Proc.devRef .tc main_arg8) from W4_in m ρ c 4 rfl).trans (W3_arg8 m ρ c)
set_option maxHeartbeats 2000000 in
theorem W5_arg8 (c : Dev nD) : W5 m ρ c (Proc.devRef .tc main_arg8) = m ((c : Thread nD τ).loc main_arg8) :=
  (show W5 m ρ c (Proc.devRef .tc main_arg8) = W4 m ρ c (Proc.devRef .tc main_arg8) by host_keep).trans (W4_arg8 m ρ c)
theorem W6_arg8 (c : Dev nD) : W6 m ρ c (Proc.devRef .tc main_arg8) = m ((c : Thread nD τ).loc main_arg8) :=
  (show W6 m ρ c (Proc.devRef .tc main_arg8) = W5 m ρ c (Proc.devRef .tc main_arg8) from W6_in m ρ c 4 rfl).trans (W5_arg8 m ρ c)
set_option maxHeartbeats 2000000 in
theorem W7_arg8 (c : Dev nD) : W7 m ρ c (Proc.devRef .tc main_arg8) = m ((c : Thread nD τ).loc main_arg8) :=
  (show W7 m ρ c (Proc.devRef .tc main_arg8) = W6 m ρ c (Proc.devRef .tc main_arg8) by host_keep).trans (W6_arg8 m ρ c)
theorem W8_arg8 (c : Dev nD) : W8 m ρ c (Proc.devRef .tc main_arg8) = m ((c : Thread nD τ).loc main_arg8) :=
  (show W8 m ρ c (Proc.devRef .tc main_arg8) = W7 m ρ c (Proc.devRef .tc main_arg8) from W8_in m ρ c 4 rfl).trans (W7_arg8 m ρ c)
theorem W9_arg8 (c : Dev nD) : W9 m ρ c (Proc.devRef .tc main_arg8) = m ((c : Thread nD τ).loc main_arg8) :=
  (show W9 m ρ c (Proc.devRef .tc main_arg8) = W8 m ρ c (Proc.devRef .tc main_arg8) by host_keep).trans (W8_arg8 m ρ c)

/-- THE FRAME, at any float instance: @main runs to the end, nothing faulting, and its nine argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W9_arg0 m ρ c),
      (h c _ (mem_uc main_arg1 (by decide))).trans (W9_arg1 m ρ c),
      (h c _ (mem_uc main_arg2 (by decide))).trans (W9_arg2 m ρ c),
      (h c _ (mem_uc main_arg3 (by decide))).trans (W9_arg3 m ρ c),
      (h c _ (mem_uc main_arg4 (by decide))).trans (W9_arg4 m ρ c),
      (h c _ (mem_uc main_arg5 (by decide))).trans (W9_arg5 m ρ c),
      (h c _ (mem_uc main_arg6 (by decide))).trans (W9_arg6 m ρ c),
      (h c _ (mem_uc main_arg7 (by decide))).trans (W9_arg7 m ρ c),
      (h c _ (mem_uc main_arg8 (by decide))).trans (W9_arg8 m ρ c)⟩)
    (run_main m ρ)

end Cert.KernelIdeal.Run

end
-- ==== Proof.LibScatterGather.lean ====
/-
  Row gathers and row scatters of StableHLO, read at an index, and the one law of the extended reals
  that lets a non-negative finite factor cross an accumulating scatter.

  * a gather of whole rows (`x[idx]` on the leading axis of a matrix, or of a vector): result row e is
    operand row `idx e`, read signed and clamped into the operand;
  * an accumulating scatter of whole rows: update row e lands on operand row `idx e` (read signed, not
    clamped) when that is a row of the operand, and nowhere otherwise;
  * on the extended reals multiplication by c distributes over a finite sum when 0 ≤ c < ⊤, so scaling
    every update that lands on an element by that element's factor scales the accumulated sum.
-/
import Idealize.ShloMosaic.PureOps.Ideal
import Idealize.ShloMosaic.PureOps.Ideal.Laws
import Idealize.ShloMosaic.Lib.ValueIdx

noncomputable section

namespace Cert.ScatterGather

open Idealize.ShloMosaic Idealize.ShloMosaic.ValueIdx

/-! ## Sums on the extended reals -/

/-- A factor `0 ≤ c < ⊤` distributes over a finite sum of extended reals. -/
theorem sum_mul_of_nonneg_ne_top {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih => rw [Finset.sum_insert ha, Finset.sum_insert ha, EReal.right_distrib_of_nonneg_of_ne_top h0 ht, ih]

/-- An accumulating scatter into zeros whose every landing update carries the factor of the element it
    lands on: the factor comes out of the accumulated sum. Only an element some update lands on needs
    its factor non-negative and finite: where nothing lands both sides are zero. -/
theorem hostScatterAdd_zero_mul {s si su : Shape} (d : ScatterDims s si su) {w : Nat} (idx : IVec si w)
    (u u' : su.Idx → EReal) (c : s.Idx → EReal)
    (hc : ∀ j i, d.resultIdx? j idx = some i → 0 ≤ c i ∧ c i ≠ ⊤)
    (h : ∀ j i, d.resultIdx? j idx = some i → u j = u' j * c i) (i : s.Idx) :
    Ideal.hostScatterAdd d (fun _ => 0) idx u i = Ideal.hostScatterAdd d (fun _ => 0) idx u' i * c i := by
  unfold Ideal.hostScatterAdd
  simp only [zero_add]
  by_cases hne : (Finset.univ.filter (fun j => d.resultIdx? j idx = some i)).Nonempty
  · obtain ⟨j0, hj0⟩ := hne
    have hci := hc j0 i (Finset.mem_filter.mp hj0).2
    rw [sum_mul_of_nonneg_ne_top _ _ hci.1 hci.2]
    exact Finset.sum_congr rfl (fun j hj => h j i (Finset.mem_filter.mp hj).2)
  · rw [Finset.not_nonempty_iff_eq_empty.mp hne]; simp

/-- The inverse square root of a positive count is a non-negative real. -/
theorem rsqrt_count {ι : Type} (s : Finset ι) (hs : s.Nonempty) :
    0 ≤ Ideal.rsqrt (0 + ∑ _j ∈ s, (1 : EReal)) ∧ Ideal.rsqrt (0 + ∑ _j ∈ s, (1 : EReal)) ≠ ⊤ := by
  have hcard : 0 < s.card := Finset.card_pos.mpr hs
  have hsum : (0 + ∑ _j ∈ s, (1 : EReal)) = ((s.card : ℝ) : EReal) := by
    rw [zero_add, Finset.sum_const, EReal.nsmul_eq_mul, mul_one]; rfl
  have hpos : (0 : ℝ) < (s.card : ℝ) := by exact_mod_cast hcard
  rw [hsum, Ideal.rsqrt_coe, if_neg (not_lt.mpr hpos.le), if_neg hpos.ne']
  exact ⟨by exact_mod_cast inv_nonneg.mpr (Real.sqrt_nonneg _), EReal.coe_ne_top _⟩

/-! ## A gather of rows -/

section Gather
variable {α : Type} {N M C w : Nat}

/-- `x[idx]` on the leading axis of `x : [N, C]` at `idx : [M]` carried as `[M, 1]`. -/
abbrev rowsDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row a gather reads for result row `e`: the start index read signed, clamped into `[0, N - 1]`. -/
def clampRow (N : Nat) (hN : 0 < N) {M w : Nat} (idx : IVec ⟨2, ![M, 1]⟩ w) (e : Fin M) : Fin N :=
  ⟨min (idx (ix2 e (0 : Fin 1))).toInt.toNat (N - 1), by omega⟩

/-- THE ROW GATHER READ AT `(e, j)`: the operand at row `clampRow … e`, column `j`. -/
theorem gather_rows_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowsDims N M C wf) x idx y = x (ix2 (clampRow N hN idx (y 0)) (y 1)) := by
  unfold Host.gather
  congr 1
  funext a
  refine Fin.ext ?_
  match a with
  | ⟨0, _⟩ =>
    show (rowsDims N M C wf).start y idx 0 + (rowsDims N M C wf).batchCoord y 0 + (rowsDims N M C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N M C wf).startIndexMap from List.mem_singleton.mpr rfl)]
    have hsi : (rowsDims N M C wf).siIdx y ⟨List.idxOf (0 : Fin 2) (rowsDims N M C wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowsDims N M C wf).start y idx 1 + (rowsDims N M C wf).batchCoord y 1 + (rowsDims N M C wf).offCoord y 1 = (y 1).val
    rw [GatherDims.batchCoord_eq_zero _ _ _ List.not_mem_nil]
    unfold GatherDims.start
    rw [dif_neg (show (1 : Fin 2) ∉ ([0] : List (Fin 2)) by decide)]
    simp only [Nat.zero_add, Nat.add_zero]
    unfold GatherDims.offCoord
    rw [dif_pos ((GatherDims.mem_sKept _ _).mpr ⟨(show (1 : Fin 2) ∉ ([0] : List (Fin 2)) by decide), List.not_mem_nil⟩)]
    rfl

/-- `x[idx]` of a vector `x : [N]` at `idx : [M]` carried as `[M, 1]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `clampRow … e`. -/
theorem gather_flat_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatDims N M wf) x idx y = x (ix1 (clampRow N hN idx (y 0))) := by
  unfold Host.gather
  congr 1
  funext a
  obtain rfl : a = 0 := Subsingleton.elim _ _
  refine Fin.ext ?_
  show (flatDims N M wf).start y idx 0 + (flatDims N M wf).batchCoord y 0 + (flatDims N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx y ⟨List.idxOf (0 : Fin 1) (flatDims N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

end Gather

/-! ## An accumulating scatter of rows -/

section Scatter
variable {N M C w : Nat}

/-- `x.at[idx].add(u)` on the leading axis of `x : [N, C]`, `idx : [M]` carried as `[M, 1]`, `u : [M, C]`. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem rowsScatter_start0 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 0 = (idx (ix2 (j 0) (0 : Fin 1))).toInt := by
  unfold ScatterDims.start
  rw [dif_pos (show (0 : Fin 2) ∈ (rowsScatter N M C wf).scatterDimsToOperandDims from List.mem_singleton.mpr rfl)]
  have hsi : (rowsScatter N M C wf).siIdx j ⟨List.idxOf (0 : Fin 2) (rowsScatter N M C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowsScatter_start1 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 1 = 0 := by
  unfold ScatterDims.start
  rw [dif_neg (show (1 : Fin 2) ∉ ([0] : List (Fin 2)) by decide)]

theorem rowsScatter_window0 (wf : ScatterDims.WF ⟨2, ![N, C]⟩ ⟨2, ![M, 1]⟩ ⟨2, ![M, C]⟩ [1] [0] [0] 1)
    (j : (⟨2, ![M, C]⟩ : Shape).Idx) : (rowsScatter N M C wf).window j 0 = 0 := by
  unfold ScatterDims.window
  have h : (0 : Fin 2) ∉ (rowsScatter N M C wf).sKept := by
    show (0 : Fin 2) ∉ ([1] : List (Fin 2)); decide
  rw [dif_neg h]

theorem rowsScatter_window1 (wf : ScatterDims.WF ⟨2, ![N, C]⟩ ⟨2, ![M, 1]⟩ ⟨2, ![M, C]⟩ [1] [0] [0] 1)
    (j : (⟨2, ![M, C]⟩ : Shape).Idx) : (rowsScatter N M C wf).window j 1 = (j 1).val := by
  unfold ScatterDims.window
  have h : (1 : Fin 2) ∈ (rowsScatter N M C wf).sKept := by
    show (1 : Fin 2) ∈ ([1] : List (Fin 2)); decide
  rw [dif_pos h]
  rfl

/-- WHERE A ROW UPDATE LANDS: element `(e, k)` of the updates lands on `(n, k')` exactly when the index of
    row `e`, read signed, is `n` and `k = k'`. -/
theorem rowsScatter_resultIdx?_eq_some_iff (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) (i : (⟨2, ![N, C]⟩ : Shape).Idx) :
    (rowsScatter N M C wf).resultIdx? j idx = some i ↔
      (idx (ix2 (j 0) (0 : Fin 1))).toInt = ((i 0).val : Int) ∧ (j 1).val = (i 1).val := by
  have hi0 : (i 0).val < N := (i 0).isLt
  have hj1 : (j 1).val < C := (j 1).isLt
  unfold ScatterDims.resultIdx?
  split
  · rename_i h
    rw [Option.some.injEq]
    constructor
    · intro e
      have e0 := congrArg (fun f => (f 0).val) e
      have e1 := congrArg (fun f => (f 1).val) e
      simp only [rowsScatter_start0, rowsScatter_start1, rowsScatter_window0, rowsScatter_window1] at e0 e1
      have h0 := h 0
      simp only [rowsScatter_start0, rowsScatter_window0] at h0
      constructor
      · omega
      · omega
    · rintro ⟨e0, e1⟩
      funext a
      refine Fin.ext ?_
      match a with
      | ⟨0, _⟩ =>
        show ((rowsScatter N M C wf).start j idx 0 + ((rowsScatter N M C wf).window j 0 : Int)).toNat = (i 0).val
        rw [rowsScatter_start0, rowsScatter_window0, e0]; omega
      | ⟨1, _⟩ =>
        show ((rowsScatter N M C wf).start j idx 1 + ((rowsScatter N M C wf).window j 1 : Int)).toNat = (i 1).val
        rw [rowsScatter_start1, rowsScatter_window1]; omega
  · rename_i h
    constructor
    · intro e; exact absurd e (by simp)
    · rintro ⟨e0, e1⟩
      exfalso; apply h
      intro a
      match a with
      | ⟨0, _⟩ =>
        show 0 ≤ (rowsScatter N M C wf).start j idx 0 + ((rowsScatter N M C wf).window j 0 : Int) ∧
          (rowsScatter N M C wf).start j idx 0 + ((rowsScatter N M C wf).window j 0 : Int) < ((⟨2, ![N, C]⟩ : Shape).size 0 : Int)
        rw [rowsScatter_start0, rowsScatter_window0, e0]
        refine ⟨by omega, ?_⟩
        show ((i 0).val : Int) + ((0 : Nat) : Int) < (N : Int)
        omega
      | ⟨1, _⟩ =>
        show 0 ≤ (rowsScatter N M C wf).start j idx 1 + ((rowsScatter N M C wf).window j 1 : Int) ∧
          (rowsScatter N M C wf).start j idx 1 + ((rowsScatter N M C wf).window j 1 : Int) < ((⟨2, ![N, C]⟩ : Shape).size 1 : Int)
        rw [rowsScatter_start1, rowsScatter_window1]
        refine ⟨by omega, ?_⟩
        show (0 : Int) + ((j 1).val : Int) < (C : Int)
        omega

/-- `x.at[idx].add(u)` of a vector `x : [N]`, `idx : [M]` carried as `[M, 1]`, `u : [M]`. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem flatScatter_start0 (wf : ScatterDims.WF ⟨1, ![N]⟩ ⟨2, ![M, 1]⟩ ⟨1, ![M]⟩ [] [0] [0] 1)
    (j : (⟨1, ![M]⟩ : Shape).Idx) (idx : IVec ⟨2, ![M, 1]⟩ w) :
    (flatScatter N M wf).start j idx 0 = (idx (ix2 (j 0) (0 : Fin 1))).toInt := by
  unfold ScatterDims.start
  rw [dif_pos (show (0 : Fin 1) ∈ (flatScatter N M wf).scatterDimsToOperandDims from List.mem_singleton.mpr rfl)]
  have hsi : (flatScatter N M wf).siIdx j ⟨List.idxOf (0 : Fin 1) (flatScatter N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 (wf : ScatterDims.WF ⟨1, ![N]⟩ ⟨2, ![M, 1]⟩ ⟨1, ![M]⟩ [] [0] [0] 1)
    (j : (⟨1, ![M]⟩ : Shape).Idx) : (flatScatter N M wf).window j 0 = 0 := by
  unfold ScatterDims.window
  have h : (0 : Fin 1) ∉ (flatScatter N M wf).sKept := by
    show (0 : Fin 1) ∉ ([] : List (Fin 1)); exact List.not_mem_nil
  rw [dif_neg h]

/-- WHERE A VECTOR UPDATE LANDS: element `e` lands on `n` exactly when its index, read signed, is `n`. -/
theorem flatScatter_resultIdx?_eq_some_iff (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (flatScatter N M wf).resultIdx? j idx = some i ↔ (idx (ix2 (j 0) (0 : Fin 1))).toInt = ((i 0).val : Int) := by
  have hi0 : (i 0).val < N := (i 0).isLt
  unfold ScatterDims.resultIdx?
  split
  · rename_i h
    rw [Option.some.injEq]
    constructor
    · intro e
      have e0 := congrArg (fun f => (f 0).val) e
      simp only [flatScatter_start0, flatScatter_window0] at e0
      have h0 := h 0
      simp only [flatScatter_start0, flatScatter_window0] at h0
      omega
    · intro e0
      funext a
      obtain rfl : a = 0 := Subsingleton.elim _ _
      refine Fin.ext ?_
      show ((flatScatter N M wf).start j idx 0 + ((flatScatter N M wf).window j 0 : Int)).toNat = (i 0).val
      rw [flatScatter_start0, flatScatter_window0, e0]; omega
  · rename_i h
    constructor
    · intro e; exact absurd e (by simp)
    · intro e0
      exfalso; apply h
      intro a
      obtain rfl : a = 0 := Subsingleton.elim _ _
      show 0 ≤ (flatScatter N M wf).start j idx 0 + ((flatScatter N M wf).window j 0 : Int) ∧
        (flatScatter N M wf).start j idx 0 + ((flatScatter N M wf).window j 0 : Int) < ((⟨1, ![N]⟩ : Shape).size 0 : Int)
      rw [flatScatter_start0, flatScatter_window0, e0]
      refine ⟨by omega, ?_⟩
      show ((i 0).val : Int) + ((0 : Nat) : Int) < (N : Int)
      omega

end Scatter

end Cert.ScatterGather

end
-- ==== Proof.LibGraphMean.lean ====
/-
  The mean of gathered rows commutes with a linear map, on the extended reals.

  A graph layer gathers rows of a node array `X` along the edges' sources, adds the gathered rows into the rows
  their edges point to, and divides each row by a per-row divisor. Row `r` of the result is
  `(Σ_{e lands on r} X[src e, ·]) / d r`. When `X` and a weight matrix `B` hold real numbers and `d r` is a
  non-zero real, projecting afterwards,  `Σ_k ((Σ_e X[src e, k]) / d r) · B[q, k]`,  is the same number as
  projecting first,  `(Σ_e Σ_k X[src e, k] · B[q, k]) / d r`:  both are finite sums of products of reals, and the
  law is the exchange of two finite sums with the factor `1 / d r` and `B[q, k]` moved across them.
  The divisor of the layer is the in-degree clamped below by one, `max (#{e lands on r}) 1`: a real, at least one.
-/
import Idealize.ShloMosaic.PureOps.Ideal
import Idealize.ShloMosaic.PureOps.Ideal.Laws
import Idealize.ShloMosaic.Lib.ValueIdx
import proofs.«144736_j57801669869916_1_alg».proof.Proof.LibScatterGather

noncomputable section

namespace Cert.GraphMean

open Idealize.ShloMosaic Idealize.ShloMosaic.ValueIdx Cert.ScatterGather

/-- The coercion of the reals into the extended reals goes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {N M C w : Nat}

/-- The update rows that land on operand row `r`: those whose index, read signed, is `r`. -/
def landing (idx : IVec ⟨2, ![M, 1]⟩ w) (r : Fin N) : Finset (Fin M) :=
  Finset.univ.filter fun e => (idx (ix2 e (0 : Fin 1))).toInt = (r.val : Int)

/-- An accumulating row scatter into zeros, read at `(r, k)`: the sum of column `k` of the update rows that land
    on row `r`. -/
theorem scatter_rows_apply (wf : ScatterDims.WF ⟨2, ![N, C]⟩ ⟨2, ![M, 1]⟩ ⟨2, ![M, C]⟩ [1] [0] [0] 1)
    (idx : IVec ⟨2, ![M, 1]⟩ w) (u : (⟨2, ![M, C]⟩ : Shape).Idx → EReal) (r : Fin N) (k : Fin C) :
    Ideal.hostScatterAdd (rowsScatter N M C wf) (fun _ => 0) idx u (ix2 r k) = ∑ e ∈ landing idx r, u (ix2 e k) := by
  unfold Ideal.hostScatterAdd
  rw [zero_add]
  have key : ∀ j : (⟨2, ![M, C]⟩ : Shape).Idx, (rowsScatter N M C wf).resultIdx? j idx = some (ix2 r k) →
      (idx (ix2 (j 0) (0 : Fin 1))).toInt = (r.val : Int) ∧ ix2 (j 0) k = j := by
    intro j hj
    have h := (rowsScatter_resultIdx?_eq_some_iff wf j idx (ix2 r k)).mp hj
    refine ⟨h.1, ?_⟩
    funext a
    match a with
    | ⟨0, _⟩ => rfl
    | ⟨1, _⟩ => exact (Fin.ext h.2).symm
  refine Finset.sum_nbij' (fun j => j 0) (fun e => ix2 e k) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowsScatter_resultIdx?_eq_some_iff wf (ix2 e k) idx (ix2 r k)).mpr ⟨(Finset.mem_filter.mp he).2, rfl⟩⟩
  · intro j hj
    exact (key j (Finset.mem_filter.mp hj).2).2
  · intro e _
    rfl
  · intro j hj
    exact congrArg u (key j (Finset.mem_filter.mp hj).2).2.symm

/-- An accumulating scatter of ones into a vector of zeros, read at `r`: the number of updates that land on `r`. -/
theorem scatter_count_apply (wf : ScatterDims.WF ⟨1, ![N]⟩ ⟨2, ![M, 1]⟩ ⟨1, ![M]⟩ [] [0] [0] 1)
    (idx : IVec ⟨2, ![M, 1]⟩ w) (r : Fin N) :
    Ideal.hostScatterAdd (flatScatter N M wf) (fun _ => 0) idx (fun _ => 1) (ix1 r)
      = (((landing idx r).card : ℝ) : EReal) := by
  unfold Ideal.hostScatterAdd
  rw [zero_add]
  have e : ∑ j ∈ Finset.univ.filter (fun j : (⟨1, ![M]⟩ : Shape).Idx => (flatScatter N M wf).resultIdx? j idx = some (ix1 r)), (1 : EReal)
      = ∑ _e ∈ landing idx r, (1 : EReal) := by
    refine Finset.sum_nbij' (fun j => j 0) (fun e => ix1 e) ?_ ?_ ?_ ?_ ?_
    · intro j hj
      exact Finset.mem_filter.mpr ⟨Finset.mem_univ _,
        (flatScatter_resultIdx?_eq_some_iff wf j idx (ix1 r)).mp (Finset.mem_filter.mp hj).2⟩
    · intro e he
      exact Finset.mem_filter.mpr ⟨Finset.mem_univ _,
        (flatScatter_resultIdx?_eq_some_iff wf (ix1 e) idx (ix1 r)).mpr (Finset.mem_filter.mp he).2⟩
    · intro j _
      exact (eq_ix1 j).symm
    · intro e _
      rfl
    · intro j _
      rfl
  rw [e, Finset.sum_const, EReal.nsmul_eq_mul, mul_one]
  rfl

/-- The same count, for the host's accumulating scatter of a vector of ones into a vector of zeros, whatever the
    names its record, its operand and its updates go by. -/
theorem host_count_apply (d : ScatterDims ⟨1, ![N]⟩ ⟨2, ![M, 1]⟩ ⟨1, ![M]⟩)
    (wf : ScatterDims.WF ⟨1, ![N]⟩ ⟨2, ![M, 1]⟩ ⟨1, ![M]⟩ [] [0] [0] 1) (hd : d = flatScatter N M wf)
    (Z : FVec Ideal ⟨1, ![N]⟩ .f32) (hZ : Z = fun _ => 0) (idx : IVec ⟨2, ![M, 1]⟩ w)
    (U : FVec Ideal ⟨1, ![M]⟩ .f32) (hU : U = fun _ => 1) (r : Fin N) :
    Host.scatterAdd (F := Ideal) d Z idx U (ix1 r) = (((landing idx r).card : ℝ) : EReal) := by
  subst hd hZ hU
  exact scatter_count_apply wf idx r

/-- The in-degree of row `r` clamped below by one: the layer's divisor. -/
def degree (idx : IVec ⟨2, ![M, 1]⟩ w) (r : Fin N) : ℝ := max ((landing idx r).card : ℝ) 1

theorem degree_ne_zero (idx : IVec ⟨2, ![M, 1]⟩ w) (r : Fin N) : degree idx r ≠ 0 :=
  (lt_of_lt_of_le one_pos (le_max_right _ _)).ne'

/-- The maximum of a count and one, on the extended reals, is that real. -/
theorem max_count_one (idx : IVec ⟨2, ![M, 1]⟩ w) (r : Fin N) :
    max (((landing idx r).card : ℝ) : EReal) 1 = (degree idx r : EReal) := by
  unfold degree
  rw [← EReal.coe_one]
  exact (EReal.coe_strictMono.monotone.map_max).symm

/-- The exchange of sums over the reals: scaling and projecting the sum of rows is summing the projected rows and
    scaling. -/
theorem real_law {E K : Type} [Fintype K] (s : Finset E) (a : E → K → ℝ) (b : K → ℝ) (c : ℝ) :
    ∑ k : K, ((∑ e ∈ s, a e k) * c) * b k = (∑ e ∈ s, ∑ k : K, a e k * b k) * c := by
  simp only [Finset.sum_mul]
  rw [Finset.sum_comm]
  exact Finset.sum_congr rfl fun e _ => Finset.sum_congr rfl fun k _ => by ring

/-- THE LAW. `X = ↑a` and `B = ↑b` real, the divisor of row `r` the non-zero real `d r` in every column, the
    scatter's operand zero: the mean of the gathered rows of `X`, projected by `B`, is the mean of the gathered rows
    of the projected `X`. -/
theorem mean_project (hN : 0 < N)
    (wfg : GatherDims.WF ⟨2, ![N, C]⟩ ⟨2, ![M, 1]⟩ ⟨2, ![M, C]⟩ [1] [0] [] [0] [] 1 ![1, C])
    (wfs : ScatterDims.WF ⟨2, ![N, C]⟩ ⟨2, ![M, 1]⟩ ⟨2, ![M, C]⟩ [1] [0] [0] 1)
    (Z : (⟨2, ![N, C]⟩ : Shape).Idx → EReal) (hZ : Z = fun _ => 0)
    (I1 I2 : IVec ⟨2, ![M, 1]⟩ w)
    (Dn : (⟨2, ![N, C]⟩ : Shape).Idx → EReal) (d : Fin N → ℝ) (hd : ∀ r, d r ≠ 0)
    (hDn : ∀ r k, Dn (ix2 r k) = (d r : EReal))
    (a : (⟨2, ![N, C]⟩ : Shape).Idx → ℝ) (b : (⟨2, ![C, C]⟩ : Shape).Idx → ℝ) (r : Fin N) (q : Fin C) :
    ∑ k : Fin C, Ideal.div (Ideal.hostScatterAdd (rowsScatter N M C wfs) Z I2
        (Host.gather (rowsDims N M C wfg) (fun i => (a i : EReal)) I1) (ix2 r k)) (Dn (ix2 r k)) * (b (ix2 q k) : EReal)
      = Ideal.div (Ideal.hostScatterAdd (rowsScatter N M C wfs) Z I2
        (Host.gather (rowsDims N M C wfg) (fun i => ∑ k : Fin C, (a (ix2 (i 0) k) : EReal) * (b (ix2 (i 1) k) : EReal)) I1)
          (ix2 r q)) (Dn (ix2 r q)) := by
  subst hZ
  simp only [scatter_rows_apply, hDn, Ideal.div_coe (hd r), gather_rows_apply hN wfg]
  simp only [← EReal.coe_mul, ← coe_sum]
  exact congrArg _ (real_law (landing I2 r) (fun e k => a (ix2 (clampRow N hN I1 e) k)) (fun k => b (ix2 q k)) (1 / d r))

end Cert.GraphMean

end
-- ==== Proof.Spec.lean ====
/-
  The computation both programs perform, written once over rows of extended reals.

  Three node types each carry a feature array of 100000 rows of 64 numbers and a list of 800000 edges
  `(source, destination)`. A feature row is first divided by its Euclidean norm (floored at a small constant).
  Then, three times over, every type is updated by one and the same layer with that type's own weights:
    * the rows at the edges' sources are gathered and added into the rows of their destinations, and each row of
      sums is divided by the number of edges that land on it (at least one): the mean of the neighbours;
    * the mean row times one weight matrix, plus a bias row, plus the node's own row times a second weight
      matrix; negative entries are replaced by zero; the row is divided by its floored norm.
  A source index below zero counts from the end of the array (100000 is added to it); a source index is then
  clamped into the array; an edge whose destination is outside the array contributes to no row.
-/
import Idealize.ShloMosaic.PureOps.Ideal
import Idealize.ShloMosaic.PureOps.Ideal.Laws
import Idealize.ShloMosaic.Lib.ValueIdx
import proofs.«144736_j57801669869916_1_alg».proof.Proof.LibScatterGather
import proofs.«144736_j57801669869916_1_alg».proof.Proof.LibGraphMean

noncomputable section

namespace Cert.Sage

open Idealize.ShloMosaic Idealize.ShloMosaic.ValueIdx Cert.ScatterGather Cert.GraphMean

/-- The number of nodes of each type, and of edges of each type. -/
abbrev NN : Nat := 100000
abbrev EE : Nat := 800000

theorem NN_pos : 0 < NN := by decide

/-- The floor of a row's norm: the single-precision constant nearest to 1e-12, at its exact binary value. -/
abbrev eps : EReal := Ideal.ofBits .f32 0x2B8CBCCC#32

/-- The single-precision constant one, as both programs spell it. -/
abbrev one : EReal := Ideal.ofBits .f32 0x3F800000#32

/-- A row divided by its Euclidean norm floored at `eps`. -/
def rowNorm (y : Fin 64 → EReal) (j : Fin 64) : EReal :=
  Ideal.div (y j) (max (Ideal.sqrt (∑ c : Fin 64, y c * y c)) eps)

/-- One layer on one row: the mean row `mrow` through `Wl`, plus the bias, plus the node's own row `xrow` through
    `Wr`; negatives cut to zero; normalised. -/
def sageRow (mrow xrow : Fin 64 → EReal) (Wl Wr : Fin 64 → Fin 64 → EReal) (b : Fin 64 → EReal) : Fin 64 → EReal :=
  rowNorm fun j => max ((∑ c : Fin 64, mrow c * Wl c j) + b j + ∑ c : Fin 64, xrow c * Wr c j) 0

/-- The destination index of each edge, as the `[E, 1]` index array a scatter takes: row 1 of the edge array. -/
def dstOf (e : IVec ⟨2, ![2, EE]⟩ 32) : IVec ⟨2, ![EE, 1]⟩ 32 := fun i => e (ix2 (1 : Fin 2) (i 0))

/-- The source index of each edge, as the `[E, 1]` index array a gather takes: row 0 of the edge array, an index
    below zero counted from the end. -/
def srcOf (e : IVec ⟨2, ![2, EE]⟩ 32) : IVec ⟨2, ![EE, 1]⟩ 32 := fun i =>
  Scalar.select (IntOp.cmpi .slt (e (ix2 (0 : Fin 2) (i 0))) 0#32) (IntOp.addi (e (ix2 (0 : Fin 2) (i 0))) 100000#32)
    (e (ix2 (0 : Fin 2) (i 0)))

/-- The mean of the neighbours' rows: the sum over the edges landing on row `r` of the source rows, divided by the
    number of those edges, at least one. -/
def aggMean (X : Fin NN → Fin 64 → EReal) (src dst : IVec ⟨2, ![EE, 1]⟩ 32) (r : Fin NN) (j : Fin 64) : EReal :=
  Ideal.div (∑ e ∈ landing dst r, X (clampRow NN NN_pos src e) j) (max (∑ _e ∈ landing dst r, one) one)

/-- One layer on a whole feature array. -/
def layer (X : Fin NN → Fin 64 → EReal) (src dst : IVec ⟨2, ![EE, 1]⟩ 32) (Wl Wr : Fin 64 → Fin 64 → EReal)
    (b : Fin 64 → EReal) : Fin NN → Fin 64 → EReal :=
  fun r => sageRow (aggMean X src dst r) (X r) Wl Wr b

/-- The first normalisation of a whole feature array. -/
def init (x : Fin NN → Fin 64 → EReal) : Fin NN → Fin 64 → EReal := fun r => rowNorm (x r)

/-- Type `k`'s features after the normalisation and three layers, from that type's input features `x`, its edge
    array `e`, and the stacked weights `Wl`, `bl`, `Wr` of which it uses member `k`. -/
def final (k : Fin 3) (x : (⟨2, ![NN, 64]⟩ : Shape).Idx → EReal) (e : IVec ⟨2, ![2, EE]⟩ 32)
    (Wl : (⟨3, ![3, 64, 64]⟩ : Shape).Idx → EReal) (bl : (⟨2, ![3, 64]⟩ : Shape).Idx → EReal)
    (Wr : (⟨3, ![3, 64, 64]⟩ : Shape).Idx → EReal) : Fin NN → Fin 64 → EReal :=
  let L := fun X => layer X (srcOf e) (dstOf e) (fun c j => Wl (ix3 k c j)) (fun c j => Wr (ix3 k c j)) (fun j => bl (ix2 k j))
  L (L (L (init fun r c => x (ix2 r c))))

end Cert.Sage

end
-- ==== Proof.KBody.lean ====
/-
  The two kernel bodies' arithmetic read at one entry.

  The normalisation body stores, at row `p` and lane `q` of its block, the loaded row divided by its floored
  Euclidean norm. The layer body stores the same normalisation of the row
  `max (mean-row · Wl + bias + own-row · Wr) 0`. Both close with the same stretch: the row's sum of squares, its square
  root floored at the constant, spread back over the row, and the division.
-/
import Idealize.ShloMosaic.Lib.ValueIdx
import Idealize.ShloMosaic.Lib.Pipeline.Value
import Idealize.ShloMosaic.Lib.ValueLayout
import Idealize.ShloMosaic.PureOps.Ideal.Laws
import proofs.«144736_j57801669869916_1_alg».proof.Proof.Gen.KernelIdeal.Skeleton
import proofs.«144736_j57801669869916_1_alg».proof.Proof.Spec

noncomputable section

namespace Cert.Sage.KBody

open Idealize.ShloMosaic Idealize.ShloMosaic.ValueIdx Cert.KernelIdeal Cert.KernelIdeal.Gen

/-! ## Layout operations of a kept unit column, at explicit coordinates -/

section Layout
variable {α : Type}

/-- An `[a]` vector cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's sum, and the closing normalisation -/

/-- The sum along each row of an `[a, b]` array, read at row `p`: the sum of the row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ c : Fin b, src (ix2 p c) := by
  refine (Ideal.multiReduction_add_single src _ h hφ hacc (ix1 p)).trans ?_
  refine Finset.sum_congr rfl fun c _ => congrArg src ?_
  funext ax
  match ax with
  | ⟨0, _⟩ => exact Fin.ext rfl
  | ⟨1, _⟩ => exact Fin.ext rfl

/-- The stretch that closes both bodies, on an `[a, 64]` value `y` whose row `p` is `g`: the row's sum of squares, its
    square root floored at the constant, spread back over the row, and the row divided by it; stored with a leading
    unit axis. At `(0, p, q)` it is the normalised row `g` at `q`. -/
theorem normTail_apply {a : ℕ} (y : FVec Ideal ⟨2, ![a, 64]⟩ .f32)
    (h1 : (⟨2, ![a, 64]⟩ : Shape).Reduces [1] ⟨1, ![a]⟩) (hφ : FKind.Formats .f32)
    (hacc : (0x00000000#32 : BitVec 32) = FKind.add.neutral .f32 hφ)
    (h2 : (⟨1, ![a]⟩ : Shape).ShapeCasts ⟨2, ![a, 1]⟩) (h3 : (⟨2, ![a, 1]⟩ : Shape).Broadcasts ⟨2, ![a, 64]⟩)
    (h4 : (⟨2, ![a, 64]⟩ : Shape).ShapeCasts ⟨3, ![1, a, 64]⟩) (p : Fin a) (q : Fin 64)
    (g : Fin 64 → EReal) (hg : ∀ c : Fin 64, y (ix2 p c) = g c) :
    shapeCast ⟨3, ![1, a, 64]⟩
        (divf y (broadcastTo ⟨2, ![a, 64]⟩
          (maximumf (sqrt (shapeCast ⟨2, ![a, 1]⟩ (multiReduction .add [1] ⟨1, ![a]⟩ (mulf y y) 0x00000000#32 h1 hφ hacc) h2))
            (broadcast ⟨2, ![a, 1]⟩ (Scalar.ofBits .f32 0x2B8CBCCC#32))) h3)) h4 (ix3 (0 : Fin 1) p q)
      = Cert.Sage.rowNorm g q := by
  refine (shapeCast_ab_1ab_apply _ h4 (0 : Fin 1) p q).trans ?_
  show Ideal.div (y (ix2 p q)) _ = Ideal.div (g q) (max (Ideal.sqrt (∑ c : Fin 64, g c * g c)) Cert.Sage.eps)
  rw [hg q]
  refine congrArg (Ideal.div (g q)) ?_
  refine (broadcastTo_a1_ab_apply _ h3 p q).trans ?_
  refine congrArg (fun t => max (Ideal.sqrt t) (Ideal.ofBits .f32 0x2B8CBCCC#32)) ?_
  refine (shapeCast_a_a1_apply _ h2 p (0 : Fin 1)).trans ?_
  refine (rowSum_apply _ h1 hφ hacc p).trans ?_
  exact Finset.sum_congr rfl fun c _ => by
    show y (ix2 p c) * y (ix2 p c) = g c * g c
    rw [hg c]

/-! ## The normalisation body -/

/-- The normalisation body's stored value at row `p`, lane `q`: the loaded row divided by its floored norm. -/
theorem pay0_apply (x : Vec Ideal S1x10000x64 .f32) (p : Fin 10000) (q : Fin 64) :
    k0_pay1 (F := Ideal) x (ix3 (0 : Fin 1) p q) = Cert.Sage.rowNorm (fun c => x (ix3 (0 : Fin 1) p c)) q := by
  unfold k0_pay1
  exact normTail_apply _ _ _ _ _ _ _ p q _ (fun c => shapeCast_1ab_ab_apply x _ p c)

/-! ## The layer body -/

/-- At output index `i` the product's left operand is read in row `i 0`, whatever the position along the shared axis. -/
theorem lhsIdx_row (i : S10000x64.Idx) (k : dot_S10000x64_S64x64_S10000x64_1_0_0_1_n_n.contr.Idx) :
    (dot_S10000x64_S64x64_S10000x64_1_0_0_1_n_n.lhsIdx i k 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- At output index `i` the product's right operand is read in column `i 1`. -/
theorem rhsIdx_col (i : S10000x64.Idx) (k : dot_S10000x64_S64x64_S10000x64_1_0_0_1_n_n.contr.Idx) :
    (dot_S10000x64_S64x64_S10000x64_1_0_0_1_n_n.rhsIdx i k 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The kernel's `[10000, 64]` by `[64, 64]` product into the zero accumulator, read at `(p, j)`: the sum over the
    shared axis of the products. -/
theorem matmul_apply_pj (A : FVec Ideal S10000x64 .f32) (W : FVec Ideal S64x64 .f32) (p : Fin 10000) (j : Fin 64) :
    matmul dot_S10000x64_S64x64_S10000x64_1_0_0_1_n_n none A W (constant (F := Ideal) S10000x64 .f32 0x00000000#32) (ix2 p j)
      = ∑ c : Fin 64, A (ix2 p c) * W (ix2 c j) := by
  show FloatOps.matmul dot_S10000x64_S64x64_S10000x64_1_0_0_1_n_n none A W (constant (F := Ideal) S10000x64 .f32 0x00000000#32) (ix2 p j) = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p j) ((contrEquiv1 dot_S10000x64_S64x64_S10000x64_1_0_0_1_n_n 64 rfl rfl).symm k) = ix2 p k :=
    funext fun ax => Fin.ext (by
      match ax with
      | ⟨0, _⟩ => exact lhsIdx_row _ _
      | ⟨1, _⟩ => exact (dot_S10000x64_S64x64_S10000x64_1_0_0_1_n_n.lhsIdx_val_of_single rfl _ _).trans hk)
  have er : dot_S10000x64_S64x64_S10000x64_1_0_0_1_n_n.rhsIdx (ix2 p j) ((contrEquiv1 dot_S10000x64_S64x64_S10000x64_1_0_0_1_n_n 64 rfl rfl).symm k) = ix2 k j :=
    funext fun ax => Fin.ext (by
      match ax with
      | ⟨0, _⟩ => exact (dot_S10000x64_S64x64_S10000x64_1_0_0_1_n_n.rhsIdx_val_of_single rfl _ _).trans hk
      | ⟨1, _⟩ => exact rhsIdx_col _ _)
  rw [el, er]

/-- The layer body's row before normalisation, at `(p, j)`: the mean row through `Wl`, plus the bias, plus the node's
    own row through `Wr`, negatives cut to zero. -/
theorem preact_apply (xm xx : FVec Ideal S1x10000x64 .f32) (wl wr : FVec Ideal S1x64x64 .f32) (b : FVec Ideal S1x1x64 .f32)
    (h1 : S1x10000x64.ShapeCasts S10000x64) (h2 : S1x64x64.ShapeCasts S64x64) (h3 : S1x1x64.ShapeCasts S1x64)
    (h4 : S1x64.Broadcasts S10000x64) (p : Fin 10000) (j : Fin 64) :
    maximumf
        (addf
          (addf
            (matmul dot_S10000x64_S64x64_S10000x64_1_0_0_1_n_n none (shapeCast S10000x64 xm h1) (shapeCast S64x64 wl h2)
              (constant (F := Ideal) S10000x64 .f32 0x00000000#32))
            (broadcastTo S10000x64 (shapeCast S1x64 b h3) h4))
          (matmul dot_S10000x64_S64x64_S10000x64_1_0_0_1_n_n none (shapeCast S10000x64 xx h1) (shapeCast S64x64 wr h2)
            (constant (F := Ideal) S10000x64 .f32 0x00000000#32)))
        (broadcast S10000x64 (Scalar.ofBits (F := Ideal) .f32 0x00000000#32)) (ix2 p j)
      = max ((∑ c : Fin 64, xm (ix3 (0 : Fin 1) p c) * wl (ix3 (0 : Fin 1) c j)) + b (ix3 (0 : Fin 1) (0 : Fin 1) j)
          + ∑ c : Fin 64, xx (ix3 (0 : Fin 1) p c) * wr (ix3 (0 : Fin 1) c j)) 0 := by
  show max
      (matmul dot_S10000x64_S64x64_S10000x64_1_0_0_1_n_n none (shapeCast S10000x64 xm h1) (shapeCast S64x64 wl h2)
          (constant (F := Ideal) S10000x64 .f32 0x00000000#32) (ix2 p j)
        + broadcastTo S10000x64 (shapeCast S1x64 b h3) h4 (ix2 p j)
        + matmul dot_S10000x64_S64x64_S10000x64_1_0_0_1_n_n none (shapeCast S10000x64 xx h1) (shapeCast S64x64 wr h2)
          (constant (F := Ideal) S10000x64 .f32 0x00000000#32) (ix2 p j))
      (Ideal.ofBits .f32 0x00000000#32) = _
  rw [matmul_apply_pj, matmul_apply_pj, broadcastTo_1b_ab_apply, shapeCast_1ab_ab_apply b h3, Ideal.ofBits_zero_f32]
  simp only [shapeCast_1ab_ab_apply]

/-- The layer body's stored value at row `p`, lane `q` (the first layer kernel). -/
theorem pay1_apply (xm xx : Vec Ideal S1x10000x64 .f32) (wl wr : Vec Ideal S1x64x64 .f32) (b : Vec Ideal S1x1x64 .f32)
    (p : Fin 10000) (q : Fin 64) :
    k1_pay1 (F := Ideal) xm xx wl wr b (ix3 (0 : Fin 1) p q)
      = Cert.Sage.sageRow (fun c => xm (ix3 (0 : Fin 1) p c)) (fun c => xx (ix3 (0 : Fin 1) p c))
          (fun c j => wl (ix3 (0 : Fin 1) c j)) (fun c j => wr (ix3 (0 : Fin 1) c j))
          (fun j => b (ix3 (0 : Fin 1) (0 : Fin 1) j)) q := by
  unfold k1_pay1 Cert.Sage.sageRow
  exact normTail_apply _ _ _ _ _ _ _ p q _ (fun j => preact_apply xm xx wl wr b _ _ _ _ p j)

/-- The second layer kernel's body is the same text. -/
theorem pay2_apply (xm xx : Vec Ideal S1x10000x64 .f32) (wl wr : Vec Ideal S1x64x64 .f32) (b : Vec Ideal S1x1x64 .f32)
    (p : Fin 10000) (q : Fin 64) :
    k2_pay1 (F := Ideal) xm xx wl wr b (ix3 (0 : Fin 1) p q)
      = Cert.Sage.sageRow (fun c => xm (ix3 (0 : Fin 1) p c)) (fun c => xx (ix3 (0 : Fin 1) p c))
          (fun c j => wl (ix3 (0 : Fin 1) c j)) (fun c j => wr (ix3 (0 : Fin 1) c j))
          (fun j => b (ix3 (0 : Fin 1) (0 : Fin 1) j)) q :=
  pay1_apply xm xx wl wr b p q

/-- The third layer kernel's body is the same text. -/
theorem pay3_apply (xm xx : Vec Ideal S1x10000x64 .f32) (wl wr : Vec Ideal S1x64x64 .f32) (b : Vec Ideal S1x1x64 .f32)
    (p : Fin 10000) (q : Fin 64) :
    k3_pay1 (F := Ideal) xm xx wl wr b (ix3 (0 : Fin 1) p q)
      = Cert.Sage.sageRow (fun c => xm (ix3 (0 : Fin 1) p c)) (fun c => xx (ix3 (0 : Fin 1) p c))
          (fun c j => wl (ix3 (0 : Fin 1) c j)) (fun c j => wr (ix3 (0 : Fin 1) c j))
          (fun j => b (ix3 (0 : Fin 1) (0 : Fin 1) j)) q :=
  pay1_apply xm xx wl wr b p q

end Cert.Sage.KBody

end
-- ==== Proof.KFinalLib.lean ====
/-
  What each kernel region's output array ends holding, as one function of the arrays the region reads, and the step from
  one entry of a point's stored block to that function: the body's arithmetic at `(0, p, q)` of its blocks, with each
  block's row or member identified in its array.
-/
import Idealize.ShloMosaic.Lib.ValueIdx
import proofs.«144736_j57801669869916_1_alg».proof.Proof.Gen.KernelIdeal.Skeleton
import proofs.«144736_j57801669869916_1_alg».proof.Proof.Spec
import proofs.«144736_j57801669869916_1_alg».proof.Proof.KBody

noncomputable section

namespace Cert.Sage.KFinal

open Cert.KernelIdeal Cert.KernelIdeal.Gen
open Idealize.ShloMosaic Idealize.ShloMosaic.ValueIdx

/-- The bodies load and store through the rectangle at zero offsets. -/
theorem hz : (![0, 0, 0] : Fin 3 → Nat) = fun _ => 0 := funext fun a => by fin_cases a <;> rfl

/-- An index of a `[1, 10000, 64]` block is `(0, p, q)`. -/
theorem exists_ix3_block (y : S1x10000x64.Idx) : ∃ (p : Fin 10000) (q : Fin 64), y = ix3 (0 : Fin 1) p q :=
  ⟨y 1, y 2, funext fun a => by
    match a with
    | ⟨0, _⟩ => exact Fin.ext (by have h : (y 0).val < 1 := (y 0).isLt; show (y 0).val = 0; omega)
    | ⟨1, _⟩ => rfl
    | ⟨2, _⟩ => rfl⟩

/-! ## The normalisation region: every row of the stacked input divided by its floored norm -/

/-- What the normalisation region's output array ends holding, as one function of its input array `X`. -/
def G0 (X : S3x100000x64.Idx → EReal) : S3x100000x64.Idx → EReal :=
  fun i => Cert.Sage.rowNorm (fun cc => X (ix3 (i 0 : Fin 3) (i 1 : Fin 100000) cc)) (i 2 : Fin 64)

/-- One entry of what a point stores: when row `y 1` of the point's input block `x` is row `(i 0, i 1)` of the array
    `X`, and `y`'s lane is `i`'s, the body's value at `y` is `G0 X` at `i`. -/
theorem point0 (X : S3x100000x64.Idx → EReal) (x : Vec Ideal S1x10000x64 .f32) (y : S1x10000x64.Idx) (i : S3x100000x64.Idx)
    (hx : ∀ cc : Fin 64, x (ix3 (0 : Fin 1) (y 1 : Fin 10000) cc) = X (ix3 (i 0 : Fin 3) (i 1 : Fin 100000) cc))
    (h2 : (i 2).val = (y 2).val) :
    k0_pay1 (F := Ideal) x y = G0 X i := by
  obtain ⟨p, q, rfl⟩ := exists_ix3_block y
  rw [Cert.Sage.KBody.pay0_apply]
  unfold G0
  have hq : (i 2 : Fin 64) = q := Fin.ext h2
  rw [hq]
  exact congrArg (fun g => Cert.Sage.rowNorm g q) (funext fun cc => hx cc)

/-! ## A layer region: every row through the layer, with its type's weights -/

/-- What a layer region's output array ends holding, as one function of the mean array `M`, the feature array `X`,
    the two stacked weight arrays and the stacked bias, index by index: type `i 0` uses member `i 0` of each. -/
def GLayer (M X : S3x100000x64.Idx → EReal) (Wl Wr : S3x64x64.Idx → EReal) (B : S3x1x64.Idx → EReal) :
    S3x100000x64.Idx → EReal :=
  fun i => Cert.Sage.sageRow (fun cc => M (ix3 (i 0 : Fin 3) (i 1 : Fin 100000) cc))
    (fun cc => X (ix3 (i 0 : Fin 3) (i 1 : Fin 100000) cc)) (fun cc j => Wl (ix3 (i 0 : Fin 3) cc j))
    (fun cc j => Wr (ix3 (i 0 : Fin 3) cc j)) (fun j => B (ix3 (i 0 : Fin 3) (0 : Fin 1) j)) (i 2 : Fin 64)

/-- One entry of what a point of a layer region stores, for a body `pay` that computes the layer on its blocks: when
    row `y 1` of the point's mean and feature blocks is row `(i 0, i 1)` of the arrays, its weight and bias blocks are
    member `i 0` of the stacks, and `y`'s lane is `i`'s, the body's value at `y` is `GLayer` at `i`. -/
theorem pointL_of
    (pay : Vec Ideal S1x10000x64 .f32 → Vec Ideal S1x10000x64 .f32 → Vec Ideal S1x64x64 .f32 → Vec Ideal S1x64x64 .f32
      → Vec Ideal S1x1x64 .f32 → FVec Ideal S1x10000x64 .f32)
    (hpay : ∀ (xm xx : Vec Ideal S1x10000x64 .f32) (wl wr : Vec Ideal S1x64x64 .f32) (b : Vec Ideal S1x1x64 .f32)
      (p : Fin 10000) (q : Fin 64), pay xm xx wl wr b (ix3 (0 : Fin 1) p q)
        = Cert.Sage.sageRow (fun c => xm (ix3 (0 : Fin 1) p c)) (fun c => xx (ix3 (0 : Fin 1) p c))
            (fun c j => wl (ix3 (0 : Fin 1) c j)) (fun c j => wr (ix3 (0 : Fin 1) c j))
            (fun j => b (ix3 (0 : Fin 1) (0 : Fin 1) j)) q)
    (M X : S3x100000x64.Idx → EReal) (Wl Wr : S3x64x64.Idx → EReal) (B : S3x1x64.Idx → EReal)
    (xm xx : Vec Ideal S1x10000x64 .f32) (wl wr : Vec Ideal S1x64x64 .f32) (b : Vec Ideal S1x1x64 .f32)
    (y : S1x10000x64.Idx) (i : S3x100000x64.Idx)
    (hm : ∀ cc : Fin 64, xm (ix3 (0 : Fin 1) (y 1 : Fin 10000) cc) = M (ix3 (i 0 : Fin 3) (i 1 : Fin 100000) cc))
    (hx : ∀ cc : Fin 64, xx (ix3 (0 : Fin 1) (y 1 : Fin 10000) cc) = X (ix3 (i 0 : Fin 3) (i 1 : Fin 100000) cc))
    (hl : ∀ cc j : Fin 64, wl (ix3 (0 : Fin 1) cc j) = Wl (ix3 (i 0 : Fin 3) cc j))
    (hr : ∀ cc j : Fin 64, wr (ix3 (0 : Fin 1) cc j) = Wr (ix3 (i 0 : Fin 3) cc j))
    (hb : ∀ j : Fin 64, b (ix3 (0 : Fin 1) (0 : Fin 1) j) = B (ix3 (i 0 : Fin 3) (0 : Fin 1) j))
    (h2 : (i 2).val = (y 2).val) :
    pay xm xx wl wr b y = GLayer M X Wl Wr B i := by
  obtain ⟨p, q, rfl⟩ := exists_ix3_block y
  rw [hpay]
  unfold GLayer
  rw [show (i 2 : Fin 64) = q from Fin.ext h2,
    show (fun c => xm (ix3 (0 : Fin 1) p c)) = fun cc => M (ix3 (i 0 : Fin 3) (i 1 : Fin 100000) cc) from funext hm,
    show (fun c => xx (ix3 (0 : Fin 1) p c)) = fun cc => X (ix3 (i 0 : Fin 3) (i 1 : Fin 100000) cc) from funext hx,
    show (fun c j => wl (ix3 (0 : Fin 1) c j)) = fun cc j => Wl (ix3 (i 0 : Fin 3) cc j) from
      funext fun cc => funext fun j => hl cc j,
    show (fun c j => wr (ix3 (0 : Fin 1) c j)) = fun cc j => Wr (ix3 (i 0 : Fin 3) cc j) from
      funext fun cc => funext fun j => hr cc j,
    show (fun j => b (ix3 (0 : Fin 1) (0 : Fin 1) j)) = fun j => B (ix3 (i 0 : Fin 3) (0 : Fin 1) j) from funext hb]

end Cert.Sage.KFinal

end
-- ==== Proof.KFinal0.lean ====
/-
  The normalisation region's output array, read at an index: from what each grid point writes back (its block of one
  function of the input array) and the blocks' cover of the array.
-/
import proofs.«144736_j57801669869916_1_alg».proof.Proof.KRegions
import proofs.«144736_j57801669869916_1_alg».proof.Proof.KFinalLib
import Idealize.ShloMosaic.Lib.Pipeline.Value
import Idealize.ShloMosaic.Lib.ValueIdx

noncomputable section

namespace Cert.Sage.KFinal

open Cert.KernelIdeal Cert.KernelIdeal.Gen Cert.KernelIdeal.Run
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Region 0: every row of the stacked input divided by its floored norm -/

/-- The printed index maps, decided over the grid: the input window's block index is the output window's on the
    first two axes, both are `0` on the lane axis, and the output's stay in range. -/
theorem idx_facts0 : ∀ t : Fin cfg0.N,
    win0_0.index t (0 : Fin 3) = win0_1.index t (0 : Fin 3) ∧ win0_0.index t (1 : Fin 3) = win0_1.index t (1 : Fin 3)
    ∧ win0_0.index t (2 : Fin 3) = 0 ∧ win0_1.index t (2 : Fin 3) = 0
    ∧ win0_1.index t (0 : Fin 3) ≤ 2 ∧ win0_1.index t (1 : Fin 3) ≤ 9 :=
  (by decide +kernel : ∀ t : Fin grid0.N, _)

/-- Every block of the output array is some point's. -/
theorem idx_onto0 : ∀ (q0 : Fin 3) (q1 : Fin 10), ∃ t : Fin cfg0.N, win0_1.index t = ![q0.val, q1.val, 0] :=
  (by decide +kernel : ∀ (q0 : Fin 3) (q1 : Fin 10), ∃ t : Fin grid0.N, win0_1.index t = ![q0.val, q1.val, 0])

/-- What point `t` writes back is block `t` of `G0` of the input array as the region finds it. -/
theorem flushed0_eq (c : Dev nD) (t : Fin cfg0.N) :
    (dat0 (F := Ideal) V c).flushed 1 t = ((cfg0.win 1).blk t).view.read (Elt Ideal) (G0 (V c main_v3)) := by
  show (cfg0.win 1).cut (grid0.coords t) ((dat0 (F := Ideal) V c).after 1 t) = _
  rw [after0_1]
  unfold out0
  rw [View.canon_unit_zero hz]
  simp only [View.ld_unit_zero (S := S1x10000x64) hz]
  obtain ⟨e0, e1, z0, z1, -, -⟩ := idx_facts0 t
  funext y
  rw [View.read_apply]
  refine point0 (V c main_v3) (iblk0 V c 0 t) _ _ (fun cc => ?_) ?_
  · unfold iblk0
    rw [View.read_apply]
    show V c main_v3 _ = V c main_v3 _
    refine congrArg (V c main_v3) (funext fun a => Fin.ext ?_)
    match a with
    | ⟨0, _⟩ =>
      show win0_0.index t (0 : Fin 3) * 1 + 1 * 0 = win0_1.index t (0 : Fin 3) * 1 + 1 * (y 0).val
      have h : (y 0).val < 1 := (y 0).isLt
      omega
    | ⟨1, _⟩ =>
      show win0_0.index t (1 : Fin 3) * 10000 + 1 * (y 1).val = win0_1.index t (1 : Fin 3) * 10000 + 1 * (y 1).val
      omega
    | ⟨2, _⟩ =>
      show win0_0.index t (2 : Fin 3) * 64 + 1 * cc.val = cc.val
      omega
  · show win0_1.index t (2 : Fin 3) * 64 + 1 * (y 2).val = (y 2).val
    omega

/-- An index of the array is in point `t`'s block iff each coordinate is in the block's range on its axis. -/
theorem mem_blk0 (t : Fin cfg0.N) (i : S3x100000x64.Idx) :
    i ∈ ((cfg0.win 1).blk t).view.set ↔ ∀ a : Fin 3, win0_1.index t a * S1x10000x64.size a ≤ (i a).val
      ∧ (i a).val < win0_1.index t a * S1x10000x64.size a + S1x10000x64.size a := by
  show i ∈ ((View.whole main_v4).slice (win0_1.rect t)).set ↔ _
  rw [View.set_slice_whole, Rect.mem_set_unit]
  exact Iff.rfl

/-- Every index of the output array is in some point's block: row `r` of type `k` in the block at `(k, r / 10000, 0)`. -/
theorem cover0 (i : S3x100000x64.Idx) :
    ∃ t : Fin cfg0.N, (cfg0.win 1).flush t = true ∧ i ∈ ((cfg0.win 1).blk t).view.set := by
  have hi0 : (i 0).val < 3 := (i 0).isLt
  have hi1 : (i 1).val < 100000 := (i 1).isLt
  have hi2 : (i 2).val < 64 := (i 2).isLt
  obtain ⟨t, ht⟩ := idx_onto0 ⟨(i 0).val, hi0⟩ ⟨(i 1).val / 10000, by omega⟩
  have q0 : win0_1.index t (0 : Fin 3) = (i 0).val := congrFun ht 0
  have q1 : win0_1.index t (1 : Fin 3) = (i 1).val / 10000 := congrFun ht 1
  have q2 : win0_1.index t (2 : Fin 3) = 0 := congrFun ht 2
  refine ⟨t, flush0_1 t, ?_⟩
  rw [mem_blk0]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 10000 ≤ (i 1).val ∧ (i 1).val < win0_1.index t (1 : Fin 3) * 10000 + 10000
    omega
  | ⟨2, _⟩ =>
    show win0_1.index t (2 : Fin 3) * 64 ≤ (i 2).val ∧ (i 2).val < win0_1.index t (2 : Fin 3) * 64 + 64
    omega

/-- Region 0's output array after the region, read at `(k, r, j)`. -/
theorem final0_apply (c : Dev nD) (k : Fin 3) (r : Fin 100000) (j : Fin 64) :
    (dat0 (F := Ideal) V c).arrAt 1 cfg0.N (ix3 k r j) = Cert.Sage.rowNorm (fun cc => V c main_v3 (ix3 k r cc)) j :=
  congrFun ((dat0 (F := Ideal) V c).arrAt_eq_of_cover 1 (G0 (V c main_v3)) (fun t _ => flushed0_eq V c t) (cover0)) (ix3 k r j)

end Cert.Sage.KFinal

end
-- ==== Proof.KFinal1.lean ====
/-
  Layer region 1's output array, read at an index: each window's block at a point identified in its array, what each
  grid point writes back (its block of one function of the arrays the region reads), and the blocks' cover of the array.
-/
import proofs.«144736_j57801669869916_1_alg».proof.Proof.KRegions
import proofs.«144736_j57801669869916_1_alg».proof.Proof.KFinalLib
import Idealize.ShloMosaic.Lib.Pipeline.Value
import Idealize.ShloMosaic.Lib.ValueIdx

noncomputable section

namespace Cert.Sage.KFinal

open Cert.KernelIdeal Cert.KernelIdeal.Gen Cert.KernelIdeal.Run
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps, decided over the grid: the mean and feature windows' block index is the output window's on
    the first two axes and `0` on the lane axis; the weight and bias windows' is the output's on the type axis and `0` on
    the other two; the output's is `0` on the lane axis and stays in range. -/
theorem idx_facts1 : ∀ t : Fin cfg1.N,
    (win1_0.index t (0 : Fin 3) = win1_5.index t (0 : Fin 3) ∧ win1_0.index t (1 : Fin 3) = win1_5.index t (1 : Fin 3)
      ∧ win1_0.index t (2 : Fin 3) = 0)
    ∧ (win1_1.index t (0 : Fin 3) = win1_5.index t (0 : Fin 3) ∧ win1_1.index t (1 : Fin 3) = win1_5.index t (1 : Fin 3)
      ∧ win1_1.index t (2 : Fin 3) = 0)
    ∧ (win1_2.index t (0 : Fin 3) = win1_5.index t (0 : Fin 3) ∧ win1_2.index t (1 : Fin 3) = 0
      ∧ win1_2.index t (2 : Fin 3) = 0)
    ∧ (win1_3.index t (0 : Fin 3) = win1_5.index t (0 : Fin 3) ∧ win1_3.index t (1 : Fin 3) = 0
      ∧ win1_3.index t (2 : Fin 3) = 0)
    ∧ (win1_4.index t (0 : Fin 3) = win1_5.index t (0 : Fin 3) ∧ win1_4.index t (1 : Fin 3) = 0
      ∧ win1_4.index t (2 : Fin 3) = 0)
    ∧ win1_5.index t (2 : Fin 3) = 0 ∧ win1_5.index t (0 : Fin 3) ≤ 2 ∧ win1_5.index t (1 : Fin 3) ≤ 9 :=
  (by decide +kernel : ∀ t : Fin grid1.N, _)

/-- Every block of the output array is some point's. -/
theorem idx_onto1 : ∀ (q0 : Fin 3) (q1 : Fin 10), ∃ t : Fin cfg1.N, win1_5.index t = ![q0.val, q1.val, 0] :=
  (by decide +kernel : ∀ (q0 : Fin 3) (q1 : Fin 10), ∃ t : Fin grid1.N, win1_5.index t = ![q0.val, q1.val, 0])

/-- Row `q` of the mean window's block at point `t` is the array's row `(i 0, i 1)`, for `i` under the output block's
    row `q` at that point. -/
theorem rd1_0 (c : Dev nD) (t : Fin cfg1.N) (q : Fin 10000) (cc : Fin 64) (i : S3x100000x64.Idx) (u : ℕ) (hu : u < 1)
    (hi0 : (i 0).val = win1_5.index t (0 : Fin 3) * 1 + 1 * u)
    (hi1 : (i 1).val = win1_5.index t (1 : Fin 3) * 10000 + 1 * q.val) :
    iblk1 V c 0 t (ix3 (0 : Fin 1) q cc) = V c main_v81 (ix3 (i 0 : Fin 3) (i 1 : Fin 100000) cc) := by
  have hf := idx_facts1 t
  unfold iblk1
  rw [View.read_apply]
  show V c main_v81 _ = V c main_v81 _
  refine congrArg (V c main_v81) (funext fun a => Fin.ext ?_)
  match a with
  | ⟨0, _⟩ =>
    show win1_0.index t (0 : Fin 3) * 1 + 1 * 0 = (i 0).val
    omega
  | ⟨1, _⟩ =>
    show win1_0.index t (1 : Fin 3) * 10000 + 1 * q.val = (i 1).val
    omega
  | ⟨2, _⟩ =>
    show win1_0.index t (2 : Fin 3) * 64 + 1 * cc.val = cc.val
    omega

/-- Row `q` of the feature window's block at point `t` is the array's row `(i 0, i 1)`, for `i` under the output block's
    row `q` at that point. -/
theorem rd1_1 (c : Dev nD) (t : Fin cfg1.N) (q : Fin 10000) (cc : Fin 64) (i : S3x100000x64.Idx) (u : ℕ) (hu : u < 1)
    (hi0 : (i 0).val = win1_5.index t (0 : Fin 3) * 1 + 1 * u)
    (hi1 : (i 1).val = win1_5.index t (1 : Fin 3) * 10000 + 1 * q.val) :
    iblk1 V c 1 t (ix3 (0 : Fin 1) q cc) = V c main_v4 (ix3 (i 0 : Fin 3) (i 1 : Fin 100000) cc) := by
  have hf := idx_facts1 t
  unfold iblk1
  rw [View.read_apply]
  show V c main_v4 _ = V c main_v4 _
  refine congrArg (V c main_v4) (funext fun a => Fin.ext ?_)
  match a with
  | ⟨0, _⟩ =>
    show win1_1.index t (0 : Fin 3) * 1 + 1 * 0 = (i 0).val
    omega
  | ⟨1, _⟩ =>
    show win1_1.index t (1 : Fin 3) * 10000 + 1 * q.val = (i 1).val
    omega
  | ⟨2, _⟩ =>
    show win1_1.index t (2 : Fin 3) * 64 + 1 * cc.val = cc.val
    omega

/-- The first weight window's block at point `t` is member `i 0` of the stack, for `i` under the output block at that point. -/
theorem rd1_2 (c : Dev nD) (t : Fin cfg1.N) (cc j : Fin 64) (i : S3x100000x64.Idx) (u : ℕ) (hu : u < 1)
    (hi0 : (i 0).val = win1_5.index t (0 : Fin 3) * 1 + 1 * u) :
    iblk1 V c 2 t (ix3 (0 : Fin 1) cc j) = V c main_arg6 (ix3 (i 0 : Fin 3) cc j) := by
  have hf := idx_facts1 t
  unfold iblk1
  rw [View.read_apply]
  show V c main_arg6 _ = V c main_arg6 _
  refine congrArg (V c main_arg6) (funext fun a => Fin.ext ?_)
  match a with
  | ⟨0, _⟩ =>
    show win1_2.index t (0 : Fin 3) * 1 + 1 * 0 = (i 0).val
    omega
  | ⟨1, _⟩ =>
    show win1_2.index t (1 : Fin 3) * 64 + 1 * cc.val = cc.val
    omega
  | ⟨2, _⟩ =>
    show win1_2.index t (2 : Fin 3) * 64 + 1 * j.val = j.val
    omega

/-- The bias window's block at point `t` is member `i 0` of the stacked bias, for `i` under the output block at that point. -/
theorem rd1_3 (c : Dev nD) (t : Fin cfg1.N) (j : Fin 64) (i : S3x100000x64.Idx) (u : ℕ) (hu : u < 1)
    (hi0 : (i 0).val = win1_5.index t (0 : Fin 3) * 1 + 1 * u) :
    iblk1 V c 3 t (ix3 (0 : Fin 1) (0 : Fin 1) j) = V c main_v82 (ix3 (i 0 : Fin 3) (0 : Fin 1) j) := by
  have hf := idx_facts1 t
  unfold iblk1
  rw [View.read_apply]
  show V c main_v82 _ = V c main_v82 _
  refine congrArg (V c main_v82) (funext fun a => Fin.ext ?_)
  match a with
  | ⟨0, _⟩ =>
    show win1_3.index t (0 : Fin 3) * 1 + 1 * 0 = (i 0).val
    omega
  | ⟨1, _⟩ =>
    show win1_3.index t (1 : Fin 3) * 1 + 1 * 0 = 0
    omega
  | ⟨2, _⟩ =>
    show win1_3.index t (2 : Fin 3) * 64 + 1 * j.val = j.val
    omega

/-- The second weight window's block at point `t` is member `i 0` of the stack, for `i` under the output block at that point. -/
theorem rd1_4 (c : Dev nD) (t : Fin cfg1.N) (cc j : Fin 64) (i : S3x100000x64.Idx) (u : ℕ) (hu : u < 1)
    (hi0 : (i 0).val = win1_5.index t (0 : Fin 3) * 1 + 1 * u) :
    iblk1 V c 4 t (ix3 (0 : Fin 1) cc j) = V c main_arg8 (ix3 (i 0 : Fin 3) cc j) := by
  have hf := idx_facts1 t
  unfold iblk1
  rw [View.read_apply]
  show V c main_arg8 _ = V c main_arg8 _
  refine congrArg (V c main_arg8) (funext fun a => Fin.ext ?_)
  match a with
  | ⟨0, _⟩ =>
    show win1_4.index t (0 : Fin 3) * 1 + 1 * 0 = (i 0).val
    omega
  | ⟨1, _⟩ =>
    show win1_4.index t (1 : Fin 3) * 64 + 1 * cc.val = cc.val
    omega
  | ⟨2, _⟩ =>
    show win1_4.index t (2 : Fin 3) * 64 + 1 * j.val = j.val
    omega

/-- What point `t` writes back is block `t` of `GLayer` of the arrays the region reads, as it finds them. -/
theorem flushed1_eq (c : Dev nD) (t : Fin cfg1.N) :
    (dat1 (F := Ideal) V c).flushed 5 t
      = ((cfg1.win 5).blk t).view.read (Elt Ideal)
          (GLayer (V c main_v81) (V c main_v4) (V c main_arg6) (V c main_arg8) (V c main_v82)) := by
  show (cfg1.win 5).cut (grid1.coords t) ((dat1 (F := Ideal) V c).after 5 t) = _
  rw [after1_5]
  unfold out1
  rw [View.canon_unit_zero hz]
  simp only [View.ld_unit_zero (S := S1x10000x64) hz, View.ld_unit_zero (S := S1x64x64) hz,
    View.ld_unit_zero (S := S1x1x64) hz]
  have o2 : win1_5.index t (2 : Fin 3) = 0 := (idx_facts1 t).2.2.2.2.2.1
  funext y
  rw [View.read_apply]
  have hy0 : (y 0).val < 1 := (y 0).isLt
  refine pointL_of k1_pay1 Cert.Sage.KBody.pay1_apply (V c main_v81) (V c main_v4) (V c main_arg6) (V c main_arg8) (V c main_v82)
    (iblk1 V c 0 t) (iblk1 V c 1 t) (iblk1 V c 2 t) (iblk1 V c 4 t) (iblk1 V c 3 t) _ _
    (fun cc => rd1_0 V c t _ cc _ (y 0).val hy0 rfl rfl) (fun cc => rd1_1 V c t _ cc _ (y 0).val hy0 rfl rfl)
    (fun cc j => rd1_2 V c t cc j _ (y 0).val hy0 rfl) (fun cc j => rd1_4 V c t cc j _ (y 0).val hy0 rfl)
    (fun j => rd1_3 V c t j _ (y 0).val hy0 rfl) ?_
  show win1_5.index t (2 : Fin 3) * 64 + 1 * (y 2).val = (y 2).val
  omega

/-- An index of the array is in point `t`'s block iff each coordinate is in the block's range on its axis. -/
theorem mem_blk1 (t : Fin cfg1.N) (i : S3x100000x64.Idx) :
    i ∈ ((cfg1.win 5).blk t).view.set ↔ ∀ a : Fin 3, win1_5.index t a * S1x10000x64.size a ≤ (i a).val
      ∧ (i a).val < win1_5.index t a * S1x10000x64.size a + S1x10000x64.size a := by
  show i ∈ ((View.whole main_v83).slice (win1_5.rect t)).set ↔ _
  rw [View.set_slice_whole, Rect.mem_set_unit]
  exact Iff.rfl

/-- Every index of the output array is in some point's block: row `r` of type `k` in the block at `(k, r / 10000, 0)`. -/
theorem cover1 (i : S3x100000x64.Idx) :
    ∃ t : Fin cfg1.N, (cfg1.win 5).flush t = true ∧ i ∈ ((cfg1.win 5).blk t).view.set := by
  have hi0 : (i 0).val < 3 := (i 0).isLt
  have hi1 : (i 1).val < 100000 := (i 1).isLt
  have hi2 : (i 2).val < 64 := (i 2).isLt
  obtain ⟨t, ht⟩ := idx_onto1 ⟨(i 0).val, hi0⟩ ⟨(i 1).val / 10000, by omega⟩
  have q0 : win1_5.index t (0 : Fin 3) = (i 0).val := congrFun ht 0
  have q1 : win1_5.index t (1 : Fin 3) = (i 1).val / 10000 := congrFun ht 1
  have q2 : win1_5.index t (2 : Fin 3) = 0 := congrFun ht 2
  refine ⟨t, flush1_5 t, ?_⟩
  rw [mem_blk1]
  intro a
  match a with
  | ⟨0, _⟩ =>
    show win1_5.index t (0 : Fin 3) * 1 ≤ (i 0).val ∧ (i 0).val < win1_5.index t (0 : Fin 3) * 1 + 1
    omega
  | ⟨1, _⟩ =>
    show win1_5.index t (1 : Fin 3) * 10000 ≤ (i 1).val ∧ (i 1).val < win1_5.index t (1 : Fin 3) * 10000 + 10000
    omega
  | ⟨2, _⟩ =>
    show win1_5.index t (2 : Fin 3) * 64 ≤ (i 2).val ∧ (i 2).val < win1_5.index t (2 : Fin 3) * 64 + 64
    omega

/-- The region's output array after the region, read at `(k, r, j)`: row `r` of type `k` through the layer, with
    member `k` of the weights and bias. -/
theorem final1_apply (c : Dev nD) (k : Fin 3) (r : Fin 100000) (j : Fin 64) :
    (dat1 (F := Ideal) V c).arrAt 5 cfg1.N (ix3 k r j)
      = Cert.Sage.sageRow (fun cc => V c main_v81 (ix3 k r cc)) (fun cc => V c main_v4 (ix3 k r cc))
          (fun cc j => V c main_arg6 (ix3 k cc j)) (fun cc j => V c main_arg8 (ix3 k cc j))
          (fun j => V c main_v82 (ix3 k (0 : Fin 1) j)) j :=
  congrFun ((dat1 (F := Ideal) V c).arrAt_eq_of_cover 5
    (GLayer (V c main_v81) (V c main_v4) (V c main_arg6) (V c main_arg8) (V c main_v82))
    (fun t _ => flushed1_eq V c t) (cover1)) (ix3 k r j)

end Cert.Sage.KFinal

end
-- ==== Proof.KFinal2.lean ====
/-
  Layer region 2's output array, read at an index: each window's block at a point identified in its array, what each
  grid point writes back (its block of one function of the arrays the region reads), and the blocks' cover of the array.
-/
import proofs.«144736_j57801669869916_1_alg».proof.Proof.KRegions
import proofs.«144736_j57801669869916_1_alg».proof.Proof.KFinalLib
import Idealize.ShloMosaic.Lib.Pipeline.Value
import Idealize.ShloMosaic.Lib.ValueIdx

noncomputable section

namespace Cert.Sage.KFinal

open Cert.KernelIdeal Cert.KernelIdeal.Gen Cert.KernelIdeal.Run
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps, decided over the grid: the mean and feature windows' block index is the output window's on
    the first two axes and `0` on the lane axis; the weight and bias windows' is the output's on the type axis and `0` on
    the other two; the output's is `0` on the lane axis and stays in range. -/
theorem idx_facts2 : ∀ t : Fin cfg2.N,
    (win2_0.index t (0 : Fin 3) = win2_5.index t (0 : Fin 3) ∧ win2_0.index t (1 : Fin 3) = win2_5.index t (1 : Fin 3)
      ∧ win2_0.index t (2 : Fin 3) = 0)
    ∧ (win2_1.index t (0 : Fin 3) = win2_5.index t (0 : Fin 3) ∧ win2_1.index t (1 : Fin 3) = win2_5.index t (1 : Fin 3)
      ∧ win2_1.index t (2 : Fin 3) = 0)
    ∧ (win2_2.index t (0 : Fin 3) = win2_5.index t (0 : Fin 3) ∧ win2_2.index t (1 : Fin 3) = 0
      ∧ win2_2.index t (2 : Fin 3) = 0)
    ∧ (win2_3.index t (0 : Fin 3) = win2_5.index t (0 : Fin 3) ∧ win2_3.index t (1 : Fin 3) = 0
      ∧ win2_3.index t (2 : Fin 3) = 0)
    ∧ (win2_4.index t (0 : Fin 3) = win2_5.index t (0 : Fin 3) ∧ win2_4.index t (1 : Fin 3) = 0
      ∧ win2_4.index t (2 : Fin 3) = 0)
    ∧ win2_5.index t (2 : Fin 3) = 0 ∧ win2_5.index t (0 : Fin 3) ≤ 2 ∧ win2_5.index t (1 : Fin 3) ≤ 9 :=
  (by decide +kernel : ∀ t : Fin grid2.N, _)

/-- Every block of the output array is some point's. -/
theorem idx_onto2 : ∀ (q0 : Fin 3) (q1 : Fin 10), ∃ t : Fin cfg2.N, win2_5.index t = ![q0.val, q1.val, 0] :=
  (by decide +kernel : ∀ (q0 : Fin 3) (q1 : Fin 10), ∃ t : Fin grid2.N, win2_5.index t = ![q0.val, q1.val, 0])

/-- Row `q` of the mean window's block at point `t` is the array's row `(i 0, i 1)`, for `i` under the output block's
    row `q` at that point. -/
theorem rd2_0 (c : Dev nD) (t : Fin cfg2.N) (q : Fin 10000) (cc : Fin 64) (i : S3x100000x64.Idx) (u : ℕ) (hu : u < 1)
    (hi0 : (i 0).val = win2_5.index t (0 : Fin 3) * 1 + 1 * u)
    (hi1 : (i 1).val = win2_5.index t (1 : Fin 3) * 10000 + 1 * q.val) :
    iblk2 V c 0 t (ix3 (0 : Fin 1) q cc) = V c main_v129 (ix3 (i 0 : Fin 3) (i 1 : Fin 100000) cc) := by
  have hf := idx_facts2 t
  unfold iblk2
  rw [View.read_apply]
  show V c main_v129 _ = V c main_v129 _
  refine congrArg (V c main_v129) (funext fun a => Fin.ext ?_)
  match a with
  | ⟨0, _⟩ =>
    show win2_0.index t (0 : Fin 3) * 1 + 1 * 0 = (i 0).val
    omega
  | ⟨1, _⟩ =>
    show win2_0.index t (1 : Fin 3) * 10000 + 1 * q.val = (i 1).val
    omega
  | ⟨2, _⟩ =>
    show win2_0.index t (2 : Fin 3) * 64 + 1 * cc.val = cc.val
    omega

/-- Row `q` of the feature window's block at point `t` is the array's row `(i 0, i 1)`, for `i` under the output block's
    row `q` at that point. -/
theorem rd2_1 (c : Dev nD) (t : Fin cfg2.N) (q : Fin 10000) (cc : Fin 64) (i : S3x100000x64.Idx) (u : ℕ) (hu : u < 1)
    (hi0 : (i 0).val = win2_5.index t (0 : Fin 3) * 1 + 1 * u)
    (hi1 : (i 1).val = win2_5.index t (1 : Fin 3) * 10000 + 1 * q.val) :
    iblk2 V c 1 t (ix3 (0 : Fin 1) q cc) = V c main_v83 (ix3 (i 0 : Fin 3) (i 1 : Fin 100000) cc) := by
  have hf := idx_facts2 t
  unfold iblk2
  rw [View.read_apply]
  show V c main_v83 _ = V c main_v83 _
  refine congrArg (V c main_v83) (funext fun a => Fin.ext ?_)
  match a with
  | ⟨0, _⟩ =>
    show win2_1.index t (0 : Fin 3) * 1 + 1 * 0 = (i 0).val
    omega
  | ⟨1, _⟩ =>
    show win2_1.index t (1 : Fin 3) * 10000 + 1 * q.val = (i 1).val
    omega
  | ⟨2, _⟩ =>
    show win2_1.index t (2 : Fin 3) * 64 + 1 * cc.val = cc.val
    omega

/-- The first weight window's block at point `t` is member `i 0` of the stack, for `i` under the output block at that point. -/
theorem rd2_2 (c : Dev nD) (t : Fin cfg2.N) (cc j : Fin 64) (i : S3x100000x64.Idx) (u : ℕ) (hu : u < 1)
    (hi0 : (i 0).val = win2_5.index t (0 : Fin 3) * 1 + 1 * u) :
    iblk2 V c 2 t (ix3 (0 : Fin 1) cc j) = V c main_arg6 (ix3 (i 0 : Fin 3) cc j) := by
  have hf := idx_facts2 t
  unfold iblk2
  rw [View.read_apply]
  show V c main_arg6 _ = V c main_arg6 _
  refine congrArg (V c main_arg6) (funext fun a => Fin.ext ?_)
  match a with
  | ⟨0, _⟩ =>
    show win2_2.index t (0 : Fin 3) * 1 + 1 * 0 = (i 0).val
    omega
  | ⟨1, _⟩ =>
    show win2_2.index t (1 : Fin 3) * 64 + 1 * cc.val = cc.val
    omega
  | ⟨2, _⟩ =>
    show win2_2.index t (2 : Fin 3) * 64 + 1 * j.val = j.val
    omega

/-- The bias window's block at point `t` is member `i 0` of the stacked bias, for `i` under the output block at that point. -/
theorem rd2_3 (c : Dev nD) (t : Fin cfg2.N) (j : Fin 64) (i : S3x100000x64.Idx) (u : ℕ) (hu : u < 1)
    (hi0 : (i 0).val = win2_5.index t (0 : Fin 3) * 1 + 1 * u) :
    iblk2 V c 3 t (ix3 (0 : Fin 1) (0 : Fin 1) j) = V c main_v130 (ix3 (i 0 : Fin 3) (0 : Fin 1) j) := by
  have hf := idx_facts2 t
  unfold iblk2
  rw [View.read_apply]
  show V c main_v130 _ = V c main_v130 _
  refine congrArg (V c main_v130) (funext fun a => Fin.ext ?_)
  match a with
  | ⟨0, _⟩ =>
    show win2_3.index t (0 : Fin 3) * 1 + 1 * 0 = (i 0).val
    omega
  | ⟨1, _⟩ =>
    show win2_3.index t (1 : Fin 3) * 1 + 1 * 0 = 0
    omega
  | ⟨2, _⟩ =>
    show win2_3.index t (2 : Fin 3) * 64 + 1 * j.val = j.val
    omega

/-- The second weight window's block at point `t` is member `i 0` of the stack, for `i` under the output block at that point. -/
theorem rd2_4 (c : Dev nD) (t : Fin cfg2.N) (cc j : Fin 64) (i : S3x100000x64.Idx) (u : ℕ) (hu : u < 1)
    (hi0 : (i 0).val = win2_5.index t (0 : Fin 3) * 1 + 1 * u) :
    iblk2 V c 4 t (ix3 (0 : Fin 1) cc j) = V c main_arg8 (ix3 (i 0 : Fin 3) cc j) := by
  have hf := idx_facts2 t
  unfold iblk2
  rw [View.read_apply]
  show V c main_arg8 _ = V c main_arg8 _
  refine congrArg (V c main_arg8) (funext fun a => Fin.ext ?_)
  match a with
  | ⟨0, _⟩ =>
    show win2_4.index t (0 : Fin 3) * 1 + 1 * 0 = (i 0).val
    omega
  | ⟨1, _⟩ =>
    show win2_4.index t (1 : Fin 3) * 64 + 1 * cc.val = cc.val
    omega
  | ⟨2, _⟩ =>
    show win2_4.index t (2 : Fin 3) * 64 + 1 * j.val = j.val
    omega

/-- What point `t` writes back is block `t` of `GLayer` of the arrays the region reads, as it finds them. -/
theorem flushed2_eq (c : Dev nD) (t : Fin cfg2.N) :
    (dat2 (F := Ideal) V c).flushed 5 t
      = ((cfg2.win 5).blk t).view.read (Elt Ideal)
          (GLayer (V c main_v129) (V c main_v83) (V c main_arg6) (V c main_arg8) (V c main_v130)) := by
  show (cfg2.win 5).cut (grid2.coords t) ((dat2 (F := Ideal) V c).after 5 t) = _
  rw [after2_5]
  unfold out2
  rw [View.canon_unit_zero hz]
  simp only [View.ld_unit_zero (S := S1x10000x64) hz, View.ld_unit_zero (S := S1x64x64) hz,
    View.ld_unit_zero (S := S1x1x64) hz]
  have o2 : win2_5.index t (2 : Fin 3) = 0 := (idx_facts2 t).2.2.2.2.2.1
  funext y
  rw [View.read_apply]
  have hy0 : (y 0).val < 1 := (y 0).isLt
  refine pointL_of k2_pay1 Cert.Sage.KBody.pay2_apply (V c main_v129) (V c main_v83) (V c main_arg6) (V c main_arg8) (V c main_v130)
    (iblk2 V c 0 t) (iblk2 V c 1 t) (iblk2 V c 2 t) (iblk2 V c 4 t) (iblk2 V c 3 t) _ _
    (fun cc => rd2_0 V c t _ cc _ (y 0).val hy0 rfl rfl) (fun cc => rd2_1 V c t _ cc _ (y 0).val hy0 rfl rfl)
    (fun cc j => rd2_2 V c t cc j _ (y 0).val hy0 rfl) (fun cc j => rd2_4 V c t cc j _ (y 0).val hy0 rfl)
    (fun j => rd2_3 V c t j _ (y 0).val hy0 rfl) ?_
  show win2_5.index t (2 : Fin 3) * 64 + 1 * (y 2).val = (y 2).val
  omega

/-- An index of the array is in point `t`'s block iff each coordinate is in the block's range on its axis. -/
theorem mem_blk2 (t : Fin cfg2.N) (i : S3x100000x64.Idx) :
    i ∈ ((cfg2.win 5).blk t).view.set ↔ ∀ a : Fin 3, win2_5.index t a * S1x10000x64.size a ≤ (i a).val
      ∧ (i a).val < win2_5.index t a * S1x10000x64.size a + S1x10000x64.size a := by
  show i ∈ ((View.whole main_v131).slice (win2_5.rect t)).set ↔ _
  rw [View.set_slice_whole, Rect.mem_set_unit]
  exact Iff.rfl

/-- Every index of the output array is in some point's block: row `r` of type `k` in the block at `(k, r / 10000, 0)`. -/
theorem cover2 (i : S3x100000x64.Idx) :
    ∃ t : Fin cfg2.N, (cfg2.win 5).flush t = true ∧ i ∈ ((cfg2.win 5).blk t).view.set := by
  have hi0 : (i 0).val < 3 := (i 0).isLt
  have hi1 : (i 1).val < 100000 := (i 1).isLt
  have hi2 : (i 2).val < 64 := (i 2).isLt
  obtain ⟨t, ht⟩ := idx_onto2 ⟨(i 0).val, hi0⟩ ⟨(i 1).val / 10000, by omega⟩
  have q0 : win2_5.index t (0 : Fin 3) = (i 0).val := congrFun ht 0
  have q1 : win2_5.index t (1 : Fin 3) = (i 1).val / 10000 := congrFun ht 1
  have q2 : win2_5.index t (2 : Fin 3) = 0 := congrFun ht 2
  refine ⟨t, flush2_5 t, ?_⟩
  rw [mem_blk2]
  intro a
  match a with
  | ⟨0, _⟩ =>
    show win2_5.index t (0 : Fin 3) * 1 ≤ (i 0).val ∧ (i 0).val < win2_5.index t (0 : Fin 3) * 1 + 1
    omega
  | ⟨1, _⟩ =>
    show win2_5.index t (1 : Fin 3) * 10000 ≤ (i 1).val ∧ (i 1).val < win2_5.index t (1 : Fin 3) * 10000 + 10000
    omega
  | ⟨2, _⟩ =>
    show win2_5.index t (2 : Fin 3) * 64 ≤ (i 2).val ∧ (i 2).val < win2_5.index t (2 : Fin 3) * 64 + 64
    omega

/-- The region's output array after the region, read at `(k, r, j)`: row `r` of type `k` through the layer, with
    member `k` of the weights and bias. -/
theorem final2_apply (c : Dev nD) (k : Fin 3) (r : Fin 100000) (j : Fin 64) :
    (dat2 (F := Ideal) V c).arrAt 5 cfg2.N (ix3 k r j)
      = Cert.Sage.sageRow (fun cc => V c main_v129 (ix3 k r cc)) (fun cc => V c main_v83 (ix3 k r cc))
          (fun cc j => V c main_arg6 (ix3 k cc j)) (fun cc j => V c main_arg8 (ix3 k cc j))
          (fun j => V c main_v130 (ix3 k (0 : Fin 1) j)) j :=
  congrFun ((dat2 (F := Ideal) V c).arrAt_eq_of_cover 5
    (GLayer (V c main_v129) (V c main_v83) (V c main_arg6) (V c main_arg8) (V c main_v130))
    (fun t _ => flushed2_eq V c t) (cover2)) (ix3 k r j)

end Cert.Sage.KFinal

end
-- ==== Proof.KFinal3.lean ====
/-
  Layer region 3's output array, read at an index: each window's block at a point identified in its array, what each
  grid point writes back (its block of one function of the arrays the region reads), and the blocks' cover of the array.
-/
import proofs.«144736_j57801669869916_1_alg».proof.Proof.KRegions
import proofs.«144736_j57801669869916_1_alg».proof.Proof.KFinalLib
import Idealize.ShloMosaic.Lib.Pipeline.Value
import Idealize.ShloMosaic.Lib.ValueIdx

noncomputable section

namespace Cert.Sage.KFinal

open Cert.KernelIdeal Cert.KernelIdeal.Gen Cert.KernelIdeal.Run
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps, decided over the grid: the mean and feature windows' block index is the output window's on
    the first two axes and `0` on the lane axis; the weight and bias windows' is the output's on the type axis and `0` on
    the other two; the output's is `0` on the lane axis and stays in range. -/
theorem idx_facts3 : ∀ t : Fin cfg3.N,
    (win3_0.index t (0 : Fin 3) = win3_5.index t (0 : Fin 3) ∧ win3_0.index t (1 : Fin 3) = win3_5.index t (1 : Fin 3)
      ∧ win3_0.index t (2 : Fin 3) = 0)
    ∧ (win3_1.index t (0 : Fin 3) = win3_5.index t (0 : Fin 3) ∧ win3_1.index t (1 : Fin 3) = win3_5.index t (1 : Fin 3)
      ∧ win3_1.index t (2 : Fin 3) = 0)
    ∧ (win3_2.index t (0 : Fin 3) = win3_5.index t (0 : Fin 3) ∧ win3_2.index t (1 : Fin 3) = 0
      ∧ win3_2.index t (2 : Fin 3) = 0)
    ∧ (win3_3.index t (0 : Fin 3) = win3_5.index t (0 : Fin 3) ∧ win3_3.index t (1 : Fin 3) = 0
      ∧ win3_3.index t (2 : Fin 3) = 0)
    ∧ (win3_4.index t (0 : Fin 3) = win3_5.index t (0 : Fin 3) ∧ win3_4.index t (1 : Fin 3) = 0
      ∧ win3_4.index t (2 : Fin 3) = 0)
    ∧ win3_5.index t (2 : Fin 3) = 0 ∧ win3_5.index t (0 : Fin 3) ≤ 2 ∧ win3_5.index t (1 : Fin 3) ≤ 9 :=
  (by decide +kernel : ∀ t : Fin grid3.N, _)

/-- Every block of the output array is some point's. -/
theorem idx_onto3 : ∀ (q0 : Fin 3) (q1 : Fin 10), ∃ t : Fin cfg3.N, win3_5.index t = ![q0.val, q1.val, 0] :=
  (by decide +kernel : ∀ (q0 : Fin 3) (q1 : Fin 10), ∃ t : Fin grid3.N, win3_5.index t = ![q0.val, q1.val, 0])

/-- Row `q` of the mean window's block at point `t` is the array's row `(i 0, i 1)`, for `i` under the output block's
    row `q` at that point. -/
theorem rd3_0 (c : Dev nD) (t : Fin cfg3.N) (q : Fin 10000) (cc : Fin 64) (i : S3x100000x64.Idx) (u : ℕ) (hu : u < 1)
    (hi0 : (i 0).val = win3_5.index t (0 : Fin 3) * 1 + 1 * u)
    (hi1 : (i 1).val = win3_5.index t (1 : Fin 3) * 10000 + 1 * q.val) :
    iblk3 V c 0 t (ix3 (0 : Fin 1) q cc) = V c main_v177 (ix3 (i 0 : Fin 3) (i 1 : Fin 100000) cc) := by
  have hf := idx_facts3 t
  unfold iblk3
  rw [View.read_apply]
  show V c main_v177 _ = V c main_v177 _
  refine congrArg (V c main_v177) (funext fun a => Fin.ext ?_)
  match a with
  | ⟨0, _⟩ =>
    show win3_0.index t (0 : Fin 3) * 1 + 1 * 0 = (i 0).val
    omega
  | ⟨1, _⟩ =>
    show win3_0.index t (1 : Fin 3) * 10000 + 1 * q.val = (i 1).val
    omega
  | ⟨2, _⟩ =>
    show win3_0.index t (2 : Fin 3) * 64 + 1 * cc.val = cc.val
    omega

/-- Row `q` of the feature window's block at point `t` is the array's row `(i 0, i 1)`, for `i` under the output block's
    row `q` at that point. -/
theorem rd3_1 (c : Dev nD) (t : Fin cfg3.N) (q : Fin 10000) (cc : Fin 64) (i : S3x100000x64.Idx) (u : ℕ) (hu : u < 1)
    (hi0 : (i 0).val = win3_5.index t (0 : Fin 3) * 1 + 1 * u)
    (hi1 : (i 1).val = win3_5.index t (1 : Fin 3) * 10000 + 1 * q.val) :
    iblk3 V c 1 t (ix3 (0 : Fin 1) q cc) = V c main_v131 (ix3 (i 0 : Fin 3) (i 1 : Fin 100000) cc) := by
  have hf := idx_facts3 t
  unfold iblk3
  rw [View.read_apply]
  show V c main_v131 _ = V c main_v131 _
  refine congrArg (V c main_v131) (funext fun a => Fin.ext ?_)
  match a with
  | ⟨0, _⟩ =>
    show win3_1.index t (0 : Fin 3) * 1 + 1 * 0 = (i 0).val
    omega
  | ⟨1, _⟩ =>
    show win3_1.index t (1 : Fin 3) * 10000 + 1 * q.val = (i 1).val
    omega
  | ⟨2, _⟩ =>
    show win3_1.index t (2 : Fin 3) * 64 + 1 * cc.val = cc.val
    omega

/-- The first weight window's block at point `t` is member `i 0` of the stack, for `i` under the output block at that point. -/
theorem rd3_2 (c : Dev nD) (t : Fin cfg3.N) (cc j : Fin 64) (i : S3x100000x64.Idx) (u : ℕ) (hu : u < 1)
    (hi0 : (i 0).val = win3_5.index t (0 : Fin 3) * 1 + 1 * u) :
    iblk3 V c 2 t (ix3 (0 : Fin 1) cc j) = V c main_arg6 (ix3 (i 0 : Fin 3) cc j) := by
  have hf := idx_facts3 t
  unfold iblk3
  rw [View.read_apply]
  show V c main_arg6 _ = V c main_arg6 _
  refine congrArg (V c main_arg6) (funext fun a => Fin.ext ?_)
  match a with
  | ⟨0, _⟩ =>
    show win3_2.index t (0 : Fin 3) * 1 + 1 * 0 = (i 0).val
    omega
  | ⟨1, _⟩ =>
    show win3_2.index t (1 : Fin 3) * 64 + 1 * cc.val = cc.val
    omega
  | ⟨2, _⟩ =>
    show win3_2.index t (2 : Fin 3) * 64 + 1 * j.val = j.val
    omega

/-- The bias window's block at point `t` is member `i 0` of the stacked bias, for `i` under the output block at that point. -/
theorem rd3_3 (c : Dev nD) (t : Fin cfg3.N) (j : Fin 64) (i : S3x100000x64.Idx) (u : ℕ) (hu : u < 1)
    (hi0 : (i 0).val = win3_5.index t (0 : Fin 3) * 1 + 1 * u) :
    iblk3 V c 3 t (ix3 (0 : Fin 1) (0 : Fin 1) j) = V c main_v178 (ix3 (i 0 : Fin 3) (0 : Fin 1) j) := by
  have hf := idx_facts3 t
  unfold iblk3
  rw [View.read_apply]
  show V c main_v178 _ = V c main_v178 _
  refine congrArg (V c main_v178) (funext fun a => Fin.ext ?_)
  match a with
  | ⟨0, _⟩ =>
    show win3_3.index t (0 : Fin 3) * 1 + 1 * 0 = (i 0).val
    omega
  | ⟨1, _⟩ =>
    show win3_3.index t (1 : Fin 3) * 1 + 1 * 0 = 0
    omega
  | ⟨2, _⟩ =>
    show win3_3.index t (2 : Fin 3) * 64 + 1 * j.val = j.val
    omega

/-- The second weight window's block at point `t` is member `i 0` of the stack, for `i` under the output block at that point. -/
theorem rd3_4 (c : Dev nD) (t : Fin cfg3.N) (cc j : Fin 64) (i : S3x100000x64.Idx) (u : ℕ) (hu : u < 1)
    (hi0 : (i 0).val = win3_5.index t (0 : Fin 3) * 1 + 1 * u) :
    iblk3 V c 4 t (ix3 (0 : Fin 1) cc j) = V c main_arg8 (ix3 (i 0 : Fin 3) cc j) := by
  have hf := idx_facts3 t
  unfold iblk3
  rw [View.read_apply]
  show V c main_arg8 _ = V c main_arg8 _
  refine congrArg (V c main_arg8) (funext fun a => Fin.ext ?_)
  match a with
  | ⟨0, _⟩ =>
    show win3_4.index t (0 : Fin 3) * 1 + 1 * 0 = (i 0).val
    omega
  | ⟨1, _⟩ =>
    show win3_4.index t (1 : Fin 3) * 64 + 1 * cc.val = cc.val
    omega
  | ⟨2, _⟩ =>
    show win3_4.index t (2 : Fin 3) * 64 + 1 * j.val = j.val
    omega

/-- What point `t` writes back is block `t` of `GLayer` of the arrays the region reads, as it finds them. -/
theorem flushed3_eq (c : Dev nD) (t : Fin cfg3.N) :
    (dat3 (F := Ideal) V c).flushed 5 t
      = ((cfg3.win 5).blk t).view.read (Elt Ideal)
          (GLayer (V c main_v177) (V c main_v131) (V c main_arg6) (V c main_arg8) (V c main_v178)) := by
  show (cfg3.win 5).cut (grid3.coords t) ((dat3 (F := Ideal) V c).after 5 t) = _
  rw [after3_5]
  unfold out3
  rw [View.canon_unit_zero hz]
  simp only [View.ld_unit_zero (S := S1x10000x64) hz, View.ld_unit_zero (S := S1x64x64) hz,
    View.ld_unit_zero (S := S1x1x64) hz]
  have o2 : win3_5.index t (2 : Fin 3) = 0 := (idx_facts3 t).2.2.2.2.2.1
  funext y
  rw [View.read_apply]
  have hy0 : (y 0).val < 1 := (y 0).isLt
  refine pointL_of k3_pay1 Cert.Sage.KBody.pay3_apply (V c main_v177) (V c main_v131) (V c main_arg6) (V c main_arg8) (V c main_v178)
    (iblk3 V c 0 t) (iblk3 V c 1 t) (iblk3 V c 2 t) (iblk3 V c 4 t) (iblk3 V c 3 t) _ _
    (fun cc => rd3_0 V c t _ cc _ (y 0).val hy0 rfl rfl) (fun cc => rd3_1 V c t _ cc _ (y 0).val hy0 rfl rfl)
    (fun cc j => rd3_2 V c t cc j _ (y 0).val hy0 rfl) (fun cc j => rd3_4 V c t cc j _ (y 0).val hy0 rfl)
    (fun j => rd3_3 V c t j _ (y 0).val hy0 rfl) ?_
  show win3_5.index t (2 : Fin 3) * 64 + 1 * (y 2).val = (y 2).val
  omega

/-- An index of the array is in point `t`'s block iff each coordinate is in the block's range on its axis. -/
theorem mem_blk3 (t : Fin cfg3.N) (i : S3x100000x64.Idx) :
    i ∈ ((cfg3.win 5).blk t).view.set ↔ ∀ a : Fin 3, win3_5.index t a * S1x10000x64.size a ≤ (i a).val
      ∧ (i a).val < win3_5.index t a * S1x10000x64.size a + S1x10000x64.size a := by
  show i ∈ ((View.whole main_v179).slice (win3_5.rect t)).set ↔ _
  rw [View.set_slice_whole, Rect.mem_set_unit]
  exact Iff.rfl

/-- Every index of the output array is in some point's block: row `r` of type `k` in the block at `(k, r / 10000, 0)`. -/
theorem cover3 (i : S3x100000x64.Idx) :
    ∃ t : Fin cfg3.N, (cfg3.win 5).flush t = true ∧ i ∈ ((cfg3.win 5).blk t).view.set := by
  have hi0 : (i 0).val < 3 := (i 0).isLt
  have hi1 : (i 1).val < 100000 := (i 1).isLt
  have hi2 : (i 2).val < 64 := (i 2).isLt
  obtain ⟨t, ht⟩ := idx_onto3 ⟨(i 0).val, hi0⟩ ⟨(i 1).val / 10000, by omega⟩
  have q0 : win3_5.index t (0 : Fin 3) = (i 0).val := congrFun ht 0
  have q1 : win3_5.index t (1 : Fin 3) = (i 1).val / 10000 := congrFun ht 1
  have q2 : win3_5.index t (2 : Fin 3) = 0 := congrFun ht 2
  refine ⟨t, flush3_5 t, ?_⟩
  rw [mem_blk3]
  intro a
  match a with
  | ⟨0, _⟩ =>
    show win3_5.index t (0 : Fin 3) * 1 ≤ (i 0).val ∧ (i 0).val < win3_5.index t (0 : Fin 3) * 1 + 1
    omega
  | ⟨1, _⟩ =>
    show win3_5.index t (1 : Fin 3) * 10000 ≤ (i 1).val ∧ (i 1).val < win3_5.index t (1 : Fin 3) * 10000 + 10000
    omega
  | ⟨2, _⟩ =>
    show win3_5.index t (2 : Fin 3) * 64 ≤ (i 2).val ∧ (i 2).val < win3_5.index t (2 : Fin 3) * 64 + 64
    omega

/-- The region's output array after the region, read at `(k, r, j)`: row `r` of type `k` through the layer, with
    member `k` of the weights and bias. -/
theorem final3_apply (c : Dev nD) (k : Fin 3) (r : Fin 100000) (j : Fin 64) :
    (dat3 (F := Ideal) V c).arrAt 5 cfg3.N (ix3 k r j)
      = Cert.Sage.sageRow (fun cc => V c main_v177 (ix3 k r cc)) (fun cc => V c main_v131 (ix3 k r cc))
          (fun cc j => V c main_arg6 (ix3 k cc j)) (fun cc j => V c main_arg8 (ix3 k cc j))
          (fun j => V c main_v178 (ix3 k (0 : Fin 1) j)) j :=
  congrFun ((dat3 (F := Ideal) V c).arrAt_eq_of_cover 5
    (GLayer (V c main_v177) (V c main_v131) (V c main_arg6) (V c main_arg8) (V c main_v178))
    (fun t _ => flushed3_eq V c t) (cover3)) (ix3 k r j)

end Cert.Sage.KFinal

end
-- ==== Proof.LibStack3.lean ====
import Idealize.ShloMosaic.Lib.StableHlo.Run
import Idealize.ShloMosaic.Lib.Pipeline.Value
import Idealize.ShloMosaic.Lib.ValueIdx
import Idealize.ShloMosaic.Lib.ValueLayout

/-!
# Three arrays stacked along a new leading axis, and a member sliced back out, read at an index

General facts about the host operations `jnp.stack` of three arrays and the slicing of one member lower to, over any
element type and any extents:

* an `[m, a, b]` array reshaped to `[m·a, b]` reads, at `(r, j)` with `r = n · a + i`, the operand at `(n, i, j)`, and
  the reshape back reads the other way; a `[p, b]` array reshaped to `[p, 1, b]` reads the operand at `(p, d)`;
* an `[a, b]` array (a `[b]` vector) given a leading unit axis reads the operand at the remaining coordinates;
* member `p` of a `[P, a, b]` array sliced out as `[1, a, b]` reads, at `(0, r, d)`, the array at `(p, r, d)`;
* the concatenation of three `[1, a, b]` (or `[1, b]`) pieces along axis 0 reads, at leading coordinate `0`, `1`, `2`,
  the first, second, third piece;
* a host operation of THREE operands has, as its result, its function of the three operands' contents each read at its
  own reference (`nary3_result`), so that a stretch of host operations containing such a concatenation still rewrites,
  operation by operation, to one composed term over the contents the stretch is entered from (`host_results`).
-/

noncomputable section

namespace Cert.Stack3

open Idealize.ShloMosaic Idealize.ShloMosaic.ValueIdx

/-! ## Layout operations at explicit coordinates -/

section Layout
variable {α : Type}

/-- An `[m, a, b]` array reshaped to `[M, b]` reads, at `(r, j)` with `r = n · a + i`, the operand at `(n, i, j)`:
    the two indices have the same row-major position. -/
theorem shapeCast_mab_Mb_apply {m a b M : ℕ} (x : (⟨3, ![m, a, b]⟩ : Shape).Idx → α)
    (h : (⟨3, ![m, a, b]⟩ : Shape).ShapeCasts ⟨2, ![M, b]⟩) (n : Fin m) (i : Fin a) (j : Fin b) (r : Fin M)
    (hr : r.val = n.val * a + i.val) : shapeCast ⟨2, ![M, b]⟩ x h (ix2 r j) = x (ix3 n i j) :=
  shapeCast_apply x h _ _ (by
    rw [Shape.rowMajor_val_three, Shape.rowMajor_val_two]
    show (n.val * a + i.val) * b + j.val = r.val * b + j.val
    rw [hr])

/-- An `[M, b]` array reshaped to `[m, a, b]` reads, at `(n, i, j)`, the operand at `(r, j)` with `r = n · a + i`. -/
theorem shapeCast_Mb_mab_apply {m a b M : ℕ} (x : (⟨2, ![M, b]⟩ : Shape).Idx → α)
    (h : (⟨2, ![M, b]⟩ : Shape).ShapeCasts ⟨3, ![m, a, b]⟩) (n : Fin m) (i : Fin a) (j : Fin b) (r : Fin M)
    (hr : r.val = n.val * a + i.val) : shapeCast ⟨3, ![m, a, b]⟩ x h (ix3 n i j) = x (ix2 r j) :=
  shapeCast_apply x h _ _ (by
    rw [Shape.rowMajor_val_three, Shape.rowMajor_val_two]
    show r.val * b + j.val = (n.val * a + i.val) * b + j.val
    rw [hr])

/-- A `[p, b]` array reshaped to `[p, 1, b]` reads, at `(q, u, d)`, the operand at `(q, d)`. -/
theorem shapeCast_pb_p1b_apply {p b : ℕ} (x : (⟨2, ![p, b]⟩ : Shape).Idx → α)
    (h : (⟨2, ![p, b]⟩ : Shape).ShapeCasts ⟨3, ![p, 1, b]⟩) (q : Fin p) (u : Fin 1) (d : Fin b) :
    shapeCast ⟨3, ![p, 1, b]⟩ x h (ix3 q u d) = x (ix2 q d) :=
  shapeCast_apply x h _ _ (by
    have hu : u.val = 0 := by omega
    rw [Shape.rowMajor_val_three, Shape.rowMajor_val_two]
    show q.val * b + d.val = (q.val * 1 + u.val) * b + d.val
    rw [hu, Nat.mul_one, Nat.add_zero])

/-- An `[a, b]` array broadcast to `[1, a, b]` along its two axes reads, at `(u, i, j)`, the operand at `(i, j)`. -/
theorem broadcastInDim_ab_1ab_apply {a b : ℕ} (x : (⟨2, ![a, b]⟩ : Shape).Idx → α)
    (h : (⟨2, ![a, b]⟩ : Shape).BroadcastsInDim ⟨3, ![1, a, b]⟩ ![1, 2]) (u : Fin 1) (i : Fin a) (j : Fin b) :
    broadcastInDim ⟨3, ![1, a, b]⟩ ![1, 2] h x (ix3 u i j) = x (ix2 i j) := by
  refine broadcastInDim_apply ![1, 2] h x (ix3 u i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- A `[b]` vector broadcast to `[1, b]` along its axis reads, at `(u, j)`, the operand at `j`. -/
theorem broadcastInDim_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply ![1] h x (ix2 u j) (ix1 j) fun ax => ?_
  match ax with
  | ⟨0, _⟩ =>
    show j.val = if b = 1 then 0 else j.val
    split
    · have := j.isLt; omega
    · rfl

/-- Member `p` of a `[P, a, b]` array sliced out as `[1, a, b]` reads, at `(u, i, j)`, the operand at `(p, i, j)`. -/
theorem slice_member_apply {P a b : ℕ} (p : Fin P) (x : (⟨3, ![P, a, b]⟩ : Shape).Idx → α)
    (h : (⟨3, ![P, a, b]⟩ : Shape).Slices ![p.val, 0, 0] ⟨3, ![1, a, b]⟩) (u : Fin 1) (i : Fin a) (j : Fin b) :
    extractStridedSlice ⟨3, ![1, a, b]⟩ ![p.val, 0, 0] x h (ix3 u i j) = x (ix3 p i j) := by
  refine extractStridedSlice_apply ![p.val, 0, 0] x h (ix3 u i j) (ix3 p i j) fun ax => ?_
  match ax with
  | ⟨0, _⟩ => show p.val = p.val + u.val; omega
  | ⟨1, _⟩ => show i.val = 0 + i.val; omega
  | ⟨2, _⟩ => show j.val = 0 + j.val; omega

/-- Three `[1, a, b]` pieces concatenated along the leading axis into `[3, a, b]`: member 0 is the first piece. -/
theorem concat3_1ab_apply_0 {a b : ℕ} (x0 x1 x2 : (⟨3, ![1, a, b]⟩ : Shape).Idx → α)
    (h : Shape.Concatenates (([⟨⟨3, ![1, a, b]⟩, x0⟩, ⟨⟨3, ![1, a, b]⟩, x1⟩, ⟨⟨3, ![1, a, b]⟩, x2⟩] :
      List ((s : Shape) × (s.Idx → α))).map (·.1)) ⟨3, ![3, a, b]⟩ 0) (i : Fin a) (j : Fin b) :
    concatenate ⟨3, ![3, a, b]⟩ 0 [⟨⟨3, ![1, a, b]⟩, x0⟩, ⟨⟨3, ![1, a, b]⟩, x1⟩, ⟨⟨3, ![1, a, b]⟩, x2⟩] h (ix3 (0 : Fin 3) i j)
      = x0 (ix3 (0 : Fin 1) i j) := by
  refine concatenate_apply_piece (t := ⟨3, ![3, a, b]⟩) (0 : Fin 3) [⟨⟨3, ![1, a, b]⟩, x0⟩, ⟨⟨3, ![1, a, b]⟩, x1⟩, ⟨⟨3, ![1, a, b]⟩, x2⟩] h (ix3 (0 : Fin 3) i j)
    0 (by show 0 < 3; decide) ⟨3, ![1, a, b]⟩ x0 rfl rfl 0 rfl (ix3 (0 : Fin 1) i j) (fun c hc => ?_) rfl
  match c, hc with
  | ⟨0, _⟩, hc => exact absurd rfl hc
  | ⟨1, _⟩, _ => rfl
  | ⟨2, _⟩, _ => rfl

/-- Three `[1, a, b]` pieces concatenated along the leading axis into `[3, a, b]`: member 1 is the second piece. -/
theorem concat3_1ab_apply_1 {a b : ℕ} (x0 x1 x2 : (⟨3, ![1, a, b]⟩ : Shape).Idx → α)
    (h : Shape.Concatenates (([⟨⟨3, ![1, a, b]⟩, x0⟩, ⟨⟨3, ![1, a, b]⟩, x1⟩, ⟨⟨3, ![1, a, b]⟩, x2⟩] :
      List ((s : Shape) × (s.Idx → α))).map (·.1)) ⟨3, ![3, a, b]⟩ 0) (i : Fin a) (j : Fin b) :
    concatenate ⟨3, ![3, a, b]⟩ 0 [⟨⟨3, ![1, a, b]⟩, x0⟩, ⟨⟨3, ![1, a, b]⟩, x1⟩, ⟨⟨3, ![1, a, b]⟩, x2⟩] h (ix3 (1 : Fin 3) i j)
      = x1 (ix3 (0 : Fin 1) i j) := by
  refine concatenate_apply_piece (t := ⟨3, ![3, a, b]⟩) (0 : Fin 3) [⟨⟨3, ![1, a, b]⟩, x0⟩, ⟨⟨3, ![1, a, b]⟩, x1⟩, ⟨⟨3, ![1, a, b]⟩, x2⟩] h (ix3 (1 : Fin 3) i j)
    1 (by show 1 < 3; decide) ⟨3, ![1, a, b]⟩ x1 rfl rfl 1 rfl (ix3 (0 : Fin 1) i j) (fun c hc => ?_) rfl
  match c, hc with
  | ⟨0, _⟩, hc => exact absurd rfl hc
  | ⟨1, _⟩, _ => rfl
  | ⟨2, _⟩, _ => rfl

/-- Three `[1, a, b]` pieces concatenated along the leading axis into `[3, a, b]`: member 2 is the third piece. -/
theorem concat3_1ab_apply_2 {a b : ℕ} (x0 x1 x2 : (⟨3, ![1, a, b]⟩ : Shape).Idx → α)
    (h : Shape.Concatenates (([⟨⟨3, ![1, a, b]⟩, x0⟩, ⟨⟨3, ![1, a, b]⟩, x1⟩, ⟨⟨3, ![1, a, b]⟩, x2⟩] :
      List ((s : Shape) × (s.Idx → α))).map (·.1)) ⟨3, ![3, a, b]⟩ 0) (i : Fin a) (j : Fin b) :
    concatenate ⟨3, ![3, a, b]⟩ 0 [⟨⟨3, ![1, a, b]⟩, x0⟩, ⟨⟨3, ![1, a, b]⟩, x1⟩, ⟨⟨3, ![1, a, b]⟩, x2⟩] h (ix3 (2 : Fin 3) i j)
      = x2 (ix3 (0 : Fin 1) i j) := by
  refine concatenate_apply_piece (t := ⟨3, ![3, a, b]⟩) (0 : Fin 3) [⟨⟨3, ![1, a, b]⟩, x0⟩, ⟨⟨3, ![1, a, b]⟩, x1⟩, ⟨⟨3, ![1, a, b]⟩, x2⟩] h (ix3 (2 : Fin 3) i j)
    2 (by show 2 < 3; decide) ⟨3, ![1, a, b]⟩ x2 rfl rfl 2 rfl (ix3 (0 : Fin 1) i j) (fun c hc => ?_) rfl
  match c, hc with
  | ⟨0, _⟩, hc => exact absurd rfl hc
  | ⟨1, _⟩, _ => rfl
  | ⟨2, _⟩, _ => rfl

/-- Three `[1, b]` rows concatenated along the leading axis into `[3, b]`: row 0 is the first piece. -/
theorem concat3_1b_apply_0 {b : ℕ} (x0 x1 x2 : (⟨2, ![1, b]⟩ : Shape).Idx → α)
    (h : Shape.Concatenates (([⟨⟨2, ![1, b]⟩, x0⟩, ⟨⟨2, ![1, b]⟩, x1⟩, ⟨⟨2, ![1, b]⟩, x2⟩] :
      List ((s : Shape) × (s.Idx → α))).map (·.1)) ⟨2, ![3, b]⟩ 0) (j : Fin b) :
    concatenate ⟨2, ![3, b]⟩ 0 [⟨⟨2, ![1, b]⟩, x0⟩, ⟨⟨2, ![1, b]⟩, x1⟩, ⟨⟨2, ![1, b]⟩, x2⟩] h (ix2 (0 : Fin 3) j)
      = x0 (ix2 (0 : Fin 1) j) := by
  refine concatenate_apply_piece (t := ⟨2, ![3, b]⟩) (0 : Fin 2) [⟨⟨2, ![1, b]⟩, x0⟩, ⟨⟨2, ![1, b]⟩, x1⟩, ⟨⟨2, ![1, b]⟩, x2⟩] h (ix2 (0 : Fin 3) j)
    0 (by show 0 < 3; decide) ⟨2, ![1, b]⟩ x0 rfl rfl 0 rfl (ix2 (0 : Fin 1) j) (fun c hc => ?_) rfl
  match c, hc with
  | ⟨0, _⟩, hc => exact absurd rfl hc
  | ⟨1, _⟩, _ => rfl

/-- Three `[1, b]` rows concatenated along the leading axis into `[3, b]`: row 1 is the second piece. -/
theorem concat3_1b_apply_1 {b : ℕ} (x0 x1 x2 : (⟨2, ![1, b]⟩ : Shape).Idx → α)
    (h : Shape.Concatenates (([⟨⟨2, ![1, b]⟩, x0⟩, ⟨⟨2, ![1, b]⟩, x1⟩, ⟨⟨2, ![1, b]⟩, x2⟩] :
      List ((s : Shape) × (s.Idx → α))).map (·.1)) ⟨2, ![3, b]⟩ 0) (j : Fin b) :
    concatenate ⟨2, ![3, b]⟩ 0 [⟨⟨2, ![1, b]⟩, x0⟩, ⟨⟨2, ![1, b]⟩, x1⟩, ⟨⟨2, ![1, b]⟩, x2⟩] h (ix2 (1 : Fin 3) j)
      = x1 (ix2 (0 : Fin 1) j) := by
  refine concatenate_apply_piece (t := ⟨2, ![3, b]⟩) (0 : Fin 2) [⟨⟨2, ![1, b]⟩, x0⟩, ⟨⟨2, ![1, b]⟩, x1⟩, ⟨⟨2, ![1, b]⟩, x2⟩] h (ix2 (1 : Fin 3) j)
    1 (by show 1 < 3; decide) ⟨2, ![1, b]⟩ x1 rfl rfl 1 rfl (ix2 (0 : Fin 1) j) (fun c hc => ?_) rfl
  match c, hc with
  | ⟨0, _⟩, hc => exact absurd rfl hc
  | ⟨1, _⟩, _ => rfl

/-- Three `[1, b]` rows concatenated along the leading axis into `[3, b]`: row 2 is the third piece. -/
theorem concat3_1b_apply_2 {b : ℕ} (x0 x1 x2 : (⟨2, ![1, b]⟩ : Shape).Idx → α)
    (h : Shape.Concatenates (([⟨⟨2, ![1, b]⟩, x0⟩, ⟨⟨2, ![1, b]⟩, x1⟩, ⟨⟨2, ![1, b]⟩, x2⟩] :
      List ((s : Shape) × (s.Idx → α))).map (·.1)) ⟨2, ![3, b]⟩ 0) (j : Fin b) :
    concatenate ⟨2, ![3, b]⟩ 0 [⟨⟨2, ![1, b]⟩, x0⟩, ⟨⟨2, ![1, b]⟩, x1⟩, ⟨⟨2, ![1, b]⟩, x2⟩] h (ix2 (2 : Fin 3) j)
      = x2 (ix2 (0 : Fin 1) j) := by
  refine concatenate_apply_piece (t := ⟨2, ![3, b]⟩) (0 : Fin 2) [⟨⟨2, ![1, b]⟩, x0⟩, ⟨⟨2, ![1, b]⟩, x1⟩, ⟨⟨2, ![1, b]⟩, x2⟩] h (ix2 (2 : Fin 3) j)
    2 (by show 2 < 3; decide) ⟨2, ![1, b]⟩ x2 rfl rfl 2 rfl (ix2 (0 : Fin 1) j) (fun c hc => ?_) rfl
  match c, hc with
  | ⟨0, _⟩, hc => exact absurd rfl hc
  | ⟨1, _⟩, _ => rfl

end Layout

/-! ## A three-operand host operation's result -/

/-- A three-operand operation's result with each operand's contents at its own reference. -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (V : Valuation τ sig Val) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

/-- Rewrites a stretch's result at one reference to the operations' composed term over the entry contents. -/
macro "host_results" : tactic =>
  `(tactic| (simp only [StableHlo.after_cons, StableHlo.after_nil]
             repeat (first
               | rw [nary3_result] | rw [StableHlo.unary_result] | rw [StableHlo.reshape_result]
               | (rw [StableHlo.unary_result_ne]; rotate_left; decide)
               | (rw [StableHlo.reshape_result_ne]; rotate_left; decide)
               | (rw [StableHlo.nary_result_ne]; rotate_left; decide))))

end Cert.Stack3

end
-- ==== Proof.KStack.lean ====
/-
  The two host stretches around the kernels: the three node types' feature arrays stacked along a new leading axis
  before the first kernel, and each type's array sliced back out of the stack after the last.
-/
import Idealize.ShloMosaic.Lib.StableHlo.Run
import Idealize.ShloMosaic.Lib.Pipeline.Value
import Idealize.ShloMosaic.Lib.ValueIdx
import Idealize.ShloMosaic.Lib.ValueLayout
import proofs.«144736_j57801669869916_1_alg».proof.Proof.Gen.KernelIdeal.Launch
import proofs.«144736_j57801669869916_1_alg».proof.Proof.LibStack3

noncomputable section

namespace Cert.Sage.KStack

open Idealize.ShloMosaic Idealize.ShloMosaic.ValueIdx Cert.KernelIdeal Cert.KernelIdeal.Gen Cert.Stack3

variable {F : FTy → Type} [FloatOps F]

/-! ## The three node types' arrays stacked along a new leading axis -/

/-- Member 0 of the stack is the first type's array. -/
theorem stack_apply_0 (V : Valuation τ sig (Elt F)) (r : Fin 100000) (j : Fin 64) :
    StableHlo.after (hostOps0 (F := F)) V (Proc.devRef .tc main_v3) (ix3 (0 : Fin 3) r j)
      = V (Proc.devRef .tc main_arg0) (ix2 r j) := by
  dsimp only [hostOps0]
  host_results
  refine (concat3_1ab_apply_0 _ _ _ _ r j).trans ?_
  exact broadcastInDim_ab_1ab_apply (V (Proc.devRef .tc main_arg0)) Facts₀.bcast_S100000x64_S1x100000x64_1_2 (0 : Fin 1) r j

/-- Member 1 of the stack is the second type's array. -/
theorem stack_apply_1 (V : Valuation τ sig (Elt F)) (r : Fin 100000) (j : Fin 64) :
    StableHlo.after (hostOps0 (F := F)) V (Proc.devRef .tc main_v3) (ix3 (1 : Fin 3) r j)
      = V (Proc.devRef .tc main_arg1) (ix2 r j) := by
  dsimp only [hostOps0]
  host_results
  refine (concat3_1ab_apply_1 _ _ _ _ r j).trans ?_
  exact broadcastInDim_ab_1ab_apply (V (Proc.devRef .tc main_arg1)) Facts₀.bcast_S100000x64_S1x100000x64_1_2 (0 : Fin 1) r j

/-- Member 2 of the stack is the third type's array. -/
theorem stack_apply_2 (V : Valuation τ sig (Elt F)) (r : Fin 100000) (j : Fin 64) :
    StableHlo.after (hostOps0 (F := F)) V (Proc.devRef .tc main_v3) (ix3 (2 : Fin 3) r j)
      = V (Proc.devRef .tc main_arg2) (ix2 r j) := by
  dsimp only [hostOps0]
  host_results
  refine (concat3_1ab_apply_2 _ _ _ _ r j).trans ?_
  exact broadcastInDim_ab_1ab_apply (V (Proc.devRef .tc main_arg2)) Facts₀.bcast_S100000x64_S1x100000x64_1_2 (0 : Fin 1) r j

/-! ## Each type's array sliced back out of the stack -/

/-- The first result is member 0 of the stacked array. -/
theorem unstack_apply_0 (V : Valuation τ sig (Elt F)) (r : Fin 100000) (j : Fin 64) :
    StableHlo.after (hostOps4 (F := F)) V (Proc.devRef .tc main_v181) (ix2 r j)
      = V (Proc.devRef .tc main_v179) (ix3 (0 : Fin 3) r j) := by
  dsimp only [hostOps4]
  host_results
  refine (shapeCast_1ab_ab_apply _ _ r j).trans ?_
  exact slice_member_apply (0 : Fin 3) _ _ (0 : Fin 1) r j

/-- The second result is member 1 of the stacked array. -/
theorem unstack_apply_1 (V : Valuation τ sig (Elt F)) (r : Fin 100000) (j : Fin 64) :
    StableHlo.after (hostOps4 (F := F)) V (Proc.devRef .tc main_v183) (ix2 r j)
      = V (Proc.devRef .tc main_v179) (ix3 (1 : Fin 3) r j) := by
  dsimp only [hostOps4]
  host_results
  refine (shapeCast_1ab_ab_apply _ _ r j).trans ?_
  exact slice_member_apply (1 : Fin 3) _ _ (0 : Fin 1) r j

/-- The third result is member 2 of the stacked array. -/
theorem unstack_apply_2 (V : Valuation τ sig (Elt F)) (r : Fin 100000) (j : Fin 64) :
    StableHlo.after (hostOps4 (F := F)) V (Proc.devRef .tc main_v185) (ix2 r j)
      = V (Proc.devRef .tc main_v179) (ix3 (2 : Fin 3) r j) := by
  dsimp only [hostOps4]
  host_results
  refine (shapeCast_1ab_ab_apply _ _ r j).trans ?_
  exact slice_member_apply (2 : Fin 3) _ _ (0 : Fin 1) r j

end Cert.Sage.KStack

end
-- ==== Proof.KHostPure.lean ====
import proofs.«144736_j57801669869916_1_alg».proof.Proof.Gen.KernelIdeal.Launch
import proofs.«144736_j57801669869916_1_alg».proof.Proof.Spec
import proofs.«144736_j57801669869916_1_alg».proof.Proof.LibStack3
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

/-!
# The neighbour mean, as the host operations between two kernel launches spell it

One edge array `e : [2, 800000]` gives the sources (row 0) and the destinations (row 1). The host program
* wraps a negative source index by adding the number of nodes, and gathers the feature rows at the wrapped sources;
* adds the gathered rows into zeros at the destinations, and divides row `r` by the count of edges landing on `r`,
  clamped below by one; the counts are themselves an accumulation of ones into zeros at the destinations.
Read at an index, this is the mean `aggMean` of the specification. The lemmas here are stated over arbitrary arrays.
-/

noncomputable section

namespace Cert.Sage.KHost

open Idealize.ShloMosaic Idealize.ShloMosaic.ValueIdx
open Cert.KernelIdeal Cert.KernelIdeal.Gen
open Cert.ScatterGather Cert.GraphMean Cert.Stack3

/-! ## Layout steps at explicit coordinates -/

section Layout
variable {α : Type}

/-- A vector `[n]` given a trailing unit axis reads, at `(a, b)`, the vector at `a`. -/
theorem bcast_col_apply {n : ℕ} (x : (⟨1, ![n]⟩ : Shape).Idx → α)
    (h : (⟨1, ![n]⟩ : Shape).BroadcastsInDim ⟨2, ![n, 1]⟩ ![0]) (a : Fin n) (b : Fin 1) :
    broadcastInDim ⟨2, ![n, 1]⟩ ![0] h x (ix2 a b) = x (ix1 a) := by
  refine broadcastInDim_apply ![0] h x (ix2 a b) (ix1 a) fun ax => ?_
  match ax with
  | ⟨0, _⟩ =>
    show a.val = if n = 1 then 0 else a.val
    split
    · have := a.isLt; omega
    · rfl

/-- A column `[n, 1]` spread over `c` columns reads, at `(r, j)`, the column at `(r, 0)`. -/
theorem bcast_cols_apply {n c : ℕ} (x : (⟨2, ![n, 1]⟩ : Shape).Idx → α)
    (h : (⟨2, ![n, 1]⟩ : Shape).BroadcastsInDim ⟨2, ![n, c]⟩ ![0, 1]) (r : Fin n) (j : Fin c) :
    broadcastInDim ⟨2, ![n, c]⟩ ![0, 1] h x (ix2 r j) = x (ix2 r (0 : Fin 1)) := by
  refine broadcastInDim_apply ![0, 1] h x (ix2 r j) (ix2 r (0 : Fin 1)) fun ax => ?_
  match ax with
  | ⟨0, _⟩ =>
    show r.val = if n = 1 then 0 else r.val
    split
    · have := r.isLt; omega
    · rfl
  | ⟨1, _⟩ => rfl

/-- Row `m` of a `[2, n]` array sliced out as `[1, n]` and flattened to `[n]` reads, at `i`, the array at `(m, i)`. -/
theorem edge_row {n : ℕ} (o : ℕ) (m : Fin 2) (hm : m.val = o) (e : (⟨2, ![2, n]⟩ : Shape).Idx → α)
    (h : (⟨2, ![2, n]⟩ : Shape).Slices ![o, 0] ⟨2, ![1, n]⟩) (h' : (⟨2, ![1, n]⟩ : Shape).ShapeCasts ⟨1, ![n]⟩) :
    shapeCast ⟨1, ![n]⟩ (extractStridedSlice ⟨2, ![1, n]⟩ ![o, 0] e h) h' = fun i => e (ix2 m (i 0)) := by
  funext i
  obtain ⟨a, rfl⟩ : ∃ a, i = ix1 a := ⟨i 0, eq_ix1 i⟩
  refine (shapeCast_1a_a_apply _ h' a).trans ?_
  exact slice2_axis0_apply o e h (0 : Fin 1) a m (by rw [hm]; rfl)

end Layout

/-! ## The index arrays -/

/-- The destinations, given a trailing unit axis, are the specification's destination array. -/
theorem dst_eq (e : IVec S2x800000 32) (d : IVec S800000 32) (hd : d = fun i => e (ix2 (1 : Fin 2) (i 0)))
    (h : S800000.BroadcastsInDim S800000x1 ![0]) :
    broadcastInDim S800000x1 ![0] h d = dstOf e := by
  subst hd
  funext i
  obtain ⟨a, b, rfl⟩ : ∃ a b, i = ix2 a b := ⟨i 0, i 1, eq_ix2 i⟩
  exact bcast_col_apply _ h a b

/-- The sources, a negative one wrapped by the number of nodes, given a trailing unit axis, are the specification's
    source array. -/
theorem src_eq (e : IVec S2x800000 32) (s : IVec S800000 32) (hs : s = fun i => e (ix2 (0 : Fin 2) (i 0)))
    (h : S800000.BroadcastsInDim S800000x1 ![0]) (h0 : S_.BroadcastsInDim S800000 ![]) :
    broadcastInDim S800000x1 ![0] h
      (select (cmpi .slt s (broadcastInDim S800000 ![] h0 (constantI S_ 32 0#32)))
        (addi s (broadcastInDim S800000 ![] h0 (constantI S_ 32 100000#32))) s) = srcOf e := by
  subst hs
  funext i
  obtain ⟨a, b, rfl⟩ : ∃ a b, i = ix2 a b := ⟨i 0, i 1, eq_ix2 i⟩
  exact bcast_col_apply _ h a b

/-! ## The accumulations -/

/-- An accumulating scatter of a vector of updates into a vector of zeros, read at `r`: the sum of the updates that
    land on `r`. -/
theorem scatter_flat_apply {N M w : ℕ} (wf : ScatterDims.WF ⟨1, ![N]⟩ ⟨2, ![M, 1]⟩ ⟨1, ![M]⟩ [] [0] [0] 1)
    (idx : IVec ⟨2, ![M, 1]⟩ w) (u : (⟨1, ![M]⟩ : Shape).Idx → EReal) (r : Fin N) :
    Ideal.hostScatterAdd (flatScatter N M wf) (fun _ => 0) idx u (ix1 r) = ∑ e ∈ landing idx r, u (ix1 e) := by
  unfold Ideal.hostScatterAdd
  rw [zero_add]
  refine Finset.sum_nbij' (fun j => j 0) (fun e => ix1 e) ?_ ?_ ?_ ?_ ?_
  · intro j hj
    exact Finset.mem_filter.mpr ⟨Finset.mem_univ _,
      (flatScatter_resultIdx?_eq_some_iff wf j idx (ix1 r)).mp (Finset.mem_filter.mp hj).2⟩
  · intro e he
    exact Finset.mem_filter.mpr ⟨Finset.mem_univ _,
      (flatScatter_resultIdx?_eq_some_iff wf (ix1 e) idx (ix1 r)).mpr (Finset.mem_filter.mp he).2⟩
  · intro j _
    exact (eq_ix1 j).symm
  · intro e _
    rfl
  · intro j _
    exact congrArg u (eq_ix1 j)

attribute [local irreducible] Cert.GraphMean.landing

/-- The scalar zero spread over any shape is the zero array. -/
theorem zeros_eq {T : Shape} (hz : S_.BroadcastsInDim T ![]) :
    broadcastInDim T ![] hz (constant (F := Ideal) S_ .f32 0x00000000#32) = fun _ => (0 : EReal) := by
  funext i
  exact Ideal.ofBits_zero_f32

/-- The scalar one spread over any shape is the array of ones. -/
theorem ones_eq {T : Shape} (hu : S_.BroadcastsInDim T ![]) :
    broadcastInDim T ![] hu (constant (F := Ideal) S_ .f32 0x3F800000#32) = fun _ => one := rfl

/-- The host's accumulating scatter, on the extended reals. -/
theorem hostScatterAdd_eq {s si u : Shape} {w : ℕ} (d : ScatterDims s si u) (x : FVec Ideal s .f32) (idx : IVec si w)
    (upd : FVec Ideal u .f32) : Host.scatterAdd d x idx upd = Ideal.hostScatterAdd d x idx upd := rfl

/-- The three index records of the program are the row gather, the row scatter and the vector scatter. -/
theorem flatRec_eq : scatter_S100000_S800000x1_S800000_n_0_0_1
    = flatScatter 100000 800000 scatter_S100000_S800000x1_S800000_n_0_0_1_wf := rfl
theorem rowsRec_eq : scatter_S100000x64_S800000x1_S800000x64_1_0_0_1
    = rowsScatter 100000 800000 64 scatter_S100000x64_S800000x1_S800000x64_1_0_0_1_wf := rfl
theorem gatherRec_eq : gather_S100000x64_S800000x1_S800000x64_1_0_n_n_0_1_164
    = rowsDims 100000 800000 64 gather_S100000x64_S800000x1_S800000x64_1_0_n_n_0_1_164_wf := rfl

/-- The clamped in-degrees as the host spells them: ones accumulated into zeros at the destinations, the maximum
    with one taken, a trailing unit axis added. Read at `(r, 0)`: the number of edges landing on `r`, as a sum of
    ones, clamped below by one. -/
theorem count_apply (e : IVec S2x800000 32) (d : IVec S800000 32) (hd : d = fun i => e (ix2 (1 : Fin 2) (i 0)))
    (hb : S100000.BroadcastsInDim S100000x1 ![0]) (hz : S_.BroadcastsInDim S100000 ![])
    (hi : S800000.BroadcastsInDim S800000x1 ![0]) (hu : S_.BroadcastsInDim S800000 ![]) (r : Fin 100000) :
    broadcastInDim S100000x1 ![0] hb
      (maximumf
        (Host.scatterAdd (F := Ideal) scatter_S100000_S800000x1_S800000_n_0_0_1
          (broadcastInDim S100000 ![] hz (constant S_ .f32 0x00000000#32))
          (broadcastInDim S800000x1 ![0] hi d)
          (broadcastInDim S800000 ![] hu (constant S_ .f32 0x3F800000#32)))
        (broadcastInDim S100000 ![] hz (constant S_ .f32 0x3F800000#32))) (ix2 r (0 : Fin 1))
      = max (∑ _e ∈ landing (dstOf e) r, one) one := by
  refine (bcast_col_apply _ hb r 0).trans ?_
  rw [maximumf_apply, dst_eq e d hd hi, zeros_eq hz, ones_eq hu, ones_eq hz, hostScatterAdd_eq, flatRec_eq,
    scatter_flat_apply]

/-- ONE MEAN. Member `k` of the stacked features sliced out, its rows gathered at the index array `Sx`, the gathered
    rows accumulated into zeros at the index array `Dx`, each row divided by its entry of the column `cnt`, a leading
    unit axis added. Read at `(0, r, j)`. -/
theorem mean_rows_apply (feat : FVec Ideal S3x100000x64 .f32) (k : Fin 3) (o : ℕ) (ho : k.val = o)
    (hsl : S3x100000x64.Slices ![o, 0, 0] S1x100000x64) (hsc : S1x100000x64.ShapeCasts S100000x64)
    (Sx Dx : IVec S800000x1 32) (hz : S_.BroadcastsInDim S100000x64 ![])
    (cnt : FVec Ideal S100000x1 .f32) (hc : S100000x1.BroadcastsInDim S100000x64 ![0, 1])
    (hb : S100000x64.BroadcastsInDim S1x100000x64 ![1, 2]) (r : Fin 100000) (j : Fin 64) :
    broadcastInDim S1x100000x64 ![1, 2] hb
      (Host.divf
        (Host.scatterAdd (F := Ideal) scatter_S100000x64_S800000x1_S800000x64_1_0_0_1
          (broadcastInDim S100000x64 ![] hz (constant S_ .f32 0x00000000#32)) Dx
          (Host.gather gather_S100000x64_S800000x1_S800000x64_1_0_n_n_0_1_164
            (shapeCast S100000x64 (extractStridedSlice S1x100000x64 ![o, 0, 0] feat hsl) hsc) Sx))
        (broadcastInDim S100000x64 ![0, 1] hc cnt)) (ix3 (0 : Fin 1) r j)
      = Ideal.div (∑ e ∈ landing Dx r, feat (ix3 k (clampRow 100000 NN_pos Sx e) j)) (cnt (ix2 r (0 : Fin 1))) := by
  subst ho
  refine (broadcastInDim_ab_1ab_apply _ hb 0 r j).trans ?_
  rw [hostDivf_apply, zeros_eq hz, hostScatterAdd_eq, rowsRec_eq, scatter_rows_apply, bcast_cols_apply]
  refine congrArg (fun x => Ideal.div x (cnt (ix2 r (0 : Fin 1)))) ?_
  refine Finset.sum_congr rfl fun e _ => ?_
  rw [gatherRec_eq, gather_rows_apply NN_pos]
  exact (shapeCast_1ab_ab_apply _ hsc _ j).trans (slice_member_apply k feat hsl 0 _ j)

/-- ONE MEAN against the specification: with the sources and destinations rows 0 and 1 of one edge array, the source a
    negative index wrapped, and the column of divisors the clamped in-degrees, the term of `mean_rows_apply` is the
    specification's mean of member `k`. -/
theorem mean_member_apply (feat : FVec Ideal S3x100000x64 .f32) (k : Fin 3) (o : ℕ) (ho : k.val = o)
    (hsl : S3x100000x64.Slices ![o, 0, 0] S1x100000x64) (hsc : S1x100000x64.ShapeCasts S100000x64)
    (e : IVec S2x800000 32) (s d : IVec S800000 32)
    (hs : s = fun i => e (ix2 (0 : Fin 2) (i 0))) (hd : d = fun i => e (ix2 (1 : Fin 2) (i 0)))
    (hi : S800000.BroadcastsInDim S800000x1 ![0]) (h0 : S_.BroadcastsInDim S800000 ![])
    (hz : S_.BroadcastsInDim S100000x64 ![])
    (cnt : FVec Ideal S100000x1 .f32) (hcnt : ∀ r, cnt (ix2 r (0 : Fin 1)) = max (∑ _e ∈ landing (dstOf e) r, one) one)
    (hc : S100000x1.BroadcastsInDim S100000x64 ![0, 1])
    (hb : S100000x64.BroadcastsInDim S1x100000x64 ![1, 2]) (r : Fin 100000) (j : Fin 64) :
    broadcastInDim S1x100000x64 ![1, 2] hb
      (Host.divf
        (Host.scatterAdd (F := Ideal) scatter_S100000x64_S800000x1_S800000x64_1_0_0_1
          (broadcastInDim S100000x64 ![] hz (constant S_ .f32 0x00000000#32))
          (broadcastInDim S800000x1 ![0] hi d)
          (Host.gather gather_S100000x64_S800000x1_S800000x64_1_0_n_n_0_1_164
            (shapeCast S100000x64 (extractStridedSlice S1x100000x64 ![o, 0, 0] feat hsl) hsc)
            (broadcastInDim S800000x1 ![0] hi
              (select (cmpi .slt s (broadcastInDim S800000 ![] h0 (constantI S_ 32 0#32)))
                (addi s (broadcastInDim S800000 ![] h0 (constantI S_ 32 100000#32))) s))))
        (broadcastInDim S100000x64 ![0, 1] hc cnt)) (ix3 (0 : Fin 1) r j)
      = aggMean (fun r c => feat (ix3 k r c)) (srcOf e) (dstOf e) r j := by
  rw [mean_rows_apply feat k o ho hsl hsc _ _ hz cnt hc hb r j, src_eq e s hs hi h0, dst_eq e d hd hi, hcnt r]
  unfold aggMean
  rfl

/-! ## A stretch of host operations read at one buffer -/

/-- A three-operand operation's result with each operand's contents at its own reference, in the form a
    simplification pass over a whole stretch applies. -/
theorem nary3_result' {τ : Topo} {sig : RefSig} {Val : EltTy → Type} {x a b y : Ref sig .tc}
    (f : ((k : Fin 3) → ((![x, a, b] : Fin 3 → Ref sig .tc) k).ty.Contents Val) → y.ty.Contents Val) (hxs hy)
    (V : Valuation τ sig Val) :
    (StableHlo.nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

open StableHlo in
/-- Rewrites a stretch's result at a reference to the operations' composed term over the entry contents, in one pass:
    each operation's result at its own reference is its function of its operands' contents, at any other reference what
    was there. -/
macro "host_simp" : tactic =>
  `(tactic| (simp (disch := decide) only [after_cons, after_nil,
      nullary_result', unary_result', binary_result', ternary_result', reshape_result', nary3_result',
      nullary_result_ne', unary_result_ne', binary_result_ne', ternary_result_ne', reshape_result_ne',
      nary_result_ne']))

end Cert.Sage.KHost

end
-- ==== Proof.KHost1a.lean ====
import proofs.«144736_j57801669869916_1_alg».proof.Proof.KHostPure

/-!
# The first stretch of host operations: the edge rows and the bias rows

Each edge array's row 0 (the sources) and row 1 (the destinations) are sliced out and flattened; the stacked bias
rows are given a unit middle axis. No later operation of the stretch writes these buffers.
-/

noncomputable section

namespace Cert.Sage.KHost

open Idealize.ShloMosaic Idealize.ShloMosaic.ValueIdx
open Cert.KernelIdeal Cert.KernelIdeal.Gen
open Cert.ScatterGather Cert.GraphMean Cert.Stack3

set_option maxRecDepth 8192 in
set_option maxHeartbeats 8000000 in
/-- The six edge rows the first stretch leaves. -/
theorem s1_edges (V : Valuation τ sig (Elt Ideal)) :
    (StableHlo.after (hostOps1 (F := Ideal)) V (Proc.devRef .tc main_v6) = fun i => V (Proc.devRef .tc main_arg3) (ix2 (0 : Fin 2) (i 0))) ∧
    (StableHlo.after (hostOps1 (F := Ideal)) V (Proc.devRef .tc main_v8) = fun i => V (Proc.devRef .tc main_arg4) (ix2 (0 : Fin 2) (i 0))) ∧
    (StableHlo.after (hostOps1 (F := Ideal)) V (Proc.devRef .tc main_v10) = fun i => V (Proc.devRef .tc main_arg5) (ix2 (0 : Fin 2) (i 0))) ∧
    (StableHlo.after (hostOps1 (F := Ideal)) V (Proc.devRef .tc main_v12) = fun i => V (Proc.devRef .tc main_arg3) (ix2 (1 : Fin 2) (i 0))) ∧
    (StableHlo.after (hostOps1 (F := Ideal)) V (Proc.devRef .tc main_v14) = fun i => V (Proc.devRef .tc main_arg4) (ix2 (1 : Fin 2) (i 0))) ∧
    (StableHlo.after (hostOps1 (F := Ideal)) V (Proc.devRef .tc main_v16) = fun i => V (Proc.devRef .tc main_arg5) (ix2 (1 : Fin 2) (i 0))) := by
  host_simp
  exact ⟨edge_row 0 0 rfl _ _ _, edge_row 0 0 rfl _ _ _, edge_row 0 0 rfl _ _ _, edge_row 1 1 rfl _ _ _, edge_row 1 1 rfl _ _ _, edge_row 1 1 rfl _ _ _⟩

theorem s1_v6 (V : Valuation τ sig (Elt Ideal)) :
    StableHlo.after (hostOps1 (F := Ideal)) V (Proc.devRef .tc main_v6) = fun i => V (Proc.devRef .tc main_arg3) (ix2 (0 : Fin 2) (i 0)) := (s1_edges V).1

theorem s1_v8 (V : Valuation τ sig (Elt Ideal)) :
    StableHlo.after (hostOps1 (F := Ideal)) V (Proc.devRef .tc main_v8) = fun i => V (Proc.devRef .tc main_arg4) (ix2 (0 : Fin 2) (i 0)) := (s1_edges V).2.1

theorem s1_v10 (V : Valuation τ sig (Elt Ideal)) :
    StableHlo.after (hostOps1 (F := Ideal)) V (Proc.devRef .tc main_v10) = fun i => V (Proc.devRef .tc main_arg5) (ix2 (0 : Fin 2) (i 0)) := (s1_edges V).2.2.1

theorem s1_v12 (V : Valuation τ sig (Elt Ideal)) :
    StableHlo.after (hostOps1 (F := Ideal)) V (Proc.devRef .tc main_v12) = fun i => V (Proc.devRef .tc main_arg3) (ix2 (1 : Fin 2) (i 0)) := (s1_edges V).2.2.2.1

theorem s1_v14 (V : Valuation τ sig (Elt Ideal)) :
    StableHlo.after (hostOps1 (F := Ideal)) V (Proc.devRef .tc main_v14) = fun i => V (Proc.devRef .tc main_arg4) (ix2 (1 : Fin 2) (i 0)) := (s1_edges V).2.2.2.2.1

theorem s1_v16 (V : Valuation τ sig (Elt Ideal)) :
    StableHlo.after (hostOps1 (F := Ideal)) V (Proc.devRef .tc main_v16) = fun i => V (Proc.devRef .tc main_arg5) (ix2 (1 : Fin 2) (i 0)) := (s1_edges V).2.2.2.2.2

set_option maxRecDepth 8192 in
set_option maxHeartbeats 8000000 in
/-- The bias rows with a unit middle axis. -/
theorem s1_v82 (V : Valuation τ sig (Elt Ideal)) (k : Fin 3) (j : Fin 64) :
    StableHlo.after (hostOps1 (F := Ideal)) V (Proc.devRef .tc main_v82) (ix3 k (0 : Fin 1) j) = V (Proc.devRef .tc main_arg7) (ix2 k j) := by
  host_simp
  exact shapeCast_pb_p1b_apply _ _ k 0 j

end Cert.Sage.KHost

end
-- ==== Proof.KHost1b.lean ====
import proofs.«144736_j57801669869916_1_alg».proof.Proof.KHostPure

/-!
# The first stretch of host operations: the clamped in-degrees

For each edge array, ones are accumulated into zeros at the destinations, the maximum with one is taken and a unit
trailing axis added: the divisor column of the mean.
-/

noncomputable section

namespace Cert.Sage.KHost

open Idealize.ShloMosaic Idealize.ShloMosaic.ValueIdx
open Cert.KernelIdeal Cert.KernelIdeal.Gen
open Cert.ScatterGather Cert.GraphMean Cert.Stack3

set_option maxRecDepth 8192 in
set_option maxHeartbeats 16000000 in
/-- The three divisor columns the first stretch leaves. -/
theorem s1_counts (V : Valuation τ sig (Elt Ideal)) (r : Fin 100000) :
    (StableHlo.after (hostOps1 (F := Ideal)) V (Proc.devRef .tc main_v23) (ix2 r (0 : Fin 1)) = max (∑ _e ∈ landing (dstOf (V (Proc.devRef .tc main_arg3))) r, one) one) ∧
    (StableHlo.after (hostOps1 (F := Ideal)) V (Proc.devRef .tc main_v29) (ix2 r (0 : Fin 1)) = max (∑ _e ∈ landing (dstOf (V (Proc.devRef .tc main_arg4))) r, one) one) ∧
    (StableHlo.after (hostOps1 (F := Ideal)) V (Proc.devRef .tc main_v35) (ix2 r (0 : Fin 1)) = max (∑ _e ∈ landing (dstOf (V (Proc.devRef .tc main_arg5))) r, one) one) := by
  host_simp
  exact ⟨count_apply (V (Proc.devRef .tc main_arg3)) _ (edge_row 1 1 rfl _ _ _) _ _ _ _ r,
    count_apply (V (Proc.devRef .tc main_arg4)) _ (edge_row 1 1 rfl _ _ _) _ _ _ _ r,
    count_apply (V (Proc.devRef .tc main_arg5)) _ (edge_row 1 1 rfl _ _ _) _ _ _ _ r⟩

theorem s1_v23 (V : Valuation τ sig (Elt Ideal)) (r : Fin 100000) :
    StableHlo.after (hostOps1 (F := Ideal)) V (Proc.devRef .tc main_v23) (ix2 r (0 : Fin 1)) = max (∑ _e ∈ landing (dstOf (V (Proc.devRef .tc main_arg3))) r, one) one := (s1_counts V r).1

theorem s1_v29 (V : Valuation τ sig (Elt Ideal)) (r : Fin 100000) :
    StableHlo.after (hostOps1 (F := Ideal)) V (Proc.devRef .tc main_v29) (ix2 r (0 : Fin 1)) = max (∑ _e ∈ landing (dstOf (V (Proc.devRef .tc main_arg4))) r, one) one := (s1_counts V r).2.1

theorem s1_v35 (V : Valuation τ sig (Elt Ideal)) (r : Fin 100000) :
    StableHlo.after (hostOps1 (F := Ideal)) V (Proc.devRef .tc main_v35) (ix2 r (0 : Fin 1)) = max (∑ _e ∈ landing (dstOf (V (Proc.devRef .tc main_arg5))) r, one) one := (s1_counts V r).2.2

end Cert.Sage.KHost

end
-- ==== Proof.KHostStack.lean ====
import proofs.«144736_j57801669869916_1_alg».proof.Proof.KHostPure

/-!
# The three operands of a stacking operation, each at its own place

A three-operand host operation reads its operands as a family over `Fin 3`: the three contents, each at its own
reference. The family at `0`, `1`, `2` is the first, second, third; a stretch containing such an operation still
rewrites, in one pass, to one composed term over the contents the stretch is entered with.
-/

noncomputable section

namespace Cert.Sage.KHost

open Idealize.ShloMosaic

section
variable {τ : Topo} {sig : RefSig} {Val : EltTy → Type} {x a b y : Ref sig .tc}

/-- Three contents as a family over the three references. -/
def fam3 (vx : x.ty.Contents Val) (va : a.ty.Contents Val) (vb : b.ty.Contents Val) :
    (k : Fin 3) → ((![x, a, b] : Fin 3 → Ref sig .tc) k).ty.Contents Val :=
  Fin.cons vx (Fin.cons va (Fin.cons vb (fun i => i.elim0)))

theorem fam3_0 (vx : x.ty.Contents Val) (va : a.ty.Contents Val) (vb : b.ty.Contents Val) : fam3 vx va vb 0 = vx := rfl
theorem fam3_1 (vx : x.ty.Contents Val) (va : a.ty.Contents Val) (vb : b.ty.Contents Val) : fam3 vx va vb 1 = va := rfl
theorem fam3_2 (vx : x.ty.Contents Val) (va : a.ty.Contents Val) (vb : b.ty.Contents Val) : fam3 vx va vb 2 = vb := rfl

/-- A three-operand operation's result, its operands' contents as that family. -/
theorem nary3_fam (f : ((k : Fin 3) → ((![x, a, b] : Fin 3 → Ref sig .tc) k).ty.Contents Val) → y.ty.Contents Val) (hxs hy)
    (V : Valuation τ sig Val) :
    (StableHlo.nary (τ := τ) ![x, a, b] y f hxs hy).result V (no_index (Proc.devRef .tc y))
      = f (fam3 (V (Proc.devRef .tc x)) (V (Proc.devRef .tc a)) (V (Proc.devRef .tc b))) :=
  Cert.Stack3.nary3_result f hxs hy V

end

open StableHlo in
/-- `host_simp` for a stretch with a three-operand operation: the family is read at its three places before the
    operands' contents are rewritten. -/
macro "host_simp3" : tactic =>
  `(tactic| (simp (disch := decide) only [after_cons, after_nil, ↓fam3_0, ↓fam3_1, ↓fam3_2,
      nullary_result', unary_result', binary_result', ternary_result', reshape_result', nary3_fam,
      nullary_result_ne', unary_result_ne', binary_result_ne', ternary_result_ne', reshape_result_ne',
      nary_result_ne']))

end Cert.Sage.KHost

end
-- ==== Proof.KHost1c.lean ====
import proofs.«144736_j57801669869916_1_alg».proof.Proof.KHostPure
import proofs.«144736_j57801669869916_1_alg».proof.Proof.KHostStack

/-!
# The first stretch of host operations: the stacked means

Member `k` of the stacked result is the mean of the neighbours' rows of member `k` of the stacked features along edge
array `k`, the sources and destinations being that array's rows and the divisors its clamped in-degrees.
-/

noncomputable section

namespace Cert.Sage.KHost

open Idealize.ShloMosaic Idealize.ShloMosaic.ValueIdx
open Cert.KernelIdeal Cert.KernelIdeal.Gen
open Cert.ScatterGather Cert.GraphMean Cert.Stack3

set_option maxRecDepth 8192 in
set_option maxHeartbeats 40000000 in
/-- The three members of the stacked means the first stretch leaves. -/
theorem s1_means (V : Valuation τ sig (Elt Ideal)) (r : Fin 100000) (j : Fin 64) :
    (StableHlo.after (hostOps1 (F := Ideal)) V (Proc.devRef .tc main_v81) (ix3 (0 : Fin 3) r j)
      = aggMean (fun r c => V (Proc.devRef .tc main_v4) (ix3 (0 : Fin 3) r c)) (srcOf (V (Proc.devRef .tc main_arg3))) (dstOf (V (Proc.devRef .tc main_arg3))) r j) ∧
    (StableHlo.after (hostOps1 (F := Ideal)) V (Proc.devRef .tc main_v81) (ix3 (1 : Fin 3) r j)
      = aggMean (fun r c => V (Proc.devRef .tc main_v4) (ix3 (1 : Fin 3) r c)) (srcOf (V (Proc.devRef .tc main_arg4))) (dstOf (V (Proc.devRef .tc main_arg4))) r j) ∧
    (StableHlo.after (hostOps1 (F := Ideal)) V (Proc.devRef .tc main_v81) (ix3 (2 : Fin 3) r j)
      = aggMean (fun r c => V (Proc.devRef .tc main_v4) (ix3 (2 : Fin 3) r c)) (srcOf (V (Proc.devRef .tc main_arg5))) (dstOf (V (Proc.devRef .tc main_arg5))) r j) := by
  host_simp3
  refine ⟨?_, ?_, ?_⟩
  · refine (concat3_1ab_apply_0 _ _ _ _ r j).trans ?_
    exact mean_member_apply (V (Proc.devRef .tc main_v4)) 0 0 rfl _ _ (V (Proc.devRef .tc main_arg3)) _ _ (edge_row 0 0 rfl _ _ _) (edge_row 1 1 rfl _ _ _) _ _ _ _
      (fun r => count_apply (V (Proc.devRef .tc main_arg3)) _ (edge_row 1 1 rfl _ _ _) _ _ _ _ r) _ bcast_S100000x64_S1x100000x64_1_2 r j
  · refine (concat3_1ab_apply_1 _ _ _ _ r j).trans ?_
    exact mean_member_apply (V (Proc.devRef .tc main_v4)) 1 1 rfl _ _ (V (Proc.devRef .tc main_arg4)) _ _ (edge_row 0 0 rfl _ _ _) (edge_row 1 1 rfl _ _ _) _ _ _ _
      (fun r => count_apply (V (Proc.devRef .tc main_arg4)) _ (edge_row 1 1 rfl _ _ _) _ _ _ _ r) _ bcast_S100000x64_S1x100000x64_1_2 r j
  · refine (concat3_1ab_apply_2 _ _ _ _ r j).trans ?_
    exact mean_member_apply (V (Proc.devRef .tc main_v4)) 2 2 rfl _ _ (V (Proc.devRef .tc main_arg5)) _ _ (edge_row 0 0 rfl _ _ _) (edge_row 1 1 rfl _ _ _) _ _ _ _
      (fun r => count_apply (V (Proc.devRef .tc main_arg5)) _ (edge_row 1 1 rfl _ _ _) _ _ _ _ r) _ bcast_S100000x64_S1x100000x64_1_2 r j

theorem s1_v81_0 (V : Valuation τ sig (Elt Ideal)) (r : Fin 100000) (j : Fin 64) :
    StableHlo.after (hostOps1 (F := Ideal)) V (Proc.devRef .tc main_v81) (ix3 (0 : Fin 3) r j)
      = aggMean (fun r c => V (Proc.devRef .tc main_v4) (ix3 (0 : Fin 3) r c)) (srcOf (V (Proc.devRef .tc main_arg3))) (dstOf (V (Proc.devRef .tc main_arg3))) r j := (s1_means V r j).1

theorem s1_v81_1 (V : Valuation τ sig (Elt Ideal)) (r : Fin 100000) (j : Fin 64) :
    StableHlo.after (hostOps1 (F := Ideal)) V (Proc.devRef .tc main_v81) (ix3 (1 : Fin 3) r j)
      = aggMean (fun r c => V (Proc.devRef .tc main_v4) (ix3 (1 : Fin 3) r c)) (srcOf (V (Proc.devRef .tc main_arg4))) (dstOf (V (Proc.devRef .tc main_arg4))) r j := (s1_means V r j).2.1

theorem s1_v81_2 (V : Valuation τ sig (Elt Ideal)) (r : Fin 100000) (j : Fin 64) :
    StableHlo.after (hostOps1 (F := Ideal)) V (Proc.devRef .tc main_v81) (ix3 (2 : Fin 3) r j)
      = aggMean (fun r c => V (Proc.devRef .tc main_v4) (ix3 (2 : Fin 3) r c)) (srcOf (V (Proc.devRef .tc main_arg5))) (dstOf (V (Proc.devRef .tc main_arg5))) r j := (s1_means V r j).2.2

end Cert.Sage.KHost

end
-- ==== Proof.KHost2.lean ====
import proofs.«144736_j57801669869916_1_alg».proof.Proof.KHostPure
import proofs.«144736_j57801669869916_1_alg».proof.Proof.KHostStack

/-!
# The second stretch of host operations: the stacked means and the bias rows

The stretch is entered with the edge rows and the clamped in-degrees the first stretch left. Member `k` of the stacked
result is the mean of the neighbours' rows of member `k` of the stacked features along edge array `k`.
-/

noncomputable section

namespace Cert.Sage.KHost

open Idealize.ShloMosaic Idealize.ShloMosaic.ValueIdx
open Cert.KernelIdeal Cert.KernelIdeal.Gen
open Cert.ScatterGather Cert.GraphMean Cert.Stack3

set_option maxRecDepth 8192 in
set_option maxHeartbeats 40000000 in
theorem s2_v129_0 (V : Valuation τ sig (Elt Ideal))
    (e0 : IVec S2x800000 32)
    (h6 : V (Proc.devRef .tc main_v6) = fun i => e0 (ix2 (0 : Fin 2) (i 0)))
    (h12 : V (Proc.devRef .tc main_v12) = fun i => e0 (ix2 (1 : Fin 2) (i 0)))
    (h23 : ∀ r : Fin 100000, V (Proc.devRef .tc main_v23) (ix2 r (0 : Fin 1)) = max (∑ _e ∈ landing (dstOf e0) r, one) one)
    (r : Fin 100000) (j : Fin 64) :
    StableHlo.after (hostOps2 (F := Ideal)) V (Proc.devRef .tc main_v129) (ix3 (0 : Fin 3) r j)
      = aggMean (fun r c => V (Proc.devRef .tc main_v83) (ix3 (0 : Fin 3) r c)) (srcOf e0) (dstOf e0) r j := by
  host_simp3
  refine (concat3_1ab_apply_0 _ _ _ _ r j).trans ?_
  exact mean_member_apply (V (Proc.devRef .tc main_v83)) 0 0 rfl _ _ e0 _ _ h6 h12 _ _ _ _ h23 _ bcast_S100000x64_S1x100000x64_1_2 r j

set_option maxRecDepth 8192 in
set_option maxHeartbeats 40000000 in
theorem s2_v129_1 (V : Valuation τ sig (Elt Ideal))
    (e1 : IVec S2x800000 32)
    (h8 : V (Proc.devRef .tc main_v8) = fun i => e1 (ix2 (0 : Fin 2) (i 0)))
    (h14 : V (Proc.devRef .tc main_v14) = fun i => e1 (ix2 (1 : Fin 2) (i 0)))
    (h29 : ∀ r : Fin 100000, V (Proc.devRef .tc main_v29) (ix2 r (0 : Fin 1)) = max (∑ _e ∈ landing (dstOf e1) r, one) one)
    (r : Fin 100000) (j : Fin 64) :
    StableHlo.after (hostOps2 (F := Ideal)) V (Proc.devRef .tc main_v129) (ix3 (1 : Fin 3) r j)
      = aggMean (fun r c => V (Proc.devRef .tc main_v83) (ix3 (1 : Fin 3) r c)) (srcOf e1) (dstOf e1) r j := by
  host_simp3
  refine (concat3_1ab_apply_1 _ _ _ _ r j).trans ?_
  exact mean_member_apply (V (Proc.devRef .tc main_v83)) 1 1 rfl _ _ e1 _ _ h8 h14 _ _ _ _ h29 _ bcast_S100000x64_S1x100000x64_1_2 r j

set_option maxRecDepth 8192 in
set_option maxHeartbeats 40000000 in
theorem s2_v129_2 (V : Valuation τ sig (Elt Ideal))
    (e2 : IVec S2x800000 32)
    (h10 : V (Proc.devRef .tc main_v10) = fun i => e2 (ix2 (0 : Fin 2) (i 0)))
    (h16 : V (Proc.devRef .tc main_v16) = fun i => e2 (ix2 (1 : Fin 2) (i 0)))
    (h35 : ∀ r : Fin 100000, V (Proc.devRef .tc main_v35) (ix2 r (0 : Fin 1)) = max (∑ _e ∈ landing (dstOf e2) r, one) one)
    (r : Fin 100000) (j : Fin 64) :
    StableHlo.after (hostOps2 (F := Ideal)) V (Proc.devRef .tc main_v129) (ix3 (2 : Fin 3) r j)
      = aggMean (fun r c => V (Proc.devRef .tc main_v83) (ix3 (2 : Fin 3) r c)) (srcOf e2) (dstOf e2) r j := by
  host_simp3
  refine (concat3_1ab_apply_2 _ _ _ _ r j).trans ?_
  exact mean_member_apply (V (Proc.devRef .tc main_v83)) 2 2 rfl _ _ e2 _ _ h10 h16 _ _ _ _ h35 _ bcast_S100000x64_S1x100000x64_1_2 r j

set_option maxRecDepth 8192 in
set_option maxHeartbeats 8000000 in
/-- The bias rows with a unit middle axis. -/
theorem s2_v130 (V : Valuation τ sig (Elt Ideal)) (k : Fin 3) (j : Fin 64) :
    StableHlo.after (hostOps2 (F := Ideal)) V (Proc.devRef .tc main_v130) (ix3 k (0 : Fin 1) j) = V (Proc.devRef .tc main_arg7) (ix2 k j) := by
  host_simp
  exact shapeCast_pb_p1b_apply _ _ k 0 j

end Cert.Sage.KHost

end
-- ==== Proof.KHost3.lean ====
import proofs.«144736_j57801669869916_1_alg».proof.Proof.KHostPure
import proofs.«144736_j57801669869916_1_alg».proof.Proof.KHostStack

/-!
# The third stretch of host operations: the stacked means and the bias rows

The stretch is entered with the edge rows and the clamped in-degrees the first stretch left. Member `k` of the stacked
result is the mean of the neighbours' rows of member `k` of the stacked features along edge array `k`.
-/

noncomputable section

namespace Cert.Sage.KHost

open Idealize.ShloMosaic Idealize.ShloMosaic.ValueIdx
open Cert.KernelIdeal Cert.KernelIdeal.Gen
open Cert.ScatterGather Cert.GraphMean Cert.Stack3

set_option maxRecDepth 8192 in
set_option maxHeartbeats 40000000 in
theorem s3_v177_0 (V : Valuation τ sig (Elt Ideal))
    (e0 : IVec S2x800000 32)
    (h6 : V (Proc.devRef .tc main_v6) = fun i => e0 (ix2 (0 : Fin 2) (i 0)))
    (h12 : V (Proc.devRef .tc main_v12) = fun i => e0 (ix2 (1 : Fin 2) (i 0)))
    (h23 : ∀ r : Fin 100000, V (Proc.devRef .tc main_v23) (ix2 r (0 : Fin 1)) = max (∑ _e ∈ landing (dstOf e0) r, one) one)
    (r : Fin 100000) (j : Fin 64) :
    StableHlo.after (hostOps3 (F := Ideal)) V (Proc.devRef .tc main_v177) (ix3 (0 : Fin 3) r j)
      = aggMean (fun r c => V (Proc.devRef .tc main_v131) (ix3 (0 : Fin 3) r c)) (srcOf e0) (dstOf e0) r j := by
  host_simp3
  refine (concat3_1ab_apply_0 _ _ _ _ r j).trans ?_
  exact mean_member_apply (V (Proc.devRef .tc main_v131)) 0 0 rfl _ _ e0 _ _ h6 h12 _ _ _ _ h23 _ bcast_S100000x64_S1x100000x64_1_2 r j

set_option maxRecDepth 8192 in
set_option maxHeartbeats 40000000 in
theorem s3_v177_1 (V : Valuation τ sig (Elt Ideal))
    (e1 : IVec S2x800000 32)
    (h8 : V (Proc.devRef .tc main_v8) = fun i => e1 (ix2 (0 : Fin 2) (i 0)))
    (h14 : V (Proc.devRef .tc main_v14) = fun i => e1 (ix2 (1 : Fin 2) (i 0)))
    (h29 : ∀ r : Fin 100000, V (Proc.devRef .tc main_v29) (ix2 r (0 : Fin 1)) = max (∑ _e ∈ landing (dstOf e1) r, one) one)
    (r : Fin 100000) (j : Fin 64) :
    StableHlo.after (hostOps3 (F := Ideal)) V (Proc.devRef .tc main_v177) (ix3 (1 : Fin 3) r j)
      = aggMean (fun r c => V (Proc.devRef .tc main_v131) (ix3 (1 : Fin 3) r c)) (srcOf e1) (dstOf e1) r j := by
  host_simp3
  refine (concat3_1ab_apply_1 _ _ _ _ r j).trans ?_
  exact mean_member_apply (V (Proc.devRef .tc main_v131)) 1 1 rfl _ _ e1 _ _ h8 h14 _ _ _ _ h29 _ bcast_S100000x64_S1x100000x64_1_2 r j

set_option maxRecDepth 8192 in
set_option maxHeartbeats 40000000 in
theorem s3_v177_2 (V : Valuation τ sig (Elt Ideal))
    (e2 : IVec S2x800000 32)
    (h10 : V (Proc.devRef .tc main_v10) = fun i => e2 (ix2 (0 : Fin 2) (i 0)))
    (h16 : V (Proc.devRef .tc main_v16) = fun i => e2 (ix2 (1 : Fin 2) (i 0)))
    (h35 : ∀ r : Fin 100000, V (Proc.devRef .tc main_v35) (ix2 r (0 : Fin 1)) = max (∑ _e ∈ landing (dstOf e2) r, one) one)
    (r : Fin 100000) (j : Fin 64) :
    StableHlo.after (hostOps3 (F := Ideal)) V (Proc.devRef .tc main_v177) (ix3 (2 : Fin 3) r j)
      = aggMean (fun r c => V (Proc.devRef .tc main_v131) (ix3 (2 : Fin 3) r c)) (srcOf e2) (dstOf e2) r j := by
  host_simp3
  refine (concat3_1ab_apply_2 _ _ _ _ r j).trans ?_
  exact mean_member_apply (V (Proc.devRef .tc main_v131)) 2 2 rfl _ _ e2 _ _ h10 h16 _ _ _ _ h35 _ bcast_S100000x64_S1x100000x64_1_2 r j

set_option maxRecDepth 8192 in
set_option maxHeartbeats 8000000 in
/-- The bias rows with a unit middle axis. -/
theorem s3_v178 (V : Valuation τ sig (Elt Ideal)) (k : Fin 3) (j : Fin 64) :
    StableHlo.after (hostOps3 (F := Ideal)) V (Proc.devRef .tc main_v178) (ix3 k (0 : Fin 1) j) = V (Proc.devRef .tc main_arg7) (ix2 k j) := by
  host_simp
  exact shapeCast_pb_p1b_apply _ _ k 0 j

end Cert.Sage.KHost

end
-- ==== Proof.KValue.lean ====
/-
  What the kernel program returns, at the exact instance: each of its three results is, index by index, the
  specification's `final` of the argument arrays.

  The features of node type `k` after the normalisation region and after each of the three layer regions are read
  off the buffer contents at the regions' exits (member `k` of the stacked output array); each is the specification's
  step of the one before: a region's output array is its body's row arithmetic of its input arrays, the mean stack
  the region takes is what the host stretch before it computes from the previous features and the edge arrays, and
  the weights are the argument arrays, which nothing writes.
-/
import proofs.«144736_j57801669869916_1_alg».proof.Proof.KArgs
import proofs.«144736_j57801669869916_1_alg».proof.Proof.KFinal0
import proofs.«144736_j57801669869916_1_alg».proof.Proof.KFinal1
import proofs.«144736_j57801669869916_1_alg».proof.Proof.KFinal2
import proofs.«144736_j57801669869916_1_alg».proof.Proof.KFinal3
import proofs.«144736_j57801669869916_1_alg».proof.Proof.KStack
import proofs.«144736_j57801669869916_1_alg».proof.Proof.KHost1a
import proofs.«144736_j57801669869916_1_alg».proof.Proof.KHost1b
import proofs.«144736_j57801669869916_1_alg».proof.Proof.KHost1c
import proofs.«144736_j57801669869916_1_alg».proof.Proof.KHost2
import proofs.«144736_j57801669869916_1_alg».proof.Proof.KHost3
import proofs.«144736_j57801669869916_1_alg».proof.Proof.Spec

set_option maxRecDepth 16384

noncomputable section

namespace Cert.Sage.KValue

open Cert.KernelIdeal Cert.KernelIdeal.Gen Cert.KernelIdeal.Run
open Idealize.ShloMosaic Idealize.ShloMosaic.TcCoe Idealize.ShloMosaic.ValueIdx Idealize.SL.Sem
open Cert.ScatterGather Cert.GraphMean

variable (m : (ℓ : Loc nD τ sig) → Buf (Elt Ideal) ℓ) (ρ : Dev nD → PrngReg) (c : Dev nD)

/-- The row function is a function of its five row arguments. -/
theorem sageRow_congr {a a' x x' : Fin 64 → EReal} {wl wl' wr wr' : Fin 64 → Fin 64 → EReal} {b b' : Fin 64 → EReal}
    (h1 : a = a') (h2 : x = x') (h3 : wl = wl') (h4 : wr = wr') (h5 : b = b') (j : Fin 64) :
    sageRow a x wl wr b j = sageRow a' x' wl' wr' b' j := by subst h1 h2 h3 h4 h5; rfl

/-- Type `k`'s features at the exit of the normalisation region and of each layer region. -/
def X0 (k : Fin 3) : Fin NN → Fin 64 → EReal := fun r cc => W2 (F := Ideal) m ρ c (Proc.devRef .tc main_v4) (ix3 k r cc)
def X1 (k : Fin 3) : Fin NN → Fin 64 → EReal := fun r cc => W4 (F := Ideal) m ρ c (Proc.devRef .tc main_v83) (ix3 k r cc)
def X2 (k : Fin 3) : Fin NN → Fin 64 → EReal := fun r cc => W6 (F := Ideal) m ρ c (Proc.devRef .tc main_v131) (ix3 k r cc)
def X3 (k : Fin 3) : Fin NN → Fin 64 → EReal := fun r cc => W8 (F := Ideal) m ρ c (Proc.devRef .tc main_v179) (ix3 k r cc)

/-! ## What the first host stretch leaves of the edge arrays, carried to the later stretches -/

theorem W3_main_v6 : W3 (F := Ideal) m ρ c (Proc.devRef .tc main_v6) = fun i => (m ((c : Thread nD τ).loc main_arg3)) (ix2 (0 : Fin 2) (i 0)) :=
  (KHost.s1_v6 (W2 m ρ c)).trans (by rw [W2_arg3 m ρ c])
theorem W3_main_v12 : W3 (F := Ideal) m ρ c (Proc.devRef .tc main_v12) = fun i => (m ((c : Thread nD τ).loc main_arg3)) (ix2 (1 : Fin 2) (i 0)) :=
  (KHost.s1_v12 (W2 m ρ c)).trans (by rw [W2_arg3 m ρ c])
theorem W3_main_v23 (r : Fin 100000) : W3 (F := Ideal) m ρ c (Proc.devRef .tc main_v23) (ix2 r (0 : Fin 1)) = max (∑ _e ∈ landing (dstOf (m ((c : Thread nD τ).loc main_arg3))) r, one) one :=
  (KHost.s1_v23 (W2 m ρ c) r).trans (by rw [W2_arg3 m ρ c])
theorem W4_main_v6 : W4 (F := Ideal) m ρ c (Proc.devRef .tc main_v6) = fun i => (m ((c : Thread nD τ).loc main_arg3)) (ix2 (0 : Fin 2) (i 0)) :=
  (W4_of_ne m ρ c main_v6 (by decide)).trans (W3_main_v6 m ρ c)
theorem W4_main_v12 : W4 (F := Ideal) m ρ c (Proc.devRef .tc main_v12) = fun i => (m ((c : Thread nD τ).loc main_arg3)) (ix2 (1 : Fin 2) (i 0)) :=
  (W4_of_ne m ρ c main_v12 (by decide)).trans (W3_main_v12 m ρ c)
theorem W4_main_v23 (r : Fin 100000) : W4 (F := Ideal) m ρ c (Proc.devRef .tc main_v23) (ix2 r (0 : Fin 1)) = max (∑ _e ∈ landing (dstOf (m ((c : Thread nD τ).loc main_arg3))) r, one) one :=
  (congrFun (W4_of_ne m ρ c main_v23 (by decide)) _).trans (W3_main_v23 m ρ c r)
set_option maxHeartbeats 2000000 in
theorem W6_main_v6 : W6 (F := Ideal) m ρ c (Proc.devRef .tc main_v6) = fun i => (m ((c : Thread nD τ).loc main_arg3)) (ix2 (0 : Fin 2) (i 0)) :=
  (W6_of_ne m ρ c main_v6 (by decide)).trans ((show W5 (F := Ideal) m ρ c (Proc.devRef .tc main_v6) = W4 m ρ c (Proc.devRef .tc main_v6) by host_keep).trans (W4_main_v6 m ρ c))
set_option maxHeartbeats 2000000 in
theorem W6_main_v12 : W6 (F := Ideal) m ρ c (Proc.devRef .tc main_v12) = fun i => (m ((c : Thread nD τ).loc main_arg3)) (ix2 (1 : Fin 2) (i 0)) :=
  (W6_of_ne m ρ c main_v12 (by decide)).trans ((show W5 (F := Ideal) m ρ c (Proc.devRef .tc main_v12) = W4 m ρ c (Proc.devRef .tc main_v12) by host_keep).trans (W4_main_v12 m ρ c))
set_option maxHeartbeats 2000000 in
theorem W6_main_v23 (r : Fin 100000) : W6 (F := Ideal) m ρ c (Proc.devRef .tc main_v23) (ix2 r (0 : Fin 1)) = max (∑ _e ∈ landing (dstOf (m ((c : Thread nD τ).loc main_arg3))) r, one) one :=
  (congrFun ((W6_of_ne m ρ c main_v23 (by decide)).trans (show W5 (F := Ideal) m ρ c (Proc.devRef .tc main_v23) = W4 m ρ c (Proc.devRef .tc main_v23) by host_keep)) _).trans (W4_main_v23 m ρ c r)

theorem W3_main_v8 : W3 (F := Ideal) m ρ c (Proc.devRef .tc main_v8) = fun i => (m ((c : Thread nD τ).loc main_arg4)) (ix2 (0 : Fin 2) (i 0)) :=
  (KHost.s1_v8 (W2 m ρ c)).trans (by rw [W2_arg4 m ρ c])
theorem W3_main_v14 : W3 (F := Ideal) m ρ c (Proc.devRef .tc main_v14) = fun i => (m ((c : Thread nD τ).loc main_arg4)) (ix2 (1 : Fin 2) (i 0)) :=
  (KHost.s1_v14 (W2 m ρ c)).trans (by rw [W2_arg4 m ρ c])
theorem W3_main_v29 (r : Fin 100000) : W3 (F := Ideal) m ρ c (Proc.devRef .tc main_v29) (ix2 r (0 : Fin 1)) = max (∑ _e ∈ landing (dstOf (m ((c : Thread nD τ).loc main_arg4))) r, one) one :=
  (KHost.s1_v29 (W2 m ρ c) r).trans (by rw [W2_arg4 m ρ c])
theorem W4_main_v8 : W4 (F := Ideal) m ρ c (Proc.devRef .tc main_v8) = fun i => (m ((c : Thread nD τ).loc main_arg4)) (ix2 (0 : Fin 2) (i 0)) :=
  (W4_of_ne m ρ c main_v8 (by decide)).trans (W3_main_v8 m ρ c)
theorem W4_main_v14 : W4 (F := Ideal) m ρ c (Proc.devRef .tc main_v14) = fun i => (m ((c : Thread nD τ).loc main_arg4)) (ix2 (1 : Fin 2) (i 0)) :=
  (W4_of_ne m ρ c main_v14 (by decide)).trans (W3_main_v14 m ρ c)
theorem W4_main_v29 (r : Fin 100000) : W4 (F := Ideal) m ρ c (Proc.devRef .tc main_v29) (ix2 r (0 : Fin 1)) = max (∑ _e ∈ landing (dstOf (m ((c : Thread nD τ).loc main_arg4))) r, one) one :=
  (congrFun (W4_of_ne m ρ c main_v29 (by decide)) _).trans (W3_main_v29 m ρ c r)
set_option maxHeartbeats 2000000 in
theorem W6_main_v8 : W6 (F := Ideal) m ρ c (Proc.devRef .tc main_v8) = fun i => (m ((c : Thread nD τ).loc main_arg4)) (ix2 (0 : Fin 2) (i 0)) :=
  (W6_of_ne m ρ c main_v8 (by decide)).trans ((show W5 (F := Ideal) m ρ c (Proc.devRef .tc main_v8) = W4 m ρ c (Proc.devRef .tc main_v8) by host_keep).trans (W4_main_v8 m ρ c))
set_option maxHeartbeats 2000000 in
theorem W6_main_v14 : W6 (F := Ideal) m ρ c (Proc.devRef .tc main_v14) = fun i => (m ((c : Thread nD τ).loc main_arg4)) (ix2 (1 : Fin 2) (i 0)) :=
  (W6_of_ne m ρ c main_v14 (by decide)).trans ((show W5 (F := Ideal) m ρ c (Proc.devRef .tc main_v14) = W4 m ρ c (Proc.devRef .tc main_v14) by host_keep).trans (W4_main_v14 m ρ c))
set_option maxHeartbeats 2000000 in
theorem W6_main_v29 (r : Fin 100000) : W6 (F := Ideal) m ρ c (Proc.devRef .tc main_v29) (ix2 r (0 : Fin 1)) = max (∑ _e ∈ landing (dstOf (m ((c : Thread nD τ).loc main_arg4))) r, one) one :=
  (congrFun ((W6_of_ne m ρ c main_v29 (by decide)).trans (show W5 (F := Ideal) m ρ c (Proc.devRef .tc main_v29) = W4 m ρ c (Proc.devRef .tc main_v29) by host_keep)) _).trans (W4_main_v29 m ρ c r)

theorem W3_main_v10 : W3 (F := Ideal) m ρ c (Proc.devRef .tc main_v10) = fun i => (m ((c : Thread nD τ).loc main_arg5)) (ix2 (0 : Fin 2) (i 0)) :=
  (KHost.s1_v10 (W2 m ρ c)).trans (by rw [W2_arg5 m ρ c])
theorem W3_main_v16 : W3 (F := Ideal) m ρ c (Proc.devRef .tc main_v16) = fun i => (m ((c : Thread nD τ).loc main_arg5)) (ix2 (1 : Fin 2) (i 0)) :=
  (KHost.s1_v16 (W2 m ρ c)).trans (by rw [W2_arg5 m ρ c])
theorem W3_main_v35 (r : Fin 100000) : W3 (F := Ideal) m ρ c (Proc.devRef .tc main_v35) (ix2 r (0 : Fin 1)) = max (∑ _e ∈ landing (dstOf (m ((c : Thread nD τ).loc main_arg5))) r, one) one :=
  (KHost.s1_v35 (W2 m ρ c) r).trans (by rw [W2_arg5 m ρ c])
theorem W4_main_v10 : W4 (F := Ideal) m ρ c (Proc.devRef .tc main_v10) = fun i => (m ((c : Thread nD τ).loc main_arg5)) (ix2 (0 : Fin 2) (i 0)) :=
  (W4_of_ne m ρ c main_v10 (by decide)).trans (W3_main_v10 m ρ c)
theorem W4_main_v16 : W4 (F := Ideal) m ρ c (Proc.devRef .tc main_v16) = fun i => (m ((c : Thread nD τ).loc main_arg5)) (ix2 (1 : Fin 2) (i 0)) :=
  (W4_of_ne m ρ c main_v16 (by decide)).trans (W3_main_v16 m ρ c)
theorem W4_main_v35 (r : Fin 100000) : W4 (F := Ideal) m ρ c (Proc.devRef .tc main_v35) (ix2 r (0 : Fin 1)) = max (∑ _e ∈ landing (dstOf (m ((c : Thread nD τ).loc main_arg5))) r, one) one :=
  (congrFun (W4_of_ne m ρ c main_v35 (by decide)) _).trans (W3_main_v35 m ρ c r)
set_option maxHeartbeats 2000000 in
theorem W6_main_v10 : W6 (F := Ideal) m ρ c (Proc.devRef .tc main_v10) = fun i => (m ((c : Thread nD τ).loc main_arg5)) (ix2 (0 : Fin 2) (i 0)) :=
  (W6_of_ne m ρ c main_v10 (by decide)).trans ((show W5 (F := Ideal) m ρ c (Proc.devRef .tc main_v10) = W4 m ρ c (Proc.devRef .tc main_v10) by host_keep).trans (W4_main_v10 m ρ c))
set_option maxHeartbeats 2000000 in
theorem W6_main_v16 : W6 (F := Ideal) m ρ c (Proc.devRef .tc main_v16) = fun i => (m ((c : Thread nD τ).loc main_arg5)) (ix2 (1 : Fin 2) (i 0)) :=
  (W6_of_ne m ρ c main_v16 (by decide)).trans ((show W5 (F := Ideal) m ρ c (Proc.devRef .tc main_v16) = W4 m ρ c (Proc.devRef .tc main_v16) by host_keep).trans (W4_main_v16 m ρ c))
set_option maxHeartbeats 2000000 in
theorem W6_main_v35 (r : Fin 100000) : W6 (F := Ideal) m ρ c (Proc.devRef .tc main_v35) (ix2 r (0 : Fin 1)) = max (∑ _e ∈ landing (dstOf (m ((c : Thread nD τ).loc main_arg5))) r, one) one :=
  (congrFun ((W6_of_ne m ρ c main_v35 (by decide)).trans (show W5 (F := Ideal) m ρ c (Proc.devRef .tc main_v35) = W4 m ρ c (Proc.devRef .tc main_v35) by host_keep)) _).trans (W4_main_v35 m ρ c r)

/-! ## The features kept across the host stretch that follows the region that wrote them -/

set_option maxHeartbeats 2000000 in
theorem W3_v4 : W3 (F := Ideal) m ρ c (Proc.devRef .tc main_v4) = W2 m ρ c (Proc.devRef .tc main_v4) := by host_keep
set_option maxHeartbeats 2000000 in
theorem W5_v83 : W5 (F := Ideal) m ρ c (Proc.devRef .tc main_v83) = W4 m ρ c (Proc.devRef .tc main_v83) := by host_keep
set_option maxHeartbeats 2000000 in
theorem W7_v131 : W7 (F := Ideal) m ρ c (Proc.devRef .tc main_v131) = W6 m ρ c (Proc.devRef .tc main_v131) := by host_keep

/-! ## Each region's step -/

/-- Type 0 after the normalisation region. -/
theorem X0_0 : X0 m ρ c 0 = init (fun r cc => (m ((c : Thread nD τ).loc main_arg0)) (ix2 r cc)) := by
  funext r j
  unfold X0 init
  rw [show W2 (F := Ideal) m ρ c (Proc.devRef .tc main_v4) = (dat0 (V1 m ρ) c).arrAt 1 cfg0.N from W2_arr m ρ c 1]
  rw [KFinal.final0_apply (V1 m ρ) c (0 : Fin 3) r j]
  refine congrArg (fun f => rowNorm f j) (funext fun cc => ?_)
  exact KStack.stack_apply_0 (W0 m ρ c) r cc

/-- Type 0 after layer region 1: the layer of what it was before. -/
theorem X1_0 : X1 m ρ c 0 = layer (X0 m ρ c 0) (srcOf (m ((c : Thread nD τ).loc main_arg3))) (dstOf (m ((c : Thread nD τ).loc main_arg3))) (fun cc j => (m ((c : Thread nD τ).loc main_arg6)) (ix3 (0 : Fin 3) cc j)) (fun cc j => (m ((c : Thread nD τ).loc main_arg8)) (ix3 (0 : Fin 3) cc j)) (fun j => (m ((c : Thread nD τ).loc main_arg7)) (ix2 (0 : Fin 3) j)) := by
  funext r j
  unfold X1 layer
  rw [show W4 (F := Ideal) m ρ c (Proc.devRef .tc main_v83) = (dat1 (V3 m ρ) c).arrAt 5 cfg1.N from W4_arr m ρ c 5]
  rw [KFinal.final1_apply (V3 m ρ) c (0 : Fin 3) r j]
  refine sageRow_congr (funext fun cc => ?_) (funext fun cc => ?_) (funext fun cc => funext fun j' => ?_) (funext fun cc => funext fun j' => ?_) (funext fun j' => ?_) j
  · have := KHost.s1_v81_0 (W2 m ρ c) r cc
    rw [W2_arg3 m ρ c] at this
    exact this
  · exact congrFun (W3_v4 m ρ c) _
  · exact congrFun (W3_arg6 m ρ c) _
  · exact congrFun (W3_arg8 m ρ c) _
  · exact (fun j => (KHost.s1_v82 (W2 m ρ c) (0 : Fin 3) j).trans (congrFun (W2_arg7 m ρ c) _)) j'

/-- Type 0 after layer region 2: the layer of what it was before. -/
theorem X2_0 : X2 m ρ c 0 = layer (X1 m ρ c 0) (srcOf (m ((c : Thread nD τ).loc main_arg3))) (dstOf (m ((c : Thread nD τ).loc main_arg3))) (fun cc j => (m ((c : Thread nD τ).loc main_arg6)) (ix3 (0 : Fin 3) cc j)) (fun cc j => (m ((c : Thread nD τ).loc main_arg8)) (ix3 (0 : Fin 3) cc j)) (fun j => (m ((c : Thread nD τ).loc main_arg7)) (ix2 (0 : Fin 3) j)) := by
  funext r j
  unfold X2 layer
  rw [show W6 (F := Ideal) m ρ c (Proc.devRef .tc main_v131) = (dat2 (V5 m ρ) c).arrAt 5 cfg2.N from W6_arr m ρ c 5]
  rw [KFinal.final2_apply (V5 m ρ) c (0 : Fin 3) r j]
  refine sageRow_congr (funext fun cc => ?_) (funext fun cc => ?_) (funext fun cc => funext fun j' => ?_) (funext fun cc => funext fun j' => ?_) (funext fun j' => ?_) j
  · have := KHost.s2_v129_0 (W4 m ρ c) (m ((c : Thread nD τ).loc main_arg3)) (W4_main_v6 m ρ c) (W4_main_v12 m ρ c) (W4_main_v23 m ρ c) r cc
    exact this
  · exact congrFun (W5_v83 m ρ c) _
  · exact congrFun (W5_arg6 m ρ c) _
  · exact congrFun (W5_arg8 m ρ c) _
  · exact (fun j => (KHost.s2_v130 (W4 m ρ c) (0 : Fin 3) j).trans (congrFun (W4_arg7 m ρ c) _)) j'

/-- Type 0 after layer region 3: the layer of what it was before. -/
theorem X3_0 : X3 m ρ c 0 = layer (X2 m ρ c 0) (srcOf (m ((c : Thread nD τ).loc main_arg3))) (dstOf (m ((c : Thread nD τ).loc main_arg3))) (fun cc j => (m ((c : Thread nD τ).loc main_arg6)) (ix3 (0 : Fin 3) cc j)) (fun cc j => (m ((c : Thread nD τ).loc main_arg8)) (ix3 (0 : Fin 3) cc j)) (fun j => (m ((c : Thread nD τ).loc main_arg7)) (ix2 (0 : Fin 3) j)) := by
  funext r j
  unfold X3 layer
  rw [show W8 (F := Ideal) m ρ c (Proc.devRef .tc main_v179) = (dat3 (V7 m ρ) c).arrAt 5 cfg3.N from W8_arr m ρ c 5]
  rw [KFinal.final3_apply (V7 m ρ) c (0 : Fin 3) r j]
  refine sageRow_congr (funext fun cc => ?_) (funext fun cc => ?_) (funext fun cc => funext fun j' => ?_) (funext fun cc => funext fun j' => ?_) (funext fun j' => ?_) j
  · have := KHost.s3_v177_0 (W6 m ρ c) (m ((c : Thread nD τ).loc main_arg3)) (W6_main_v6 m ρ c) (W6_main_v12 m ρ c) (W6_main_v23 m ρ c) r cc
    exact this
  · exact congrFun (W7_v131 m ρ c) _
  · exact congrFun (W7_arg6 m ρ c) _
  · exact congrFun (W7_arg8 m ρ c) _
  · exact (fun j => (KHost.s3_v178 (W6 m ρ c) (0 : Fin 3) j).trans (congrFun (W6_arg7 m ρ c) _)) j'

/-- RESULT 0 of the kernel program, index by index. -/
theorem out0 : W9 (F := Ideal) m ρ c (Proc.devRef .tc main_v181)
    = fun i => final (0 : Fin 3) (m ((c : Thread nD τ).loc main_arg0)) (m ((c : Thread nD τ).loc main_arg3)) (m ((c : Thread nD τ).loc main_arg6)) (m ((c : Thread nD τ).loc main_arg7)) (m ((c : Thread nD τ).loc main_arg8)) (i 0) (i 1) := by
  funext i
  obtain ⟨r, j, rfl⟩ : ∃ (r : Fin 100000) (j : Fin 64), i = ix2 r j := ⟨i 0, i 1, eq_ix2 i⟩
  refine (KStack.unstack_apply_0 (W8 m ρ c) r j).trans ?_
  show X3 m ρ c 0 r j = _
  rw [X3_0, X2_0, X1_0, X0_0]
  rfl

/-- Type 1 after the normalisation region. -/
theorem X0_1 : X0 m ρ c 1 = init (fun r cc => (m ((c : Thread nD τ).loc main_arg1)) (ix2 r cc)) := by
  funext r j
  unfold X0 init
  rw [show W2 (F := Ideal) m ρ c (Proc.devRef .tc main_v4) = (dat0 (V1 m ρ) c).arrAt 1 cfg0.N from W2_arr m ρ c 1]
  rw [KFinal.final0_apply (V1 m ρ) c (1 : Fin 3) r j]
  refine congrArg (fun f => rowNorm f j) (funext fun cc => ?_)
  exact KStack.stack_apply_1 (W0 m ρ c) r cc

/-- Type 1 after layer region 1: the layer of what it was before. -/
theorem X1_1 : X1 m ρ c 1 = layer (X0 m ρ c 1) (srcOf (m ((c : Thread nD τ).loc main_arg4))) (dstOf (m ((c : Thread nD τ).loc main_arg4))) (fun cc j => (m ((c : Thread nD τ).loc main_arg6)) (ix3 (1 : Fin 3) cc j)) (fun cc j => (m ((c : Thread nD τ).loc main_arg8)) (ix3 (1 : Fin 3) cc j)) (fun j => (m ((c : Thread nD τ).loc main_arg7)) (ix2 (1 : Fin 3) j)) := by
  funext r j
  unfold X1 layer
  rw [show W4 (F := Ideal) m ρ c (Proc.devRef .tc main_v83) = (dat1 (V3 m ρ) c).arrAt 5 cfg1.N from W4_arr m ρ c 5]
  rw [KFinal.final1_apply (V3 m ρ) c (1 : Fin 3) r j]
  refine sageRow_congr (funext fun cc => ?_) (funext fun cc => ?_) (funext fun cc => funext fun j' => ?_) (funext fun cc => funext fun j' => ?_) (funext fun j' => ?_) j
  · have := KHost.s1_v81_1 (W2 m ρ c) r cc
    rw [W2_arg4 m ρ c] at this
    exact this
  · exact congrFun (W3_v4 m ρ c) _
  · exact congrFun (W3_arg6 m ρ c) _
  · exact congrFun (W3_arg8 m ρ c) _
  · exact (fun j => (KHost.s1_v82 (W2 m ρ c) (1 : Fin 3) j).trans (congrFun (W2_arg7 m ρ c) _)) j'

/-- Type 1 after layer region 2: the layer of what it was before. -/
theorem X2_1 : X2 m ρ c 1 = layer (X1 m ρ c 1) (srcOf (m ((c : Thread nD τ).loc main_arg4))) (dstOf (m ((c : Thread nD τ).loc main_arg4))) (fun cc j => (m ((c : Thread nD τ).loc main_arg6)) (ix3 (1 : Fin 3) cc j)) (fun cc j => (m ((c : Thread nD τ).loc main_arg8)) (ix3 (1 : Fin 3) cc j)) (fun j => (m ((c : Thread nD τ).loc main_arg7)) (ix2 (1 : Fin 3) j)) := by
  funext r j
  unfold X2 layer
  rw [show W6 (F := Ideal) m ρ c (Proc.devRef .tc main_v131) = (dat2 (V5 m ρ) c).arrAt 5 cfg2.N from W6_arr m ρ c 5]
  rw [KFinal.final2_apply (V5 m ρ) c (1 : Fin 3) r j]
  refine sageRow_congr (funext fun cc => ?_) (funext fun cc => ?_) (funext fun cc => funext fun j' => ?_) (funext fun cc => funext fun j' => ?_) (funext fun j' => ?_) j
  · have := KHost.s2_v129_1 (W4 m ρ c) (m ((c : Thread nD τ).loc main_arg4)) (W4_main_v8 m ρ c) (W4_main_v14 m ρ c) (W4_main_v29 m ρ c) r cc
    exact this
  · exact congrFun (W5_v83 m ρ c) _
  · exact congrFun (W5_arg6 m ρ c) _
  · exact congrFun (W5_arg8 m ρ c) _
  · exact (fun j => (KHost.s2_v130 (W4 m ρ c) (1 : Fin 3) j).trans (congrFun (W4_arg7 m ρ c) _)) j'

/-- Type 1 after layer region 3: the layer of what it was before. -/
theorem X3_1 : X3 m ρ c 1 = layer (X2 m ρ c 1) (srcOf (m ((c : Thread nD τ).loc main_arg4))) (dstOf (m ((c : Thread nD τ).loc main_arg4))) (fun cc j => (m ((c : Thread nD τ).loc main_arg6)) (ix3 (1 : Fin 3) cc j)) (fun cc j => (m ((c : Thread nD τ).loc main_arg8)) (ix3 (1 : Fin 3) cc j)) (fun j => (m ((c : Thread nD τ).loc main_arg7)) (ix2 (1 : Fin 3) j)) := by
  funext r j
  unfold X3 layer
  rw [show W8 (F := Ideal) m ρ c (Proc.devRef .tc main_v179) = (dat3 (V7 m ρ) c).arrAt 5 cfg3.N from W8_arr m ρ c 5]
  rw [KFinal.final3_apply (V7 m ρ) c (1 : Fin 3) r j]
  refine sageRow_congr (funext fun cc => ?_) (funext fun cc => ?_) (funext fun cc => funext fun j' => ?_) (funext fun cc => funext fun j' => ?_) (funext fun j' => ?_) j
  · have := KHost.s3_v177_1 (W6 m ρ c) (m ((c : Thread nD τ).loc main_arg4)) (W6_main_v8 m ρ c) (W6_main_v14 m ρ c) (W6_main_v29 m ρ c) r cc
    exact this
  · exact congrFun (W7_v131 m ρ c) _
  · exact congrFun (W7_arg6 m ρ c) _
  · exact congrFun (W7_arg8 m ρ c) _
  · exact (fun j => (KHost.s3_v178 (W6 m ρ c) (1 : Fin 3) j).trans (congrFun (W6_arg7 m ρ c) _)) j'

/-- RESULT 1 of the kernel program, index by index. -/
theorem out1 : W9 (F := Ideal) m ρ c (Proc.devRef .tc main_v183)
    = fun i => final (1 : Fin 3) (m ((c : Thread nD τ).loc main_arg1)) (m ((c : Thread nD τ).loc main_arg4)) (m ((c : Thread nD τ).loc main_arg6)) (m ((c : Thread nD τ).loc main_arg7)) (m ((c : Thread nD τ).loc main_arg8)) (i 0) (i 1) := by
  funext i
  obtain ⟨r, j, rfl⟩ : ∃ (r : Fin 100000) (j : Fin 64), i = ix2 r j := ⟨i 0, i 1, eq_ix2 i⟩
  refine (KStack.unstack_apply_1 (W8 m ρ c) r j).trans ?_
  show X3 m ρ c 1 r j = _
  rw [X3_1, X2_1, X1_1, X0_1]
  rfl

/-- Type 2 after the normalisation region. -/
theorem X0_2 : X0 m ρ c 2 = init (fun r cc => (m ((c : Thread nD τ).loc main_arg2)) (ix2 r cc)) := by
  funext r j
  unfold X0 init
  rw [show W2 (F := Ideal) m ρ c (Proc.devRef .tc main_v4) = (dat0 (V1 m ρ) c).arrAt 1 cfg0.N from W2_arr m ρ c 1]
  rw [KFinal.final0_apply (V1 m ρ) c (2 : Fin 3) r j]
  refine congrArg (fun f => rowNorm f j) (funext fun cc => ?_)
  exact KStack.stack_apply_2 (W0 m ρ c) r cc

/-- Type 2 after layer region 1: the layer of what it was before. -/
theorem X1_2 : X1 m ρ c 2 = layer (X0 m ρ c 2) (srcOf (m ((c : Thread nD τ).loc main_arg5))) (dstOf (m ((c : Thread nD τ).loc main_arg5))) (fun cc j => (m ((c : Thread nD τ).loc main_arg6)) (ix3 (2 : Fin 3) cc j)) (fun cc j => (m ((c : Thread nD τ).loc main_arg8)) (ix3 (2 : Fin 3) cc j)) (fun j => (m ((c : Thread nD τ).loc main_arg7)) (ix2 (2 : Fin 3) j)) := by
  funext r j
  unfold X1 layer
  rw [show W4 (F := Ideal) m ρ c (Proc.devRef .tc main_v83) = (dat1 (V3 m ρ) c).arrAt 5 cfg1.N from W4_arr m ρ c 5]
  rw [KFinal.final1_apply (V3 m ρ) c (2 : Fin 3) r j]
  refine sageRow_congr (funext fun cc => ?_) (funext fun cc => ?_) (funext fun cc => funext fun j' => ?_) (funext fun cc => funext fun j' => ?_) (funext fun j' => ?_) j
  · have := KHost.s1_v81_2 (W2 m ρ c) r cc
    rw [W2_arg5 m ρ c] at this
    exact this
  · exact congrFun (W3_v4 m ρ c) _
  · exact congrFun (W3_arg6 m ρ c) _
  · exact congrFun (W3_arg8 m ρ c) _
  · exact (fun j => (KHost.s1_v82 (W2 m ρ c) (2 : Fin 3) j).trans (congrFun (W2_arg7 m ρ c) _)) j'

/-- Type 2 after layer region 2: the layer of what it was before. -/
theorem X2_2 : X2 m ρ c 2 = layer (X1 m ρ c 2) (srcOf (m ((c : Thread nD τ).loc main_arg5))) (dstOf (m ((c : Thread nD τ).loc main_arg5))) (fun cc j => (m ((c : Thread nD τ).loc main_arg6)) (ix3 (2 : Fin 3) cc j)) (fun cc j => (m ((c : Thread nD τ).loc main_arg8)) (ix3 (2 : Fin 3) cc j)) (fun j => (m ((c : Thread nD τ).loc main_arg7)) (ix2 (2 : Fin 3) j)) := by
  funext r j
  unfold X2 layer
  rw [show W6 (F := Ideal) m ρ c (Proc.devRef .tc main_v131) = (dat2 (V5 m ρ) c).arrAt 5 cfg2.N from W6_arr m ρ c 5]
  rw [KFinal.final2_apply (V5 m ρ) c (2 : Fin 3) r j]
  refine sageRow_congr (funext fun cc => ?_) (funext fun cc => ?_) (funext fun cc => funext fun j' => ?_) (funext fun cc => funext fun j' => ?_) (funext fun j' => ?_) j
  · have := KHost.s2_v129_2 (W4 m ρ c) (m ((c : Thread nD τ).loc main_arg5)) (W4_main_v10 m ρ c) (W4_main_v16 m ρ c) (W4_main_v35 m ρ c) r cc
    exact this
  · exact congrFun (W5_v83 m ρ c) _
  · exact congrFun (W5_arg6 m ρ c) _
  · exact congrFun (W5_arg8 m ρ c) _
  · exact (fun j => (KHost.s2_v130 (W4 m ρ c) (2 : Fin 3) j).trans (congrFun (W4_arg7 m ρ c) _)) j'

/-- Type 2 after layer region 3: the layer of what it was before. -/
theorem X3_2 : X3 m ρ c 2 = layer (X2 m ρ c 2) (srcOf (m ((c : Thread nD τ).loc main_arg5))) (dstOf (m ((c : Thread nD τ).loc main_arg5))) (fun cc j => (m ((c : Thread nD τ).loc main_arg6)) (ix3 (2 : Fin 3) cc j)) (fun cc j => (m ((c : Thread nD τ).loc main_arg8)) (ix3 (2 : Fin 3) cc j)) (fun j => (m ((c : Thread nD τ).loc main_arg7)) (ix2 (2 : Fin 3) j)) := by
  funext r j
  unfold X3 layer
  rw [show W8 (F := Ideal) m ρ c (Proc.devRef .tc main_v179) = (dat3 (V7 m ρ) c).arrAt 5 cfg3.N from W8_arr m ρ c 5]
  rw [KFinal.final3_apply (V7 m ρ) c (2 : Fin 3) r j]
  refine sageRow_congr (funext fun cc => ?_) (funext fun cc => ?_) (funext fun cc => funext fun j' => ?_) (funext fun cc => funext fun j' => ?_) (funext fun j' => ?_) j
  · have := KHost.s3_v177_2 (W6 m ρ c) (m ((c : Thread nD τ).loc main_arg5)) (W6_main_v10 m ρ c) (W6_main_v16 m ρ c) (W6_main_v35 m ρ c) r cc
    exact this
  · exact congrFun (W7_v131 m ρ c) _
  · exact congrFun (W7_arg6 m ρ c) _
  · exact congrFun (W7_arg8 m ρ c) _
  · exact (fun j => (KHost.s3_v178 (W6 m ρ c) (2 : Fin 3) j).trans (congrFun (W6_arg7 m ρ c) _)) j'

/-- RESULT 2 of the kernel program, index by index. -/
theorem out2 : W9 (F := Ideal) m ρ c (Proc.devRef .tc main_v185)
    = fun i => final (2 : Fin 3) (m ((c : Thread nD τ).loc main_arg2)) (m ((c : Thread nD τ).loc main_arg5)) (m ((c : Thread nD τ).loc main_arg6)) (m ((c : Thread nD τ).loc main_arg7)) (m ((c : Thread nD τ).loc main_arg8)) (i 0) (i 1) := by
  funext i
  obtain ⟨r, j, rfl⟩ : ∃ (r : Fin 100000) (j : Fin 64), i = ix2 r j := ⟨i 0, i 1, eq_ix2 i⟩
  refine (KStack.unstack_apply_2 (W8 m ρ c) r j).trans ?_
  show X3 m ρ c 2 r j = _
  rw [X3_2, X2_2, X1_2, X0_2]
  rfl

end Cert.Sage.KValue

end
-- ==== Proof.RefSegs.lean ====
/-
  The reference program's @main read as ten stretches of host operations, in program order: the three first
  normalisations, then nine copies of the layer (three rounds, each over the three node types). Every
  operation touches TensorCore buffers only and determines its results, and the fold of the whole list over any contents
  is the stretches' folds, one over the other.
-/
import proofs.«144736_j57801669869916_1_alg».proof.Proof.Gen.ReferenceIdeal
import Idealize.ShloMosaic.Lib.StableHlo.Run

noncomputable section

namespace Cert.Sage.Ref

open Cert.ReferenceIdeal Cert.ReferenceIdeal.Gen Idealize.ShloMosaic Idealize.ShloMosaic.TcCoe Idealize.SL.Sem Idealize.ShloMosaic.StableHlo

variable {F : FTy → Type} [FloatOps F]

/-! ## The ten stretches -/

/-- The three first normalisations: each type's feature array divided, row by row, by its floored norm. -/
abbrev seg0 : List (HloOp τ sig (Elt F)) :=
  [ binary main_arg0 main_arg0 main_v0 (mulf : (⟨S100000x64, .f32⟩ : BufTy).Contents (Elt F) → (⟨S100000x64, .f32⟩ : BufTy).Contents (Elt F) → (⟨S100000x64, .f32⟩ : BufTy).Contents (Elt F)),
    nullary main_cst (constant S_ .f32 0x00000000#32),
    binary main_v0 main_cst main_v1 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v1 main_v2 (broadcastInDim S100000x1 ![0] bcast_S100000_S100000x1_0 : (⟨S100000, .f32⟩ : BufTy).Contents (Elt F) → (⟨S100000x1, .f32⟩ : BufTy).Contents (Elt F)),
    unary main_v2 main_v3 (Host.sqrt : (⟨S100000x1, .f32⟩ : BufTy).Contents (Elt F) → (⟨S100000x1, .f32⟩ : BufTy).Contents (Elt F)),
    nullary main_cst_0 (constant S_ .f32 0x2B8CBCCC#32),
    unary main_cst_0 main_v4 (broadcastInDim S100000x1 ![] bcast_S_S100000x1 : (⟨S_, .f32⟩ : BufTy).Contents (Elt F) → (⟨S100000x1, .f32⟩ : BufTy).Contents (Elt F)),
    binary main_v3 main_v4 main_v5 (maximumf : (⟨S100000x1, .f32⟩ : BufTy).Contents (Elt F) → (⟨S100000x1, .f32⟩ : BufTy).Contents (Elt F) → (⟨S100000x1, .f32⟩ : BufTy).Contents (Elt F)),
    unary main_v5 main_v6 (broadcastInDim S100000x64 ![0, 1] bcast_S100000x1_S100000x64_0_1 : (⟨S100000x1, .f32⟩ : BufTy).Contents (Elt F) → (⟨S100000x64, .f32⟩ : BufTy).Contents (Elt F)),
    binary main_arg0 main_v6 main_v7 (Host.divf : (⟨S100000x64, .f32⟩ : BufTy).Contents (Elt F) → (⟨S100000x64, .f32⟩ : BufTy).Contents (Elt F) → (⟨S100000x64, .f32⟩ : BufTy).Contents (Elt F)),
    binary main_arg1 main_arg1 main_v8 (mulf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x00000000#32),
    binary main_v8 main_cst_1 main_v9 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v9 main_v10 (broadcastInDim S100000x1 ![0] bcast_S100000_S100000x1_0 : (⟨S100000, .f32⟩ : BufTy).Contents (Elt F) → (⟨S100000x1, .f32⟩ : BufTy).Contents (Elt F)),
    unary main_v10 main_v11 (Host.sqrt : (⟨S100000x1, .f32⟩ : BufTy).Contents (Elt F) → (⟨S100000x1, .f32⟩ : BufTy).Contents (Elt F)),
    nullary main_cst_2 (constant S_ .f32 0x2B8CBCCC#32),
    unary main_cst_2 main_v12 (broadcastInDim S100000x1 ![] bcast_S_S100000x1 : (⟨S_, .f32⟩ : BufTy).Contents (Elt F) → (⟨S100000x1, .f32⟩ : BufTy).Contents (Elt F)),
    binary main_v11 main_v12 main_v13 (maximumf : (⟨S100000x1, .f32⟩ : BufTy).Contents (Elt F) → (⟨S100000x1, .f32⟩ : BufTy).Contents (Elt F) → (⟨S100000x1, .f32⟩ : BufTy).Contents (Elt F)),
    unary main_v13 main_v14 (broadcastInDim S100000x64 ![0, 1] bcast_S100000x1_S100000x64_0_1 : (⟨S100000x1, .f32⟩ : BufTy).Contents (Elt F) → (⟨S100000x64, .f32⟩ : BufTy).Contents (Elt F)),
    binary main_arg1 main_v14 main_v15 (Host.divf : (⟨S100000x64, .f32⟩ : BufTy).Contents (Elt F) → (⟨S100000x64, .f32⟩ : BufTy).Contents (Elt F) → (⟨S100000x64, .f32⟩ : BufTy).Contents (Elt F)),
    binary main_arg2 main_arg2 main_v16 (mulf : (⟨S100000x64, .f32⟩ : BufTy).Contents (Elt F) → (⟨S100000x64, .f32⟩ : BufTy).Contents (Elt F) → (⟨S100000x64, .f32⟩ : BufTy).Contents (Elt F)),
    nullary main_cst_3 (constant S_ .f32 0x00000000#32),
    binary main_v16 main_cst_3 main_v17 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v17 main_v18 (broadcastInDim S100000x1 ![0] bcast_S100000_S100000x1_0 : (⟨S100000, .f32⟩ : BufTy).Contents (Elt F) → (⟨S100000x1, .f32⟩ : BufTy).Contents (Elt F)),
    unary main_v18 main_v19 (Host.sqrt : (⟨S100000x1, .f32⟩ : BufTy).Contents (Elt F) → (⟨S100000x1, .f32⟩ : BufTy).Contents (Elt F)),
    nullary main_cst_4 (constant S_ .f32 0x2B8CBCCC#32),
    unary main_cst_4 main_v20 (broadcastInDim S100000x1 ![] bcast_S_S100000x1 : (⟨S_, .f32⟩ : BufTy).Contents (Elt F) → (⟨S100000x1, .f32⟩ : BufTy).Contents (Elt F)),
    binary main_v19 main_v20 main_v21 (maximumf : (⟨S100000x1, .f32⟩ : BufTy).Contents (Elt F) → (⟨S100000x1, .f32⟩ : BufTy).Contents (Elt F) → (⟨S100000x1, .f32⟩ : BufTy).Contents (Elt F)),
    unary main_v21 main_v22 (broadcastInDim S100000x64 ![0, 1] bcast_S100000x1_S100000x64_0_1 : (⟨S100000x1, .f32⟩ : BufTy).Contents (Elt F) → (⟨S100000x64, .f32⟩ : BufTy).Contents (Elt F)),
    binary main_arg2 main_v22 main_v23 (Host.divf : (⟨S100000x64, .f32⟩ : BufTy).Contents (Elt F) → (⟨S100000x64, .f32⟩ : BufTy).Contents (Elt F) → (⟨S100000x64, .f32⟩ : BufTy).Contents (Elt F)) ]

/-- Round 1, type 0: the layer on type 0's normalised features, from its slices of the weights to its final division. -/
abbrev seg1 : List (HloOp τ sig (Elt F)) :=
  [ unary main_arg6 main_v24 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v24 main_v25 rfl shapeCasts_S1x64x64_S64x64,
    unary main_arg7 main_v26 ((extractStridedSlice S1x64 ![0, 0] · slices_S3x64_S1x64_0_0) : (⟨S3x64, .f32⟩ : BufTy).Contents (Elt F) → (⟨S1x64, .f32⟩ : BufTy).Contents (Elt F)),
    reshape main_v26 main_v27 rfl shapeCasts_S1x64_S64,
    unary main_arg8 main_v28 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v28 main_v29 rfl shapeCasts_S1x64x64_S64x64,
    unary main_arg3 main_v30 ((extractStridedSlice S1x800000 ![0, 0] · slices_S2x800000_S1x800000_0_0) : (⟨S2x800000, .i32⟩ : BufTy).Contents (Elt F) → (⟨S1x800000, .i32⟩ : BufTy).Contents (Elt F)),
    reshape main_v30 main_v31 rfl shapeCasts_S1x800000_S800000,
    unary main_arg3 main_v32 ((extractStridedSlice S1x800000 ![1, 0] · slices_S2x800000_S1x800000_1_0) : (⟨S2x800000, .i32⟩ : BufTy).Contents (Elt F) → (⟨S1x800000, .i32⟩ : BufTy).Contents (Elt F)),
    reshape main_v32 main_v33 rfl shapeCasts_S1x800000_S800000,
    nullary main_c (constantI S_ 32 0#32),
    unary main_c main_v34 (broadcastInDim S800000 ![] bcast_S_S800000 : (⟨S_, .i32⟩ : BufTy).Contents (Elt F) → (⟨S800000, .i32⟩ : BufTy).Contents (Elt F)),
    binary main_v31 main_v34 main_v35 (cmpi .slt : (⟨S800000, .i32⟩ : BufTy).Contents (Elt F) → (⟨S800000, .i32⟩ : BufTy).Contents (Elt F) → (⟨S800000, .i1⟩ : BufTy).Contents (Elt F)),
    nullary main_c_5 (constantI S_ 32 100000#32),
    unary main_c_5 main_v36 (broadcastInDim S800000 ![] bcast_S_S800000 : (⟨S_, .i32⟩ : BufTy).Contents (Elt F) → (⟨S800000, .i32⟩ : BufTy).Contents (Elt F)),
    binary main_v31 main_v36 main_v37 (addi : (⟨S800000, .i32⟩ : BufTy).Contents (Elt F) → (⟨S800000, .i32⟩ : BufTy).Contents (Elt F) → (⟨S800000, .i32⟩ : BufTy).Contents (Elt F)),
    ternary main_v35 main_v37 main_v31 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v38 main_v39 (broadcastInDim S800000x1 ![0] bcast_S800000_S800000x1_0 : (⟨S800000, .i32⟩ : BufTy).Contents (Elt F) → (⟨S800000x1, .i32⟩ : BufTy).Contents (Elt F)),
    binary main_v7 main_v39 main_v40 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    nullary main_cst_6 (constant S_ .f32 0x00000000#32),
    unary main_cst_6 main_v41 (broadcastInDim S100000x64 ![] bcast_S_S100000x64 : (⟨S_, .f32⟩ : BufTy).Contents (Elt F) → (⟨S100000x64, .f32⟩ : BufTy).Contents (Elt F)),
    unary main_v33 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    nullary main_cst_7 (constant S_ .f32 0x3F800000#32),
    unary main_cst_7 main_v44 (broadcastInDim S800000x1 ![] bcast_S_S800000x1 : (⟨S_, .f32⟩ : BufTy).Contents (Elt F) → (⟨S800000x1, .f32⟩ : BufTy).Contents (Elt F)),
    nullary main_cst_8 (constant S_ .f32 0x00000000#32),
    unary main_cst_8 main_v45 (broadcastInDim S100000x1 ![] bcast_S_S100000x1 : (⟨S_, .f32⟩ : BufTy).Contents (Elt F) → (⟨S100000x1, .f32⟩ : BufTy).Contents (Elt F)),
    unary main_v33 main_v46 (broadcastInDim S800000x1 ![0] bcast_S800000_S800000x1_0 : (⟨S800000, .i32⟩ : BufTy).Contents (Elt F) → (⟨S800000x1, .i32⟩ : BufTy).Contents (Elt F)),
    ternary main_v45 main_v46 main_v44 main_v47 ((fun x i u => Host.scatterAdd scatter_S100000x1_S800000x1_S800000x1_1_0_0_1 x i u) : (⟨S100000x1, .f32⟩ : BufTy).Contents (Elt F) → (⟨S800000x1, .i32⟩ : BufTy).Contents (Elt F) → (⟨S800000x1, .f32⟩ : BufTy).Contents (Elt F) → (⟨S100000x1, .f32⟩ : BufTy).Contents (Elt F)),
    nullary main_cst_9 (constant S_ .f32 0x3F800000#32),
    unary main_cst_9 main_v48 (broadcastInDim S100000x1 ![] bcast_S_S100000x1 : (⟨S_, .f32⟩ : BufTy).Contents (Elt F) → (⟨S100000x1, .f32⟩ : BufTy).Contents (Elt F)),
    binary main_v47 main_v48 main_v49 (maximumf : (⟨S100000x1, .f32⟩ : BufTy).Contents (Elt F) → (⟨S100000x1, .f32⟩ : BufTy).Contents (Elt F) → (⟨S100000x1, .f32⟩ : BufTy).Contents (Elt F)),
    unary main_v49 main_v50 (broadcastInDim S100000x64 ![0, 1] bcast_S100000x1_S100000x64_0_1 : (⟨S100000x1, .f32⟩ : BufTy).Contents (Elt F) → (⟨S100000x64, .f32⟩ : BufTy).Contents (Elt F)),
    binary main_v43 main_v50 main_v51 (Host.divf : (⟨S100000x64, .f32⟩ : BufTy).Contents (Elt F) → (⟨S100000x64, .f32⟩ : BufTy).Contents (Elt F) → (⟨S100000x64, .f32⟩ : BufTy).Contents (Elt F)),
    binary main_v51 main_v25 main_v52 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v27 main_v53 (broadcastInDim S1x64 ![1] bcast_S64_S1x64_1 : (⟨S64, .f32⟩ : BufTy).Contents (Elt F) → (⟨S1x64, .f32⟩ : BufTy).Contents (Elt F)),
    unary main_v53 main_v54 (broadcastInDim S100000x64 ![0, 1] bcast_S1x64_S100000x64_0_1 : (⟨S1x64, .f32⟩ : BufTy).Contents (Elt F) → (⟨S100000x64, .f32⟩ : BufTy).Contents (Elt F)),
    binary main_v52 main_v54 main_v55 (addf : (⟨S100000x64, .f32⟩ : BufTy).Contents (Elt F) → (⟨S100000x64, .f32⟩ : BufTy).Contents (Elt F) → (⟨S100000x64, .f32⟩ : BufTy).Contents (Elt F)),
    binary main_v7 main_v29 main_v56 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v55 main_v56 main_v57 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v57) (TRef.of (T := ⟨S100000x64, .f32⟩) main_call0_v0) (TRef.of (T := ⟨S100000x64, .f32⟩) main_v58) maximumf,
    binary main_v58 main_v58 main_v59 (mulf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x00000000#32),
    binary main_v59 main_cst_10 main_v60 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v60 main_v61 (broadcastInDim S100000x1 ![0] bcast_S100000_S100000x1_0 : (⟨S100000, .f32⟩ : BufTy).Contents (Elt F) → (⟨S100000x1, .f32⟩ : BufTy).Contents (Elt F)),
    unary main_v61 main_v62 (Host.sqrt : (⟨S100000x1, .f32⟩ : BufTy).Contents (Elt F) → (⟨S100000x1, .f32⟩ : BufTy).Contents (Elt F)),
    nullary main_cst_11 (constant S_ .f32 0x2B8CBCCC#32),
    unary main_cst_11 main_v63 (broadcastInDim S100000x1 ![] bcast_S_S100000x1 : (⟨S_, .f32⟩ : BufTy).Contents (Elt F) → (⟨S100000x1, .f32⟩ : BufTy).Contents (Elt F)),
    binary main_v62 main_v63 main_v64 (maximumf : (⟨S100000x1, .f32⟩ : BufTy).Contents (Elt F) → (⟨S100000x1, .f32⟩ : BufTy).Contents (Elt F) → (⟨S100000x1, .f32⟩ : BufTy).Contents (Elt F)),
    unary main_v64 main_v65 (broadcastInDim S100000x64 ![0, 1] bcast_S100000x1_S100000x64_0_1 : (⟨S100000x1, .f32⟩ : BufTy).Contents (Elt F) → (⟨S100000x64, .f32⟩ : BufTy).Contents (Elt F)),
    binary main_v58 main_v65 main_v66 (Host.divf : (⟨S100000x64, .f32⟩ : BufTy).Contents (Elt F) → (⟨S100000x64, .f32⟩ : BufTy).Contents (Elt F) → (⟨S100000x64, .f32⟩ : BufTy).Contents (Elt F)) ]

/-- Round 1, type 1. -/
abbrev seg2 : List (HloOp τ sig (Elt F)) :=
  [ unary main_arg6 main_v67 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v67 main_v68 rfl shapeCasts_S1x64x64_S64x64,
    unary main_arg7 main_v69 ((extractStridedSlice S1x64 ![1, 0] · slices_S3x64_S1x64_1_0) : (⟨S3x64, .f32⟩ : BufTy).Contents (Elt F) → (⟨S1x64, .f32⟩ : BufTy).Contents (Elt F)),
    reshape main_v69 main_v70 rfl shapeCasts_S1x64_S64,
    unary main_arg8 main_v71 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v71 main_v72 rfl shapeCasts_S1x64x64_S64x64,
    unary main_arg4 main_v73 ((extractStridedSlice S1x800000 ![0, 0] · slices_S2x800000_S1x800000_0_0) : (⟨S2x800000, .i32⟩ : BufTy).Contents (Elt F) → (⟨S1x800000, .i32⟩ : BufTy).Contents (Elt F)),
    reshape main_v73 main_v74 rfl shapeCasts_S1x800000_S800000,
    unary main_arg4 main_v75 ((extractStridedSlice S1x800000 ![1, 0] · slices_S2x800000_S1x800000_1_0) : (⟨S2x800000, .i32⟩ : BufTy).Contents (Elt F) → (⟨S1x800000, .i32⟩ : BufTy).Contents (Elt F)),
    reshape main_v75 main_v76 rfl shapeCasts_S1x800000_S800000,
    nullary main_c_12 (constantI S_ 32 0#32),
    unary main_c_12 main_v77 (broadcastInDim S800000 ![] bcast_S_S800000 : (⟨S_, .i32⟩ : BufTy).Contents (Elt F) → (⟨S800000, .i32⟩ : BufTy).Contents (Elt F)),
    binary main_v74 main_v77 main_v78 (cmpi .slt : (⟨S800000, .i32⟩ : BufTy).Contents (Elt F) → (⟨S800000, .i32⟩ : BufTy).Contents (Elt F) → (⟨S800000, .i1⟩ : BufTy).Contents (Elt F)),
    nullary main_c_13 (constantI S_ 32 100000#32),
    unary main_c_13 main_v79 (broadcastInDim S800000 ![] bcast_S_S800000 : (⟨S_, .i32⟩ : BufTy).Contents (Elt F) → (⟨S800000, .i32⟩ : BufTy).Contents (Elt F)),
    binary main_v74 main_v79 main_v80 (addi : (⟨S800000, .i32⟩ : BufTy).Contents (Elt F) → (⟨S800000, .i32⟩ : BufTy).Contents (Elt F) → (⟨S800000, .i32⟩ : BufTy).Contents (Elt F)),
    ternary main_v78 main_v80 main_v74 main_v81 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v81 main_v82 (broadcastInDim S800000x1 ![0] bcast_S800000_S800000x1_0 : (⟨S800000, .i32⟩ : BufTy).Contents (Elt F) → (⟨S800000x1, .i32⟩ : BufTy).Contents (Elt F)),
    binary main_v15 main_v82 main_v83 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    nullary main_cst_14 (constant S_ .f32 0x00000000#32),
    unary main_cst_14 main_v84 (broadcastInDim S100000x64 ![] bcast_S_S100000x64 : (⟨S_, .f32⟩ : BufTy).Contents (Elt F) → (⟨S100000x64, .f32⟩ : BufTy).Contents (Elt F)),
    unary main_v76 main_v85 (broadcastInDim S800000x1 ![0] bcast_S800000_S800000x1_0 : (⟨S800000, .i32⟩ : BufTy).Contents (Elt F) → (⟨S800000x1, .i32⟩ : BufTy).Contents (Elt F)),
    ternary main_v84 main_v85 main_v83 main_v86 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    nullary main_cst_15 (constant S_ .f32 0x3F800000#32),
    unary main_cst_15 main_v87 (broadcastInDim S800000x1 ![] bcast_S_S800000x1 : (⟨S_, .f32⟩ : BufTy).Contents (Elt F) → (⟨S800000x1, .f32⟩ : BufTy).Contents (Elt F)),
    nullary main_cst_16 (constant S_ .f32 0x00000000#32),
    unary main_cst_16 main_v88 (broadcastInDim S100000x1 ![] bcast_S_S100000x1 : (⟨S_, .f32⟩ : BufTy).Contents (Elt F) → (⟨S100000x1, .f32⟩ : BufTy).Contents (Elt F)),
    unary main_v76 main_v89 (broadcastInDim S800000x1 ![0] bcast_S800000_S800000x1_0 : (⟨S800000, .i32⟩ : BufTy).Contents (Elt F) → (⟨S800000x1, .i32⟩ : BufTy).Contents (Elt F)),
    ternary main_v88 main_v89 main_v87 main_v90 ((fun x i u => Host.scatterAdd scatter_S100000x1_S800000x1_S800000x1_1_0_0_1 x i u) : (⟨S100000x1, .f32⟩ : BufTy).Contents (Elt F) → (⟨S800000x1, .i32⟩ : BufTy).Contents (Elt F) → (⟨S800000x1, .f32⟩ : BufTy).Contents (Elt F) → (⟨S100000x1, .f32⟩ : BufTy).Contents (Elt F)),
    nullary main_cst_17 (constant S_ .f32 0x3F800000#32),
    unary main_cst_17 main_v91 (broadcastInDim S100000x1 ![] bcast_S_S100000x1 : (⟨S_, .f32⟩ : BufTy).Contents (Elt F) → (⟨S100000x1, .f32⟩ : BufTy).Contents (Elt F)),
    binary main_v90 main_v91 main_v92 (maximumf : (⟨S100000x1, .f32⟩ : BufTy).Contents (Elt F) → (⟨S100000x1, .f32⟩ : BufTy).Contents (Elt F) → (⟨S100000x1, .f32⟩ : BufTy).Contents (Elt F)),
    unary main_v92 main_v93 (broadcastInDim S100000x64 ![0, 1] bcast_S100000x1_S100000x64_0_1 : (⟨S100000x1, .f32⟩ : BufTy).Contents (Elt F) → (⟨S100000x64, .f32⟩ : BufTy).Contents (Elt F)),
    binary main_v86 main_v93 main_v94 (Host.divf : (⟨S100000x64, .f32⟩ : BufTy).Contents (Elt F) → (⟨S100000x64, .f32⟩ : BufTy).Contents (Elt F) → (⟨S100000x64, .f32⟩ : BufTy).Contents (Elt F)),
    binary main_v94 main_v68 main_v95 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v70 main_v96 (broadcastInDim S1x64 ![1] bcast_S64_S1x64_1 : (⟨S64, .f32⟩ : BufTy).Contents (Elt F) → (⟨S1x64, .f32⟩ : BufTy).Contents (Elt F)),
    unary main_v96 main_v97 (broadcastInDim S100000x64 ![0, 1] bcast_S1x64_S100000x64_0_1 : (⟨S1x64, .f32⟩ : BufTy).Contents (Elt F) → (⟨S100000x64, .f32⟩ : BufTy).Contents (Elt F)),
    binary main_v95 main_v97 main_v98 (addf : (⟨S100000x64, .f32⟩ : BufTy).Contents (Elt F) → (⟨S100000x64, .f32⟩ : BufTy).Contents (Elt F) → (⟨S100000x64, .f32⟩ : BufTy).Contents (Elt F)),
    binary main_v15 main_v72 main_v99 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v98 main_v99 main_v100 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v100) (TRef.of (T := ⟨S100000x64, .f32⟩) main_call1_v0) (TRef.of (T := ⟨S100000x64, .f32⟩) main_v101) maximumf,
    binary main_v101 main_v101 main_v102 (mulf : (⟨S100000x64, .f32⟩ : BufTy).Contents (Elt F) → (⟨S100000x64, .f32⟩ : BufTy).Contents (Elt F) → (⟨S100000x64, .f32⟩ : BufTy).Contents (Elt F)),
    nullary main_cst_18 (constant S_ .f32 0x00000000#32),
    binary main_v102 main_cst_18 main_v103 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v103 main_v104 (broadcastInDim S100000x1 ![0] bcast_S100000_S100000x1_0 : (⟨S100000, .f32⟩ : BufTy).Contents (Elt F) → (⟨S100000x1, .f32⟩ : BufTy).Contents (Elt F)),
    unary main_v104 main_v105 (Host.sqrt : (⟨S100000x1, .f32⟩ : BufTy).Contents (Elt F) → (⟨S100000x1, .f32⟩ : BufTy).Contents (Elt F)),
    nullary main_cst_19 (constant S_ .f32 0x2B8CBCCC#32),
    unary main_cst_19 main_v106 (broadcastInDim S100000x1 ![] bcast_S_S100000x1 : (⟨S_, .f32⟩ : BufTy).Contents (Elt F) → (⟨S100000x1, .f32⟩ : BufTy).Contents (Elt F)),
    binary main_v105 main_v106 main_v107 (maximumf : (⟨S100000x1, .f32⟩ : BufTy).Contents (Elt F) → (⟨S100000x1, .f32⟩ : BufTy).Contents (Elt F) → (⟨S100000x1, .f32⟩ : BufTy).Contents (Elt F)),
    unary main_v107 main_v108 (broadcastInDim S100000x64 ![0, 1] bcast_S100000x1_S100000x64_0_1 : (⟨S100000x1, .f32⟩ : BufTy).Contents (Elt F) → (⟨S100000x64, .f32⟩ : BufTy).Contents (Elt F)),
    binary main_v101 main_v108 main_v109 (Host.divf : (⟨S100000x64, .f32⟩ : BufTy).Contents (Elt F) → (⟨S100000x64, .f32⟩ : BufTy).Contents (Elt F) → (⟨S100000x64, .f32⟩ : BufTy).Contents (Elt F)) ]

/-- Round 1, type 2. -/
abbrev seg3 : List (HloOp τ sig (Elt F)) :=
  [ unary main_arg6 main_v110 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v110 main_v111 rfl shapeCasts_S1x64x64_S64x64,
    unary main_arg7 main_v112 ((extractStridedSlice S1x64 ![2, 0] · slices_S3x64_S1x64_2_0) : (⟨S3x64, .f32⟩ : BufTy).Contents (Elt F) → (⟨S1x64, .f32⟩ : BufTy).Contents (Elt F)),
    reshape main_v112 main_v113 rfl shapeCasts_S1x64_S64,
    unary main_arg8 main_v114 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v114 main_v115 rfl shapeCasts_S1x64x64_S64x64,
    unary main_arg5 main_v116 ((extractStridedSlice S1x800000 ![0, 0] · slices_S2x800000_S1x800000_0_0) : (⟨S2x800000, .i32⟩ : BufTy).Contents (Elt F) → (⟨S1x800000, .i32⟩ : BufTy).Contents (Elt F)),
    reshape main_v116 main_v117 rfl shapeCasts_S1x800000_S800000,
    unary main_arg5 main_v118 ((extractStridedSlice S1x800000 ![1, 0] · slices_S2x800000_S1x800000_1_0) : (⟨S2x800000, .i32⟩ : BufTy).Contents (Elt F) → (⟨S1x800000, .i32⟩ : BufTy).Contents (Elt F)),
    reshape main_v118 main_v119 rfl shapeCasts_S1x800000_S800000,
    nullary main_c_20 (constantI S_ 32 0#32),
    unary main_c_20 main_v120 (broadcastInDim S800000 ![] bcast_S_S800000 : (⟨S_, .i32⟩ : BufTy).Contents (Elt F) → (⟨S800000, .i32⟩ : BufTy).Contents (Elt F)),
    binary main_v117 main_v120 main_v121 (cmpi .slt : (⟨S800000, .i32⟩ : BufTy).Contents (Elt F) → (⟨S800000, .i32⟩ : BufTy).Contents (Elt F) → (⟨S800000, .i1⟩ : BufTy).Contents (Elt F)),
    nullary main_c_21 (constantI S_ 32 100000#32),
    unary main_c_21 main_v122 (broadcastInDim S800000 ![] bcast_S_S800000 : (⟨S_, .i32⟩ : BufTy).Contents (Elt F) → (⟨S800000, .i32⟩ : BufTy).Contents (Elt F)),
    binary main_v117 main_v122 main_v123 (addi : (⟨S800000, .i32⟩ : BufTy).Contents (Elt F) → (⟨S800000, .i32⟩ : BufTy).Contents (Elt F) → (⟨S800000, .i32⟩ : BufTy).Contents (Elt F)),
    ternary main_v121 main_v123 main_v117 main_v124 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v124 main_v125 (broadcastInDim S800000x1 ![0] bcast_S800000_S800000x1_0 : (⟨S800000, .i32⟩ : BufTy).Contents (Elt F) → (⟨S800000x1, .i32⟩ : BufTy).Contents (Elt F)),
    binary main_v23 main_v125 main_v126 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    nullary main_cst_22 (constant S_ .f32 0x00000000#32),
    unary main_cst_22 main_v127 (broadcastInDim S100000x64 ![] bcast_S_S100000x64 : (⟨S_, .f32⟩ : BufTy).Contents (Elt F) → (⟨S100000x64, .f32⟩ : BufTy).Contents (Elt F)),
    unary main_v119 main_v128 (broadcastInDim S800000x1 ![0] bcast_S800000_S800000x1_0 : (⟨S800000, .i32⟩ : BufTy).Contents (Elt F) → (⟨S800000x1, .i32⟩ : BufTy).Contents (Elt F)),
    ternary main_v127 main_v128 main_v126 main_v129 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    nullary main_cst_23 (constant S_ .f32 0x3F800000#32),
    unary main_cst_23 main_v130 (broadcastInDim S800000x1 ![] bcast_S_S800000x1 : (⟨S_, .f32⟩ : BufTy).Contents (Elt F) → (⟨S800000x1, .f32⟩ : BufTy).Contents (Elt F)),
    nullary main_cst_24 (constant S_ .f32 0x00000000#32),
    unary main_cst_24 main_v131 (broadcastInDim S100000x1 ![] bcast_S_S100000x1 : (⟨S_, .f32⟩ : BufTy).Contents (Elt F) → (⟨S100000x1, .f32⟩ : BufTy).Contents (Elt F)),
    unary main_v119 main_v132 (broadcastInDim S800000x1 ![0] bcast_S800000_S800000x1_0 : (⟨S800000, .i32⟩ : BufTy).Contents (Elt F) → (⟨S800000x1, .i32⟩ : BufTy).Contents (Elt F)),
    ternary main_v131 main_v132 main_v130 main_v133 ((fun x i u => Host.scatterAdd scatter_S100000x1_S800000x1_S800000x1_1_0_0_1 x i u) : (⟨S100000x1, .f32⟩ : BufTy).Contents (Elt F) → (⟨S800000x1, .i32⟩ : BufTy).Contents (Elt F) → (⟨S800000x1, .f32⟩ : BufTy).Contents (Elt F) → (⟨S100000x1, .f32⟩ : BufTy).Contents (Elt F)),
    nullary main_cst_25 (constant S_ .f32 0x3F800000#32),
    unary main_cst_25 main_v134 (broadcastInDim S100000x1 ![] bcast_S_S100000x1 : (⟨S_, .f32⟩ : BufTy).Contents (Elt F) → (⟨S100000x1, .f32⟩ : BufTy).Contents (Elt F)),
    binary main_v133 main_v134 main_v135 (maximumf : (⟨S100000x1, .f32⟩ : BufTy).Contents (Elt F) → (⟨S100000x1, .f32⟩ : BufTy).Contents (Elt F) → (⟨S100000x1, .f32⟩ : BufTy).Contents (Elt F)),
    unary main_v135 main_v136 (broadcastInDim S100000x64 ![0, 1] bcast_S100000x1_S100000x64_0_1 : (⟨S100000x1, .f32⟩ : BufTy).Contents (Elt F) → (⟨S100000x64, .f32⟩ : BufTy).Contents (Elt F)),
    binary main_v129 main_v136 main_v137 (Host.divf : (⟨S100000x64, .f32⟩ : BufTy).Contents (Elt F) → (⟨S100000x64, .f32⟩ : BufTy).Contents (Elt F) → (⟨S100000x64, .f32⟩ : BufTy).Contents (Elt F)),
    binary main_v137 main_v111 main_v138 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v113 main_v139 (broadcastInDim S1x64 ![1] bcast_S64_S1x64_1 : (⟨S64, .f32⟩ : BufTy).Contents (Elt F) → (⟨S1x64, .f32⟩ : BufTy).Contents (Elt F)),
    unary main_v139 main_v140 (broadcastInDim S100000x64 ![0, 1] bcast_S1x64_S100000x64_0_1 : (⟨S1x64, .f32⟩ : BufTy).Contents (Elt F) → (⟨S100000x64, .f32⟩ : BufTy).Contents (Elt F)),
    binary main_v138 main_v140 main_v141 (addf : (⟨S100000x64, .f32⟩ : BufTy).Contents (Elt F) → (⟨S100000x64, .f32⟩ : BufTy).Contents (Elt F) → (⟨S100000x64, .f32⟩ : BufTy).Contents (Elt F)),
    binary main_v23 main_v115 main_v142 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v141 main_v142 main_v143 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v143) (TRef.of (T := ⟨S100000x64, .f32⟩) main_call2_v0) (TRef.of (T := ⟨S100000x64, .f32⟩) main_v144) maximumf,
    binary main_v144 main_v144 main_v145 (mulf : (⟨S100000x64, .f32⟩ : BufTy).Contents (Elt F) → (⟨S100000x64, .f32⟩ : BufTy).Contents (Elt F) → (⟨S100000x64, .f32⟩ : BufTy).Contents (Elt F)),
    nullary main_cst_26 (constant S_ .f32 0x00000000#32),
    binary main_v145 main_cst_26 main_v146 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v146 main_v147 (broadcastInDim S100000x1 ![0] bcast_S100000_S100000x1_0 : (⟨S100000, .f32⟩ : BufTy).Contents (Elt F) → (⟨S100000x1, .f32⟩ : BufTy).Contents (Elt F)),
    unary main_v147 main_v148 (Host.sqrt : (⟨S100000x1, .f32⟩ : BufTy).Contents (Elt F) → (⟨S100000x1, .f32⟩ : BufTy).Contents (Elt F)),
    nullary main_cst_27 (constant S_ .f32 0x2B8CBCCC#32),
    unary main_cst_27 main_v149 (broadcastInDim S100000x1 ![] bcast_S_S100000x1 : (⟨S_, .f32⟩ : BufTy).Contents (Elt F) → (⟨S100000x1, .f32⟩ : BufTy).Contents (Elt F)),
    binary main_v148 main_v149 main_v150 (maximumf : (⟨S100000x1, .f32⟩ : BufTy).Contents (Elt F) → (⟨S100000x1, .f32⟩ : BufTy).Contents (Elt F) → (⟨S100000x1, .f32⟩ : BufTy).Contents (Elt F)),
    unary main_v150 main_v151 (broadcastInDim S100000x64 ![0, 1] bcast_S100000x1_S100000x64_0_1 : (⟨S100000x1, .f32⟩ : BufTy).Contents (Elt F) → (⟨S100000x64, .f32⟩ : BufTy).Contents (Elt F)),
    binary main_v144 main_v151 main_v152 (Host.divf : (⟨S100000x64, .f32⟩ : BufTy).Contents (Elt F) → (⟨S100000x64, .f32⟩ : BufTy).Contents (Elt F) → (⟨S100000x64, .f32⟩ : BufTy).Contents (Elt F)) ]

/-- Round 2, type 0. -/
abbrev seg4 : List (HloOp τ sig (Elt F)) :=
  [ unary main_arg6 main_v153 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v153 main_v154 rfl shapeCasts_S1x64x64_S64x64,
    unary main_arg7 main_v155 ((extractStridedSlice S1x64 ![0, 0] · slices_S3x64_S1x64_0_0) : (⟨S3x64, .f32⟩ : BufTy).Contents (Elt F) → (⟨S1x64, .f32⟩ : BufTy).Contents (Elt F)),
    reshape main_v155 main_v156 rfl shapeCasts_S1x64_S64,
    unary main_arg8 main_v157 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v157 main_v158 rfl shapeCasts_S1x64x64_S64x64,
    unary main_arg3 main_v159 ((extractStridedSlice S1x800000 ![0, 0] · slices_S2x800000_S1x800000_0_0) : (⟨S2x800000, .i32⟩ : BufTy).Contents (Elt F) → (⟨S1x800000, .i32⟩ : BufTy).Contents (Elt F)),
    reshape main_v159 main_v160 rfl shapeCasts_S1x800000_S800000,
    unary main_arg3 main_v161 ((extractStridedSlice S1x800000 ![1, 0] · slices_S2x800000_S1x800000_1_0) : (⟨S2x800000, .i32⟩ : BufTy).Contents (Elt F) → (⟨S1x800000, .i32⟩ : BufTy).Contents (Elt F)),
    reshape main_v161 main_v162 rfl shapeCasts_S1x800000_S800000,
    nullary main_c_28 (constantI S_ 32 0#32),
    unary main_c_28 main_v163 (broadcastInDim S800000 ![] bcast_S_S800000 : (⟨S_, .i32⟩ : BufTy).Contents (Elt F) → (⟨S800000, .i32⟩ : BufTy).Contents (Elt F)),
    binary main_v160 main_v163 main_v164 (cmpi .slt : (⟨S800000, .i32⟩ : BufTy).Contents (Elt F) → (⟨S800000, .i32⟩ : BufTy).Contents (Elt F) → (⟨S800000, .i1⟩ : BufTy).Contents (Elt F)),
    nullary main_c_29 (constantI S_ 32 100000#32),
    unary main_c_29 main_v165 (broadcastInDim S800000 ![] bcast_S_S800000 : (⟨S_, .i32⟩ : BufTy).Contents (Elt F) → (⟨S800000, .i32⟩ : BufTy).Contents (Elt F)),
    binary main_v160 main_v165 main_v166 (addi : (⟨S800000, .i32⟩ : BufTy).Contents (Elt F) → (⟨S800000, .i32⟩ : BufTy).Contents (Elt F) → (⟨S800000, .i32⟩ : BufTy).Contents (Elt F)),
    ternary main_v164 main_v166 main_v160 main_v167 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v167 main_v168 (broadcastInDim S800000x1 ![0] bcast_S800000_S800000x1_0 : (⟨S800000, .i32⟩ : BufTy).Contents (Elt F) → (⟨S800000x1, .i32⟩ : BufTy).Contents (Elt F)),
    binary main_v66 main_v168 main_v169 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    nullary main_cst_30 (constant S_ .f32 0x00000000#32),
    unary main_cst_30 main_v170 (broadcastInDim S100000x64 ![] bcast_S_S100000x64 : (⟨S_, .f32⟩ : BufTy).Contents (Elt F) → (⟨S100000x64, .f32⟩ : BufTy).Contents (Elt F)),
    unary main_v162 main_v171 (broadcastInDim S800000x1 ![0] bcast_S800000_S800000x1_0 : (⟨S800000, .i32⟩ : BufTy).Contents (Elt F) → (⟨S800000x1, .i32⟩ : BufTy).Contents (Elt F)),
    ternary main_v170 main_v171 main_v169 main_v172 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    nullary main_cst_31 (constant S_ .f32 0x3F800000#32),
    unary main_cst_31 main_v173 (broadcastInDim S800000x1 ![] bcast_S_S800000x1 : (⟨S_, .f32⟩ : BufTy).Contents (Elt F) → (⟨S800000x1, .f32⟩ : BufTy).Contents (Elt F)),
    nullary main_cst_32 (constant S_ .f32 0x00000000#32),
    unary main_cst_32 main_v174 (broadcastInDim S100000x1 ![] bcast_S_S100000x1 : (⟨S_, .f32⟩ : BufTy).Contents (Elt F) → (⟨S100000x1, .f32⟩ : BufTy).Contents (Elt F)),
    unary main_v162 main_v175 (broadcastInDim S800000x1 ![0] bcast_S800000_S800000x1_0 : (⟨S800000, .i32⟩ : BufTy).Contents (Elt F) → (⟨S800000x1, .i32⟩ : BufTy).Contents (Elt F)),
    ternary main_v174 main_v175 main_v173 main_v176 ((fun x i u => Host.scatterAdd scatter_S100000x1_S800000x1_S800000x1_1_0_0_1 x i u) : (⟨S100000x1, .f32⟩ : BufTy).Contents (Elt F) → (⟨S800000x1, .i32⟩ : BufTy).Contents (Elt F) → (⟨S800000x1, .f32⟩ : BufTy).Contents (Elt F) → (⟨S100000x1, .f32⟩ : BufTy).Contents (Elt F)),
    nullary main_cst_33 (constant S_ .f32 0x3F800000#32),
    unary main_cst_33 main_v177 (broadcastInDim S100000x1 ![] bcast_S_S100000x1 : (⟨S_, .f32⟩ : BufTy).Contents (Elt F) → (⟨S100000x1, .f32⟩ : BufTy).Contents (Elt F)),
    binary main_v176 main_v177 main_v178 (maximumf : (⟨S100000x1, .f32⟩ : BufTy).Contents (Elt F) → (⟨S100000x1, .f32⟩ : BufTy).Contents (Elt F) → (⟨S100000x1, .f32⟩ : BufTy).Contents (Elt F)),
    unary main_v178 main_v179 (broadcastInDim S100000x64 ![0, 1] bcast_S100000x1_S100000x64_0_1 : (⟨S100000x1, .f32⟩ : BufTy).Contents (Elt F) → (⟨S100000x64, .f32⟩ : BufTy).Contents (Elt F)),
    binary main_v172 main_v179 main_v180 (Host.divf : (⟨S100000x64, .f32⟩ : BufTy).Contents (Elt F) → (⟨S100000x64, .f32⟩ : BufTy).Contents (Elt F) → (⟨S100000x64, .f32⟩ : BufTy).Contents (Elt F)),
    binary main_v180 main_v154 main_v181 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v156 main_v182 (broadcastInDim S1x64 ![1] bcast_S64_S1x64_1 : (⟨S64, .f32⟩ : BufTy).Contents (Elt F) → (⟨S1x64, .f32⟩ : BufTy).Contents (Elt F)),
    unary main_v182 main_v183 (broadcastInDim S100000x64 ![0, 1] bcast_S1x64_S100000x64_0_1 : (⟨S1x64, .f32⟩ : BufTy).Contents (Elt F) → (⟨S100000x64, .f32⟩ : BufTy).Contents (Elt F)),
    binary main_v181 main_v183 main_v184 (addf : (⟨S100000x64, .f32⟩ : BufTy).Contents (Elt F) → (⟨S100000x64, .f32⟩ : BufTy).Contents (Elt F) → (⟨S100000x64, .f32⟩ : BufTy).Contents (Elt F)),
    binary main_v66 main_v158 main_v185 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v184 main_v185 main_v186 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v186) (TRef.of (T := ⟨S100000x64, .f32⟩) main_call3_v0) (TRef.of (T := ⟨S100000x64, .f32⟩) main_v187) maximumf,
    binary main_v187 main_v187 main_v188 (mulf : (⟨S100000x64, .f32⟩ : BufTy).Contents (Elt F) → (⟨S100000x64, .f32⟩ : BufTy).Contents (Elt F) → (⟨S100000x64, .f32⟩ : BufTy).Contents (Elt F)),
    nullary main_cst_34 (constant S_ .f32 0x00000000#32),
    binary main_v188 main_cst_34 main_v189 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v189 main_v190 (broadcastInDim S100000x1 ![0] bcast_S100000_S100000x1_0 : (⟨S100000, .f32⟩ : BufTy).Contents (Elt F) → (⟨S100000x1, .f32⟩ : BufTy).Contents (Elt F)),
    unary main_v190 main_v191 (Host.sqrt : (⟨S100000x1, .f32⟩ : BufTy).Contents (Elt F) → (⟨S100000x1, .f32⟩ : BufTy).Contents (Elt F)),
    nullary main_cst_35 (constant S_ .f32 0x2B8CBCCC#32),
    unary main_cst_35 main_v192 (broadcastInDim S100000x1 ![] bcast_S_S100000x1 : (⟨S_, .f32⟩ : BufTy).Contents (Elt F) → (⟨S100000x1, .f32⟩ : BufTy).Contents (Elt F)),
    binary main_v191 main_v192 main_v193 (maximumf : (⟨S100000x1, .f32⟩ : BufTy).Contents (Elt F) → (⟨S100000x1, .f32⟩ : BufTy).Contents (Elt F) → (⟨S100000x1, .f32⟩ : BufTy).Contents (Elt F)),
    unary main_v193 main_v194 (broadcastInDim S100000x64 ![0, 1] bcast_S100000x1_S100000x64_0_1 : (⟨S100000x1, .f32⟩ : BufTy).Contents (Elt F) → (⟨S100000x64, .f32⟩ : BufTy).Contents (Elt F)),
    binary main_v187 main_v194 main_v195 (Host.divf : (⟨S100000x64, .f32⟩ : BufTy).Contents (Elt F) → (⟨S100000x64, .f32⟩ : BufTy).Contents (Elt F) → (⟨S100000x64, .f32⟩ : BufTy).Contents (Elt F)) ]

/-- Round 2, type 1. -/
abbrev seg5 : List (HloOp τ sig (Elt F)) :=
  [ unary main_arg6 main_v196 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v196 main_v197 rfl shapeCasts_S1x64x64_S64x64,
    unary main_arg7 main_v198 ((extractStridedSlice S1x64 ![1, 0] · slices_S3x64_S1x64_1_0) : (⟨S3x64, .f32⟩ : BufTy).Contents (Elt F) → (⟨S1x64, .f32⟩ : BufTy).Contents (Elt F)),
    reshape main_v198 main_v199 rfl shapeCasts_S1x64_S64,
    unary main_arg8 main_v200 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v200 main_v201 rfl shapeCasts_S1x64x64_S64x64,
    unary main_arg4 main_v202 ((extractStridedSlice S1x800000 ![0, 0] · slices_S2x800000_S1x800000_0_0) : (⟨S2x800000, .i32⟩ : BufTy).Contents (Elt F) → (⟨S1x800000, .i32⟩ : BufTy).Contents (Elt F)),
    reshape main_v202 main_v203 rfl shapeCasts_S1x800000_S800000,
    unary main_arg4 main_v204 ((extractStridedSlice S1x800000 ![1, 0] · slices_S2x800000_S1x800000_1_0) : (⟨S2x800000, .i32⟩ : BufTy).Contents (Elt F) → (⟨S1x800000, .i32⟩ : BufTy).Contents (Elt F)),
    reshape main_v204 main_v205 rfl shapeCasts_S1x800000_S800000,
    nullary main_c_36 (constantI S_ 32 0#32),
    unary main_c_36 main_v206 (broadcastInDim S800000 ![] bcast_S_S800000 : (⟨S_, .i32⟩ : BufTy).Contents (Elt F) → (⟨S800000, .i32⟩ : BufTy).Contents (Elt F)),
    binary main_v203 main_v206 main_v207 (cmpi .slt : (⟨S800000, .i32⟩ : BufTy).Contents (Elt F) → (⟨S800000, .i32⟩ : BufTy).Contents (Elt F) → (⟨S800000, .i1⟩ : BufTy).Contents (Elt F)),
    nullary main_c_37 (constantI S_ 32 100000#32),
    unary main_c_37 main_v208 (broadcastInDim S800000 ![] bcast_S_S800000 : (⟨S_, .i32⟩ : BufTy).Contents (Elt F) → (⟨S800000, .i32⟩ : BufTy).Contents (Elt F)),
    binary main_v203 main_v208 main_v209 (addi : (⟨S800000, .i32⟩ : BufTy).Contents (Elt F) → (⟨S800000, .i32⟩ : BufTy).Contents (Elt F) → (⟨S800000, .i32⟩ : BufTy).Contents (Elt F)),
    ternary main_v207 main_v209 main_v203 main_v210 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v210 main_v211 (broadcastInDim S800000x1 ![0] bcast_S800000_S800000x1_0 : (⟨S800000, .i32⟩ : BufTy).Contents (Elt F) → (⟨S800000x1, .i32⟩ : BufTy).Contents (Elt F)),
    binary main_v109 main_v211 main_v212 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    nullary main_cst_38 (constant S_ .f32 0x00000000#32),
    unary main_cst_38 main_v213 (broadcastInDim S100000x64 ![] bcast_S_S100000x64 : (⟨S_, .f32⟩ : BufTy).Contents (Elt F) → (⟨S100000x64, .f32⟩ : BufTy).Contents (Elt F)),
    unary main_v205 main_v214 (broadcastInDim S800000x1 ![0] bcast_S800000_S800000x1_0 : (⟨S800000, .i32⟩ : BufTy).Contents (Elt F) → (⟨S800000x1, .i32⟩ : BufTy).Contents (Elt F)),
    ternary main_v213 main_v214 main_v212 main_v215 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    nullary main_cst_39 (constant S_ .f32 0x3F800000#32),
    unary main_cst_39 main_v216 (broadcastInDim S800000x1 ![] bcast_S_S800000x1 : (⟨S_, .f32⟩ : BufTy).Contents (Elt F) → (⟨S800000x1, .f32⟩ : BufTy).Contents (Elt F)),
    nullary main_cst_40 (constant S_ .f32 0x00000000#32),
    unary main_cst_40 main_v217 (broadcastInDim S100000x1 ![] bcast_S_S100000x1 : (⟨S_, .f32⟩ : BufTy).Contents (Elt F) → (⟨S100000x1, .f32⟩ : BufTy).Contents (Elt F)),
    unary main_v205 main_v218 (broadcastInDim S800000x1 ![0] bcast_S800000_S800000x1_0 : (⟨S800000, .i32⟩ : BufTy).Contents (Elt F) → (⟨S800000x1, .i32⟩ : BufTy).Contents (Elt F)),
    ternary main_v217 main_v218 main_v216 main_v219 ((fun x i u => Host.scatterAdd scatter_S100000x1_S800000x1_S800000x1_1_0_0_1 x i u) : (⟨S100000x1, .f32⟩ : BufTy).Contents (Elt F) → (⟨S800000x1, .i32⟩ : BufTy).Contents (Elt F) → (⟨S800000x1, .f32⟩ : BufTy).Contents (Elt F) → (⟨S100000x1, .f32⟩ : BufTy).Contents (Elt F)),
    nullary main_cst_41 (constant S_ .f32 0x3F800000#32),
    unary main_cst_41 main_v220 (broadcastInDim S100000x1 ![] bcast_S_S100000x1 : (⟨S_, .f32⟩ : BufTy).Contents (Elt F) → (⟨S100000x1, .f32⟩ : BufTy).Contents (Elt F)),
    binary main_v219 main_v220 main_v221 (maximumf : (⟨S100000x1, .f32⟩ : BufTy).Contents (Elt F) → (⟨S100000x1, .f32⟩ : BufTy).Contents (Elt F) → (⟨S100000x1, .f32⟩ : BufTy).Contents (Elt F)),
    unary main_v221 main_v222 (broadcastInDim S100000x64 ![0, 1] bcast_S100000x1_S100000x64_0_1 : (⟨S100000x1, .f32⟩ : BufTy).Contents (Elt F) → (⟨S100000x64, .f32⟩ : BufTy).Contents (Elt F)),
    binary main_v215 main_v222 main_v223 (Host.divf : (⟨S100000x64, .f32⟩ : BufTy).Contents (Elt F) → (⟨S100000x64, .f32⟩ : BufTy).Contents (Elt F) → (⟨S100000x64, .f32⟩ : BufTy).Contents (Elt F)),
    binary main_v223 main_v197 main_v224 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v199 main_v225 (broadcastInDim S1x64 ![1] bcast_S64_S1x64_1 : (⟨S64, .f32⟩ : BufTy).Contents (Elt F) → (⟨S1x64, .f32⟩ : BufTy).Contents (Elt F)),
    unary main_v225 main_v226 (broadcastInDim S100000x64 ![0, 1] bcast_S1x64_S100000x64_0_1 : (⟨S1x64, .f32⟩ : BufTy).Contents (Elt F) → (⟨S100000x64, .f32⟩ : BufTy).Contents (Elt F)),
    binary main_v224 main_v226 main_v227 (addf : (⟨S100000x64, .f32⟩ : BufTy).Contents (Elt F) → (⟨S100000x64, .f32⟩ : BufTy).Contents (Elt F) → (⟨S100000x64, .f32⟩ : BufTy).Contents (Elt F)),
    binary main_v109 main_v201 main_v228 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v227 main_v228 main_v229 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v229) (TRef.of (T := ⟨S100000x64, .f32⟩) main_call4_v0) (TRef.of (T := ⟨S100000x64, .f32⟩) main_v230) maximumf,
    binary main_v230 main_v230 main_v231 (mulf : (⟨S100000x64, .f32⟩ : BufTy).Contents (Elt F) → (⟨S100000x64, .f32⟩ : BufTy).Contents (Elt F) → (⟨S100000x64, .f32⟩ : BufTy).Contents (Elt F)),
    nullary main_cst_42 (constant S_ .f32 0x00000000#32),
    binary main_v231 main_cst_42 main_v232 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v232 main_v233 (broadcastInDim S100000x1 ![0] bcast_S100000_S100000x1_0 : (⟨S100000, .f32⟩ : BufTy).Contents (Elt F) → (⟨S100000x1, .f32⟩ : BufTy).Contents (Elt F)),
    unary main_v233 main_v234 (Host.sqrt : (⟨S100000x1, .f32⟩ : BufTy).Contents (Elt F) → (⟨S100000x1, .f32⟩ : BufTy).Contents (Elt F)),
    nullary main_cst_43 (constant S_ .f32 0x2B8CBCCC#32),
    unary main_cst_43 main_v235 (broadcastInDim S100000x1 ![] bcast_S_S100000x1 : (⟨S_, .f32⟩ : BufTy).Contents (Elt F) → (⟨S100000x1, .f32⟩ : BufTy).Contents (Elt F)),
    binary main_v234 main_v235 main_v236 (maximumf : (⟨S100000x1, .f32⟩ : BufTy).Contents (Elt F) → (⟨S100000x1, .f32⟩ : BufTy).Contents (Elt F) → (⟨S100000x1, .f32⟩ : BufTy).Contents (Elt F)),
    unary main_v236 main_v237 (broadcastInDim S100000x64 ![0, 1] bcast_S100000x1_S100000x64_0_1 : (⟨S100000x1, .f32⟩ : BufTy).Contents (Elt F) → (⟨S100000x64, .f32⟩ : BufTy).Contents (Elt F)),
    binary main_v230 main_v237 main_v238 (Host.divf : (⟨S100000x64, .f32⟩ : BufTy).Contents (Elt F) → (⟨S100000x64, .f32⟩ : BufTy).Contents (Elt F) → (⟨S100000x64, .f32⟩ : BufTy).Contents (Elt F)) ]

/-- Round 2, type 2. -/
abbrev seg6 : List (HloOp τ sig (Elt F)) :=
  [ unary main_arg6 main_v239 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v239 main_v240 rfl shapeCasts_S1x64x64_S64x64,
    unary main_arg7 main_v241 ((extractStridedSlice S1x64 ![2, 0] · slices_S3x64_S1x64_2_0) : (⟨S3x64, .f32⟩ : BufTy).Contents (Elt F) → (⟨S1x64, .f32⟩ : BufTy).Contents (Elt F)),
    reshape main_v241 main_v242 rfl shapeCasts_S1x64_S64,
    unary main_arg8 main_v243 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v243 main_v244 rfl shapeCasts_S1x64x64_S64x64,
    unary main_arg5 main_v245 ((extractStridedSlice S1x800000 ![0, 0] · slices_S2x800000_S1x800000_0_0) : (⟨S2x800000, .i32⟩ : BufTy).Contents (Elt F) → (⟨S1x800000, .i32⟩ : BufTy).Contents (Elt F)),
    reshape main_v245 main_v246 rfl shapeCasts_S1x800000_S800000,
    unary main_arg5 main_v247 ((extractStridedSlice S1x800000 ![1, 0] · slices_S2x800000_S1x800000_1_0) : (⟨S2x800000, .i32⟩ : BufTy).Contents (Elt F) → (⟨S1x800000, .i32⟩ : BufTy).Contents (Elt F)),
    reshape main_v247 main_v248 rfl shapeCasts_S1x800000_S800000,
    nullary main_c_44 (constantI S_ 32 0#32),
    unary main_c_44 main_v249 (broadcastInDim S800000 ![] bcast_S_S800000 : (⟨S_, .i32⟩ : BufTy).Contents (Elt F) → (⟨S800000, .i32⟩ : BufTy).Contents (Elt F)),
    binary main_v246 main_v249 main_v250 (cmpi .slt : (⟨S800000, .i32⟩ : BufTy).Contents (Elt F) → (⟨S800000, .i32⟩ : BufTy).Contents (Elt F) → (⟨S800000, .i1⟩ : BufTy).Contents (Elt F)),
    nullary main_c_45 (constantI S_ 32 100000#32),
    unary main_c_45 main_v251 (broadcastInDim S800000 ![] bcast_S_S800000 : (⟨S_, .i32⟩ : BufTy).Contents (Elt F) → (⟨S800000, .i32⟩ : BufTy).Contents (Elt F)),
    binary main_v246 main_v251 main_v252 (addi : (⟨S800000, .i32⟩ : BufTy).Contents (Elt F) → (⟨S800000, .i32⟩ : BufTy).Contents (Elt F) → (⟨S800000, .i32⟩ : BufTy).Contents (Elt F)),
    ternary main_v250 main_v252 main_v246 main_v253 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v253 main_v254 (broadcastInDim S800000x1 ![0] bcast_S800000_S800000x1_0 : (⟨S800000, .i32⟩ : BufTy).Contents (Elt F) → (⟨S800000x1, .i32⟩ : BufTy).Contents (Elt F)),
    binary main_v152 main_v254 main_v255 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    nullary main_cst_46 (constant S_ .f32 0x00000000#32),
    unary main_cst_46 main_v256 (broadcastInDim S100000x64 ![] bcast_S_S100000x64 : (⟨S_, .f32⟩ : BufTy).Contents (Elt F) → (⟨S100000x64, .f32⟩ : BufTy).Contents (Elt F)),
    unary main_v248 main_v257 (broadcastInDim S800000x1 ![0] bcast_S800000_S800000x1_0 : (⟨S800000, .i32⟩ : BufTy).Contents (Elt F) → (⟨S800000x1, .i32⟩ : BufTy).Contents (Elt F)),
    ternary main_v256 main_v257 main_v255 main_v258 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    nullary main_cst_47 (constant S_ .f32 0x3F800000#32),
    unary main_cst_47 main_v259 (broadcastInDim S800000x1 ![] bcast_S_S800000x1 : (⟨S_, .f32⟩ : BufTy).Contents (Elt F) → (⟨S800000x1, .f32⟩ : BufTy).Contents (Elt F)),
    nullary main_cst_48 (constant S_ .f32 0x00000000#32),
    unary main_cst_48 main_v260 (broadcastInDim S100000x1 ![] bcast_S_S100000x1 : (⟨S_, .f32⟩ : BufTy).Contents (Elt F) → (⟨S100000x1, .f32⟩ : BufTy).Contents (Elt F)),
    unary main_v248 main_v261 (broadcastInDim S800000x1 ![0] bcast_S800000_S800000x1_0 : (⟨S800000, .i32⟩ : BufTy).Contents (Elt F) → (⟨S800000x1, .i32⟩ : BufTy).Contents (Elt F)),
    ternary main_v260 main_v261 main_v259 main_v262 ((fun x i u => Host.scatterAdd scatter_S100000x1_S800000x1_S800000x1_1_0_0_1 x i u) : (⟨S100000x1, .f32⟩ : BufTy).Contents (Elt F) → (⟨S800000x1, .i32⟩ : BufTy).Contents (Elt F) → (⟨S800000x1, .f32⟩ : BufTy).Contents (Elt F) → (⟨S100000x1, .f32⟩ : BufTy).Contents (Elt F)),
    nullary main_cst_49 (constant S_ .f32 0x3F800000#32),
    unary main_cst_49 main_v263 (broadcastInDim S100000x1 ![] bcast_S_S100000x1 : (⟨S_, .f32⟩ : BufTy).Contents (Elt F) → (⟨S100000x1, .f32⟩ : BufTy).Contents (Elt F)),
    binary main_v262 main_v263 main_v264 (maximumf : (⟨S100000x1, .f32⟩ : BufTy).Contents (Elt F) → (⟨S100000x1, .f32⟩ : BufTy).Contents (Elt F) → (⟨S100000x1, .f32⟩ : BufTy).Contents (Elt F)),
    unary main_v264 main_v265 (broadcastInDim S100000x64 ![0, 1] bcast_S100000x1_S100000x64_0_1 : (⟨S100000x1, .f32⟩ : BufTy).Contents (Elt F) → (⟨S100000x64, .f32⟩ : BufTy).Contents (Elt F)),
    binary main_v258 main_v265 main_v266 (Host.divf : (⟨S100000x64, .f32⟩ : BufTy).Contents (Elt F) → (⟨S100000x64, .f32⟩ : BufTy).Contents (Elt F) → (⟨S100000x64, .f32⟩ : BufTy).Contents (Elt F)),
    binary main_v266 main_v240 main_v267 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v242 main_v268 (broadcastInDim S1x64 ![1] bcast_S64_S1x64_1 : (⟨S64, .f32⟩ : BufTy).Contents (Elt F) → (⟨S1x64, .f32⟩ : BufTy).Contents (Elt F)),
    unary main_v268 main_v269 (broadcastInDim S100000x64 ![0, 1] bcast_S1x64_S100000x64_0_1 : (⟨S1x64, .f32⟩ : BufTy).Contents (Elt F) → (⟨S100000x64, .f32⟩ : BufTy).Contents (Elt F)),
    binary main_v267 main_v269 main_v270 (addf : (⟨S100000x64, .f32⟩ : BufTy).Contents (Elt F) → (⟨S100000x64, .f32⟩ : BufTy).Contents (Elt F) → (⟨S100000x64, .f32⟩ : BufTy).Contents (Elt F)),
    binary main_v152 main_v244 main_v271 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v270 main_v271 main_v272 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v272) (TRef.of (T := ⟨S100000x64, .f32⟩) main_call5_v0) (TRef.of (T := ⟨S100000x64, .f32⟩) main_v273) maximumf,
    binary main_v273 main_v273 main_v274 (mulf : (⟨S100000x64, .f32⟩ : BufTy).Contents (Elt F) → (⟨S100000x64, .f32⟩ : BufTy).Contents (Elt F) → (⟨S100000x64, .f32⟩ : BufTy).Contents (Elt F)),
    nullary main_cst_50 (constant S_ .f32 0x00000000#32),
    binary main_v274 main_cst_50 main_v275 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v275 main_v276 (broadcastInDim S100000x1 ![0] bcast_S100000_S100000x1_0 : (⟨S100000, .f32⟩ : BufTy).Contents (Elt F) → (⟨S100000x1, .f32⟩ : BufTy).Contents (Elt F)),
    unary main_v276 main_v277 (Host.sqrt : (⟨S100000x1, .f32⟩ : BufTy).Contents (Elt F) → (⟨S100000x1, .f32⟩ : BufTy).Contents (Elt F)),
    nullary main_cst_51 (constant S_ .f32 0x2B8CBCCC#32),
    unary main_cst_51 main_v278 (broadcastInDim S100000x1 ![] bcast_S_S100000x1 : (⟨S_, .f32⟩ : BufTy).Contents (Elt F) → (⟨S100000x1, .f32⟩ : BufTy).Contents (Elt F)),
    binary main_v277 main_v278 main_v279 (maximumf : (⟨S100000x1, .f32⟩ : BufTy).Contents (Elt F) → (⟨S100000x1, .f32⟩ : BufTy).Contents (Elt F) → (⟨S100000x1, .f32⟩ : BufTy).Contents (Elt F)),
    unary main_v279 main_v280 (broadcastInDim S100000x64 ![0, 1] bcast_S100000x1_S100000x64_0_1 : (⟨S100000x1, .f32⟩ : BufTy).Contents (Elt F) → (⟨S100000x64, .f32⟩ : BufTy).Contents (Elt F)),
    binary main_v273 main_v280 main_v281 (Host.divf : (⟨S100000x64, .f32⟩ : BufTy).Contents (Elt F) → (⟨S100000x64, .f32⟩ : BufTy).Contents (Elt F) → (⟨S100000x64, .f32⟩ : BufTy).Contents (Elt F)) ]

/-- Round 3, type 0. -/
abbrev seg7 : List (HloOp τ sig (Elt F)) :=
  [ unary main_arg6 main_v282 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v282 main_v283 rfl shapeCasts_S1x64x64_S64x64,
    unary main_arg7 main_v284 ((extractStridedSlice S1x64 ![0, 0] · slices_S3x64_S1x64_0_0) : (⟨S3x64, .f32⟩ : BufTy).Contents (Elt F) → (⟨S1x64, .f32⟩ : BufTy).Contents (Elt F)),
    reshape main_v284 main_v285 rfl shapeCasts_S1x64_S64,
    unary main_arg8 main_v286 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v286 main_v287 rfl shapeCasts_S1x64x64_S64x64,
    unary main_arg3 main_v288 ((extractStridedSlice S1x800000 ![0, 0] · slices_S2x800000_S1x800000_0_0) : (⟨S2x800000, .i32⟩ : BufTy).Contents (Elt F) → (⟨S1x800000, .i32⟩ : BufTy).Contents (Elt F)),
    reshape main_v288 main_v289 rfl shapeCasts_S1x800000_S800000,
    unary main_arg3 main_v290 ((extractStridedSlice S1x800000 ![1, 0] · slices_S2x800000_S1x800000_1_0) : (⟨S2x800000, .i32⟩ : BufTy).Contents (Elt F) → (⟨S1x800000, .i32⟩ : BufTy).Contents (Elt F)),
    reshape main_v290 main_v291 rfl shapeCasts_S1x800000_S800000,
    nullary main_c_52 (constantI S_ 32 0#32),
    unary main_c_52 main_v292 (broadcastInDim S800000 ![] bcast_S_S800000 : (⟨S_, .i32⟩ : BufTy).Contents (Elt F) → (⟨S800000, .i32⟩ : BufTy).Contents (Elt F)),
    binary main_v289 main_v292 main_v293 (cmpi .slt : (⟨S800000, .i32⟩ : BufTy).Contents (Elt F) → (⟨S800000, .i32⟩ : BufTy).Contents (Elt F) → (⟨S800000, .i1⟩ : BufTy).Contents (Elt F)),
    nullary main_c_53 (constantI S_ 32 100000#32),
    unary main_c_53 main_v294 (broadcastInDim S800000 ![] bcast_S_S800000 : (⟨S_, .i32⟩ : BufTy).Contents (Elt F) → (⟨S800000, .i32⟩ : BufTy).Contents (Elt F)),
    binary main_v289 main_v294 main_v295 (addi : (⟨S800000, .i32⟩ : BufTy).Contents (Elt F) → (⟨S800000, .i32⟩ : BufTy).Contents (Elt F) → (⟨S800000, .i32⟩ : BufTy).Contents (Elt F)),
    ternary main_v293 main_v295 main_v289 main_v296 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v296 main_v297 (broadcastInDim S800000x1 ![0] bcast_S800000_S800000x1_0 : (⟨S800000, .i32⟩ : BufTy).Contents (Elt F) → (⟨S800000x1, .i32⟩ : BufTy).Contents (Elt F)),
    binary main_v195 main_v297 main_v298 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    nullary main_cst_54 (constant S_ .f32 0x00000000#32),
    unary main_cst_54 main_v299 (broadcastInDim S100000x64 ![] bcast_S_S100000x64 : (⟨S_, .f32⟩ : BufTy).Contents (Elt F) → (⟨S100000x64, .f32⟩ : BufTy).Contents (Elt F)),
    unary main_v291 main_v300 (broadcastInDim S800000x1 ![0] bcast_S800000_S800000x1_0 : (⟨S800000, .i32⟩ : BufTy).Contents (Elt F) → (⟨S800000x1, .i32⟩ : BufTy).Contents (Elt F)),
    ternary main_v299 main_v300 main_v298 main_v301 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    nullary main_cst_55 (constant S_ .f32 0x3F800000#32),
    unary main_cst_55 main_v302 (broadcastInDim S800000x1 ![] bcast_S_S800000x1 : (⟨S_, .f32⟩ : BufTy).Contents (Elt F) → (⟨S800000x1, .f32⟩ : BufTy).Contents (Elt F)),
    nullary main_cst_56 (constant S_ .f32 0x00000000#32),
    unary main_cst_56 main_v303 (broadcastInDim S100000x1 ![] bcast_S_S100000x1 : (⟨S_, .f32⟩ : BufTy).Contents (Elt F) → (⟨S100000x1, .f32⟩ : BufTy).Contents (Elt F)),
    unary main_v291 main_v304 (broadcastInDim S800000x1 ![0] bcast_S800000_S800000x1_0 : (⟨S800000, .i32⟩ : BufTy).Contents (Elt F) → (⟨S800000x1, .i32⟩ : BufTy).Contents (Elt F)),
    ternary main_v303 main_v304 main_v302 main_v305 ((fun x i u => Host.scatterAdd scatter_S100000x1_S800000x1_S800000x1_1_0_0_1 x i u) : (⟨S100000x1, .f32⟩ : BufTy).Contents (Elt F) → (⟨S800000x1, .i32⟩ : BufTy).Contents (Elt F) → (⟨S800000x1, .f32⟩ : BufTy).Contents (Elt F) → (⟨S100000x1, .f32⟩ : BufTy).Contents (Elt F)),
    nullary main_cst_57 (constant S_ .f32 0x3F800000#32),
    unary main_cst_57 main_v306 (broadcastInDim S100000x1 ![] bcast_S_S100000x1 : (⟨S_, .f32⟩ : BufTy).Contents (Elt F) → (⟨S100000x1, .f32⟩ : BufTy).Contents (Elt F)),
    binary main_v305 main_v306 main_v307 (maximumf : (⟨S100000x1, .f32⟩ : BufTy).Contents (Elt F) → (⟨S100000x1, .f32⟩ : BufTy).Contents (Elt F) → (⟨S100000x1, .f32⟩ : BufTy).Contents (Elt F)),
    unary main_v307 main_v308 (broadcastInDim S100000x64 ![0, 1] bcast_S100000x1_S100000x64_0_1 : (⟨S100000x1, .f32⟩ : BufTy).Contents (Elt F) → (⟨S100000x64, .f32⟩ : BufTy).Contents (Elt F)),
    binary main_v301 main_v308 main_v309 (Host.divf : (⟨S100000x64, .f32⟩ : BufTy).Contents (Elt F) → (⟨S100000x64, .f32⟩ : BufTy).Contents (Elt F) → (⟨S100000x64, .f32⟩ : BufTy).Contents (Elt F)),
    binary main_v309 main_v283 main_v310 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v285 main_v311 (broadcastInDim S1x64 ![1] bcast_S64_S1x64_1 : (⟨S64, .f32⟩ : BufTy).Contents (Elt F) → (⟨S1x64, .f32⟩ : BufTy).Contents (Elt F)),
    unary main_v311 main_v312 (broadcastInDim S100000x64 ![0, 1] bcast_S1x64_S100000x64_0_1 : (⟨S1x64, .f32⟩ : BufTy).Contents (Elt F) → (⟨S100000x64, .f32⟩ : BufTy).Contents (Elt F)),
    binary main_v310 main_v312 main_v313 (addf : (⟨S100000x64, .f32⟩ : BufTy).Contents (Elt F) → (⟨S100000x64, .f32⟩ : BufTy).Contents (Elt F) → (⟨S100000x64, .f32⟩ : BufTy).Contents (Elt F)),
    binary main_v195 main_v287 main_v314 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v313 main_v314 main_v315 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x64, .f32⟩) main_call6_v0) (broadcastInDim S100000x64 ![] bcast_S_S100000x64),
    TRef.binary (TRef.of (T := ⟨S100000x64, .f32⟩) main_v315) (TRef.of (T := ⟨S100000x64, .f32⟩) main_call6_v0) (TRef.of (T := ⟨S100000x64, .f32⟩) main_v316) maximumf,
    binary main_v316 main_v316 main_v317 (mulf : (⟨S100000x64, .f32⟩ : BufTy).Contents (Elt F) → (⟨S100000x64, .f32⟩ : BufTy).Contents (Elt F) → (⟨S100000x64, .f32⟩ : BufTy).Contents (Elt F)),
    nullary main_cst_58 (constant S_ .f32 0x00000000#32),
    binary main_v317 main_cst_58 main_v318 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v318 main_v319 (broadcastInDim S100000x1 ![0] bcast_S100000_S100000x1_0 : (⟨S100000, .f32⟩ : BufTy).Contents (Elt F) → (⟨S100000x1, .f32⟩ : BufTy).Contents (Elt F)),
    unary main_v319 main_v320 (Host.sqrt : (⟨S100000x1, .f32⟩ : BufTy).Contents (Elt F) → (⟨S100000x1, .f32⟩ : BufTy).Contents (Elt F)),
    nullary main_cst_59 (constant S_ .f32 0x2B8CBCCC#32),
    unary main_cst_59 main_v321 (broadcastInDim S100000x1 ![] bcast_S_S100000x1 : (⟨S_, .f32⟩ : BufTy).Contents (Elt F) → (⟨S100000x1, .f32⟩ : BufTy).Contents (Elt F)),
    binary main_v320 main_v321 main_v322 (maximumf : (⟨S100000x1, .f32⟩ : BufTy).Contents (Elt F) → (⟨S100000x1, .f32⟩ : BufTy).Contents (Elt F) → (⟨S100000x1, .f32⟩ : BufTy).Contents (Elt F)),
    unary main_v322 main_v323 (broadcastInDim S100000x64 ![0, 1] bcast_S100000x1_S100000x64_0_1 : (⟨S100000x1, .f32⟩ : BufTy).Contents (Elt F) → (⟨S100000x64, .f32⟩ : BufTy).Contents (Elt F)),
    binary main_v316 main_v323 main_v324 (Host.divf : (⟨S100000x64, .f32⟩ : BufTy).Contents (Elt F) → (⟨S100000x64, .f32⟩ : BufTy).Contents (Elt F) → (⟨S100000x64, .f32⟩ : BufTy).Contents (Elt F)) ]

/-- Round 3, type 1. -/
abbrev seg8 : List (HloOp τ sig (Elt F)) :=
  [ unary main_arg6 main_v325 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v325 main_v326 rfl shapeCasts_S1x64x64_S64x64,
    unary main_arg7 main_v327 ((extractStridedSlice S1x64 ![1, 0] · slices_S3x64_S1x64_1_0) : (⟨S3x64, .f32⟩ : BufTy).Contents (Elt F) → (⟨S1x64, .f32⟩ : BufTy).Contents (Elt F)),
    reshape main_v327 main_v328 rfl shapeCasts_S1x64_S64,
    unary main_arg8 main_v329 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v329 main_v330 rfl shapeCasts_S1x64x64_S64x64,
    unary main_arg4 main_v331 ((extractStridedSlice S1x800000 ![0, 0] · slices_S2x800000_S1x800000_0_0) : (⟨S2x800000, .i32⟩ : BufTy).Contents (Elt F) → (⟨S1x800000, .i32⟩ : BufTy).Contents (Elt F)),
    reshape main_v331 main_v332 rfl shapeCasts_S1x800000_S800000,
    unary main_arg4 main_v333 ((extractStridedSlice S1x800000 ![1, 0] · slices_S2x800000_S1x800000_1_0) : (⟨S2x800000, .i32⟩ : BufTy).Contents (Elt F) → (⟨S1x800000, .i32⟩ : BufTy).Contents (Elt F)),
    reshape main_v333 main_v334 rfl shapeCasts_S1x800000_S800000,
    nullary main_c_60 (constantI S_ 32 0#32),
    unary main_c_60 main_v335 (broadcastInDim S800000 ![] bcast_S_S800000 : (⟨S_, .i32⟩ : BufTy).Contents (Elt F) → (⟨S800000, .i32⟩ : BufTy).Contents (Elt F)),
    binary main_v332 main_v335 main_v336 (cmpi .slt : (⟨S800000, .i32⟩ : BufTy).Contents (Elt F) → (⟨S800000, .i32⟩ : BufTy).Contents (Elt F) → (⟨S800000, .i1⟩ : BufTy).Contents (Elt F)),
    nullary main_c_61 (constantI S_ 32 100000#32),
    unary main_c_61 main_v337 (broadcastInDim S800000 ![] bcast_S_S800000 : (⟨S_, .i32⟩ : BufTy).Contents (Elt F) → (⟨S800000, .i32⟩ : BufTy).Contents (Elt F)),
    binary main_v332 main_v337 main_v338 (addi : (⟨S800000, .i32⟩ : BufTy).Contents (Elt F) → (⟨S800000, .i32⟩ : BufTy).Contents (Elt F) → (⟨S800000, .i32⟩ : BufTy).Contents (Elt F)),
    ternary main_v336 main_v338 main_v332 main_v339 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v339 main_v340 (broadcastInDim S800000x1 ![0] bcast_S800000_S800000x1_0 : (⟨S800000, .i32⟩ : BufTy).Contents (Elt F) → (⟨S800000x1, .i32⟩ : BufTy).Contents (Elt F)),
    binary main_v238 main_v340 main_v341 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    nullary main_cst_62 (constant S_ .f32 0x00000000#32),
    unary main_cst_62 main_v342 (broadcastInDim S100000x64 ![] bcast_S_S100000x64 : (⟨S_, .f32⟩ : BufTy).Contents (Elt F) → (⟨S100000x64, .f32⟩ : BufTy).Contents (Elt F)),
    unary main_v334 main_v343 (broadcastInDim S800000x1 ![0] bcast_S800000_S800000x1_0 : (⟨S800000, .i32⟩ : BufTy).Contents (Elt F) → (⟨S800000x1, .i32⟩ : BufTy).Contents (Elt F)),
    ternary main_v342 main_v343 main_v341 main_v344 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    nullary main_cst_63 (constant S_ .f32 0x3F800000#32),
    unary main_cst_63 main_v345 (broadcastInDim S800000x1 ![] bcast_S_S800000x1 : (⟨S_, .f32⟩ : BufTy).Contents (Elt F) → (⟨S800000x1, .f32⟩ : BufTy).Contents (Elt F)),
    nullary main_cst_64 (constant S_ .f32 0x00000000#32),
    unary main_cst_64 main_v346 (broadcastInDim S100000x1 ![] bcast_S_S100000x1 : (⟨S_, .f32⟩ : BufTy).Contents (Elt F) → (⟨S100000x1, .f32⟩ : BufTy).Contents (Elt F)),
    unary main_v334 main_v347 (broadcastInDim S800000x1 ![0] bcast_S800000_S800000x1_0 : (⟨S800000, .i32⟩ : BufTy).Contents (Elt F) → (⟨S800000x1, .i32⟩ : BufTy).Contents (Elt F)),
    ternary main_v346 main_v347 main_v345 main_v348 ((fun x i u => Host.scatterAdd scatter_S100000x1_S800000x1_S800000x1_1_0_0_1 x i u) : (⟨S100000x1, .f32⟩ : BufTy).Contents (Elt F) → (⟨S800000x1, .i32⟩ : BufTy).Contents (Elt F) → (⟨S800000x1, .f32⟩ : BufTy).Contents (Elt F) → (⟨S100000x1, .f32⟩ : BufTy).Contents (Elt F)),
    nullary main_cst_65 (constant S_ .f32 0x3F800000#32),
    unary main_cst_65 main_v349 (broadcastInDim S100000x1 ![] bcast_S_S100000x1 : (⟨S_, .f32⟩ : BufTy).Contents (Elt F) → (⟨S100000x1, .f32⟩ : BufTy).Contents (Elt F)),
    binary main_v348 main_v349 main_v350 (maximumf : (⟨S100000x1, .f32⟩ : BufTy).Contents (Elt F) → (⟨S100000x1, .f32⟩ : BufTy).Contents (Elt F) → (⟨S100000x1, .f32⟩ : BufTy).Contents (Elt F)),
    unary main_v350 main_v351 (broadcastInDim S100000x64 ![0, 1] bcast_S100000x1_S100000x64_0_1 : (⟨S100000x1, .f32⟩ : BufTy).Contents (Elt F) → (⟨S100000x64, .f32⟩ : BufTy).Contents (Elt F)),
    binary main_v344 main_v351 main_v352 (Host.divf : (⟨S100000x64, .f32⟩ : BufTy).Contents (Elt F) → (⟨S100000x64, .f32⟩ : BufTy).Contents (Elt F) → (⟨S100000x64, .f32⟩ : BufTy).Contents (Elt F)),
    binary main_v352 main_v326 main_v353 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v328 main_v354 (broadcastInDim S1x64 ![1] bcast_S64_S1x64_1 : (⟨S64, .f32⟩ : BufTy).Contents (Elt F) → (⟨S1x64, .f32⟩ : BufTy).Contents (Elt F)),
    unary main_v354 main_v355 (broadcastInDim S100000x64 ![0, 1] bcast_S1x64_S100000x64_0_1 : (⟨S1x64, .f32⟩ : BufTy).Contents (Elt F) → (⟨S100000x64, .f32⟩ : BufTy).Contents (Elt F)),
    binary main_v353 main_v355 main_v356 (addf : (⟨S100000x64, .f32⟩ : BufTy).Contents (Elt F) → (⟨S100000x64, .f32⟩ : BufTy).Contents (Elt F) → (⟨S100000x64, .f32⟩ : BufTy).Contents (Elt F)),
    binary main_v238 main_v330 main_v357 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v356 main_v357 main_v358 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x64, .f32⟩) main_call7_v0) (broadcastInDim S100000x64 ![] bcast_S_S100000x64),
    TRef.binary (TRef.of (T := ⟨S100000x64, .f32⟩) main_v358) (TRef.of (T := ⟨S100000x64, .f32⟩) main_call7_v0) (TRef.of (T := ⟨S100000x64, .f32⟩) main_v359) maximumf,
    binary main_v359 main_v359 main_v360 (mulf : (⟨S100000x64, .f32⟩ : BufTy).Contents (Elt F) → (⟨S100000x64, .f32⟩ : BufTy).Contents (Elt F) → (⟨S100000x64, .f32⟩ : BufTy).Contents (Elt F)),
    nullary main_cst_66 (constant S_ .f32 0x00000000#32),
    binary main_v360 main_cst_66 main_v361 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v361 main_v362 (broadcastInDim S100000x1 ![0] bcast_S100000_S100000x1_0 : (⟨S100000, .f32⟩ : BufTy).Contents (Elt F) → (⟨S100000x1, .f32⟩ : BufTy).Contents (Elt F)),
    unary main_v362 main_v363 (Host.sqrt : (⟨S100000x1, .f32⟩ : BufTy).Contents (Elt F) → (⟨S100000x1, .f32⟩ : BufTy).Contents (Elt F)),
    nullary main_cst_67 (constant S_ .f32 0x2B8CBCCC#32),
    unary main_cst_67 main_v364 (broadcastInDim S100000x1 ![] bcast_S_S100000x1 : (⟨S_, .f32⟩ : BufTy).Contents (Elt F) → (⟨S100000x1, .f32⟩ : BufTy).Contents (Elt F)),
    binary main_v363 main_v364 main_v365 (maximumf : (⟨S100000x1, .f32⟩ : BufTy).Contents (Elt F) → (⟨S100000x1, .f32⟩ : BufTy).Contents (Elt F) → (⟨S100000x1, .f32⟩ : BufTy).Contents (Elt F)),
    unary main_v365 main_v366 (broadcastInDim S100000x64 ![0, 1] bcast_S100000x1_S100000x64_0_1 : (⟨S100000x1, .f32⟩ : BufTy).Contents (Elt F) → (⟨S100000x64, .f32⟩ : BufTy).Contents (Elt F)),
    binary main_v359 main_v366 main_v367 (Host.divf : (⟨S100000x64, .f32⟩ : BufTy).Contents (Elt F) → (⟨S100000x64, .f32⟩ : BufTy).Contents (Elt F) → (⟨S100000x64, .f32⟩ : BufTy).Contents (Elt F)) ]

/-- Round 3, type 2. -/
abbrev seg9 : List (HloOp τ sig (Elt F)) :=
  [ unary main_arg6 main_v368 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v368 main_v369 rfl shapeCasts_S1x64x64_S64x64,
    unary main_arg7 main_v370 ((extractStridedSlice S1x64 ![2, 0] · slices_S3x64_S1x64_2_0) : (⟨S3x64, .f32⟩ : BufTy).Contents (Elt F) → (⟨S1x64, .f32⟩ : BufTy).Contents (Elt F)),
    reshape main_v370 main_v371 rfl shapeCasts_S1x64_S64,
    unary main_arg8 main_v372 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v372 main_v373 rfl shapeCasts_S1x64x64_S64x64,
    unary main_arg5 main_v374 ((extractStridedSlice S1x800000 ![0, 0] · slices_S2x800000_S1x800000_0_0) : (⟨S2x800000, .i32⟩ : BufTy).Contents (Elt F) → (⟨S1x800000, .i32⟩ : BufTy).Contents (Elt F)),
    reshape main_v374 main_v375 rfl shapeCasts_S1x800000_S800000,
    unary main_arg5 main_v376 ((extractStridedSlice S1x800000 ![1, 0] · slices_S2x800000_S1x800000_1_0) : (⟨S2x800000, .i32⟩ : BufTy).Contents (Elt F) → (⟨S1x800000, .i32⟩ : BufTy).Contents (Elt F)),
    reshape main_v376 main_v377 rfl shapeCasts_S1x800000_S800000,
    nullary main_c_68 (constantI S_ 32 0#32),
    unary main_c_68 main_v378 (broadcastInDim S800000 ![] bcast_S_S800000 : (⟨S_, .i32⟩ : BufTy).Contents (Elt F) → (⟨S800000, .i32⟩ : BufTy).Contents (Elt F)),
    binary main_v375 main_v378 main_v379 (cmpi .slt : (⟨S800000, .i32⟩ : BufTy).Contents (Elt F) → (⟨S800000, .i32⟩ : BufTy).Contents (Elt F) → (⟨S800000, .i1⟩ : BufTy).Contents (Elt F)),
    nullary main_c_69 (constantI S_ 32 100000#32),
    unary main_c_69 main_v380 (broadcastInDim S800000 ![] bcast_S_S800000 : (⟨S_, .i32⟩ : BufTy).Contents (Elt F) → (⟨S800000, .i32⟩ : BufTy).Contents (Elt F)),
    binary main_v375 main_v380 main_v381 (addi : (⟨S800000, .i32⟩ : BufTy).Contents (Elt F) → (⟨S800000, .i32⟩ : BufTy).Contents (Elt F) → (⟨S800000, .i32⟩ : BufTy).Contents (Elt F)),
    ternary main_v379 main_v381 main_v375 main_v382 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v382 main_v383 (broadcastInDim S800000x1 ![0] bcast_S800000_S800000x1_0 : (⟨S800000, .i32⟩ : BufTy).Contents (Elt F) → (⟨S800000x1, .i32⟩ : BufTy).Contents (Elt F)),
    binary main_v281 main_v383 main_v384 ((fun x i => Host.gather gather_S100000x64_S800000x1_S800000x64_1_0_n_n_0_1_164 x i) : (⟨S100000x64, .f32⟩ : BufTy).Contents (Elt F) → (⟨S800000x1, .i32⟩ : BufTy).Contents (Elt F) → (⟨S800000x64, .f32⟩ : BufTy).Contents (Elt F)),
    nullary main_cst_70 (constant S_ .f32 0x00000000#32),
    unary main_cst_70 main_v385 (broadcastInDim S100000x64 ![] bcast_S_S100000x64 : (⟨S_, .f32⟩ : BufTy).Contents (Elt F) → (⟨S100000x64, .f32⟩ : BufTy).Contents (Elt F)),
    unary main_v377 main_v386 (broadcastInDim S800000x1 ![0] bcast_S800000_S800000x1_0 : (⟨S800000, .i32⟩ : BufTy).Contents (Elt F) → (⟨S800000x1, .i32⟩ : BufTy).Contents (Elt F)),
    ternary main_v385 main_v386 main_v384 main_v387 ((fun x i u => Host.scatterAdd scatter_S100000x64_S800000x1_S800000x64_1_0_0_1 x i u) : (⟨S100000x64, .f32⟩ : BufTy).Contents (Elt F) → (⟨S800000x1, .i32⟩ : BufTy).Contents (Elt F) → (⟨S800000x64, .f32⟩ : BufTy).Contents (Elt F) → (⟨S100000x64, .f32⟩ : BufTy).Contents (Elt F)),
    nullary main_cst_71 (constant S_ .f32 0x3F800000#32),
    unary main_cst_71 main_v388 (broadcastInDim S800000x1 ![] bcast_S_S800000x1 : (⟨S_, .f32⟩ : BufTy).Contents (Elt F) → (⟨S800000x1, .f32⟩ : BufTy).Contents (Elt F)),
    nullary main_cst_72 (constant S_ .f32 0x00000000#32),
    unary main_cst_72 main_v389 (broadcastInDim S100000x1 ![] bcast_S_S100000x1 : (⟨S_, .f32⟩ : BufTy).Contents (Elt F) → (⟨S100000x1, .f32⟩ : BufTy).Contents (Elt F)),
    unary main_v377 main_v390 (broadcastInDim S800000x1 ![0] bcast_S800000_S800000x1_0 : (⟨S800000, .i32⟩ : BufTy).Contents (Elt F) → (⟨S800000x1, .i32⟩ : BufTy).Contents (Elt F)),
    ternary main_v389 main_v390 main_v388 main_v391 ((fun x i u => Host.scatterAdd scatter_S100000x1_S800000x1_S800000x1_1_0_0_1 x i u) : (⟨S100000x1, .f32⟩ : BufTy).Contents (Elt F) → (⟨S800000x1, .i32⟩ : BufTy).Contents (Elt F) → (⟨S800000x1, .f32⟩ : BufTy).Contents (Elt F) → (⟨S100000x1, .f32⟩ : BufTy).Contents (Elt F)),
    nullary main_cst_73 (constant S_ .f32 0x3F800000#32),
    unary main_cst_73 main_v392 (broadcastInDim S100000x1 ![] bcast_S_S100000x1 : (⟨S_, .f32⟩ : BufTy).Contents (Elt F) → (⟨S100000x1, .f32⟩ : BufTy).Contents (Elt F)),
    binary main_v391 main_v392 main_v393 (maximumf : (⟨S100000x1, .f32⟩ : BufTy).Contents (Elt F) → (⟨S100000x1, .f32⟩ : BufTy).Contents (Elt F) → (⟨S100000x1, .f32⟩ : BufTy).Contents (Elt F)),
    unary main_v393 main_v394 (broadcastInDim S100000x64 ![0, 1] bcast_S100000x1_S100000x64_0_1 : (⟨S100000x1, .f32⟩ : BufTy).Contents (Elt F) → (⟨S100000x64, .f32⟩ : BufTy).Contents (Elt F)),
    binary main_v387 main_v394 main_v395 (Host.divf : (⟨S100000x64, .f32⟩ : BufTy).Contents (Elt F) → (⟨S100000x64, .f32⟩ : BufTy).Contents (Elt F) → (⟨S100000x64, .f32⟩ : BufTy).Contents (Elt F)),
    binary main_v395 main_v369 main_v396 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v371 main_v397 (broadcastInDim S1x64 ![1] bcast_S64_S1x64_1 : (⟨S64, .f32⟩ : BufTy).Contents (Elt F) → (⟨S1x64, .f32⟩ : BufTy).Contents (Elt F)),
    unary main_v397 main_v398 (broadcastInDim S100000x64 ![0, 1] bcast_S1x64_S100000x64_0_1 : (⟨S1x64, .f32⟩ : BufTy).Contents (Elt F) → (⟨S100000x64, .f32⟩ : BufTy).Contents (Elt F)),
    binary main_v396 main_v398 main_v399 (addf : (⟨S100000x64, .f32⟩ : BufTy).Contents (Elt F) → (⟨S100000x64, .f32⟩ : BufTy).Contents (Elt F) → (⟨S100000x64, .f32⟩ : BufTy).Contents (Elt F)),
    binary main_v281 main_v373 main_v400 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v399 main_v400 main_v401 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x64, .f32⟩) main_call8_v0) (broadcastInDim S100000x64 ![] bcast_S_S100000x64),
    TRef.binary (TRef.of (T := ⟨S100000x64, .f32⟩) main_v401) (TRef.of (T := ⟨S100000x64, .f32⟩) main_call8_v0) (TRef.of (T := ⟨S100000x64, .f32⟩) main_v402) maximumf,
    binary main_v402 main_v402 main_v403 (mulf : (⟨S100000x64, .f32⟩ : BufTy).Contents (Elt F) → (⟨S100000x64, .f32⟩ : BufTy).Contents (Elt F) → (⟨S100000x64, .f32⟩ : BufTy).Contents (Elt F)),
    nullary main_cst_74 (constant S_ .f32 0x00000000#32),
    binary main_v403 main_cst_74 main_v404 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v404 main_v405 (broadcastInDim S100000x1 ![0] bcast_S100000_S100000x1_0 : (⟨S100000, .f32⟩ : BufTy).Contents (Elt F) → (⟨S100000x1, .f32⟩ : BufTy).Contents (Elt F)),
    unary main_v405 main_v406 (Host.sqrt : (⟨S100000x1, .f32⟩ : BufTy).Contents (Elt F) → (⟨S100000x1, .f32⟩ : BufTy).Contents (Elt F)),
    nullary main_cst_75 (constant S_ .f32 0x2B8CBCCC#32),
    unary main_cst_75 main_v407 (broadcastInDim S100000x1 ![] bcast_S_S100000x1 : (⟨S_, .f32⟩ : BufTy).Contents (Elt F) → (⟨S100000x1, .f32⟩ : BufTy).Contents (Elt F)),
    binary main_v406 main_v407 main_v408 (maximumf : (⟨S100000x1, .f32⟩ : BufTy).Contents (Elt F) → (⟨S100000x1, .f32⟩ : BufTy).Contents (Elt F) → (⟨S100000x1, .f32⟩ : BufTy).Contents (Elt F)),
    unary main_v408 main_v409 (broadcastInDim S100000x64 ![0, 1] bcast_S100000x1_S100000x64_0_1 : (⟨S100000x1, .f32⟩ : BufTy).Contents (Elt F) → (⟨S100000x64, .f32⟩ : BufTy).Contents (Elt F)),
    binary main_v402 main_v409 main_v410 (Host.divf : (⟨S100000x64, .f32⟩ : BufTy).Contents (Elt F) → (⟨S100000x64, .f32⟩ : BufTy).Contents (Elt F) → (⟨S100000x64, .f32⟩ : BufTy).Contents (Elt F)) ]

/-! ## Every operation touches TensorCore buffers only -/

theorem seg0_sub : (seg0 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem seg1_sub : (seg1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem seg2_sub : (seg2 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem seg3_sub : (seg3 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem seg4_sub : (seg4 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem seg5_sub : (seg5 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem seg6_sub : (seg6 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem seg7_sub : (seg7 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem seg8_sub : (seg8 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem seg9_sub : (seg9 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-! ## Every operation determines its results -/

theorem seg0_fresh : ∀ op ∈ (seg0 : List (HloOp τ sig (Elt F))), op.fresh = ∅ := by
  intro _ h; (repeat (cases h with | head => rfl | tail _ h => ?_)); exact nomatch h

theorem seg1_fresh : ∀ op ∈ (seg1 : List (HloOp τ sig (Elt F))), op.fresh = ∅ := by
  intro _ h; (repeat (cases h with | head => rfl | tail _ h => ?_)); exact nomatch h

theorem seg2_fresh : ∀ op ∈ (seg2 : List (HloOp τ sig (Elt F))), op.fresh = ∅ := by
  intro _ h; (repeat (cases h with | head => rfl | tail _ h => ?_)); exact nomatch h

theorem seg3_fresh : ∀ op ∈ (seg3 : List (HloOp τ sig (Elt F))), op.fresh = ∅ := by
  intro _ h; (repeat (cases h with | head => rfl | tail _ h => ?_)); exact nomatch h

theorem seg4_fresh : ∀ op ∈ (seg4 : List (HloOp τ sig (Elt F))), op.fresh = ∅ := by
  intro _ h; (repeat (cases h with | head => rfl | tail _ h => ?_)); exact nomatch h

theorem seg5_fresh : ∀ op ∈ (seg5 : List (HloOp τ sig (Elt F))), op.fresh = ∅ := by
  intro _ h; (repeat (cases h with | head => rfl | tail _ h => ?_)); exact nomatch h

theorem seg6_fresh : ∀ op ∈ (seg6 : List (HloOp τ sig (Elt F))), op.fresh = ∅ := by
  intro _ h; (repeat (cases h with | head => rfl | tail _ h => ?_)); exact nomatch h

theorem seg7_fresh : ∀ op ∈ (seg7 : List (HloOp τ sig (Elt F))), op.fresh = ∅ := by
  intro _ h; (repeat (cases h with | head => rfl | tail _ h => ?_)); exact nomatch h

theorem seg8_fresh : ∀ op ∈ (seg8 : List (HloOp τ sig (Elt F))), op.fresh = ∅ := by
  intro _ h; (repeat (cases h with | head => rfl | tail _ h => ?_)); exact nomatch h

theorem seg9_fresh : ∀ op ∈ (seg9 : List (HloOp τ sig (Elt F))), op.fresh = ∅ := by
  intro _ h; (repeat (cases h with | head => rfl | tail _ h => ?_)); exact nomatch h

/-! ## The whole list, and its side conditions -/

/-- @main's 507 operations, in order. -/
abbrev ops : List (HloOp τ sig (Elt F)) := seg0 ++ (seg1 ++ (seg2 ++ (seg3 ++ (seg4 ++ (seg5 ++ (seg6 ++ (seg7 ++ (seg8 ++ (seg9)))))))))

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨seg0_sub, List.forall_append.mpr ⟨seg1_sub, List.forall_append.mpr ⟨seg2_sub, List.forall_append.mpr ⟨seg3_sub, List.forall_append.mpr ⟨seg4_sub, List.forall_append.mpr ⟨seg5_sub, List.forall_append.mpr ⟨seg6_sub, List.forall_append.mpr ⟨seg7_sub, List.forall_append.mpr ⟨seg8_sub, seg9_sub⟩⟩⟩⟩⟩⟩⟩⟩⟩

theorem ops_fresh : ∀ op ∈ (ops : List (HloOp τ sig (Elt F))), op.fresh = ∅ := fun op h =>
  (List.mem_append.mp h).elim (seg0_fresh op) fun h => (List.mem_append.mp h).elim (seg1_fresh op) fun h => (List.mem_append.mp h).elim (seg2_fresh op) fun h => (List.mem_append.mp h).elim (seg3_fresh op) fun h => (List.mem_append.mp h).elim (seg4_fresh op) fun h => (List.mem_append.mp h).elim (seg5_fresh op) fun h => (List.mem_append.mp h).elim (seg6_fresh op) fun h => (List.mem_append.mp h).elim (seg7_fresh op) fun h => (List.mem_append.mp h).elim (seg8_fresh op) fun h => seg9_fresh op h

/-! ## The fold over the stretches -/

/-- The contents after two lists of operations run one after the other: the second's fold over the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- The contents after the whole program: the ten stretches' folds, one over the other. -/
theorem after_ops (V : Valuation τ sig (Elt F)) :
    after (ops (F := F)) V = after seg9 (after seg8 (after seg7 (after seg6 (after seg5 (after seg4 (after seg3 (after seg2 (after seg1 (after seg0 V))))))))) := by
  show after (seg0 ++ (seg1 ++ (seg2 ++ (seg3 ++ (seg4 ++ (seg5 ++ (seg6 ++ (seg7 ++ (seg8 ++ (seg9)))))))))) V = _
  rw [after_append, after_append, after_append, after_append, after_append, after_append, after_append, after_append,
    after_append]

end Cert.Sage.Ref

end
-- ==== Proof.RefRun0.lean ====
/-
  The reference program is the sequence of its ten stretches of operations, so every weakly fair execution of it, from
  any memory with zero counters, terminates with every TensorCore buffer at the fold of the stretches over the launch
  contents.
-/
import proofs.«144736_j57801669869916_1_alg».proof.Proof.RefSegs

noncomputable section

namespace Cert.Sage.Ref

open Cert.ReferenceIdeal Cert.ReferenceIdeal.Gen Idealize.ShloMosaic Idealize.ShloMosaic.TcCoe Idealize.SL.Sem Idealize.ShloMosaic.StableHlo

variable {F : FTy → Type} [FloatOps F]

/-! ## The program is the sequence of the stretches -/

set_option maxRecDepth 65536 in
set_option maxHeartbeats 4000000 in
/-- @main, on every device, is its 507 operations run in order. -/
theorem main_eq (c : Dev nD) : main (F := F) c = seq ops := rfl

/-! ## The run -/

/-- From any memory with zero counters, every weakly fair execution of the reference terminates with every TensorCore
    buffer at the fold of its operations over the launch contents. -/
theorem run0 (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (ops (F := F)) (launchContents m d) (Proc.devRef .tc b) :=
  run_seq scopedRefs_eq scopedSems_eq defs main (fun _ => ops) main_eq (fun _ => ops_sub) m ρ (fun _ => ops_fresh)

end Cert.Sage.Ref

end
-- ==== Proof.RefOps.lean ====
/-
  The reference program's operations, grouped the way its source is written: the row normalisation, the cut at
  zero, the edge columns, the mean of the neighbours' rows, and the two projections with the bias. Each group is
  the printed operations' own term over the arrays it is applied to, so that one layer of the program is the
  composition of the groups, whichever of its nine copies it is.
-/
import proofs.«144736_j57801669869916_1_alg».proof.Proof.Gen.ReferenceIdeal
import proofs.«144736_j57801669869916_1_alg».proof.Proof.Spec
import Idealize.ShloMosaic.Lib.Pipeline.Value
import Idealize.ShloMosaic.Lib.ValueIdx
import Idealize.ShloMosaic.PureOps.Ideal.Laws

noncomputable section

namespace Cert.Sage.Ref

open Cert.ReferenceIdeal Cert.ReferenceIdeal.Gen Idealize.ShloMosaic Idealize.ShloMosaic.TcCoe Idealize.SL.Sem
  Idealize.ShloMosaic.StableHlo Idealize.ShloMosaic.ValueIdx Cert.ScatterGather Cert.GraphMean

/-- A feature array, a weight matrix, a bias row, an edge array, an index column: the contents of the program's buffers. -/
abbrev Feat := (⟨S100000x64, .f32⟩ : BufTy).Contents (Elt Ideal)
abbrev Mat := (⟨S64x64, .f32⟩ : BufTy).Contents (Elt Ideal)
abbrev Row := (⟨S64, .f32⟩ : BufTy).Contents (Elt Ideal)
abbrev Edges := (⟨S2x800000, .i32⟩ : BufTy).Contents (Elt Ideal)
abbrev EdgeVec := (⟨S800000, .i32⟩ : BufTy).Contents (Elt Ideal)
abbrev IdxCol := (⟨S800000x1, .i32⟩ : BufTy).Contents (Elt Ideal)

/-- Every row divided by its Euclidean norm floored at the small constant: multiply, sum along the row, square root,
    maximum with the constant, divide. -/
def normOp (Y : Feat) : Feat :=
  Host.divf Y (broadcastInDim S100000x64 ![0, 1] bcast_S100000x1_S100000x64_0_1
    (maximumf (Host.sqrt (broadcastInDim S100000x1 ![0] bcast_S100000_S100000x1_0
        (Host.reduceAdd (mulf Y Y) (constant (F := Ideal) S_ .f32 0x00000000#32) reducesTo_S100000x64_S100000_d1 h_S_)))
      (broadcastInDim S100000x1 ![] bcast_S_S100000x1 (constant (F := Ideal) S_ .f32 0x2B8CBCCC#32))))

/-- Negative entries replaced by zero: the maximum with an array of zeros. -/
def reluOp (Y : Feat) : Feat :=
  maximumf Y (broadcastInDim S100000x64 ![] bcast_S_S100000x64 (constant (F := Ideal) S_ .f32 0x00000000#32))

/-- Row 0 of the edge array (the sources) and row 1 (the destinations), each as a vector: a slice and a reshape. -/
def edgeRow0 (e : Edges) : EdgeVec :=
  shapeCast S800000 (extractStridedSlice S1x800000 ![0, 0] e slices_S2x800000_S1x800000_0_0) shapeCasts_S1x800000_S800000
def edgeRow1 (e : Edges) : EdgeVec :=
  shapeCast S800000 (extractStridedSlice S1x800000 ![1, 0] e slices_S2x800000_S1x800000_1_0) shapeCasts_S1x800000_S800000

/-- The sources as the index column of the gather: an index below zero has 100000 added to it. -/
def srcCol (e : Edges) : IdxCol :=
  broadcastInDim S800000x1 ![0] bcast_S800000_S800000x1_0
    (select (cmpi .slt (edgeRow0 e) (broadcastInDim S800000 ![] bcast_S_S800000 (constantI S_ 32 0#32)))
      (addi (edgeRow0 e) (broadcastInDim S800000 ![] bcast_S_S800000 (constantI S_ 32 100000#32)))
      (edgeRow0 e))

/-- The destinations as the index column of the two scatters. -/
def dstCol (e : Edges) : IdxCol :=
  broadcastInDim S800000x1 ![0] bcast_S800000_S800000x1_0 (edgeRow1 e)

/-- The mean of the neighbours' rows: the rows at the sources added into zeros at the destinations, divided by the
    ones added into zeros at the destinations, that count floored at one. -/
def meanOp (X : Feat) (e : Edges) : Feat :=
  Host.divf
    (Host.scatterAdd scatter_S100000x64_S800000x1_S800000x64_1_0_0_1
      (broadcastInDim S100000x64 ![] bcast_S_S100000x64 (constant (F := Ideal) S_ .f32 0x00000000#32))
      (dstCol e)
      (Host.gather gather_S100000x64_S800000x1_S800000x64_1_0_n_n_0_1_164 X (srcCol e)))
    (broadcastInDim S100000x64 ![0, 1] bcast_S100000x1_S100000x64_0_1
      (maximumf
        (Host.scatterAdd scatter_S100000x1_S800000x1_S800000x1_1_0_0_1
          (broadcastInDim S100000x1 ![] bcast_S_S100000x1 (constant (F := Ideal) S_ .f32 0x00000000#32))
          (dstCol e)
          (broadcastInDim S800000x1 ![] bcast_S_S800000x1 (constant (F := Ideal) S_ .f32 0x3F800000#32)))
        (broadcastInDim S100000x1 ![] bcast_S_S100000x1 (constant (F := Ideal) S_ .f32 0x3F800000#32))))

/-- The mean rows through `W`, plus the bias row `b` on every row, plus the rows themselves through `V`. -/
def linOp (X : Feat) (e : Edges) (W : Mat) (b : Row) (V : Mat) : Feat :=
  addf (F := Ideal)
    (addf (F := Ideal) (Host.dotGeneral (F := Ideal) (φ₁ := .f32) (φ₂ := .f32) dot_S100000x64_S64x64_S100000x64_1_0_0_1_n_n none (meanOp X e) W)
      (broadcastInDim S100000x64 ![0, 1] bcast_S1x64_S100000x64_0_1 (broadcastInDim S1x64 ![1] bcast_S64_S1x64_1 b)))
    (Host.dotGeneral (F := Ideal) (φ₁ := .f32) (φ₂ := .f32) dot_S100000x64_S64x64_S100000x64_1_0_0_1_n_n none X V)

/-- One layer of the program on a feature array. -/
def layerOp (X : Feat) (e : Edges) (W : Mat) (b : Row) (V : Mat) : Feat :=
  normOp (reluOp (linOp X e W b V))

/-- Member `k` of the stacked weight matrices, and of the stacked bias rows: a slice and a reshape. -/
def matOf (k : Fin 3) (h : S3x64x64.Slices ![k.val, 0, 0] S1x64x64) (x : (⟨S3x64x64, .f32⟩ : BufTy).Contents (Elt Ideal)) : Mat :=
  shapeCast S64x64 (extractStridedSlice S1x64x64 ![k.val, 0, 0] x h) shapeCasts_S1x64x64_S64x64
def rowOf (k : Fin 3) (h : S3x64.Slices ![k.val, 0] S1x64) (x : (⟨S3x64, .f32⟩ : BufTy).Contents (Elt Ideal)) : Row :=
  shapeCast S64 (extractStridedSlice S1x64 ![k.val, 0] x h) shapeCasts_S1x64_S64

/-- One layer of the program for node type `k`: `layerOp` with member `k` of the three stacked weight arrays. -/
def typeLayer (k : Fin 3) (h6 : S3x64x64.Slices ![k.val, 0, 0] S1x64x64) (h7 : S3x64.Slices ![k.val, 0] S1x64)
    (X : Feat) (e : Edges) (x6 : (⟨S3x64x64, .f32⟩ : BufTy).Contents (Elt Ideal))
    (x7 : (⟨S3x64, .f32⟩ : BufTy).Contents (Elt Ideal)) (x8 : (⟨S3x64x64, .f32⟩ : BufTy).Contents (Elt Ideal)) : Feat :=
  layerOp X e (matOf k h6 x6) (rowOf k h7 x7) (matOf k h6 x8)

end Cert.Sage.Ref

end
-- ==== Proof.RefFold.lean ====
/-
  The reference program's groups of operations recognised in a composed term.

  A composed term of one layer's operations is, group by group, the terms the definitions of the groups unfold to:
  each equation below states one group's term, over the arrays it is applied to, equal to the group's name.
-/
import proofs.«144736_j57801669869916_1_alg».proof.Proof.RefOps
import Idealize.ShloMosaic.Lib.Pipeline.Value
import Idealize.ShloMosaic.Lib.ValueIdx
import Idealize.ShloMosaic.PureOps.Ideal.Laws

noncomputable section

namespace Cert.Sage.Ref

open Cert.ReferenceIdeal Cert.ReferenceIdeal.Gen Idealize.ShloMosaic Idealize.ShloMosaic.TcCoe Idealize.SL.Sem
  Idealize.ShloMosaic.StableHlo Idealize.ShloMosaic.ValueIdx Cert.ScatterGather Cert.GraphMean

theorem meanOp_fold (X : Feat) (e : Edges) :
    Host.divf
      (Host.scatterAdd scatter_S100000x64_S800000x1_S800000x64_1_0_0_1
        (broadcastInDim S100000x64 ![] bcast_S_S100000x64 (constant (F := Ideal) S_ .f32 0x00000000#32))
        (dstCol e)
        (Host.gather gather_S100000x64_S800000x1_S800000x64_1_0_n_n_0_1_164 X (srcCol e)))
      (broadcastInDim S100000x64 ![0, 1] bcast_S100000x1_S100000x64_0_1
        (maximumf
          (Host.scatterAdd scatter_S100000x1_S800000x1_S800000x1_1_0_0_1
            (broadcastInDim S100000x1 ![] bcast_S_S100000x1 (constant (F := Ideal) S_ .f32 0x00000000#32))
            (dstCol e)
            (broadcastInDim S800000x1 ![] bcast_S_S800000x1 (constant (F := Ideal) S_ .f32 0x3F800000#32)))
          (broadcastInDim S100000x1 ![] bcast_S_S100000x1 (constant (F := Ideal) S_ .f32 0x3F800000#32))))
      = meanOp X e := rfl

theorem linOp_fold (X : Feat) (e : Edges) (W : Mat) (b : Row) (V : Mat) :
    addf (F := Ideal)
      (addf (F := Ideal) (Host.dotGeneral (F := Ideal) (φ₁ := .f32) (φ₂ := .f32) dot_S100000x64_S64x64_S100000x64_1_0_0_1_n_n none (meanOp X e) W)
        (broadcastInDim S100000x64 ![0, 1] bcast_S1x64_S100000x64_0_1 (broadcastInDim S1x64 ![1] bcast_S64_S1x64_1 b)))
      (Host.dotGeneral (F := Ideal) (φ₁ := .f32) (φ₂ := .f32) dot_S100000x64_S64x64_S100000x64_1_0_0_1_n_n none X V)
      = linOp X e W b V := rfl

theorem normOp_fold (Y : Feat) :
    Host.divf Y (broadcastInDim S100000x64 ![0, 1] bcast_S100000x1_S100000x64_0_1
      (maximumf (Host.sqrt (broadcastInDim S100000x1 ![0] bcast_S100000_S100000x1_0
          (Host.reduceAdd (mulf Y Y) (constant (F := Ideal) S_ .f32 0x00000000#32) reducesTo_S100000x64_S100000_d1 h_S_)))
        (broadcastInDim S100000x1 ![] bcast_S_S100000x1 (constant (F := Ideal) S_ .f32 0x2B8CBCCC#32))))
      = normOp Y := rfl

theorem layerOp_fold (X : Feat) (e : Edges) (W : Mat) (b : Row) (V : Mat) :
    normOp (reluOp (linOp X e W b V)) = layerOp X e W b V := rfl

end Cert.Sage.Ref

end
-- ==== Proof.RefSeg0.lean ====
/-
  The first stretch of the reference program: the three normalisations.

  Each of the three input feature arrays is divided row by row by its floored norm; the stretch leaves the three
  results in its three last division buffers.
-/
import proofs.«144736_j57801669869916_1_alg».proof.Proof.RefSegs
import proofs.«144736_j57801669869916_1_alg».proof.Proof.RefFold
import Idealize.ShloMosaic.Lib.StableHlo.Run

noncomputable section

namespace Cert.Sage.Ref

open Cert.ReferenceIdeal Cert.ReferenceIdeal.Gen Idealize.ShloMosaic Idealize.ShloMosaic.TcCoe Idealize.SL.Sem
  Idealize.ShloMosaic.StableHlo Idealize.ShloMosaic.ValueIdx Cert.ScatterGather Cert.GraphMean

set_option maxRecDepth 8192 in
theorem seg0_read0 (V : Valuation τ sig (Elt Ideal)) :
    StableHlo.after (seg0 (F := Ideal)) V (Proc.devRef .tc main_v7) = normOp (V (Proc.devRef .tc main_arg0)) := by
  after_results_simp
  rw [normOp_fold]

set_option maxRecDepth 8192 in
theorem seg0_read1 (V : Valuation τ sig (Elt Ideal)) :
    StableHlo.after (seg0 (F := Ideal)) V (Proc.devRef .tc main_v15) = normOp (V (Proc.devRef .tc main_arg1)) := by
  after_results_simp
  rw [normOp_fold]

set_option maxRecDepth 8192 in
theorem seg0_read2 (V : Valuation τ sig (Elt Ideal)) :
    StableHlo.after (seg0 (F := Ideal)) V (Proc.devRef .tc main_v23) = normOp (V (Proc.devRef .tc main_arg2)) := by
  after_results_simp
  rw [normOp_fold]

end Cert.Sage.Ref

end
-- ==== Proof.RefRound1.lean ====
/-
  Round 1 of the reference program: one stretch of operations per node type, each that type's layer.

  A stretch's composed term over the contents it is entered with is, group of operations by group, the layer's
  definition: the edge columns, the mean of the neighbours, the projections, the cut at zero, the normalisation.
-/
import proofs.«144736_j57801669869916_1_alg».proof.Proof.RefSegs
import proofs.«144736_j57801669869916_1_alg».proof.Proof.RefFold
import Idealize.ShloMosaic.Lib.StableHlo.Run

noncomputable section

namespace Cert.Sage.Ref

open Cert.ReferenceIdeal Cert.ReferenceIdeal.Gen Idealize.ShloMosaic Idealize.ShloMosaic.TcCoe Idealize.SL.Sem
  Idealize.ShloMosaic.StableHlo Idealize.ShloMosaic.ValueIdx Cert.ScatterGather Cert.GraphMean

/-- The source column, the destination column and the cut at zero, as stretch 1 spells them. -/
theorem srcCol_fold1 (e : Edges) :
    broadcastInDim S800000x1 ![0] bcast_S800000_S800000x1_0
      (select
        (cmpi .slt (fun i => shapeCast main_v31.ty.shape (extractStridedSlice S1x800000 ![0, 0] e slices_S2x800000_S1x800000_0_0) shapeCasts_S1x800000_S800000 i)
          (broadcastInDim S800000 ![] bcast_S_S800000 (constantI S_ 32 0#32)))
        (addi (fun i => shapeCast main_v31.ty.shape (extractStridedSlice S1x800000 ![0, 0] e slices_S2x800000_S1x800000_0_0) shapeCasts_S1x800000_S800000 i)
          (broadcastInDim S800000 ![] bcast_S_S800000 (constantI S_ 32 100000#32)))
        (fun i => shapeCast main_v31.ty.shape (extractStridedSlice S1x800000 ![0, 0] e slices_S2x800000_S1x800000_0_0) shapeCasts_S1x800000_S800000 i))
      = srcCol e := rfl

theorem dstCol_fold1 (e : Edges) :
    broadcastInDim S800000x1 ![0] bcast_S800000_S800000x1_0
      (fun i => shapeCast main_v33.ty.shape (extractStridedSlice S1x800000 ![1, 0] e slices_S2x800000_S1x800000_1_0) shapeCasts_S1x800000_S800000 i)
      = dstCol e := rfl

theorem reluOp_fold1 (Y : Feat) :
    (TRef.of (sig := sig) (T := ⟨S100000x64, .f32⟩) main_v58).toBuf (Val := Elt Ideal)
      (maximumf (F := Ideal) (s := S100000x64) (φ := .f32) ((TRef.of (sig := sig) (T := ⟨S100000x64, .f32⟩) main_v57).ofBuf (Val := Elt Ideal) Y)
        ((TRef.of (sig := sig) (T := ⟨S100000x64, .f32⟩) main_call0_v0).ofBuf (Val := Elt Ideal)
          ((TRef.of (sig := sig) (T := ⟨S100000x64, .f32⟩) main_call0_v0).toBuf (Val := Elt Ideal)
            (broadcastInDim S100000x64 ![] bcast_S_S100000x64
              ((TRef.of (sig := sig) (T := ⟨S_, .f32⟩) main_call0_cst).ofBuf (Val := Elt Ideal)
                ((TRef.of (sig := sig) (T := ⟨S_, .f32⟩) main_call0_cst).toBuf (Val := Elt Ideal) (constant (F := Ideal) S_ .f32 0x00000000#32)))))))
      = reluOp Y := rfl

set_option maxRecDepth 8192 in
/-- Stretch 1 leaves in its last buffer the layer of node type 0 applied to the features it was entered with. -/
theorem seg1_read (V : Valuation τ sig (Elt Ideal)) :
    StableHlo.after (seg1 (F := Ideal)) V (Proc.devRef .tc main_v66)
      = typeLayer 0 slices_S3x64x64_S1x64x64_0_0_0 slices_S3x64_S1x64_0_0 (V (Proc.devRef .tc main_v7)) (V (Proc.devRef .tc main_arg3))
          (V (Proc.devRef .tc main_arg6)) (V (Proc.devRef .tc main_arg7)) (V (Proc.devRef .tc main_arg8)) := by
  after_results_simp
  rw [srcCol_fold1, dstCol_fold1, meanOp_fold, linOp_fold, reluOp_fold1, normOp_fold, layerOp_fold]
  rfl

/-- The source column, the destination column and the cut at zero, as stretch 2 spells them. -/
theorem srcCol_fold2 (e : Edges) :
    broadcastInDim S800000x1 ![0] bcast_S800000_S800000x1_0
      (select
        (cmpi .slt (fun i => shapeCast main_v74.ty.shape (extractStridedSlice S1x800000 ![0, 0] e slices_S2x800000_S1x800000_0_0) shapeCasts_S1x800000_S800000 i)
          (broadcastInDim S800000 ![] bcast_S_S800000 (constantI S_ 32 0#32)))
        (addi (fun i => shapeCast main_v74.ty.shape (extractStridedSlice S1x800000 ![0, 0] e slices_S2x800000_S1x800000_0_0) shapeCasts_S1x800000_S800000 i)
          (broadcastInDim S800000 ![] bcast_S_S800000 (constantI S_ 32 100000#32)))
        (fun i => shapeCast main_v74.ty.shape (extractStridedSlice S1x800000 ![0, 0] e slices_S2x800000_S1x800000_0_0) shapeCasts_S1x800000_S800000 i))
      = srcCol e := rfl

theorem dstCol_fold2 (e : Edges) :
    broadcastInDim S800000x1 ![0] bcast_S800000_S800000x1_0
      (fun i => shapeCast main_v76.ty.shape (extractStridedSlice S1x800000 ![1, 0] e slices_S2x800000_S1x800000_1_0) shapeCasts_S1x800000_S800000 i)
      = dstCol e := rfl

theorem reluOp_fold2 (Y : Feat) :
    (TRef.of (sig := sig) (T := ⟨S100000x64, .f32⟩) main_v101).toBuf (Val := Elt Ideal)
      (maximumf (F := Ideal) (s := S100000x64) (φ := .f32) ((TRef.of (sig := sig) (T := ⟨S100000x64, .f32⟩) main_v100).ofBuf (Val := Elt Ideal) Y)
        ((TRef.of (sig := sig) (T := ⟨S100000x64, .f32⟩) main_call1_v0).ofBuf (Val := Elt Ideal)
          ((TRef.of (sig := sig) (T := ⟨S100000x64, .f32⟩) main_call1_v0).toBuf (Val := Elt Ideal)
            (broadcastInDim S100000x64 ![] bcast_S_S100000x64
              ((TRef.of (sig := sig) (T := ⟨S_, .f32⟩) main_call1_cst).ofBuf (Val := Elt Ideal)
                ((TRef.of (sig := sig) (T := ⟨S_, .f32⟩) main_call1_cst).toBuf (Val := Elt Ideal) (constant (F := Ideal) S_ .f32 0x00000000#32)))))))
      = reluOp Y := rfl

set_option maxRecDepth 8192 in
/-- Stretch 2 leaves in its last buffer the layer of node type 1 applied to the features it was entered with. -/
theorem seg2_read (V : Valuation τ sig (Elt Ideal)) :
    StableHlo.after (seg2 (F := Ideal)) V (Proc.devRef .tc main_v109)
      = typeLayer 1 slices_S3x64x64_S1x64x64_1_0_0 slices_S3x64_S1x64_1_0 (V (Proc.devRef .tc main_v15)) (V (Proc.devRef .tc main_arg4))
          (V (Proc.devRef .tc main_arg6)) (V (Proc.devRef .tc main_arg7)) (V (Proc.devRef .tc main_arg8)) := by
  after_results_simp
  rw [srcCol_fold2, dstCol_fold2, meanOp_fold, linOp_fold, reluOp_fold2, normOp_fold, layerOp_fold]
  rfl

/-- The source column, the destination column and the cut at zero, as stretch 3 spells them. -/
theorem srcCol_fold3 (e : Edges) :
    broadcastInDim S800000x1 ![0] bcast_S800000_S800000x1_0
      (select
        (cmpi .slt (fun i => shapeCast main_v117.ty.shape (extractStridedSlice S1x800000 ![0, 0] e slices_S2x800000_S1x800000_0_0) shapeCasts_S1x800000_S800000 i)
          (broadcastInDim S800000 ![] bcast_S_S800000 (constantI S_ 32 0#32)))
        (addi (fun i => shapeCast main_v117.ty.shape (extractStridedSlice S1x800000 ![0, 0] e slices_S2x800000_S1x800000_0_0) shapeCasts_S1x800000_S800000 i)
          (broadcastInDim S800000 ![] bcast_S_S800000 (constantI S_ 32 100000#32)))
        (fun i => shapeCast main_v117.ty.shape (extractStridedSlice S1x800000 ![0, 0] e slices_S2x800000_S1x800000_0_0) shapeCasts_S1x800000_S800000 i))
      = srcCol e := rfl

theorem dstCol_fold3 (e : Edges) :
    broadcastInDim S800000x1 ![0] bcast_S800000_S800000x1_0
      (fun i => shapeCast main_v119.ty.shape (extractStridedSlice S1x800000 ![1, 0] e slices_S2x800000_S1x800000_1_0) shapeCasts_S1x800000_S800000 i)
      = dstCol e := rfl

theorem reluOp_fold3 (Y : Feat) :
    (TRef.of (sig := sig) (T := ⟨S100000x64, .f32⟩) main_v144).toBuf (Val := Elt Ideal)
      (maximumf (F := Ideal) (s := S100000x64) (φ := .f32) ((TRef.of (sig := sig) (T := ⟨S100000x64, .f32⟩) main_v143).ofBuf (Val := Elt Ideal) Y)
        ((TRef.of (sig := sig) (T := ⟨S100000x64, .f32⟩) main_call2_v0).ofBuf (Val := Elt Ideal)
          ((TRef.of (sig := sig) (T := ⟨S100000x64, .f32⟩) main_call2_v0).toBuf (Val := Elt Ideal)
            (broadcastInDim S100000x64 ![] bcast_S_S100000x64
              ((TRef.of (sig := sig) (T := ⟨S_, .f32⟩) main_call2_cst).ofBuf (Val := Elt Ideal)
                ((TRef.of (sig := sig) (T := ⟨S_, .f32⟩) main_call2_cst).toBuf (Val := Elt Ideal) (constant (F := Ideal) S_ .f32 0x00000000#32)))))))
      = reluOp Y := rfl

set_option maxRecDepth 8192 in
/-- Stretch 3 leaves in its last buffer the layer of node type 2 applied to the features it was entered with. -/
theorem seg3_read (V : Valuation τ sig (Elt Ideal)) :
    StableHlo.after (seg3 (F := Ideal)) V (Proc.devRef .tc main_v152)
      = typeLayer 2 slices_S3x64x64_S1x64x64_2_0_0 slices_S3x64_S1x64_2_0 (V (Proc.devRef .tc main_v23)) (V (Proc.devRef .tc main_arg5))
          (V (Proc.devRef .tc main_arg6)) (V (Proc.devRef .tc main_arg7)) (V (Proc.devRef .tc main_arg8)) := by
  after_results_simp
  rw [srcCol_fold3, dstCol_fold3, meanOp_fold, linOp_fold, reluOp_fold3, normOp_fold, layerOp_fold]
  rfl

end Cert.Sage.Ref

end
-- ==== Proof.RefRound2.lean ====
/-
  Round 2 of the reference program: one stretch of operations per node type, each that type's layer.

  A stretch's composed term over the contents it is entered with is, group of operations by group, the layer's
  definition: the edge columns, the mean of the neighbours, the projections, the cut at zero, the normalisation.
-/
import proofs.«144736_j57801669869916_1_alg».proof.Proof.RefSegs
import proofs.«144736_j57801669869916_1_alg».proof.Proof.RefFold
import Idealize.ShloMosaic.Lib.StableHlo.Run

noncomputable section

namespace Cert.Sage.Ref

open Cert.ReferenceIdeal Cert.ReferenceIdeal.Gen Idealize.ShloMosaic Idealize.ShloMosaic.TcCoe Idealize.SL.Sem
  Idealize.ShloMosaic.StableHlo Idealize.ShloMosaic.ValueIdx Cert.ScatterGather Cert.GraphMean

/-- The source column, the destination column and the cut at zero, as stretch 4 spells them. -/
theorem srcCol_fold4 (e : Edges) :
    broadcastInDim S800000x1 ![0] bcast_S800000_S800000x1_0
      (select
        (cmpi .slt (fun i => shapeCast main_v160.ty.shape (extractStridedSlice S1x800000 ![0, 0] e slices_S2x800000_S1x800000_0_0) shapeCasts_S1x800000_S800000 i)
          (broadcastInDim S800000 ![] bcast_S_S800000 (constantI S_ 32 0#32)))
        (addi (fun i => shapeCast main_v160.ty.shape (extractStridedSlice S1x800000 ![0, 0] e slices_S2x800000_S1x800000_0_0) shapeCasts_S1x800000_S800000 i)
          (broadcastInDim S800000 ![] bcast_S_S800000 (constantI S_ 32 100000#32)))
        (fun i => shapeCast main_v160.ty.shape (extractStridedSlice S1x800000 ![0, 0] e slices_S2x800000_S1x800000_0_0) shapeCasts_S1x800000_S800000 i))
      = srcCol e := rfl

theorem dstCol_fold4 (e : Edges) :
    broadcastInDim S800000x1 ![0] bcast_S800000_S800000x1_0
      (fun i => shapeCast main_v162.ty.shape (extractStridedSlice S1x800000 ![1, 0] e slices_S2x800000_S1x800000_1_0) shapeCasts_S1x800000_S800000 i)
      = dstCol e := rfl

theorem reluOp_fold4 (Y : Feat) :
    (TRef.of (sig := sig) (T := ⟨S100000x64, .f32⟩) main_v187).toBuf (Val := Elt Ideal)
      (maximumf (F := Ideal) (s := S100000x64) (φ := .f32) ((TRef.of (sig := sig) (T := ⟨S100000x64, .f32⟩) main_v186).ofBuf (Val := Elt Ideal) Y)
        ((TRef.of (sig := sig) (T := ⟨S100000x64, .f32⟩) main_call3_v0).ofBuf (Val := Elt Ideal)
          ((TRef.of (sig := sig) (T := ⟨S100000x64, .f32⟩) main_call3_v0).toBuf (Val := Elt Ideal)
            (broadcastInDim S100000x64 ![] bcast_S_S100000x64
              ((TRef.of (sig := sig) (T := ⟨S_, .f32⟩) main_call3_cst).ofBuf (Val := Elt Ideal)
                ((TRef.of (sig := sig) (T := ⟨S_, .f32⟩) main_call3_cst).toBuf (Val := Elt Ideal) (constant (F := Ideal) S_ .f32 0x00000000#32)))))))
      = reluOp Y := rfl

set_option maxRecDepth 8192 in
/-- Stretch 4 leaves in its last buffer the layer of node type 0 applied to the features it was entered with. -/
theorem seg4_read (V : Valuation τ sig (Elt Ideal)) :
    StableHlo.after (seg4 (F := Ideal)) V (Proc.devRef .tc main_v195)
      = typeLayer 0 slices_S3x64x64_S1x64x64_0_0_0 slices_S3x64_S1x64_0_0 (V (Proc.devRef .tc main_v66)) (V (Proc.devRef .tc main_arg3))
          (V (Proc.devRef .tc main_arg6)) (V (Proc.devRef .tc main_arg7)) (V (Proc.devRef .tc main_arg8)) := by
  after_results_simp
  rw [srcCol_fold4, dstCol_fold4, meanOp_fold, linOp_fold, reluOp_fold4, normOp_fold, layerOp_fold]
  rfl

/-- The source column, the destination column and the cut at zero, as stretch 5 spells them. -/
theorem srcCol_fold5 (e : Edges) :
    broadcastInDim S800000x1 ![0] bcast_S800000_S800000x1_0
      (select
        (cmpi .slt (fun i => shapeCast main_v203.ty.shape (extractStridedSlice S1x800000 ![0, 0] e slices_S2x800000_S1x800000_0_0) shapeCasts_S1x800000_S800000 i)
          (broadcastInDim S800000 ![] bcast_S_S800000 (constantI S_ 32 0#32)))
        (addi (fun i => shapeCast main_v203.ty.shape (extractStridedSlice S1x800000 ![0, 0] e slices_S2x800000_S1x800000_0_0) shapeCasts_S1x800000_S800000 i)
          (broadcastInDim S800000 ![] bcast_S_S800000 (constantI S_ 32 100000#32)))
        (fun i => shapeCast main_v203.ty.shape (extractStridedSlice S1x800000 ![0, 0] e slices_S2x800000_S1x800000_0_0) shapeCasts_S1x800000_S800000 i))
      = srcCol e := rfl

theorem dstCol_fold5 (e : Edges) :
    broadcastInDim S800000x1 ![0] bcast_S800000_S800000x1_0
      (fun i => shapeCast main_v205.ty.shape (extractStridedSlice S1x800000 ![1, 0] e slices_S2x800000_S1x800000_1_0) shapeCasts_S1x800000_S800000 i)
      = dstCol e := rfl

theorem reluOp_fold5 (Y : Feat) :
    (TRef.of (sig := sig) (T := ⟨S100000x64, .f32⟩) main_v230).toBuf (Val := Elt Ideal)
      (maximumf (F := Ideal) (s := S100000x64) (φ := .f32) ((TRef.of (sig := sig) (T := ⟨S100000x64, .f32⟩) main_v229).ofBuf (Val := Elt Ideal) Y)
        ((TRef.of (sig := sig) (T := ⟨S100000x64, .f32⟩) main_call4_v0).ofBuf (Val := Elt Ideal)
          ((TRef.of (sig := sig) (T := ⟨S100000x64, .f32⟩) main_call4_v0).toBuf (Val := Elt Ideal)
            (broadcastInDim S100000x64 ![] bcast_S_S100000x64
              ((TRef.of (sig := sig) (T := ⟨S_, .f32⟩) main_call4_cst).ofBuf (Val := Elt Ideal)
                ((TRef.of (sig := sig) (T := ⟨S_, .f32⟩) main_call4_cst).toBuf (Val := Elt Ideal) (constant (F := Ideal) S_ .f32 0x00000000#32)))))))
      = reluOp Y := rfl

set_option maxRecDepth 8192 in
/-- Stretch 5 leaves in its last buffer the layer of node type 1 applied to the features it was entered with. -/
theorem seg5_read (V : Valuation τ sig (Elt Ideal)) :
    StableHlo.after (seg5 (F := Ideal)) V (Proc.devRef .tc main_v238)
      = typeLayer 1 slices_S3x64x64_S1x64x64_1_0_0 slices_S3x64_S1x64_1_0 (V (Proc.devRef .tc main_v109)) (V (Proc.devRef .tc main_arg4))
          (V (Proc.devRef .tc main_arg6)) (V (Proc.devRef .tc main_arg7)) (V (Proc.devRef .tc main_arg8)) := by
  after_results_simp
  rw [srcCol_fold5, dstCol_fold5, meanOp_fold, linOp_fold, reluOp_fold5, normOp_fold, layerOp_fold]
  rfl

/-- The source column, the destination column and the cut at zero, as stretch 6 spells them. -/
theorem srcCol_fold6 (e : Edges) :
    broadcastInDim S800000x1 ![0] bcast_S800000_S800000x1_0
      (select
        (cmpi .slt (fun i => shapeCast main_v246.ty.shape (extractStridedSlice S1x800000 ![0, 0] e slices_S2x800000_S1x800000_0_0) shapeCasts_S1x800000_S800000 i)
          (broadcastInDim S800000 ![] bcast_S_S800000 (constantI S_ 32 0#32)))
        (addi (fun i => shapeCast main_v246.ty.shape (extractStridedSlice S1x800000 ![0, 0] e slices_S2x800000_S1x800000_0_0) shapeCasts_S1x800000_S800000 i)
          (broadcastInDim S800000 ![] bcast_S_S800000 (constantI S_ 32 100000#32)))
        (fun i => shapeCast main_v246.ty.shape (extractStridedSlice S1x800000 ![0, 0] e slices_S2x800000_S1x800000_0_0) shapeCasts_S1x800000_S800000 i))
      = srcCol e := rfl

theorem dstCol_fold6 (e : Edges) :
    broadcastInDim S800000x1 ![0] bcast_S800000_S800000x1_0
      (fun i => shapeCast main_v248.ty.shape (extractStridedSlice S1x800000 ![1, 0] e slices_S2x800000_S1x800000_1_0) shapeCasts_S1x800000_S800000 i)
      = dstCol e := rfl

theorem reluOp_fold6 (Y : Feat) :
    (TRef.of (sig := sig) (T := ⟨S100000x64, .f32⟩) main_v273).toBuf (Val := Elt Ideal)
      (maximumf (F := Ideal) (s := S100000x64) (φ := .f32) ((TRef.of (sig := sig) (T := ⟨S100000x64, .f32⟩) main_v272).ofBuf (Val := Elt Ideal) Y)
        ((TRef.of (sig := sig) (T := ⟨S100000x64, .f32⟩) main_call5_v0).ofBuf (Val := Elt Ideal)
          ((TRef.of (sig := sig) (T := ⟨S100000x64, .f32⟩) main_call5_v0).toBuf (Val := Elt Ideal)
            (broadcastInDim S100000x64 ![] bcast_S_S100000x64
              ((TRef.of (sig := sig) (T := ⟨S_, .f32⟩) main_call5_cst).ofBuf (Val := Elt Ideal)
                ((TRef.of (sig := sig) (T := ⟨S_, .f32⟩) main_call5_cst).toBuf (Val := Elt Ideal) (constant (F := Ideal) S_ .f32 0x00000000#32)))))))
      = reluOp Y := rfl

set_option maxRecDepth 8192 in
/-- Stretch 6 leaves in its last buffer the layer of node type 2 applied to the features it was entered with. -/
theorem seg6_read (V : Valuation τ sig (Elt Ideal)) :
    StableHlo.after (seg6 (F := Ideal)) V (Proc.devRef .tc main_v281)
      = typeLayer 2 slices_S3x64x64_S1x64x64_2_0_0 slices_S3x64_S1x64_2_0 (V (Proc.devRef .tc main_v152)) (V (Proc.devRef .tc main_arg5))
          (V (Proc.devRef .tc main_arg6)) (V (Proc.devRef .tc main_arg7)) (V (Proc.devRef .tc main_arg8)) := by
  after_results_simp
  rw [srcCol_fold6, dstCol_fold6, meanOp_fold, linOp_fold, reluOp_fold6, normOp_fold, layerOp_fold]
  rfl

end Cert.Sage.Ref

end
-- ==== Proof.RefRound3.lean ====
/-
  Round 3 of the reference program: one stretch of operations per node type, each that type's layer.

  A stretch's composed term over the contents it is entered with is, group of operations by group, the layer's
  definition: the edge columns, the mean of the neighbours, the projections, the cut at zero, the normalisation.
-/
import proofs.«144736_j57801669869916_1_alg».proof.Proof.RefSegs
import proofs.«144736_j57801669869916_1_alg».proof.Proof.RefFold
import Idealize.ShloMosaic.Lib.StableHlo.Run

noncomputable section

namespace Cert.Sage.Ref

open Cert.ReferenceIdeal Cert.ReferenceIdeal.Gen Idealize.ShloMosaic Idealize.ShloMosaic.TcCoe Idealize.SL.Sem
  Idealize.ShloMosaic.StableHlo Idealize.ShloMosaic.ValueIdx Cert.ScatterGather Cert.GraphMean

/-- The source column, the destination column and the cut at zero, as stretch 7 spells them. -/
theorem srcCol_fold7 (e : Edges) :
    broadcastInDim S800000x1 ![0] bcast_S800000_S800000x1_0
      (select
        (cmpi .slt (fun i => shapeCast main_v289.ty.shape (extractStridedSlice S1x800000 ![0, 0] e slices_S2x800000_S1x800000_0_0) shapeCasts_S1x800000_S800000 i)
          (broadcastInDim S800000 ![] bcast_S_S800000 (constantI S_ 32 0#32)))
        (addi (fun i => shapeCast main_v289.ty.shape (extractStridedSlice S1x800000 ![0, 0] e slices_S2x800000_S1x800000_0_0) shapeCasts_S1x800000_S800000 i)
          (broadcastInDim S800000 ![] bcast_S_S800000 (constantI S_ 32 100000#32)))
        (fun i => shapeCast main_v289.ty.shape (extractStridedSlice S1x800000 ![0, 0] e slices_S2x800000_S1x800000_0_0) shapeCasts_S1x800000_S800000 i))
      = srcCol e := rfl

theorem dstCol_fold7 (e : Edges) :
    broadcastInDim S800000x1 ![0] bcast_S800000_S800000x1_0
      (fun i => shapeCast main_v291.ty.shape (extractStridedSlice S1x800000 ![1, 0] e slices_S2x800000_S1x800000_1_0) shapeCasts_S1x800000_S800000 i)
      = dstCol e := rfl

theorem reluOp_fold7 (Y : Feat) :
    (TRef.of (sig := sig) (T := ⟨S100000x64, .f32⟩) main_v316).toBuf (Val := Elt Ideal)
      (maximumf (F := Ideal) (s := S100000x64) (φ := .f32) ((TRef.of (sig := sig) (T := ⟨S100000x64, .f32⟩) main_v315).ofBuf (Val := Elt Ideal) Y)
        ((TRef.of (sig := sig) (T := ⟨S100000x64, .f32⟩) main_call6_v0).ofBuf (Val := Elt Ideal)
          ((TRef.of (sig := sig) (T := ⟨S100000x64, .f32⟩) main_call6_v0).toBuf (Val := Elt Ideal)
            (broadcastInDim S100000x64 ![] bcast_S_S100000x64
              ((TRef.of (sig := sig) (T := ⟨S_, .f32⟩) main_call6_cst).ofBuf (Val := Elt Ideal)
                ((TRef.of (sig := sig) (T := ⟨S_, .f32⟩) main_call6_cst).toBuf (Val := Elt Ideal) (constant (F := Ideal) S_ .f32 0x00000000#32)))))))
      = reluOp Y := rfl

set_option maxRecDepth 8192 in
/-- Stretch 7 leaves in its last buffer the layer of node type 0 applied to the features it was entered with. -/
theorem seg7_read (V : Valuation τ sig (Elt Ideal)) :
    StableHlo.after (seg7 (F := Ideal)) V (Proc.devRef .tc main_v324)
      = typeLayer 0 slices_S3x64x64_S1x64x64_0_0_0 slices_S3x64_S1x64_0_0 (V (Proc.devRef .tc main_v195)) (V (Proc.devRef .tc main_arg3))
          (V (Proc.devRef .tc main_arg6)) (V (Proc.devRef .tc main_arg7)) (V (Proc.devRef .tc main_arg8)) := by
  after_results_simp
  rw [srcCol_fold7, dstCol_fold7, meanOp_fold, linOp_fold, reluOp_fold7, normOp_fold, layerOp_fold]
  rfl

/-- The source column, the destination column and the cut at zero, as stretch 8 spells them. -/
theorem srcCol_fold8 (e : Edges) :
    broadcastInDim S800000x1 ![0] bcast_S800000_S800000x1_0
      (select
        (cmpi .slt (fun i => shapeCast main_v332.ty.shape (extractStridedSlice S1x800000 ![0, 0] e slices_S2x800000_S1x800000_0_0) shapeCasts_S1x800000_S800000 i)
          (broadcastInDim S800000 ![] bcast_S_S800000 (constantI S_ 32 0#32)))
        (addi (fun i => shapeCast main_v332.ty.shape (extractStridedSlice S1x800000 ![0, 0] e slices_S2x800000_S1x800000_0_0) shapeCasts_S1x800000_S800000 i)
          (broadcastInDim S800000 ![] bcast_S_S800000 (constantI S_ 32 100000#32)))
        (fun i => shapeCast main_v332.ty.shape (extractStridedSlice S1x800000 ![0, 0] e slices_S2x800000_S1x800000_0_0) shapeCasts_S1x800000_S800000 i))
      = srcCol e := rfl

theorem dstCol_fold8 (e : Edges) :
    broadcastInDim S800000x1 ![0] bcast_S800000_S800000x1_0
      (fun i => shapeCast main_v334.ty.shape (extractStridedSlice S1x800000 ![1, 0] e slices_S2x800000_S1x800000_1_0) shapeCasts_S1x800000_S800000 i)
      = dstCol e := rfl

theorem reluOp_fold8 (Y : Feat) :
    (TRef.of (sig := sig) (T := ⟨S100000x64, .f32⟩) main_v359).toBuf (Val := Elt Ideal)
      (maximumf (F := Ideal) (s := S100000x64) (φ := .f32) ((TRef.of (sig := sig) (T := ⟨S100000x64, .f32⟩) main_v358).ofBuf (Val := Elt Ideal) Y)
        ((TRef.of (sig := sig) (T := ⟨S100000x64, .f32⟩) main_call7_v0).ofBuf (Val := Elt Ideal)
          ((TRef.of (sig := sig) (T := ⟨S100000x64, .f32⟩) main_call7_v0).toBuf (Val := Elt Ideal)
            (broadcastInDim S100000x64 ![] bcast_S_S100000x64
              ((TRef.of (sig := sig) (T := ⟨S_, .f32⟩) main_call7_cst).ofBuf (Val := Elt Ideal)
                ((TRef.of (sig := sig) (T := ⟨S_, .f32⟩) main_call7_cst).toBuf (Val := Elt Ideal) (constant (F := Ideal) S_ .f32 0x00000000#32)))))))
      = reluOp Y := rfl

set_option maxRecDepth 8192 in
/-- Stretch 8 leaves in its last buffer the layer of node type 1 applied to the features it was entered with. -/
theorem seg8_read (V : Valuation τ sig (Elt Ideal)) :
    StableHlo.after (seg8 (F := Ideal)) V (Proc.devRef .tc main_v367)
      = typeLayer 1 slices_S3x64x64_S1x64x64_1_0_0 slices_S3x64_S1x64_1_0 (V (Proc.devRef .tc main_v238)) (V (Proc.devRef .tc main_arg4))
          (V (Proc.devRef .tc main_arg6)) (V (Proc.devRef .tc main_arg7)) (V (Proc.devRef .tc main_arg8)) := by
  after_results_simp
  rw [srcCol_fold8, dstCol_fold8, meanOp_fold, linOp_fold, reluOp_fold8, normOp_fold, layerOp_fold]
  rfl

/-- The source column, the destination column and the cut at zero, as stretch 9 spells them. -/
theorem srcCol_fold9 (e : Edges) :
    broadcastInDim S800000x1 ![0] bcast_S800000_S800000x1_0
      (select
        (cmpi .slt (fun i => shapeCast main_v375.ty.shape (extractStridedSlice S1x800000 ![0, 0] e slices_S2x800000_S1x800000_0_0) shapeCasts_S1x800000_S800000 i)
          (broadcastInDim S800000 ![] bcast_S_S800000 (constantI S_ 32 0#32)))
        (addi (fun i => shapeCast main_v375.ty.shape (extractStridedSlice S1x800000 ![0, 0] e slices_S2x800000_S1x800000_0_0) shapeCasts_S1x800000_S800000 i)
          (broadcastInDim S800000 ![] bcast_S_S800000 (constantI S_ 32 100000#32)))
        (fun i => shapeCast main_v375.ty.shape (extractStridedSlice S1x800000 ![0, 0] e slices_S2x800000_S1x800000_0_0) shapeCasts_S1x800000_S800000 i))
      = srcCol e := rfl

theorem dstCol_fold9 (e : Edges) :
    broadcastInDim S800000x1 ![0] bcast_S800000_S800000x1_0
      (fun i => shapeCast main_v377.ty.shape (extractStridedSlice S1x800000 ![1, 0] e slices_S2x800000_S1x800000_1_0) shapeCasts_S1x800000_S800000 i)
      = dstCol e := rfl

theorem reluOp_fold9 (Y : Feat) :
    (TRef.of (sig := sig) (T := ⟨S100000x64, .f32⟩) main_v402).toBuf (Val := Elt Ideal)
      (maximumf (F := Ideal) (s := S100000x64) (φ := .f32) ((TRef.of (sig := sig) (T := ⟨S100000x64, .f32⟩) main_v401).ofBuf (Val := Elt Ideal) Y)
        ((TRef.of (sig := sig) (T := ⟨S100000x64, .f32⟩) main_call8_v0).ofBuf (Val := Elt Ideal)
          ((TRef.of (sig := sig) (T := ⟨S100000x64, .f32⟩) main_call8_v0).toBuf (Val := Elt Ideal)
            (broadcastInDim S100000x64 ![] bcast_S_S100000x64
              ((TRef.of (sig := sig) (T := ⟨S_, .f32⟩) main_call8_cst).ofBuf (Val := Elt Ideal)
                ((TRef.of (sig := sig) (T := ⟨S_, .f32⟩) main_call8_cst).toBuf (Val := Elt Ideal) (constant (F := Ideal) S_ .f32 0x00000000#32)))))))
      = reluOp Y := rfl

set_option maxRecDepth 8192 in
/-- Stretch 9 leaves in its last buffer the layer of node type 2 applied to the features it was entered with. -/
theorem seg9_read (V : Valuation τ sig (Elt Ideal)) :
    StableHlo.after (seg9 (F := Ideal)) V (Proc.devRef .tc main_v410)
      = typeLayer 2 slices_S3x64x64_S1x64x64_2_0_0 slices_S3x64_S1x64_2_0 (V (Proc.devRef .tc main_v281)) (V (Proc.devRef .tc main_arg5))
          (V (Proc.devRef .tc main_arg6)) (V (Proc.devRef .tc main_arg7)) (V (Proc.devRef .tc main_arg8)) := by
  after_results_simp
  rw [srcCol_fold9, dstCol_fold9, meanOp_fold, linOp_fold, reluOp_fold9, normOp_fold, layerOp_fold]
  rfl

end Cert.Sage.Ref

end
-- ==== Proof.RefKeepArgs.lean ====
/-
  No stretch of the reference program writes an argument buffer: after each stretch, and so after the whole program,
  each of the nine arguments holds what it held.
-/
import proofs.«144736_j57801669869916_1_alg».proof.Proof.RefSegs

noncomputable section

namespace Cert.Sage.Ref

open Cert.ReferenceIdeal Cert.ReferenceIdeal.Gen Idealize.ShloMosaic Idealize.ShloMosaic.TcCoe Idealize.SL.Sem Idealize.ShloMosaic.StableHlo

variable {F : FTy → Type} [FloatOps F]

/-- A reference that is the result of no operation of a literal list keeps its contents over the list: each operation
    writes its one result, and the references are told apart by computation. -/
macro "keep_arg " s:ident : tactic =>
  `(tactic| (refine after_of_forall_not_mem _ _ (List.forall_iff_forall_mem.mp ?_)
             simp only [$s:ident, List.Forall, nullary_writes, unary_writes, binary_writes, ternary_writes,
               quaternary_writes, reshape_writes, binaryIndexed_writes, nary_writes, Finset.mem_singleton]
             repeat' apply And.intro
             all_goals exact devRef_ne_of_ne (by decide)))

/-! ## Stretch by stretch -/

theorem keep0_arg0 (V : Valuation τ sig (Elt F)) :
    after (seg0 (F := F)) V (Proc.devRef .tc main_arg0) = V (Proc.devRef .tc main_arg0) := by keep_arg seg0

theorem keep0_arg1 (V : Valuation τ sig (Elt F)) :
    after (seg0 (F := F)) V (Proc.devRef .tc main_arg1) = V (Proc.devRef .tc main_arg1) := by keep_arg seg0

theorem keep0_arg2 (V : Valuation τ sig (Elt F)) :
    after (seg0 (F := F)) V (Proc.devRef .tc main_arg2) = V (Proc.devRef .tc main_arg2) := by keep_arg seg0

theorem keep0_arg3 (V : Valuation τ sig (Elt F)) :
    after (seg0 (F := F)) V (Proc.devRef .tc main_arg3) = V (Proc.devRef .tc main_arg3) := by keep_arg seg0

theorem keep0_arg4 (V : Valuation τ sig (Elt F)) :
    after (seg0 (F := F)) V (Proc.devRef .tc main_arg4) = V (Proc.devRef .tc main_arg4) := by keep_arg seg0

theorem keep0_arg5 (V : Valuation τ sig (Elt F)) :
    after (seg0 (F := F)) V (Proc.devRef .tc main_arg5) = V (Proc.devRef .tc main_arg5) := by keep_arg seg0

theorem keep0_arg6 (V : Valuation τ sig (Elt F)) :
    after (seg0 (F := F)) V (Proc.devRef .tc main_arg6) = V (Proc.devRef .tc main_arg6) := by keep_arg seg0

theorem keep0_arg7 (V : Valuation τ sig (Elt F)) :
    after (seg0 (F := F)) V (Proc.devRef .tc main_arg7) = V (Proc.devRef .tc main_arg7) := by keep_arg seg0

theorem keep0_arg8 (V : Valuation τ sig (Elt F)) :
    after (seg0 (F := F)) V (Proc.devRef .tc main_arg8) = V (Proc.devRef .tc main_arg8) := by keep_arg seg0

theorem keep1_arg0 (V : Valuation τ sig (Elt F)) :
    after (seg1 (F := F)) V (Proc.devRef .tc main_arg0) = V (Proc.devRef .tc main_arg0) := by keep_arg seg1

theorem keep1_arg1 (V : Valuation τ sig (Elt F)) :
    after (seg1 (F := F)) V (Proc.devRef .tc main_arg1) = V (Proc.devRef .tc main_arg1) := by keep_arg seg1

theorem keep1_arg2 (V : Valuation τ sig (Elt F)) :
    after (seg1 (F := F)) V (Proc.devRef .tc main_arg2) = V (Proc.devRef .tc main_arg2) := by keep_arg seg1

theorem keep1_arg3 (V : Valuation τ sig (Elt F)) :
    after (seg1 (F := F)) V (Proc.devRef .tc main_arg3) = V (Proc.devRef .tc main_arg3) := by keep_arg seg1

theorem keep1_arg4 (V : Valuation τ sig (Elt F)) :
    after (seg1 (F := F)) V (Proc.devRef .tc main_arg4) = V (Proc.devRef .tc main_arg4) := by keep_arg seg1

theorem keep1_arg5 (V : Valuation τ sig (Elt F)) :
    after (seg1 (F := F)) V (Proc.devRef .tc main_arg5) = V (Proc.devRef .tc main_arg5) := by keep_arg seg1

theorem keep1_arg6 (V : Valuation τ sig (Elt F)) :
    after (seg1 (F := F)) V (Proc.devRef .tc main_arg6) = V (Proc.devRef .tc main_arg6) := by keep_arg seg1

theorem keep1_arg7 (V : Valuation τ sig (Elt F)) :
    after (seg1 (F := F)) V (Proc.devRef .tc main_arg7) = V (Proc.devRef .tc main_arg7) := by keep_arg seg1

theorem keep1_arg8 (V : Valuation τ sig (Elt F)) :
    after (seg1 (F := F)) V (Proc.devRef .tc main_arg8) = V (Proc.devRef .tc main_arg8) := by keep_arg seg1

theorem keep2_arg0 (V : Valuation τ sig (Elt F)) :
    after (seg2 (F := F)) V (Proc.devRef .tc main_arg0) = V (Proc.devRef .tc main_arg0) := by keep_arg seg2

theorem keep2_arg1 (V : Valuation τ sig (Elt F)) :
    after (seg2 (F := F)) V (Proc.devRef .tc main_arg1) = V (Proc.devRef .tc main_arg1) := by keep_arg seg2

theorem keep2_arg2 (V : Valuation τ sig (Elt F)) :
    after (seg2 (F := F)) V (Proc.devRef .tc main_arg2) = V (Proc.devRef .tc main_arg2) := by keep_arg seg2

theorem keep2_arg3 (V : Valuation τ sig (Elt F)) :
    after (seg2 (F := F)) V (Proc.devRef .tc main_arg3) = V (Proc.devRef .tc main_arg3) := by keep_arg seg2

theorem keep2_arg4 (V : Valuation τ sig (Elt F)) :
    after (seg2 (F := F)) V (Proc.devRef .tc main_arg4) = V (Proc.devRef .tc main_arg4) := by keep_arg seg2

theorem keep2_arg5 (V : Valuation τ sig (Elt F)) :
    after (seg2 (F := F)) V (Proc.devRef .tc main_arg5) = V (Proc.devRef .tc main_arg5) := by keep_arg seg2

theorem keep2_arg6 (V : Valuation τ sig (Elt F)) :
    after (seg2 (F := F)) V (Proc.devRef .tc main_arg6) = V (Proc.devRef .tc main_arg6) := by keep_arg seg2

theorem keep2_arg7 (V : Valuation τ sig (Elt F)) :
    after (seg2 (F := F)) V (Proc.devRef .tc main_arg7) = V (Proc.devRef .tc main_arg7) := by keep_arg seg2

theorem keep2_arg8 (V : Valuation τ sig (Elt F)) :
    after (seg2 (F := F)) V (Proc.devRef .tc main_arg8) = V (Proc.devRef .tc main_arg8) := by keep_arg seg2

theorem keep3_arg0 (V : Valuation τ sig (Elt F)) :
    after (seg3 (F := F)) V (Proc.devRef .tc main_arg0) = V (Proc.devRef .tc main_arg0) := by keep_arg seg3

theorem keep3_arg1 (V : Valuation τ sig (Elt F)) :
    after (seg3 (F := F)) V (Proc.devRef .tc main_arg1) = V (Proc.devRef .tc main_arg1) := by keep_arg seg3

theorem keep3_arg2 (V : Valuation τ sig (Elt F)) :
    after (seg3 (F := F)) V (Proc.devRef .tc main_arg2) = V (Proc.devRef .tc main_arg2) := by keep_arg seg3

theorem keep3_arg3 (V : Valuation τ sig (Elt F)) :
    after (seg3 (F := F)) V (Proc.devRef .tc main_arg3) = V (Proc.devRef .tc main_arg3) := by keep_arg seg3

theorem keep3_arg4 (V : Valuation τ sig (Elt F)) :
    after (seg3 (F := F)) V (Proc.devRef .tc main_arg4) = V (Proc.devRef .tc main_arg4) := by keep_arg seg3

theorem keep3_arg5 (V : Valuation τ sig (Elt F)) :
    after (seg3 (F := F)) V (Proc.devRef .tc main_arg5) = V (Proc.devRef .tc main_arg5) := by keep_arg seg3

theorem keep3_arg6 (V : Valuation τ sig (Elt F)) :
    after (seg3 (F := F)) V (Proc.devRef .tc main_arg6) = V (Proc.devRef .tc main_arg6) := by keep_arg seg3

theorem keep3_arg7 (V : Valuation τ sig (Elt F)) :
    after (seg3 (F := F)) V (Proc.devRef .tc main_arg7) = V (Proc.devRef .tc main_arg7) := by keep_arg seg3

theorem keep3_arg8 (V : Valuation τ sig (Elt F)) :
    after (seg3 (F := F)) V (Proc.devRef .tc main_arg8) = V (Proc.devRef .tc main_arg8) := by keep_arg seg3

theorem keep4_arg0 (V : Valuation τ sig (Elt F)) :
    after (seg4 (F := F)) V (Proc.devRef .tc main_arg0) = V (Proc.devRef .tc main_arg0) := by keep_arg seg4

theorem keep4_arg1 (V : Valuation τ sig (Elt F)) :
    after (seg4 (F := F)) V (Proc.devRef .tc main_arg1) = V (Proc.devRef .tc main_arg1) := by keep_arg seg4

theorem keep4_arg2 (V : Valuation τ sig (Elt F)) :
    after (seg4 (F := F)) V (Proc.devRef .tc main_arg2) = V (Proc.devRef .tc main_arg2) := by keep_arg seg4

theorem keep4_arg3 (V : Valuation τ sig (Elt F)) :
    after (seg4 (F := F)) V (Proc.devRef .tc main_arg3) = V (Proc.devRef .tc main_arg3) := by keep_arg seg4

theorem keep4_arg4 (V : Valuation τ sig (Elt F)) :
    after (seg4 (F := F)) V (Proc.devRef .tc main_arg4) = V (Proc.devRef .tc main_arg4) := by keep_arg seg4

theorem keep4_arg5 (V : Valuation τ sig (Elt F)) :
    after (seg4 (F := F)) V (Proc.devRef .tc main_arg5) = V (Proc.devRef .tc main_arg5) := by keep_arg seg4

theorem keep4_arg6 (V : Valuation τ sig (Elt F)) :
    after (seg4 (F := F)) V (Proc.devRef .tc main_arg6) = V (Proc.devRef .tc main_arg6) := by keep_arg seg4

theorem keep4_arg7 (V : Valuation τ sig (Elt F)) :
    after (seg4 (F := F)) V (Proc.devRef .tc main_arg7) = V (Proc.devRef .tc main_arg7) := by keep_arg seg4

theorem keep4_arg8 (V : Valuation τ sig (Elt F)) :
    after (seg4 (F := F)) V (Proc.devRef .tc main_arg8) = V (Proc.devRef .tc main_arg8) := by keep_arg seg4

theorem keep5_arg0 (V : Valuation τ sig (Elt F)) :
    after (seg5 (F := F)) V (Proc.devRef .tc main_arg0) = V (Proc.devRef .tc main_arg0) := by keep_arg seg5

theorem keep5_arg1 (V : Valuation τ sig (Elt F)) :
    after (seg5 (F := F)) V (Proc.devRef .tc main_arg1) = V (Proc.devRef .tc main_arg1) := by keep_arg seg5

theorem keep5_arg2 (V : Valuation τ sig (Elt F)) :
    after (seg5 (F := F)) V (Proc.devRef .tc main_arg2) = V (Proc.devRef .tc main_arg2) := by keep_arg seg5

theorem keep5_arg3 (V : Valuation τ sig (Elt F)) :
    after (seg5 (F := F)) V (Proc.devRef .tc main_arg3) = V (Proc.devRef .tc main_arg3) := by keep_arg seg5

theorem keep5_arg4 (V : Valuation τ sig (Elt F)) :
    after (seg5 (F := F)) V (Proc.devRef .tc main_arg4) = V (Proc.devRef .tc main_arg4) := by keep_arg seg5

theorem keep5_arg5 (V : Valuation τ sig (Elt F)) :
    after (seg5 (F := F)) V (Proc.devRef .tc main_arg5) = V (Proc.devRef .tc main_arg5) := by keep_arg seg5

theorem keep5_arg6 (V : Valuation τ sig (Elt F)) :
    after (seg5 (F := F)) V (Proc.devRef .tc main_arg6) = V (Proc.devRef .tc main_arg6) := by keep_arg seg5

theorem keep5_arg7 (V : Valuation τ sig (Elt F)) :
    after (seg5 (F := F)) V (Proc.devRef .tc main_arg7) = V (Proc.devRef .tc main_arg7) := by keep_arg seg5

theorem keep5_arg8 (V : Valuation τ sig (Elt F)) :
    after (seg5 (F := F)) V (Proc.devRef .tc main_arg8) = V (Proc.devRef .tc main_arg8) := by keep_arg seg5

theorem keep6_arg0 (V : Valuation τ sig (Elt F)) :
    after (seg6 (F := F)) V (Proc.devRef .tc main_arg0) = V (Proc.devRef .tc main_arg0) := by keep_arg seg6

theorem keep6_arg1 (V : Valuation τ sig (Elt F)) :
    after (seg6 (F := F)) V (Proc.devRef .tc main_arg1) = V (Proc.devRef .tc main_arg1) := by keep_arg seg6

theorem keep6_arg2 (V : Valuation τ sig (Elt F)) :
    after (seg6 (F := F)) V (Proc.devRef .tc main_arg2) = V (Proc.devRef .tc main_arg2) := by keep_arg seg6

theorem keep6_arg3 (V : Valuation τ sig (Elt F)) :
    after (seg6 (F := F)) V (Proc.devRef .tc main_arg3) = V (Proc.devRef .tc main_arg3) := by keep_arg seg6

theorem keep6_arg4 (V : Valuation τ sig (Elt F)) :
    after (seg6 (F := F)) V (Proc.devRef .tc main_arg4) = V (Proc.devRef .tc main_arg4) := by keep_arg seg6

theorem keep6_arg5 (V : Valuation τ sig (Elt F)) :
    after (seg6 (F := F)) V (Proc.devRef .tc main_arg5) = V (Proc.devRef .tc main_arg5) := by keep_arg seg6

theorem keep6_arg6 (V : Valuation τ sig (Elt F)) :
    after (seg6 (F := F)) V (Proc.devRef .tc main_arg6) = V (Proc.devRef .tc main_arg6) := by keep_arg seg6

theorem keep6_arg7 (V : Valuation τ sig (Elt F)) :
    after (seg6 (F := F)) V (Proc.devRef .tc main_arg7) = V (Proc.devRef .tc main_arg7) := by keep_arg seg6

theorem keep6_arg8 (V : Valuation τ sig (Elt F)) :
    after (seg6 (F := F)) V (Proc.devRef .tc main_arg8) = V (Proc.devRef .tc main_arg8) := by keep_arg seg6

theorem keep7_arg0 (V : Valuation τ sig (Elt F)) :
    after (seg7 (F := F)) V (Proc.devRef .tc main_arg0) = V (Proc.devRef .tc main_arg0) := by keep_arg seg7

theorem keep7_arg1 (V : Valuation τ sig (Elt F)) :
    after (seg7 (F := F)) V (Proc.devRef .tc main_arg1) = V (Proc.devRef .tc main_arg1) := by keep_arg seg7

theorem keep7_arg2 (V : Valuation τ sig (Elt F)) :
    after (seg7 (F := F)) V (Proc.devRef .tc main_arg2) = V (Proc.devRef .tc main_arg2) := by keep_arg seg7

theorem keep7_arg3 (V : Valuation τ sig (Elt F)) :
    after (seg7 (F := F)) V (Proc.devRef .tc main_arg3) = V (Proc.devRef .tc main_arg3) := by keep_arg seg7

theorem keep7_arg4 (V : Valuation τ sig (Elt F)) :
    after (seg7 (F := F)) V (Proc.devRef .tc main_arg4) = V (Proc.devRef .tc main_arg4) := by keep_arg seg7

theorem keep7_arg5 (V : Valuation τ sig (Elt F)) :
    after (seg7 (F := F)) V (Proc.devRef .tc main_arg5) = V (Proc.devRef .tc main_arg5) := by keep_arg seg7

theorem keep7_arg6 (V : Valuation τ sig (Elt F)) :
    after (seg7 (F := F)) V (Proc.devRef .tc main_arg6) = V (Proc.devRef .tc main_arg6) := by keep_arg seg7

theorem keep7_arg7 (V : Valuation τ sig (Elt F)) :
    after (seg7 (F := F)) V (Proc.devRef .tc main_arg7) = V (Proc.devRef .tc main_arg7) := by keep_arg seg7

theorem keep7_arg8 (V : Valuation τ sig (Elt F)) :
    after (seg7 (F := F)) V (Proc.devRef .tc main_arg8) = V (Proc.devRef .tc main_arg8) := by keep_arg seg7

theorem keep8_arg0 (V : Valuation τ sig (Elt F)) :
    after (seg8 (F := F)) V (Proc.devRef .tc main_arg0) = V (Proc.devRef .tc main_arg0) := by keep_arg seg8

theorem keep8_arg1 (V : Valuation τ sig (Elt F)) :
    after (seg8 (F := F)) V (Proc.devRef .tc main_arg1) = V (Proc.devRef .tc main_arg1) := by keep_arg seg8

theorem keep8_arg2 (V : Valuation τ sig (Elt F)) :
    after (seg8 (F := F)) V (Proc.devRef .tc main_arg2) = V (Proc.devRef .tc main_arg2) := by keep_arg seg8

theorem keep8_arg3 (V : Valuation τ sig (Elt F)) :
    after (seg8 (F := F)) V (Proc.devRef .tc main_arg3) = V (Proc.devRef .tc main_arg3) := by keep_arg seg8

theorem keep8_arg4 (V : Valuation τ sig (Elt F)) :
    after (seg8 (F := F)) V (Proc.devRef .tc main_arg4) = V (Proc.devRef .tc main_arg4) := by keep_arg seg8

theorem keep8_arg5 (V : Valuation τ sig (Elt F)) :
    after (seg8 (F := F)) V (Proc.devRef .tc main_arg5) = V (Proc.devRef .tc main_arg5) := by keep_arg seg8

theorem keep8_arg6 (V : Valuation τ sig (Elt F)) :
    after (seg8 (F := F)) V (Proc.devRef .tc main_arg6) = V (Proc.devRef .tc main_arg6) := by keep_arg seg8

theorem keep8_arg7 (V : Valuation τ sig (Elt F)) :
    after (seg8 (F := F)) V (Proc.devRef .tc main_arg7) = V (Proc.devRef .tc main_arg7) := by keep_arg seg8

theorem keep8_arg8 (V : Valuation τ sig (Elt F)) :
    after (seg8 (F := F)) V (Proc.devRef .tc main_arg8) = V (Proc.devRef .tc main_arg8) := by keep_arg seg8

theorem keep9_arg0 (V : Valuation τ sig (Elt F)) :
    after (seg9 (F := F)) V (Proc.devRef .tc main_arg0) = V (Proc.devRef .tc main_arg0) := by keep_arg seg9

theorem keep9_arg1 (V : Valuation τ sig (Elt F)) :
    after (seg9 (F := F)) V (Proc.devRef .tc main_arg1) = V (Proc.devRef .tc main_arg1) := by keep_arg seg9

theorem keep9_arg2 (V : Valuation τ sig (Elt F)) :
    after (seg9 (F := F)) V (Proc.devRef .tc main_arg2) = V (Proc.devRef .tc main_arg2) := by keep_arg seg9

theorem keep9_arg3 (V : Valuation τ sig (Elt F)) :
    after (seg9 (F := F)) V (Proc.devRef .tc main_arg3) = V (Proc.devRef .tc main_arg3) := by keep_arg seg9

theorem keep9_arg4 (V : Valuation τ sig (Elt F)) :
    after (seg9 (F := F)) V (Proc.devRef .tc main_arg4) = V (Proc.devRef .tc main_arg4) := by keep_arg seg9

theorem keep9_arg5 (V : Valuation τ sig (Elt F)) :
    after (seg9 (F := F)) V (Proc.devRef .tc main_arg5) = V (Proc.devRef .tc main_arg5) := by keep_arg seg9

theorem keep9_arg6 (V : Valuation τ sig (Elt F)) :
    after (seg9 (F := F)) V (Proc.devRef .tc main_arg6) = V (Proc.devRef .tc main_arg6) := by keep_arg seg9

theorem keep9_arg7 (V : Valuation τ sig (Elt F)) :
    after (seg9 (F := F)) V (Proc.devRef .tc main_arg7) = V (Proc.devRef .tc main_arg7) := by keep_arg seg9

theorem keep9_arg8 (V : Valuation τ sig (Elt F)) :
    after (seg9 (F := F)) V (Proc.devRef .tc main_arg8) = V (Proc.devRef .tc main_arg8) := by keep_arg seg9

/-! ## The whole program -/

/-- The whole program leaves argument 0 as found. -/
theorem keep_ops_arg0 (V : Valuation τ sig (Elt F)) :
    after (ops (F := F)) V (Proc.devRef .tc main_arg0) = V (Proc.devRef .tc main_arg0) := by
  rw [after_ops, keep9_arg0, keep8_arg0, keep7_arg0, keep6_arg0, keep5_arg0, keep4_arg0, keep3_arg0,
    keep2_arg0, keep1_arg0, keep0_arg0]

/-- The whole program leaves argument 1 as found. -/
theorem keep_ops_arg1 (V : Valuation τ sig (Elt F)) :
    after (ops (F := F)) V (Proc.devRef .tc main_arg1) = V (Proc.devRef .tc main_arg1) := by
  rw [after_ops, keep9_arg1, keep8_arg1, keep7_arg1, keep6_arg1, keep5_arg1, keep4_arg1, keep3_arg1,
    keep2_arg1, keep1_arg1, keep0_arg1]

/-- The whole program leaves argument 2 as found. -/
theorem keep_ops_arg2 (V : Valuation τ sig (Elt F)) :
    after (ops (F := F)) V (Proc.devRef .tc main_arg2) = V (Proc.devRef .tc main_arg2) := by
  rw [after_ops, keep9_arg2, keep8_arg2, keep7_arg2, keep6_arg2, keep5_arg2, keep4_arg2, keep3_arg2,
    keep2_arg2, keep1_arg2, keep0_arg2]

/-- The whole program leaves argument 3 as found. -/
theorem keep_ops_arg3 (V : Valuation τ sig (Elt F)) :
    after (ops (F := F)) V (Proc.devRef .tc main_arg3) = V (Proc.devRef .tc main_arg3) := by
  rw [after_ops, keep9_arg3, keep8_arg3, keep7_arg3, keep6_arg3, keep5_arg3, keep4_arg3, keep3_arg3,
    keep2_arg3, keep1_arg3, keep0_arg3]

/-- The whole program leaves argument 4 as found. -/
theorem keep_ops_arg4 (V : Valuation τ sig (Elt F)) :
    after (ops (F := F)) V (Proc.devRef .tc main_arg4) = V (Proc.devRef .tc main_arg4) := by
  rw [after_ops, keep9_arg4, keep8_arg4, keep7_arg4, keep6_arg4, keep5_arg4, keep4_arg4, keep3_arg4,
    keep2_arg4, keep1_arg4, keep0_arg4]

/-- The whole program leaves argument 5 as found. -/
theorem keep_ops_arg5 (V : Valuation τ sig (Elt F)) :
    after (ops (F := F)) V (Proc.devRef .tc main_arg5) = V (Proc.devRef .tc main_arg5) := by
  rw [after_ops, keep9_arg5, keep8_arg5, keep7_arg5, keep6_arg5, keep5_arg5, keep4_arg5, keep3_arg5,
    keep2_arg5, keep1_arg5, keep0_arg5]

/-- The whole program leaves argument 6 as found. -/
theorem keep_ops_arg6 (V : Valuation τ sig (Elt F)) :
    after (ops (F := F)) V (Proc.devRef .tc main_arg6) = V (Proc.devRef .tc main_arg6) := by
  rw [after_ops, keep9_arg6, keep8_arg6, keep7_arg6, keep6_arg6, keep5_arg6, keep4_arg6, keep3_arg6,
    keep2_arg6, keep1_arg6, keep0_arg6]

/-- The whole program leaves argument 7 as found. -/
theorem keep_ops_arg7 (V : Valuation τ sig (Elt F)) :
    after (ops (F := F)) V (Proc.devRef .tc main_arg7) = V (Proc.devRef .tc main_arg7) := by
  rw [after_ops, keep9_arg7, keep8_arg7, keep7_arg7, keep6_arg7, keep5_arg7, keep4_arg7, keep3_arg7,
    keep2_arg7, keep1_arg7, keep0_arg7]

/-- The whole program leaves argument 8 as found. -/
theorem keep_ops_arg8 (V : Valuation τ sig (Elt F)) :
    after (ops (F := F)) V (Proc.devRef .tc main_arg8) = V (Proc.devRef .tc main_arg8) := by
  rw [after_ops, keep9_arg8, keep8_arg8, keep7_arg8, keep6_arg8, keep5_arg8, keep4_arg8, keep3_arg8,
    keep2_arg8, keep1_arg8, keep0_arg8]

end Cert.Sage.Ref

end
-- ==== Proof.RefKeepFeat.lean ====
/-
  A type's feature buffer is written once, by its own stretch; the other types' stretches that run between that write
  and its reads leave it as found.
-/
import proofs.«144736_j57801669869916_1_alg».proof.Proof.RefSegs

noncomputable section

namespace Cert.Sage.Ref

open Cert.ReferenceIdeal Cert.ReferenceIdeal.Gen Idealize.ShloMosaic Idealize.ShloMosaic.TcCoe Idealize.SL.Sem Idealize.ShloMosaic.StableHlo

variable {F : FTy → Type} [FloatOps F]

/-- A reference that is the result of no operation of a literal list keeps its contents over the list: each operation
    writes its one result, and the references are told apart by computation. -/
macro "keep_ref " s:ident : tactic =>
  `(tactic| (refine after_of_forall_not_mem _ _ (List.forall_iff_forall_mem.mp ?_)
             simp only [$s:ident, List.Forall, nullary_writes, unary_writes, binary_writes, ternary_writes,
               quaternary_writes, reshape_writes, binaryIndexed_writes, nary_writes, Finset.mem_singleton]
             repeat' apply And.intro
             all_goals exact devRef_ne_of_ne (by decide)))

theorem keep1_v15 (V : Valuation τ sig (Elt F)) :
    after (seg1 (F := F)) V (Proc.devRef .tc main_v15) = V (Proc.devRef .tc main_v15) := by keep_ref seg1

theorem keep1_v23 (V : Valuation τ sig (Elt F)) :
    after (seg1 (F := F)) V (Proc.devRef .tc main_v23) = V (Proc.devRef .tc main_v23) := by keep_ref seg1

theorem keep2_v23 (V : Valuation τ sig (Elt F)) :
    after (seg2 (F := F)) V (Proc.devRef .tc main_v23) = V (Proc.devRef .tc main_v23) := by keep_ref seg2

theorem keep2_v66 (V : Valuation τ sig (Elt F)) :
    after (seg2 (F := F)) V (Proc.devRef .tc main_v66) = V (Proc.devRef .tc main_v66) := by keep_ref seg2

theorem keep3_v66 (V : Valuation τ sig (Elt F)) :
    after (seg3 (F := F)) V (Proc.devRef .tc main_v66) = V (Proc.devRef .tc main_v66) := by keep_ref seg3

theorem keep3_v109 (V : Valuation τ sig (Elt F)) :
    after (seg3 (F := F)) V (Proc.devRef .tc main_v109) = V (Proc.devRef .tc main_v109) := by keep_ref seg3

theorem keep4_v109 (V : Valuation τ sig (Elt F)) :
    after (seg4 (F := F)) V (Proc.devRef .tc main_v109) = V (Proc.devRef .tc main_v109) := by keep_ref seg4

theorem keep4_v152 (V : Valuation τ sig (Elt F)) :
    after (seg4 (F := F)) V (Proc.devRef .tc main_v152) = V (Proc.devRef .tc main_v152) := by keep_ref seg4

theorem keep5_v152 (V : Valuation τ sig (Elt F)) :
    after (seg5 (F := F)) V (Proc.devRef .tc main_v152) = V (Proc.devRef .tc main_v152) := by keep_ref seg5

theorem keep5_v195 (V : Valuation τ sig (Elt F)) :
    after (seg5 (F := F)) V (Proc.devRef .tc main_v195) = V (Proc.devRef .tc main_v195) := by keep_ref seg5

theorem keep6_v195 (V : Valuation τ sig (Elt F)) :
    after (seg6 (F := F)) V (Proc.devRef .tc main_v195) = V (Proc.devRef .tc main_v195) := by keep_ref seg6

theorem keep6_v238 (V : Valuation τ sig (Elt F)) :
    after (seg6 (F := F)) V (Proc.devRef .tc main_v238) = V (Proc.devRef .tc main_v238) := by keep_ref seg6

theorem keep7_v238 (V : Valuation τ sig (Elt F)) :
    after (seg7 (F := F)) V (Proc.devRef .tc main_v238) = V (Proc.devRef .tc main_v238) := by keep_ref seg7

theorem keep7_v281 (V : Valuation τ sig (Elt F)) :
    after (seg7 (F := F)) V (Proc.devRef .tc main_v281) = V (Proc.devRef .tc main_v281) := by keep_ref seg7

theorem keep8_v281 (V : Valuation τ sig (Elt F)) :
    after (seg8 (F := F)) V (Proc.devRef .tc main_v281) = V (Proc.devRef .tc main_v281) := by keep_ref seg8

theorem keep8_v324 (V : Valuation τ sig (Elt F)) :
    after (seg8 (F := F)) V (Proc.devRef .tc main_v324) = V (Proc.devRef .tc main_v324) := by keep_ref seg8

theorem keep9_v324 (V : Valuation τ sig (Elt F)) :
    after (seg9 (F := F)) V (Proc.devRef .tc main_v324) = V (Proc.devRef .tc main_v324) := by keep_ref seg9

theorem keep9_v367 (V : Valuation τ sig (Elt F)) :
    after (seg9 (F := F)) V (Proc.devRef .tc main_v367) = V (Proc.devRef .tc main_v367) := by keep_ref seg9

end Cert.Sage.Ref

end
-- ==== Proof.RefChain.lean ====
/-
  The stretches of the reference program chained: what each node type's feature buffer holds after each round.

  The first stretch leaves the three normalised inputs. Each later stretch reads the features its node type's previous
  stretch left (kept by the stretches of the other types in between) and the arguments (kept by every stretch), and
  leaves that type's layer of them. After the last stretch the three results hold three layers of the normalised
  inputs.
-/
import proofs.«144736_j57801669869916_1_alg».proof.Proof.RefSeg0
import proofs.«144736_j57801669869916_1_alg».proof.Proof.RefRound1
import proofs.«144736_j57801669869916_1_alg».proof.Proof.RefRound2
import proofs.«144736_j57801669869916_1_alg».proof.Proof.RefRound3
import proofs.«144736_j57801669869916_1_alg».proof.Proof.RefKeepArgs
import proofs.«144736_j57801669869916_1_alg».proof.Proof.RefKeepFeat
import Idealize.ShloMosaic.Lib.StableHlo.Run

noncomputable section

namespace Cert.Sage.Ref

open Cert.ReferenceIdeal Cert.ReferenceIdeal.Gen Idealize.ShloMosaic Idealize.ShloMosaic.TcCoe Idealize.SL.Sem
  Idealize.ShloMosaic.StableHlo Idealize.ShloMosaic.ValueIdx Cert.ScatterGather Cert.GraphMean

variable (V : Valuation τ sig (Elt Ideal))

/-- Node type 0 after the normalisation. -/
theorem feat0_0 :
    (after (seg0 (F := Ideal)) V) (Proc.devRef .tc main_v7)
      = (normOp (V (Proc.devRef .tc main_arg0))) := seg0_read0 V

/-- Node type 0 after 1 layer. -/
theorem feat0_1 :
    (after (seg1 (F := Ideal)) (after (seg0 (F := Ideal)) V)) (Proc.devRef .tc main_v66)
      = (typeLayer 0 slices_S3x64x64_S1x64x64_0_0_0 slices_S3x64_S1x64_0_0 (normOp (V (Proc.devRef .tc main_arg0))) (V (Proc.devRef .tc main_arg3)) (V (Proc.devRef .tc main_arg6)) (V (Proc.devRef .tc main_arg7)) (V (Proc.devRef .tc main_arg8))) := by
  rw [seg1_read, feat0_0, keep0_arg3, keep0_arg6, keep0_arg7, keep0_arg8]

/-- Node type 0 after 2 layers. -/
theorem feat0_2 :
    (after (seg4 (F := Ideal)) (after (seg3 (F := Ideal)) (after (seg2 (F := Ideal)) (after (seg1 (F := Ideal)) (after (seg0 (F := Ideal)) V))))) (Proc.devRef .tc main_v195)
      = (typeLayer 0 slices_S3x64x64_S1x64x64_0_0_0 slices_S3x64_S1x64_0_0 (typeLayer 0 slices_S3x64x64_S1x64x64_0_0_0 slices_S3x64_S1x64_0_0 (normOp (V (Proc.devRef .tc main_arg0))) (V (Proc.devRef .tc main_arg3)) (V (Proc.devRef .tc main_arg6)) (V (Proc.devRef .tc main_arg7)) (V (Proc.devRef .tc main_arg8))) (V (Proc.devRef .tc main_arg3)) (V (Proc.devRef .tc main_arg6)) (V (Proc.devRef .tc main_arg7)) (V (Proc.devRef .tc main_arg8))) := by
  rw [seg4_read, keep3_v66, keep2_v66, feat0_1, keep3_arg3, keep2_arg3, keep1_arg3, keep0_arg3, keep3_arg6, keep2_arg6, keep1_arg6, keep0_arg6, keep3_arg7, keep2_arg7, keep1_arg7, keep0_arg7, keep3_arg8, keep2_arg8, keep1_arg8, keep0_arg8]

/-- Node type 0 after 3 layers. -/
theorem feat0_3 :
    (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))) (Proc.devRef .tc main_v324)
      = (typeLayer 0 slices_S3x64x64_S1x64x64_0_0_0 slices_S3x64_S1x64_0_0 (typeLayer 0 slices_S3x64x64_S1x64x64_0_0_0 slices_S3x64_S1x64_0_0 (typeLayer 0 slices_S3x64x64_S1x64x64_0_0_0 slices_S3x64_S1x64_0_0 (normOp (V (Proc.devRef .tc main_arg0))) (V (Proc.devRef .tc main_arg3)) (V (Proc.devRef .tc main_arg6)) (V (Proc.devRef .tc main_arg7)) (V (Proc.devRef .tc main_arg8))) (V (Proc.devRef .tc main_arg3)) (V (Proc.devRef .tc main_arg6)) (V (Proc.devRef .tc main_arg7)) (V (Proc.devRef .tc main_arg8))) (V (Proc.devRef .tc main_arg3)) (V (Proc.devRef .tc main_arg6)) (V (Proc.devRef .tc main_arg7)) (V (Proc.devRef .tc main_arg8))) := by
  rw [seg7_read, keep6_v195, keep5_v195, feat0_2, keep6_arg3, keep5_arg3, keep4_arg3, keep3_arg3, keep2_arg3, keep1_arg3, keep0_arg3, keep6_arg6, keep5_arg6, keep4_arg6, keep3_arg6, keep2_arg6, keep1_arg6, keep0_arg6, keep6_arg7, keep5_arg7, keep4_arg7, keep3_arg7, keep2_arg7, keep1_arg7, keep0_arg7, keep6_arg8, keep5_arg8, keep4_arg8, keep3_arg8, keep2_arg8, keep1_arg8, keep0_arg8]

/-- Node type 1 after the normalisation. -/
theorem feat1_0 :
    (after (seg0 (F := Ideal)) V) (Proc.devRef .tc main_v15)
      = (normOp (V (Proc.devRef .tc main_arg1))) := seg0_read1 V

/-- Node type 1 after 1 layer. -/
theorem feat1_1 :
    (after (seg2 (F := Ideal)) (after (seg1 (F := Ideal)) (after (seg0 (F := Ideal)) V))) (Proc.devRef .tc main_v109)
      = (typeLayer 1 slices_S3x64x64_S1x64x64_1_0_0 slices_S3x64_S1x64_1_0 (normOp (V (Proc.devRef .tc main_arg1))) (V (Proc.devRef .tc main_arg4)) (V (Proc.devRef .tc main_arg6)) (V (Proc.devRef .tc main_arg7)) (V (Proc.devRef .tc main_arg8))) := by
  rw [seg2_read, keep1_v15, feat1_0, keep1_arg4, keep0_arg4, keep1_arg6, keep0_arg6, keep1_arg7, keep0_arg7, keep1_arg8, keep0_arg8]

/-- Node type 1 after 2 layers. -/
theorem feat1_2 :
    (after (seg5 (F := Ideal)) (after (seg4 (F := Ideal)) (after (seg3 (F := Ideal)) (after (seg2 (F := Ideal)) (after (seg1 (F := Ideal)) (after (seg0 (F := Ideal)) V)))))) (Proc.devRef .tc main_v238)
      = (typeLayer 1 slices_S3x64x64_S1x64x64_1_0_0 slices_S3x64_S1x64_1_0 (typeLayer 1 slices_S3x64x64_S1x64x64_1_0_0 slices_S3x64_S1x64_1_0 (normOp (V (Proc.devRef .tc main_arg1))) (V (Proc.devRef .tc main_arg4)) (V (Proc.devRef .tc main_arg6)) (V (Proc.devRef .tc main_arg7)) (V (Proc.devRef .tc main_arg8))) (V (Proc.devRef .tc main_arg4)) (V (Proc.devRef .tc main_arg6)) (V (Proc.devRef .tc main_arg7)) (V (Proc.devRef .tc main_arg8))) := by
  rw [seg5_read, keep4_v109, keep3_v109, feat1_1, keep4_arg4, keep3_arg4, keep2_arg4, keep1_arg4, keep0_arg4, keep4_arg6, keep3_arg6, keep2_arg6, keep1_arg6, keep0_arg6, keep4_arg7, keep3_arg7, keep2_arg7, keep1_arg7, keep0_arg7, keep4_arg8, keep3_arg8, keep2_arg8, keep1_arg8, keep0_arg8]

/-- Node type 1 after 3 layers. -/
theorem feat1_3 :
    (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V))))))))) (Proc.devRef .tc main_v367)
      = (typeLayer 1 slices_S3x64x64_S1x64x64_1_0_0 slices_S3x64_S1x64_1_0 (typeLayer 1 slices_S3x64x64_S1x64x64_1_0_0 slices_S3x64_S1x64_1_0 (typeLayer 1 slices_S3x64x64_S1x64x64_1_0_0 slices_S3x64_S1x64_1_0 (normOp (V (Proc.devRef .tc main_arg1))) (V (Proc.devRef .tc main_arg4)) (V (Proc.devRef .tc main_arg6)) (V (Proc.devRef .tc main_arg7)) (V (Proc.devRef .tc main_arg8))) (V (Proc.devRef .tc main_arg4)) (V (Proc.devRef .tc main_arg6)) (V (Proc.devRef .tc main_arg7)) (V (Proc.devRef .tc main_arg8))) (V (Proc.devRef .tc main_arg4)) (V (Proc.devRef .tc main_arg6)) (V (Proc.devRef .tc main_arg7)) (V (Proc.devRef .tc main_arg8))) := by
  rw [seg8_read, keep7_v238, keep6_v238, feat1_2, keep7_arg4, keep6_arg4, keep5_arg4, keep4_arg4, keep3_arg4, keep2_arg4, keep1_arg4, keep0_arg4, keep7_arg6, keep6_arg6, keep5_arg6, keep4_arg6, keep3_arg6, keep2_arg6, keep1_arg6, keep0_arg6, keep7_arg7, keep6_arg7, keep5_arg7, keep4_arg7, keep3_arg7, keep2_arg7, keep1_arg7, keep0_arg7, keep7_arg8, keep6_arg8, keep5_arg8, keep4_arg8, keep3_arg8, keep2_arg8, keep1_arg8, keep0_arg8]

/-- Node type 2 after the normalisation. -/
theorem feat2_0 :
    (after (seg0 (F := Ideal)) V) (Proc.devRef .tc main_v23)
      = (normOp (V (Proc.devRef .tc main_arg2))) := seg0_read2 V

/-- Node type 2 after 1 layer. -/
theorem feat2_1 :
    (after (seg3 (F := Ideal)) (after (seg2 (F := Ideal)) (after (seg1 (F := Ideal)) (after (seg0 (F := Ideal)) V)))) (Proc.devRef .tc main_v152)
      = (typeLayer 2 slices_S3x64x64_S1x64x64_2_0_0 slices_S3x64_S1x64_2_0 (normOp (V (Proc.devRef .tc main_arg2))) (V (Proc.devRef .tc main_arg5)) (V (Proc.devRef .tc main_arg6)) (V (Proc.devRef .tc main_arg7)) (V (Proc.devRef .tc main_arg8))) := by
  rw [seg3_read, keep2_v23, keep1_v23, feat2_0, keep2_arg5, keep1_arg5, keep0_arg5, keep2_arg6, keep1_arg6, keep0_arg6, keep2_arg7, keep1_arg7, keep0_arg7, keep2_arg8, keep1_arg8, keep0_arg8]

/-- Node type 2 after 2 layers. -/
theorem feat2_2 :
    (after (seg6 (F := Ideal)) (after (seg5 (F := Ideal)) (after (seg4 (F := Ideal)) (after (seg3 (F := Ideal)) (after (seg2 (F := Ideal)) (after (seg1 (F := Ideal)) (after (seg0 (F := Ideal)) V))))))) (Proc.devRef .tc main_v281)
      = (typeLayer 2 slices_S3x64x64_S1x64x64_2_0_0 slices_S3x64_S1x64_2_0 (typeLayer 2 slices_S3x64x64_S1x64x64_2_0_0 slices_S3x64_S1x64_2_0 (normOp (V (Proc.devRef .tc main_arg2))) (V (Proc.devRef .tc main_arg5)) (V (Proc.devRef .tc main_arg6)) (V (Proc.devRef .tc main_arg7)) (V (Proc.devRef .tc main_arg8))) (V (Proc.devRef .tc main_arg5)) (V (Proc.devRef .tc main_arg6)) (V (Proc.devRef .tc main_arg7)) (V (Proc.devRef .tc main_arg8))) := by
  rw [seg6_read, keep5_v152, keep4_v152, feat2_1, keep5_arg5, keep4_arg5, keep3_arg5, keep2_arg5, keep1_arg5, keep0_arg5, keep5_arg6, keep4_arg6, keep3_arg6, keep2_arg6, keep1_arg6, keep0_arg6, keep5_arg7, keep4_arg7, keep3_arg7, keep2_arg7, keep1_arg7, keep0_arg7, keep5_arg8, keep4_arg8, keep3_arg8, keep2_arg8, keep1_arg8, keep0_arg8]

/-- Node type 2 after 3 layers. -/
theorem feat2_3 :
    (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))) (Proc.devRef .tc main_v410)
      = (typeLayer 2 slices_S3x64x64_S1x64x64_2_0_0 slices_S3x64_S1x64_2_0 (typeLayer 2 slices_S3x64x64_S1x64x64_2_0_0 slices_S3x64_S1x64_2_0 (typeLayer 2 slices_S3x64x64_S1x64x64_2_0_0 slices_S3x64_S1x64_2_0 (normOp (V (Proc.devRef .tc main_arg2))) (V (Proc.devRef .tc main_arg5)) (V (Proc.devRef .tc main_arg6)) (V (Proc.devRef .tc main_arg7)) (V (Proc.devRef .tc main_arg8))) (V (Proc.devRef .tc main_arg5)) (V (Proc.devRef .tc main_arg6)) (V (Proc.devRef .tc main_arg7)) (V (Proc.devRef .tc main_arg8))) (V (Proc.devRef .tc main_arg5)) (V (Proc.devRef .tc main_arg6)) (V (Proc.devRef .tc main_arg7)) (V (Proc.devRef .tc main_arg8))) := by
  rw [seg9_read, keep8_v281, keep7_v281, feat2_2, keep8_arg5, keep7_arg5, keep6_arg5, keep5_arg5, keep4_arg5, keep3_arg5, keep2_arg5, keep1_arg5, keep0_arg5, keep8_arg6, keep7_arg6, keep6_arg6, keep5_arg6, keep4_arg6, keep3_arg6, keep2_arg6, keep1_arg6, keep0_arg6, keep8_arg7, keep7_arg7, keep6_arg7, keep5_arg7, keep4_arg7, keep3_arg7, keep2_arg7, keep1_arg7, keep0_arg7, keep8_arg8, keep7_arg8, keep6_arg8, keep5_arg8, keep4_arg8, keep3_arg8, keep2_arg8, keep1_arg8, keep0_arg8]

/-- Node type 0's result after the whole program. -/
theorem result0 :
    after (ops (F := Ideal)) V (Proc.devRef .tc main_v324) = (typeLayer 0 slices_S3x64x64_S1x64x64_0_0_0 slices_S3x64_S1x64_0_0 (typeLayer 0 slices_S3x64x64_S1x64x64_0_0_0 slices_S3x64_S1x64_0_0 (typeLayer 0 slices_S3x64x64_S1x64x64_0_0_0 slices_S3x64_S1x64_0_0 (normOp (V (Proc.devRef .tc main_arg0))) (V (Proc.devRef .tc main_arg3)) (V (Proc.devRef .tc main_arg6)) (V (Proc.devRef .tc main_arg7)) (V (Proc.devRef .tc main_arg8))) (V (Proc.devRef .tc main_arg3)) (V (Proc.devRef .tc main_arg6)) (V (Proc.devRef .tc main_arg7)) (V (Proc.devRef .tc main_arg8))) (V (Proc.devRef .tc main_arg3)) (V (Proc.devRef .tc main_arg6)) (V (Proc.devRef .tc main_arg7)) (V (Proc.devRef .tc main_arg8))) := by
  rw [after_ops, keep9_v324, keep8_v324, feat0_3]

/-- Node type 1's result after the whole program. -/
theorem result1 :
    after (ops (F := Ideal)) V (Proc.devRef .tc main_v367) = (typeLayer 1 slices_S3x64x64_S1x64x64_1_0_0 slices_S3x64_S1x64_1_0 (typeLayer 1 slices_S3x64x64_S1x64x64_1_0_0 slices_S3x64_S1x64_1_0 (typeLayer 1 slices_S3x64x64_S1x64x64_1_0_0 slices_S3x64_S1x64_1_0 (normOp (V (Proc.devRef .tc main_arg1))) (V (Proc.devRef .tc main_arg4)) (V (Proc.devRef .tc main_arg6)) (V (Proc.devRef .tc main_arg7)) (V (Proc.devRef .tc main_arg8))) (V (Proc.devRef .tc main_arg4)) (V (Proc.devRef .tc main_arg6)) (V (Proc.devRef .tc main_arg7)) (V (Proc.devRef .tc main_arg8))) (V (Proc.devRef .tc main_arg4)) (V (Proc.devRef .tc main_arg6)) (V (Proc.devRef .tc main_arg7)) (V (Proc.devRef .tc main_arg8))) := by
  rw [after_ops, keep9_v367, feat1_3]

/-- Node type 2's result after the whole program. -/
theorem result2 :
    after (ops (F := Ideal)) V (Proc.devRef .tc main_v410) = (typeLayer 2 slices_S3x64x64_S1x64x64_2_0_0 slices_S3x64_S1x64_2_0 (typeLayer 2 slices_S3x64x64_S1x64x64_2_0_0 slices_S3x64_S1x64_2_0 (typeLayer 2 slices_S3x64x64_S1x64x64_2_0_0 slices_S3x64_S1x64_2_0 (normOp (V (Proc.devRef .tc main_arg2))) (V (Proc.devRef .tc main_arg5)) (V (Proc.devRef .tc main_arg6)) (V (Proc.devRef .tc main_arg7)) (V (Proc.devRef .tc main_arg8))) (V (Proc.devRef .tc main_arg5)) (V (Proc.devRef .tc main_arg6)) (V (Proc.devRef .tc main_arg7)) (V (Proc.devRef .tc main_arg8))) (V (Proc.devRef .tc main_arg5)) (V (Proc.devRef .tc main_arg6)) (V (Proc.devRef .tc main_arg7)) (V (Proc.devRef .tc main_arg8))) := by
  rw [after_ops, feat2_3]

end Cert.Sage.Ref

end
-- ==== Proof.RefRead.lean ====
/-
  The groups of the reference program's operations read at an index.

  A row normalisation at (r, j) is the row's entry divided by the floored norm of the row; the cut at zero is the
  maximum with zero; the edge columns are the specification's source and destination columns; the mean of the
  neighbours at (r, c) is the sum over the edges landing on r of the source rows' entries, divided by the floored
  number of those edges; the projections at (r, j) are the two sums over the 64 columns plus the bias entry.
-/
import proofs.«144736_j57801669869916_1_alg».proof.Proof.RefOps
import Idealize.ShloMosaic.Lib.Pipeline.Value
import Idealize.ShloMosaic.Lib.ValueIdx
import Idealize.ShloMosaic.PureOps.Ideal.Laws

noncomputable section

namespace Cert.Sage.Ref

open Cert.ReferenceIdeal Cert.ReferenceIdeal.Gen Idealize.ShloMosaic Idealize.ShloMosaic.TcCoe Idealize.SL.Sem
  Idealize.ShloMosaic.StableHlo Idealize.ShloMosaic.ValueIdx Cert.ScatterGather Cert.GraphMean

/-! ## Layout operations at explicit coordinates -/

section Layout
variable {α : Type}

/-- A scalar broadcast to any shape reads the scalar. -/
theorem bcast_scalar_apply {t : Shape} (h : S_.BroadcastsInDim t (![] : Fin 0 → Fin t.rank)) (y : S_.Idx → α) (i : t.Idx) :
    broadcastInDim t ![] h y i = y ix0 :=
  broadcastInDim_apply _ h y i ix0 (fun a => a.elim0)

/-- A vector of 100000 made a column reads the vector at the row. -/
theorem bcast_col_apply (y : S100000.Idx → α) (r : Fin 100000) (u : Fin 1) :
    broadcastInDim S100000x1 ![0] bcast_S100000_S100000x1_0 y (ix2 r u) = y (ix1 r) :=
  broadcastInDim_apply _ bcast_S100000_S100000x1_0 y (ix2 r u) (ix1 r) (fun a => match a with
    | ⟨0, _⟩ => by show r.val = if (100000 : Nat) = 1 then 0 else r.val; rw [if_neg (by decide)])

/-- A vector of 800000 made a column reads the vector at the row. -/
theorem bcast_ecol_apply (y : S800000.Idx → α) (p : Fin 800000) (u : Fin 1) :
    broadcastInDim S800000x1 ![0] bcast_S800000_S800000x1_0 y (ix2 p u) = y (ix1 p) :=
  broadcastInDim_apply _ bcast_S800000_S800000x1_0 y (ix2 p u) (ix1 p) (fun a => match a with
    | ⟨0, _⟩ => by show p.val = if (800000 : Nat) = 1 then 0 else p.val; rw [if_neg (by decide)])

/-- A column repeated along the 64 columns reads the column at the row. -/
theorem bcast_rows_apply (y : S100000x1.Idx → α) (r : Fin 100000) (j : Fin 64) :
    broadcastInDim S100000x64 ![0, 1] bcast_S100000x1_S100000x64_0_1 y (ix2 r j) = y (ix2 r (0 : Fin 1)) :=
  broadcastInDim_apply _ bcast_S100000x1_S100000x64_0_1 y (ix2 r j) (ix2 r (0 : Fin 1)) (fun a => match a with
    | ⟨0, _⟩ => by show r.val = if (100000 : Nat) = 1 then 0 else r.val; rw [if_neg (by decide)]
    | ⟨1, _⟩ => by show (0 : Nat) = if (1 : Nat) = 1 then 0 else j.val; rw [if_pos rfl])

/-- A row of 64 given a unit leading axis and repeated down the 100000 rows reads the row at the column. -/
theorem bcast_bias_apply (b : S64.Idx → α) (r : Fin 100000) (j : Fin 64) :
    broadcastInDim S100000x64 ![0, 1] bcast_S1x64_S100000x64_0_1 (broadcastInDim S1x64 ![1] bcast_S64_S1x64_1 b) (ix2 r j)
      = b (ix1 j) := by
  rw [broadcastInDim_apply _ bcast_S1x64_S100000x64_0_1 _ (ix2 r j) (ix2 (0 : Fin 1) j) (fun a => match a with
    | ⟨0, _⟩ => by show (0 : Nat) = if (1 : Nat) = 1 then 0 else r.val; rw [if_pos rfl]
    | ⟨1, _⟩ => by show j.val = if (64 : Nat) = 1 then 0 else j.val; rw [if_neg (by decide)])]
  exact broadcastInDim_apply _ bcast_S64_S1x64_1 b (ix2 (0 : Fin 1) j) (ix1 j) (fun a => match a with
    | ⟨0, _⟩ => by show j.val = if (64 : Nat) = 1 then 0 else j.val; rw [if_neg (by decide)])

end Layout

/-! ## Pointwise host operations on the extended reals -/

section Pointwise
variable {s : Shape} {φ : FTy}

theorem hdivf_apply (a b : FVec Ideal s φ) (i : s.Idx) : Host.divf a b i = Ideal.div (a i) (b i) := rfl

theorem hsqrt_apply (a : FVec Ideal s φ) (i : s.Idx) : Host.sqrt a i = Ideal.sqrt (a i) := rfl

end Pointwise

/-! ## The edge columns -/

theorem edgeRow0_apply (e : Edges) (p : Fin 800000) : edgeRow0 e (ix1 p) = e (ix2 (0 : Fin 2) p) := by
  unfold edgeRow0
  rw [shapeCast_apply _ shapeCasts_S1x800000_S800000 (ix1 p) (ix2 (0 : Fin 1) p) (by
    rw [Shape.rowMajor_val_two, Shape.rowMajor_val_one]; show 0 * 800000 + p.val = p.val; omega)]
  exact extractStridedSlice_apply ![0, 0] e slices_S2x800000_S1x800000_0_0 (ix2 (0 : Fin 1) p) (ix2 (0 : Fin 2) p)
    (fun a => match a with
      | ⟨0, _⟩ => by show (0 : Nat) = 0 + 0; rfl
      | ⟨1, _⟩ => by show p.val = 0 + p.val; omega)

theorem edgeRow1_apply (e : Edges) (p : Fin 800000) : edgeRow1 e (ix1 p) = e (ix2 (1 : Fin 2) p) := by
  unfold edgeRow1
  rw [shapeCast_apply _ shapeCasts_S1x800000_S800000 (ix1 p) (ix2 (0 : Fin 1) p) (by
    rw [Shape.rowMajor_val_two, Shape.rowMajor_val_one]; show 0 * 800000 + p.val = p.val; omega)]
  exact extractStridedSlice_apply ![1, 0] e slices_S2x800000_S1x800000_1_0 (ix2 (0 : Fin 1) p) (ix2 (1 : Fin 2) p)
    (fun a => match a with
      | ⟨0, _⟩ => by show (1 : Nat) = 1 + 0; rfl
      | ⟨1, _⟩ => by show p.val = 0 + p.val; omega)

/-- The program's source column is the specification's. -/
theorem srcCol_eq (e : Edges) : (srcCol e : IVec ⟨2, ![EE, 1]⟩ 32) = srcOf e := by
  funext i
  obtain ⟨p, u, rfl⟩ : ∃ (p : Fin 800000) (u : Fin 1), i = ix2 p u := ⟨i 0, i 1, eq_ix2 i⟩
  unfold srcCol srcOf
  rw [bcast_ecol_apply, select_apply]
  show Scalar.select (IntOp.cmpi .slt (edgeRow0 e (ix1 p)) (broadcastInDim S800000 ![] bcast_S_S800000 (constantI S_ 32 0#32) (ix1 p)))
      (IntOp.addi (edgeRow0 e (ix1 p)) (broadcastInDim S800000 ![] bcast_S_S800000 (constantI S_ 32 100000#32) (ix1 p)))
      (edgeRow0 e (ix1 p)) = _
  rw [bcast_scalar_apply, bcast_scalar_apply, edgeRow0_apply]
  rfl

/-- The program's destination column is the specification's. -/
theorem dstCol_eq (e : Edges) : (dstCol e : IVec ⟨2, ![EE, 1]⟩ 32) = dstOf e := by
  funext i
  obtain ⟨p, u, rfl⟩ : ∃ (p : Fin 800000) (u : Fin 1), i = ix2 p u := ⟨i 0, i 1, eq_ix2 i⟩
  unfold dstCol dstOf
  rw [bcast_ecol_apply, edgeRow1_apply]

/-! ## The row normalisation and the cut at zero -/

/-- The sum along a row, from zero. -/
theorem rowSum_apply (Y : Feat) (r : Fin 100000) :
    Host.reduceAdd (F := Ideal) Y (constant (F := Ideal) S_ .f32 0x00000000#32) reducesTo_S100000x64_S100000_d1 h_S_ (ix1 r)
      = ∑ c : Fin 64, Y (ix2 r c) := by
  simp only [Host.reduceAdd, Ideal.hostReduceAdd_def]
  rw [Ideal.hostReduceAdd_single reducesTo_S100000x64_S100000_d1 (by decide)]
  have h0 : (constant (F := Ideal) S_ .f32 0x00000000#32) (Shape.Idx.first h_S_) = 0 := Ideal.ofBits_zero_f32
  rw [h0, zero_add]
  refine Finset.sum_congr rfl fun k _ => ?_
  exact congrArg Y (funext fun a => Fin.ext (by match a with | ⟨0, _⟩ => rfl | ⟨1, _⟩ => rfl))

theorem normOp_apply (Y : Feat) (r : Fin 100000) (j : Fin 64) :
    normOp Y (ix2 r j) = rowNorm (fun c => Y (ix2 r c)) j := by
  unfold normOp rowNorm
  rw [hdivf_apply, bcast_rows_apply, maximumf_apply, hsqrt_apply, bcast_col_apply, bcast_scalar_apply, rowSum_apply]
  rfl

theorem reluOp_apply (Y : Feat) (i : S100000x64.Idx) : reluOp Y i = max (Y i) 0 := by
  unfold reluOp
  rw [maximumf_apply, bcast_scalar_apply]
  exact congrArg (max (Y i)) Ideal.ofBits_zero_f32

/-! ## The two projections -/

/-- The operand indices of the product of a feature array and a weight matrix: output (r, j) and contraction index q read
    the left operand at (r, q) and the right at (q, j). -/
theorem dot_lhs_0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl
theorem dot_lhs_1 (i : S100000x64.Idx) (q : dot_S100000x64_S64x64_S100000x64_1_0_0_1_n_n.contr.Idx) : (dot_S100000x64_S64x64_S100000x64_1_0_0_1_n_n.lhsIdx i q 1).val = (q ⟨0, by decide⟩).val :=
  dot_S100000x64_S64x64_S100000x64_1_0_0_1_n_n.lhsIdx_val_of_single rfl i q
theorem dot_rhs_0 (i : S100000x64.Idx) (q : dot_S100000x64_S64x64_S100000x64_1_0_0_1_n_n.contr.Idx) : (dot_S100000x64_S64x64_S100000x64_1_0_0_1_n_n.rhsIdx i q 0).val = (q ⟨0, by decide⟩).val :=
  dot_S100000x64_S64x64_S100000x64_1_0_0_1_n_n.rhsIdx_val_of_single rfl i q
theorem dot_rhs_1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- A feature array times a weight matrix at (r, j): the sum over the 64 columns. -/
theorem dot_apply (A : Feat) (W : Mat) (r : Fin 100000) (j : Fin 64) :
    Host.dotGeneral (F := Ideal) (φ₁ := .f32) (φ₂ := .f32) dot_S100000x64_S64x64_S100000x64_1_0_0_1_n_n none A W (ix2 r j) = ∑ c : Fin 64, A (ix2 r c) * W (ix2 c j) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 r j) ((ValueIdx.contrEquiv1 dot_S100000x64_S64x64_S100000x64_1_0_0_1_n_n 64 rfl rfl).symm k) = ix2 r k :=
    funext fun a => Fin.ext (by
      match a with
      | ⟨0, _⟩ => exact dot_lhs_0 _ _
      | ⟨1, _⟩ => exact (dot_lhs_1 _ _).trans hk)
  have er : dot_S100000x64_S64x64_S100000x64_1_0_0_1_n_n.rhsIdx (ix2 r j) ((ValueIdx.contrEquiv1 dot_S100000x64_S64x64_S100000x64_1_0_0_1_n_n 64 rfl rfl).symm k) = ix2 k j :=
    funext fun a => Fin.ext (by
      match a with
      | ⟨0, _⟩ => exact (dot_rhs_0 _ _).trans hk
      | ⟨1, _⟩ => exact dot_rhs_1 _ _)
  rw [el, er]

theorem linOp_apply (X : Feat) (e : Edges) (W : Mat) (b : Row) (V : Mat) (r : Fin 100000) (j : Fin 64) :
    linOp X e W b V (ix2 r j)
      = (∑ c : Fin 64, meanOp X e (ix2 r c) * W (ix2 c j)) + b (ix1 j) + ∑ c : Fin 64, X (ix2 r c) * V (ix2 c j) := by
  unfold linOp
  rw [addf_apply, addf_apply, dot_apply, dot_apply, bcast_bias_apply]

end Cert.Sage.Ref

end
-- ==== Proof.RefMean.lean ====
/-
  The mean of the neighbours' rows, read at an index.

  The gathered source rows added into zeros at the destinations give, at (r, c), the sum over the edges landing on
  r of the source row's entry c; the ones added into zeros give the number of those edges; the quotient of the first
  by the second floored at one is the specification's mean.
-/
import proofs.«144736_j57801669869916_1_alg».proof.Proof.RefRead
import Idealize.ShloMosaic.Lib.Pipeline.Value
import Idealize.ShloMosaic.Lib.ValueIdx
import Idealize.ShloMosaic.PureOps.Ideal.Laws

noncomputable section

namespace Cert.Sage.Ref

open Cert.ReferenceIdeal Cert.ReferenceIdeal.Gen Idealize.ShloMosaic Idealize.ShloMosaic.TcCoe Idealize.SL.Sem
  Idealize.ShloMosaic.StableHlo Idealize.ShloMosaic.ValueIdx Cert.ScatterGather Cert.GraphMean

/-- The accumulator the rows are added into is zero everywhere. -/
theorem zerosFeat_eq :
    (broadcastInDim S100000x64 ![] bcast_S_S100000x64 (constant (F := Ideal) S_ .f32 0x00000000#32) : Feat) = fun _ => (0 : EReal) := by
  funext i
  rw [bcast_scalar_apply, constant_apply]
  exact Ideal.ofBits_zero_f32

/-- The accumulator the ones are added into is zero everywhere. -/
theorem zerosCol_eq :
    (broadcastInDim S100000x1 ![] bcast_S_S100000x1 (constant (F := Ideal) S_ .f32 0x00000000#32) :
      (⟨S100000x1, .f32⟩ : BufTy).Contents (Elt Ideal)) = fun _ => (0 : EReal) := by
  funext i
  rw [bcast_scalar_apply, constant_apply]
  exact Ideal.ofBits_zero_f32

/-- The host's accumulating row scatter into zeros, whatever the names its record and its operand go by: at (r, k) the
    sum of column `k` of the update rows that land on row `r`. -/
theorem host_rows_apply {N M C w : Nat} (d : ScatterDims ⟨2, ![N, C]⟩ ⟨2, ![M, 1]⟩ ⟨2, ![M, C]⟩)
    (wf : ScatterDims.WF ⟨2, ![N, C]⟩ ⟨2, ![M, 1]⟩ ⟨2, ![M, C]⟩ [1] [0] [0] 1) (hd : d = rowsScatter N M C wf)
    (Z : FVec Ideal ⟨2, ![N, C]⟩ .f32) (hZ : Z = fun _ => (0 : EReal)) (idx : IVec ⟨2, ![M, 1]⟩ w)
    (U : FVec Ideal ⟨2, ![M, C]⟩ .f32) (r : Fin N) (k : Fin C) :
    Host.scatterAdd (F := Ideal) d Z idx U (ix2 r k) = ∑ p ∈ landing idx r, U (ix2 p k) := by
  subst hd hZ
  exact scatter_rows_apply wf idx U r k

/-- The gathered rows added at the destinations: at (r, c) the sum over the edges landing on r of the clamped source
    row's entry c. -/
theorem sumRows_apply (X : Feat) (src dst : IVec ⟨2, ![800000, 1]⟩ 32) (r : Fin 100000) (c : Fin 64) :
    Host.scatterAdd (F := Ideal) scatter_S100000x64_S800000x1_S800000x64_1_0_0_1
        (broadcastInDim S100000x64 ![] bcast_S_S100000x64 (constant (F := Ideal) S_ .f32 0x00000000#32)) dst
        (Host.gather gather_S100000x64_S800000x1_S800000x64_1_0_n_n_0_1_164 X src) (ix2 r c)
      = ∑ p ∈ landing dst r, X (ix2 (clampRow 100000 NN_pos src p) c) := by
  refine (host_rows_apply scatter_S100000x64_S800000x1_S800000x64_1_0_0_1 scatter_S100000x64_S800000x1_S800000x64_1_0_0_1_wf rfl
    _ zerosFeat_eq dst _ r c).trans (Finset.sum_congr rfl fun p _ => ?_)
  exact gather_rows_apply NN_pos gather_S100000x64_S800000x1_S800000x64_1_0_n_n_0_1_164_wf X src (ix2 p c)

/-- The ones added at the destinations: at row r as many ones as edges land on r. -/
theorem count_apply (dst : IVec ⟨2, ![800000, 1]⟩ 32) (r : Fin 100000) :
    Host.scatterAdd (F := Ideal) scatter_S100000x1_S800000x1_S800000x1_1_0_0_1
        (broadcastInDim S100000x1 ![] bcast_S_S100000x1 (constant (F := Ideal) S_ .f32 0x00000000#32)) dst
        (broadcastInDim S800000x1 ![] bcast_S_S800000x1 (constant (F := Ideal) S_ .f32 0x3F800000#32)) (ix2 r (0 : Fin 1))
      = ∑ _p ∈ landing dst r, one := by
  refine (host_rows_apply scatter_S100000x1_S800000x1_S800000x1_1_0_0_1 scatter_S100000x1_S800000x1_S800000x1_1_0_0_1_wf rfl
    _ zerosCol_eq dst _ r (0 : Fin 1)).trans (Finset.sum_congr rfl fun p _ => ?_)
  rw [bcast_scalar_apply, constant_apply]

/-- The quotient the program forms at (r, c): the sum of the gathered rows over the floored count. -/
theorem meanOp_unfold (X : Feat) (e : Edges) (r : Fin 100000) (c : Fin 64) :
    meanOp X e (ix2 r c)
      = Ideal.div (∑ p ∈ landing (dstCol e : IVec ⟨2, ![800000, 1]⟩ 32) r, X (ix2 (clampRow 100000 NN_pos (srcCol e : IVec ⟨2, ![800000, 1]⟩ 32) p) c))
          (max (∑ _p ∈ landing (dstCol e : IVec ⟨2, ![800000, 1]⟩ 32) r, one) one) := by
  unfold meanOp
  rw [hdivf_apply, bcast_rows_apply, maximumf_apply, bcast_scalar_apply, constant_apply, sumRows_apply, count_apply]

theorem meanOp_apply (X : Feat) (e : Edges) (r : Fin 100000) (c : Fin 64) :
    meanOp X e (ix2 r c) = aggMean (fun r c => X (ix2 r c)) (srcOf e) (dstOf e) r c := by
  rw [meanOp_unfold, srcCol_eq, dstCol_eq]
  unfold aggMean
  exact rfl

end Cert.Sage.Ref

end
-- ==== Proof.RefLayer.lean ====
/-
  One layer of the reference program is the specification's layer.

  Read at (r, j), the program's layer is the row normalisation of the cut at zero of the two projections plus the
  bias, the first projection taken of the mean of the neighbours' rows: term by term the specification's layer on
  the same arrays read at their coordinates.
-/
import proofs.«144736_j57801669869916_1_alg».proof.Proof.RefMean
import Idealize.ShloMosaic.Lib.Pipeline.Value
import Idealize.ShloMosaic.Lib.ValueIdx
import Idealize.ShloMosaic.PureOps.Ideal.Laws

noncomputable section

namespace Cert.Sage.Ref

open Cert.ReferenceIdeal Cert.ReferenceIdeal.Gen Idealize.ShloMosaic Idealize.ShloMosaic.TcCoe Idealize.SL.Sem
  Idealize.ShloMosaic.StableHlo Idealize.ShloMosaic.ValueIdx Cert.ScatterGather Cert.GraphMean

section Members
variable {α : Type}

/-- Member `k` of a stack of three matrices, sliced out and reshaped, reads the stack at (k, c, j). -/
theorem member_mat_apply (k : Fin 3) (h : S3x64x64.Slices ![k.val, 0, 0] S1x64x64) (x : S3x64x64.Idx → α) (c j : Fin 64) :
    shapeCast S64x64 (extractStridedSlice S1x64x64 ![k.val, 0, 0] x h) shapeCasts_S1x64x64_S64x64 (ix2 c j) = x (ix3 k c j) := by
  rw [shapeCast_apply _ shapeCasts_S1x64x64_S64x64 (ix2 c j) (ix3 (0 : Fin 1) c j) (by
    rw [Shape.rowMajor_val_three, Shape.rowMajor_val_two]; show (0 * 64 + c.val) * 64 + j.val = c.val * 64 + j.val; omega)]
  exact extractStridedSlice_apply ![k.val, 0, 0] x h (ix3 (0 : Fin 1) c j) (ix3 k c j) (fun a => match a with
    | ⟨0, _⟩ => by show k.val = k.val + 0; omega
    | ⟨1, _⟩ => by show c.val = 0 + c.val; omega
    | ⟨2, _⟩ => by show j.val = 0 + j.val; omega)

/-- Member `k` of a stack of three rows, sliced out and reshaped, reads the stack at (k, j). -/
theorem member_row_apply (k : Fin 3) (h : S3x64.Slices ![k.val, 0] S1x64) (x : S3x64.Idx → α) (j : Fin 64) :
    shapeCast S64 (extractStridedSlice S1x64 ![k.val, 0] x h) shapeCasts_S1x64_S64 (ix1 j) = x (ix2 k j) := by
  rw [shapeCast_apply _ shapeCasts_S1x64_S64 (ix1 j) (ix2 (0 : Fin 1) j) (by
    rw [Shape.rowMajor_val_two, Shape.rowMajor_val_one]; show 0 * 64 + j.val = j.val; omega)]
  exact extractStridedSlice_apply ![k.val, 0] x h (ix2 (0 : Fin 1) j) (ix2 k j) (fun a => match a with
    | ⟨0, _⟩ => by show k.val = k.val + 0; omega
    | ⟨1, _⟩ => by show j.val = 0 + j.val; omega)

end Members

/-- THE LAYER: the program's layer on `X` with weights `W`, `b`, `V` is the specification's layer on the same arrays. -/
theorem layerOp_apply (X : Feat) (e : Edges) (W : Mat) (b : Row) (V : Mat) (r : Fin 100000) (j : Fin 64) :
    layerOp X e W b V (ix2 r j)
      = layer (fun r c => X (ix2 r c)) (srcOf e) (dstOf e) (fun c j => W (ix2 c j)) (fun c j => V (ix2 c j))
          (fun j => b (ix1 j)) r j := by
  unfold layerOp layer sageRow
  rw [normOp_apply]
  refine congrFun (congrArg rowNorm (funext fun c => ?_)) j
  rw [reluOp_apply, linOp_apply]
  simp only [meanOp_apply]

/-- The specification's layer for node type `k`, as a map of feature arrays. -/
def specLayer (k : Fin 3) (e : Edges) (x6 : (⟨S3x64x64, .f32⟩ : BufTy).Contents (Elt Ideal))
    (x7 : (⟨S3x64, .f32⟩ : BufTy).Contents (Elt Ideal)) (x8 : (⟨S3x64x64, .f32⟩ : BufTy).Contents (Elt Ideal))
    (X : Fin NN → Fin 64 → EReal) : Fin NN → Fin 64 → EReal :=
  layer X (srcOf e) (dstOf e) (fun c j => x6 (ix3 k c j)) (fun c j => x8 (ix3 k c j)) (fun j => x7 (ix2 k j))

/-- The program's layer for node type `k`, as a map of feature arrays, is the specification's. -/
theorem typeLayer_fun (k : Fin 3) (h6 : S3x64x64.Slices ![k.val, 0, 0] S1x64x64) (h7 : S3x64.Slices ![k.val, 0] S1x64)
    (X : Feat) (e : Edges) (x6 : (⟨S3x64x64, .f32⟩ : BufTy).Contents (Elt Ideal))
    (x7 : (⟨S3x64, .f32⟩ : BufTy).Contents (Elt Ideal)) (x8 : (⟨S3x64x64, .f32⟩ : BufTy).Contents (Elt Ideal)) :
    (fun r c => typeLayer k h6 h7 X e x6 x7 x8 (ix2 r c)) = specLayer k e x6 x7 x8 (fun r c => X (ix2 r c)) := by
  funext r j
  unfold typeLayer specLayer
  rw [layerOp_apply]
  unfold matOf rowOf
  simp only [member_mat_apply, member_row_apply]

/-- The program's first normalisation, as a map of feature arrays, is the specification's. -/
theorem normOp_fun (x : Feat) : (fun r c => normOp x (ix2 r c)) = init (fun r c => x (ix2 r c)) := by
  funext r j
  exact normOp_apply x r j

end Cert.Sage.Ref

end
-- ==== Proof.RefRun.lean ====
/-
  The reference program computes the specification.

  Every weakly fair execution of it, from any memory with zero counters, terminates with each of its three results at
  the specification's features of that node type (the first normalisation and three layers of the launch contents of
  that type's inputs, edges and members of the stacked weights) and with the nine arguments as launched.
-/
import proofs.«144736_j57801669869916_1_alg».proof.Proof.RefRun0
import proofs.«144736_j57801669869916_1_alg».proof.Proof.RefChain
import proofs.«144736_j57801669869916_1_alg».proof.Proof.RefLayer
import Idealize.ShloMosaic.Lib.StableHlo.Run

noncomputable section

namespace Cert.Sage.Ref

open Cert.ReferenceIdeal Cert.ReferenceIdeal.Gen Idealize.ShloMosaic Idealize.ShloMosaic.TcCoe Idealize.SL.Sem
  Idealize.ShloMosaic.StableHlo Idealize.ShloMosaic.ValueIdx Cert.ScatterGather Cert.GraphMean

/-- Three of the program's layers on the program's first normalisation are, read at (r, j), the specification. -/
theorem spec3 (k : Fin 3) (h6 : S3x64x64.Slices ![k.val, 0, 0] S1x64x64) (h7 : S3x64.Slices ![k.val, 0] S1x64)
    (x : Feat) (e : Edges) (x6 : (⟨S3x64x64, .f32⟩ : BufTy).Contents (Elt Ideal)) (x7 : (⟨S3x64, .f32⟩ : BufTy).Contents (Elt Ideal)) (x8 : (⟨S3x64x64, .f32⟩ : BufTy).Contents (Elt Ideal)) (r : Fin 100000) (j : Fin 64) :
    typeLayer k h6 h7 (typeLayer k h6 h7 (typeLayer k h6 h7 (normOp x) e x6 x7 x8) e x6 x7 x8) e x6 x7 x8 (ix2 r j)
      = final k x e x6 x7 x8 r j :=
  congrFun (congrFun ((typeLayer_fun k h6 h7 _ e x6 x7 x8).trans (congrArg (specLayer k e x6 x7 x8)
    ((typeLayer_fun k h6 h7 _ e x6 x7 x8).trans (congrArg (specLayer k e x6 x7 x8)
      ((typeLayer_fun k h6 h7 _ e x6 x7 x8).trans (congrArg (specLayer k e x6 x7 x8) (normOp_fun x))))))) r) j

/-- Node type 0's result buffer after the whole program, from any contents. -/
theorem result_fn0 (V : Valuation τ sig (Elt Ideal)) :
    after (ops (F := Ideal)) V (Proc.devRef .tc main_v324)
      = fun i => final 0 (V (Proc.devRef .tc main_arg0)) (V (Proc.devRef .tc main_arg3)) (V (Proc.devRef .tc main_arg6)) (V (Proc.devRef .tc main_arg7))
          (V (Proc.devRef .tc main_arg8)) (i 0) (i 1) := by
  rw [result0]
  exact funext fun i => (congrArg _ (eq_ix2 i)).trans (spec3 0 slices_S3x64x64_S1x64x64_0_0_0 slices_S3x64_S1x64_0_0 _ _ _ _ _ (i 0) (i 1))

/-- Node type 1's result buffer after the whole program, from any contents. -/
theorem result_fn1 (V : Valuation τ sig (Elt Ideal)) :
    after (ops (F := Ideal)) V (Proc.devRef .tc main_v367)
      = fun i => final 1 (V (Proc.devRef .tc main_arg1)) (V (Proc.devRef .tc main_arg4)) (V (Proc.devRef .tc main_arg6)) (V (Proc.devRef .tc main_arg7))
          (V (Proc.devRef .tc main_arg8)) (i 0) (i 1) := by
  rw [result1]
  exact funext fun i => (congrArg _ (eq_ix2 i)).trans (spec3 1 slices_S3x64x64_S1x64x64_1_0_0 slices_S3x64_S1x64_1_0 _ _ _ _ _ (i 0) (i 1))

/-- Node type 2's result buffer after the whole program, from any contents. -/
theorem result_fn2 (V : Valuation τ sig (Elt Ideal)) :
    after (ops (F := Ideal)) V (Proc.devRef .tc main_v410)
      = fun i => final 2 (V (Proc.devRef .tc main_arg2)) (V (Proc.devRef .tc main_arg5)) (V (Proc.devRef .tc main_arg6)) (V (Proc.devRef .tc main_arg7))
          (V (Proc.devRef .tc main_arg8)) (i 0) (i 1) := by
  rw [result2]
  exact funext fun i => (congrArg _ (eq_ix2 i)).trans (spec3 2 slices_S3x64x64_S1x64x64_2_0_0 slices_S3x64_S1x64_2_0 _ _ _ _ _ (i 0) (i 1))

/-- On every device, from any memory with zero counters: every weakly fair execution of the reference program terminates
    with its three results at the specification and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v324) = (fun i => final 0 (m ((c.tc : Thread nD τ).loc main_arg0)) (m ((c.tc : Thread nD τ).loc main_arg3)) (m ((c.tc : Thread nD τ).loc main_arg6)) (m ((c.tc : Thread nD τ).loc main_arg7)) (m ((c.tc : Thread nD τ).loc main_arg8)) (i 0) (i 1))
      ∧ r.2.mem ((c.tc : Thread nD τ).loc main_v367) = (fun i => final 1 (m ((c.tc : Thread nD τ).loc main_arg1)) (m ((c.tc : Thread nD τ).loc main_arg4)) (m ((c.tc : Thread nD τ).loc main_arg6)) (m ((c.tc : Thread nD τ).loc main_arg7)) (m ((c.tc : Thread nD τ).loc main_arg8)) (i 0) (i 1))
      ∧ r.2.mem ((c.tc : Thread nD τ).loc main_v410) = (fun i => final 2 (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨(h c main_v324).trans (result_fn0 (launchContents m c)),
      (h c main_v367).trans (result_fn1 (launchContents m c)),
      (h c main_v410).trans (result_fn2 (launchContents m c)),
      (h c main_arg0).trans (keep_ops_arg0 (launchContents m c)),
      (h c main_arg1).trans (keep_ops_arg1 (launchContents m c)),
      (h c main_arg2).trans (keep_ops_arg2 (launchContents m c)),
      (h c main_arg3).trans (keep_ops_arg3 (launchContents m c)),
      (h c main_arg4).trans (keep_ops_arg4 (launchContents m c)),
      (h c main_arg5).trans (keep_ops_arg5 (launchContents m c)),
      (h c main_arg6).trans (keep_ops_arg6 (launchContents m c)),
      (h c main_arg7).trans (keep_ops_arg7 (launchContents m c)),
      (h c main_arg8).trans (keep_ops_arg8 (launchContents m c))⟩) (run0 m ρ)

end Cert.Sage.Ref

end
-- ==== Proof.lean ====
/-
  The five claims of this certificate.

  The kernel program normalises the rows of three node-feature arrays and then applies, three times, one graph
  layer per node type: the mean of the neighbours' rows along the type's edges (computed by host gather /
  scatter-add operations) and the node's own row go through two weight matrices, a bias is added, negatives are
  cut to zero and the row is normalised again; the dense part runs in kernel regions over stacked arrays, tile by
  tile. The reference does the same with host operations only, one type at a time.

  * Each program's run: the kernel programs' as a chain of host stretches and kernel regions (at the bit-level
    instance and at the exact one, by the same proof), the reference's as its generated run. Each leaves its
    argument arrays as launched.
  * Nothing was rewritten between the kernel program and its exact reading, so that claim is trivial.
  * At the exact instance both programs' results are, index by index, the specification's `final` of the
    argument arrays: sums over a row or over the edges landing on a node are the same sums however they are tiled
    or ordered, and every other operation is applied to the same operands in the same arrangement.
-/
import proofs.«144736_j57801669869916_1_alg».proof.Defs
import proofs.«144736_j57801669869916_1_alg».proof.Proof.Gen.Kernel
import proofs.«144736_j57801669869916_1_alg».proof.Proof.Gen.KernelIdeal
import proofs.«144736_j57801669869916_1_alg».proof.Proof.Gen.ReferenceIdeal
import proofs.«144736_j57801669869916_1_alg».proof.Proof.Gen.Pre_finite_inputs
import proofs.«144736_j57801669869916_1_alg».proof.Proof.BArgs
import proofs.«144736_j57801669869916_1_alg».proof.Proof.KArgs
import proofs.«144736_j57801669869916_1_alg».proof.Proof.KValue
import proofs.«144736_j57801669869916_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Run.frame m ρ

theorem frame_ki : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2.2.2) (Cert.Sage.Ref.run m ρ)

/-- Both programs end with the specification's `final` of the (agreeing) argument arrays in each result. -/
theorem algebraic : Cert.algebraic_KernelIdeal_ReferenceIdeal := by
  intro m ρ m' ρ' _ hagree
  refine ⟨fun c => Cert.KernelIdeal.Run.W9 (F := Ideal) m ρ c (Proc.devRef .tc Cert.KernelIdeal.main_v181),
    fun c => Cert.KernelIdeal.Run.W9 (F := Ideal) m ρ c (Proc.devRef .tc Cert.KernelIdeal.main_v183),
    fun c => Cert.KernelIdeal.Run.W9 (F := Ideal) m ρ c (Proc.devRef .tc Cert.KernelIdeal.main_v185), ?_, ?_⟩
  · refine (θ_run Cert.KernelIdeal.defs _ _).mono (fun r h c => ⟨h c _ (Cert.KernelIdeal.Run.mem_uc Cert.KernelIdeal.main_v181 (by decide)),
      h c _ (Cert.KernelIdeal.Run.mem_uc Cert.KernelIdeal.main_v183 (by decide)),
      h c _ (Cert.KernelIdeal.Run.mem_uc Cert.KernelIdeal.main_v185 (by decide)),
      (h c _ (Cert.KernelIdeal.Run.mem_uc Cert.KernelIdeal.main_arg0 (by decide))).trans (Cert.KernelIdeal.Run.W9_arg0 m ρ c),
      (h c _ (Cert.KernelIdeal.Run.mem_uc Cert.KernelIdeal.main_arg1 (by decide))).trans (Cert.KernelIdeal.Run.W9_arg1 m ρ c),
      (h c _ (Cert.KernelIdeal.Run.mem_uc Cert.KernelIdeal.main_arg2 (by decide))).trans (Cert.KernelIdeal.Run.W9_arg2 m ρ c),
      (h c _ (Cert.KernelIdeal.Run.mem_uc Cert.KernelIdeal.main_arg3 (by decide))).trans (Cert.KernelIdeal.Run.W9_arg3 m ρ c),
      (h c _ (Cert.KernelIdeal.Run.mem_uc Cert.KernelIdeal.main_arg4 (by decide))).trans (Cert.KernelIdeal.Run.W9_arg4 m ρ c),
      (h c _ (Cert.KernelIdeal.Run.mem_uc Cert.KernelIdeal.main_arg5 (by decide))).trans (Cert.KernelIdeal.Run.W9_arg5 m ρ c),
      (h c _ (Cert.KernelIdeal.Run.mem_uc Cert.KernelIdeal.main_arg6 (by decide))).trans (Cert.KernelIdeal.Run.W9_arg6 m ρ c),
      (h c _ (Cert.KernelIdeal.Run.mem_uc Cert.KernelIdeal.main_arg7 (by decide))).trans (Cert.KernelIdeal.Run.W9_arg7 m ρ c),
      (h c _ (Cert.KernelIdeal.Run.mem_uc Cert.KernelIdeal.main_arg8 (by decide))).trans (Cert.KernelIdeal.Run.W9_arg8 m ρ c)⟩)
      (Cert.KernelIdeal.Run.run_main (F := Ideal) m ρ)
  · refine (θ_run Cert.ReferenceIdeal.defs _ _).mono (fun _ h c => ⟨(h c).1.trans ?_, (h c).2.1.trans ?_, (h c).2.2.1.trans ?_, (h c).2.2.2⟩)
      (Cert.Sage.Ref.run m' ρ')
    · exact ((Cert.Sage.KValue.out0 m ρ c).trans (by rw [(hagree c).1, (hagree c).2.2.2.1, (hagree c).2.2.2.2.2.2.1, (hagree c).2.2.2.2.2.2.2.1, (hagree c).2.2.2.2.2.2.2.2]; rfl)).symm
    · exact ((Cert.Sage.KValue.out1 m ρ c).trans (by rw [(hagree c).2.1, (hagree c).2.2.2.2.1, (hagree c).2.2.2.2.2.2.1, (hagree c).2.2.2.2.2.2.2.1, (hagree c).2.2.2.2.2.2.2.2]; rfl)).symm
    · exact ((Cert.Sage.KValue.out2 m ρ c).trans (by rw [(hagree c).2.2.1, (hagree c).2.2.2.2.2.1, (hagree c).2.2.2.2.2.2.1, (hagree c).2.2.2.2.2.2.2.1, (hagree c).2.2.2.2.2.2.2.2]; rfl)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
